-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v309)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v309) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v363) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S640000 : Shape := ⟨1, ![640000]⟩
abbrev S8x128x128 : Shape := ⟨3, ![8, 128, 128]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S8x128x128 : S_.BroadcastsInDim S8x128x128 (![] : Fin 0 → Fin S8x128x128.rank)
  reducesTo_S8x128x128_S_d0_1_2 : S8x128x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S8x128x128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S8x128x128 .f32 := Host.absf main_arg6
  let main_cst_6 : FVec F S_ .f32 := constant S_ .f32 0x7F800000#32
  let main_v20 : FVec F S8x128x128 .f32 := broadcastInDim S8x128x128 ![] bcast_S_S8x128x128 main_cst_6
  let main_v21 : IVec S8x128x128 1 := cmpf .olt main_v19 main_v20
  let main_c_7 : IVec S_ 1 := constantI S_ 1 1#1
  let main_v22 : IVec S_ 1 := (fun x v => Host.reduce IntOp.andi x v reducesTo_S8x128x128_S_d0_1_2 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x640000 32) (main_arg2 : IVec S640000 32) (main_arg3 : FVec F S8x128x128 .f32) (main_arg4 : FVec F S128x128 .f32) (main_arg5 : FVec F S128 .f32) (main_arg6 : FVec F S8x128x128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S8x128x128 .f32 := Host.absf main_arg3
  let main_cst_0 : FVec F S_ .f32 := constant S_ .f32 0x7F800000#32
  let main_v5 : FVec F S8x128x128 .f32 := broadcastInDim S8x128x128 ![] bcast_S_S8x128x128 main_cst_0
  let main_v6 : IVec S8x128x128 1 := cmpf .olt main_v4 main_v5
  let main_c_1 : IVec S_ 1 := constantI S_ 1 1#1
  let main_v7 : IVec S_ 1 := (fun x v => Host.reduce IntOp.andi x v reducesTo_S8x128x128_S_d0_1_2 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S100000x128 : Shape := ⟨2, ![100000, 128]⟩
abbrev S2x640000 : Shape := ⟨2, ![2, 640000]⟩
abbrev S640000 : Shape := ⟨1, ![640000]⟩
abbrev S8x128x128 : Shape := ⟨3, ![8, 128, 128]⟩
abbrev S128x128 : Shape := ⟨2, ![128, 128]⟩
abbrev S128 : Shape := ⟨1, ![128]⟩
abbrev S1x640000 : Shape := ⟨2, ![1, 640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x100000x128 : Shape := ⟨3, ![1, 100000, 128]⟩
abbrev S8x100000x128 : Shape := ⟨3, ![8, 100000, 128]⟩
abbrev S5000x128 : Shape := ⟨2, ![5000, 128]⟩
abbrev S1x5000x128 : Shape := ⟨3, ![1, 5000, 128]⟩
abbrev S1x128x128 : Shape := ⟨3, ![1, 128, 128]⟩
abbrev S1x128 : Shape := ⟨2, ![1, 128]⟩

abbrev nBuf : Space → Nat
  | .hbm => 387
  | .vmem => 22
  | .smem => 0
  | _ => 0

abbrev hbmTy0_0 (i : Nat) : BufTy := match i % 128 with
  | 0 => ⟨S100000x128, .f32⟩
  | 1 => ⟨S2x640000, .i32⟩
  | 2 => ⟨S640000, .i32⟩
  | 3 => ⟨S8x128x128, .f32⟩
  | 4 => ⟨S128x128, .f32⟩
  | 5 => ⟨S128, .f32⟩
  | 6 => ⟨S8x128x128, .f32⟩
  | 7 => ⟨S128x128, .f32⟩
  | 8 => ⟨S128, .f32⟩
  | 9 => ⟨S1x640000, .i32⟩
  | 10 => ⟨S640000, .i32⟩
  | 11 => ⟨S1x640000, .i32⟩
  | 12 => ⟨S640000, .i32⟩
  | 13 => ⟨S_, .i32⟩
  | 14 => ⟨S640000, .i32⟩
  | 15 => ⟨S640000, .i1⟩
  | 16 => ⟨S_, .i32⟩
  | 17 => ⟨S640000, .i32⟩
  | 18 => ⟨S640000, .i32⟩
  | 19 => ⟨S640000, .i32⟩
  | 20 => ⟨S640000x1, .i32⟩
  | 21 => ⟨S640000x128, .f32⟩
  | 22 => ⟨S_, .i32⟩
  | 23 => ⟨S640000, .i32⟩
  | 24 => ⟨S640000, .i1⟩
  | 25 => ⟨S640000, .f32⟩
  | 26 => ⟨S640000x1, .f32⟩
  | 27 => ⟨S640000x128, .f32⟩
  | 28 => ⟨S640000x128, .f32⟩
  | 29 => ⟨S_, .f32⟩
  | 30 => ⟨S100000x128, .f32⟩
  | 31 => ⟨S640000x1, .i32⟩
  | 32 => ⟨S100000x128, .f32⟩
  | 33 => ⟨S_, .f32⟩
  | 34 => ⟨S100000, .f32⟩
  | 35 => ⟨S640000x1, .i32⟩
  | 36 => ⟨S100000, .f32⟩
  | 37 => ⟨S_, .f32⟩
  | 38 => ⟨S100000, .f32⟩
  | 39 => ⟨S100000, .f32⟩
  | 40 => ⟨S100000x1, .f32⟩
  | 41 => ⟨S100000x128, .f32⟩
  | 42 => ⟨S100000x128, .f32⟩
  | 43 => ⟨S_, .i32⟩
  | 44 => ⟨S640000, .i32⟩
  | 45 => ⟨S640000, .i1⟩
  | 46 => ⟨S640000, .f32⟩
  | 47 => ⟨S640000x1, .f32⟩
  | 48 => ⟨S640000x128, .f32⟩
  | 49 => ⟨S640000x128, .f32⟩
  | 50 => ⟨S_, .f32⟩
  | 51 => ⟨S100000x128, .f32⟩
  | 52 => ⟨S640000x1, .i32⟩
  | 53 => ⟨S100000x128, .f32⟩
  | 54 => ⟨S_, .f32⟩
  | 55 => ⟨S100000, .f32⟩
  | 56 => ⟨S640000x1, .i32⟩
  | 57 => ⟨S100000, .f32⟩
  | 58 => ⟨S_, .f32⟩
  | 59 => ⟨S100000, .f32⟩
  | 60 => ⟨S100000, .f32⟩
  | 61 => ⟨S100000x1, .f32⟩
  | 62 => ⟨S100000x128, .f32⟩
  | 63 => ⟨S100000x128, .f32⟩
  | 64 => ⟨S_, .i32⟩
  | 65 => ⟨S640000, .i32⟩
  | 66 => ⟨S640000, .i1⟩
  | 67 => ⟨S640000, .f32⟩
  | 68 => ⟨S640000x1, .f32⟩
  | 69 => ⟨S640000x128, .f32⟩
  | 70 => ⟨S640000x128, .f32⟩
  | 71 => ⟨S_, .f32⟩
  | 72 => ⟨S100000x128, .f32⟩
  | 73 => ⟨S640000x1, .i32⟩
  | 74 => ⟨S100000x128, .f32⟩
  | 75 => ⟨S_, .f32⟩
  | 76 => ⟨S100000, .f32⟩
  | 77 => ⟨S640000x1, .i32⟩
  | 78 => ⟨S100000, .f32⟩
  | 79 => ⟨S_, .f32⟩
  | 80 => ⟨S100000, .f32⟩
  | 81 => ⟨S100000, .f32⟩
  | 82 => ⟨S100000x1, .f32⟩
  | 83 => ⟨S100000x128, .f32⟩
  | 84 => ⟨S100000x128, .f32⟩
  | 85 => ⟨S_, .i32⟩
  | 86 => ⟨S640000, .i32⟩
  | 87 => ⟨S640000, .i1⟩
  | 88 => ⟨S640000, .f32⟩
  | 89 => ⟨S640000x1, .f32⟩
  | 90 => ⟨S640000x128, .f32⟩
  | 91 => ⟨S640000x128, .f32⟩
  | 92 => ⟨S_, .f32⟩
  | 93 => ⟨S100000x128, .f32⟩
  | 94 => ⟨S640000x1, .i32⟩
  | 95 => ⟨S100000x128, .f32⟩
  | 96 => ⟨S_, .f32⟩
  | 97 => ⟨S100000, .f32⟩
  | 98 => ⟨S640000x1, .i32⟩
  | 99 => ⟨S100000, .f32⟩
  | 100 => ⟨S_, .f32⟩
  | 101 => ⟨S100000, .f32⟩
  | 102 => ⟨S100000, .f32⟩
  | 103 => ⟨S100000x1, .f32⟩
  | 104 => ⟨S100000x128, .f32⟩
  | 105 => ⟨S100000x128, .f32⟩
  | 106 => ⟨S_, .i32⟩
  | 107 => ⟨S640000, .i32⟩
  | 108 => ⟨S640000, .i1⟩
  | 109 => ⟨S640000, .f32⟩
  | 110 => ⟨S640000x1, .f32⟩
  | 111 => ⟨S640000x128, .f32⟩
  | 112 => ⟨S640000x128, .f32⟩
  | 113 => ⟨S_, .f32⟩
  | 114 => ⟨S100000x128, .f32⟩
  | 115 => ⟨S640000x1, .i32⟩
  | 116 => ⟨S100000x128, .f32⟩
  | 117 => ⟨S_, .f32⟩
  | 118 => ⟨S100000, .f32⟩
  | 119 => ⟨S640000x1, .i32⟩
  | 120 => ⟨S100000, .f32⟩
  | 121 => ⟨S_, .f32⟩
  | 122 => ⟨S100000, .f32⟩
  | 123 => ⟨S100000, .f32⟩
  | 124 => ⟨S100000x1, .f32⟩
  | 125 => ⟨S100000x128, .f32⟩
  | 126 => ⟨S100000x128, .f32⟩
  | 127 => ⟨S_, .i32⟩
  | _ => ⟨S100000x128, .f32⟩

abbrev hbmTy0_1 (i : Nat) : BufTy := match i % 128 with
  | 0 => ⟨S640000, .i32⟩
  | 1 => ⟨S640000, .i1⟩
  | 2 => ⟨S640000, .f32⟩
  | 3 => ⟨S640000x1, .f32⟩
  | 4 => ⟨S640000x128, .f32⟩
  | 5 => ⟨S640000x128, .f32⟩
  | 6 => ⟨S_, .f32⟩
  | 7 => ⟨S100000x128, .f32⟩
  | 8 => ⟨S640000x1, .i32⟩
  | 9 => ⟨S100000x128, .f32⟩
  | 10 => ⟨S_, .f32⟩
  | 11 => ⟨S100000, .f32⟩
  | 12 => ⟨S640000x1, .i32⟩
  | 13 => ⟨S100000, .f32⟩
  | 14 => ⟨S_, .f32⟩
  | 15 => ⟨S100000, .f32⟩
  | 16 => ⟨S100000, .f32⟩
  | 17 => ⟨S100000x1, .f32⟩
  | 18 => ⟨S100000x128, .f32⟩
  | 19 => ⟨S100000x128, .f32⟩
  | 20 => ⟨S_, .i32⟩
  | 21 => ⟨S640000, .i32⟩
  | 22 => ⟨S640000, .i1⟩
  | 23 => ⟨S640000, .f32⟩
  | 24 => ⟨S640000x1, .f32⟩
  | 25 => ⟨S640000x128, .f32⟩
  | 26 => ⟨S640000x128, .f32⟩
  | 27 => ⟨S_, .f32⟩
  | 28 => ⟨S100000x128, .f32⟩
  | 29 => ⟨S640000x1, .i32⟩
  | 30 => ⟨S100000x128, .f32⟩
  | 31 => ⟨S_, .f32⟩
  | 32 => ⟨S100000, .f32⟩
  | 33 => ⟨S640000x1, .i32⟩
  | 34 => ⟨S100000, .f32⟩
  | 35 => ⟨S_, .f32⟩
  | 36 => ⟨S100000, .f32⟩
  | 37 => ⟨S100000, .f32⟩
  | 38 => ⟨S100000x1, .f32⟩
  | 39 => ⟨S100000x128, .f32⟩
  | 40 => ⟨S100000x128, .f32⟩
  | 41 => ⟨S_, .i32⟩
  | 42 => ⟨S640000, .i32⟩
  | 43 => ⟨S640000, .i1⟩
  | 44 => ⟨S640000, .f32⟩
  | 45 => ⟨S640000x1, .f32⟩
  | 46 => ⟨S640000x128, .f32⟩
  | 47 => ⟨S640000x128, .f32⟩
  | 48 => ⟨S_, .f32⟩
  | 49 => ⟨S100000x128, .f32⟩
  | 50 => ⟨S640000x1, .i32⟩
  | 51 => ⟨S100000x128, .f32⟩
  | 52 => ⟨S_, .f32⟩
  | 53 => ⟨S100000, .f32⟩
  | 54 => ⟨S640000x1, .i32⟩
  | 55 => ⟨S100000, .f32⟩
  | 56 => ⟨S_, .f32⟩
  | 57 => ⟨S100000, .f32⟩
  | 58 => ⟨S100000, .f32⟩
  | 59 => ⟨S100000x1, .f32⟩
  | 60 => ⟨S100000x128, .f32⟩
  | 61 => ⟨S100000x128, .f32⟩
  | 62 => ⟨S1x100000x128, .f32⟩
  | 63 => ⟨S1x100000x128, .f32⟩
  | 64 => ⟨S1x100000x128, .f32⟩
  | 65 => ⟨S1x100000x128, .f32⟩
  | 66 => ⟨S1x100000x128, .f32⟩
  | 67 => ⟨S1x100000x128, .f32⟩
  | 68 => ⟨S1x100000x128, .f32⟩
  | 69 => ⟨S1x100000x128, .f32⟩
  | 70 => ⟨S8x100000x128, .f32⟩
  | 71 => ⟨S100000x128, .f32⟩
  | 72 => ⟨S_, .i32⟩
  | 73 => ⟨S640000, .i32⟩
  | 74 => ⟨S640000, .i1⟩
  | 75 => ⟨S_, .i32⟩
  | 76 => ⟨S640000, .i32⟩
  | 77 => ⟨S640000, .i32⟩
  | 78 => ⟨S640000, .i32⟩
  | 79 => ⟨S640000x1, .i32⟩
  | 80 => ⟨S640000x128, .f32⟩
  | 81 => ⟨S_, .i32⟩
  | 82 => ⟨S640000, .i32⟩
  | 83 => ⟨S640000, .i1⟩
  | 84 => ⟨S640000, .f32⟩
  | 85 => ⟨S640000x1, .f32⟩
  | 86 => ⟨S640000x128, .f32⟩
  | 87 => ⟨S640000x128, .f32⟩
  | 88 => ⟨S_, .f32⟩
  | 89 => ⟨S100000x128, .f32⟩
  | 90 => ⟨S640000x1, .i32⟩
  | 91 => ⟨S100000x128, .f32⟩
  | 92 => ⟨S_, .f32⟩
  | 93 => ⟨S100000, .f32⟩
  | 94 => ⟨S640000x1, .i32⟩
  | 95 => ⟨S100000, .f32⟩
  | 96 => ⟨S_, .f32⟩
  | 97 => ⟨S100000, .f32⟩
  | 98 => ⟨S100000, .f32⟩
  | 99 => ⟨S100000x1, .f32⟩
  | 100 => ⟨S100000x128, .f32⟩
  | 101 => ⟨S100000x128, .f32⟩
  | 102 => ⟨S_, .i32⟩
  | 103 => ⟨S640000, .i32⟩
  | 104 => ⟨S640000, .i1⟩
  | 105 => ⟨S640000, .f32⟩
  | 106 => ⟨S640000x1, .f32⟩
  | 107 => ⟨S640000x128, .f32⟩
  | 108 => ⟨S640000x128, .f32⟩
  | 109 => ⟨S_, .f32⟩
  | 110 => ⟨S100000x128, .f32⟩
  | 111 => ⟨S640000x1, .i32⟩
  | 112 => ⟨S100000x128, .f32⟩
  | 113 => ⟨S_, .f32⟩
  | 114 => ⟨S100000, .f32⟩
  | 115 => ⟨S640000x1, .i32⟩
  | 116 => ⟨S100000, .f32⟩
  | 117 => ⟨S_, .f32⟩
  | 118 => ⟨S100000, .f32⟩
  | 119 => ⟨S100000, .f32⟩
  | 120 => ⟨S100000x1, .f32⟩
  | 121 => ⟨S100000x128, .f32⟩
  | 122 => ⟨S100000x128, .f32⟩
  | 123 => ⟨S_, .i32⟩
  | 124 => ⟨S640000, .i32⟩
  | 125 => ⟨S640000, .i1⟩
  | 126 => ⟨S640000, .f32⟩
  | 127 => ⟨S640000x1, .f32⟩
  | _ => ⟨S100000x128, .f32⟩

abbrev hbmTy0_2 (i : Nat) : BufTy := match i % 128 with
  | 0 => ⟨S640000x128, .f32⟩
  | 1 => ⟨S640000x128, .f32⟩
  | 2 => ⟨S_, .f32⟩
  | 3 => ⟨S100000x128, .f32⟩
  | 4 => ⟨S640000x1, .i32⟩
  | 5 => ⟨S100000x128, .f32⟩
  | 6 => ⟨S_, .f32⟩
  | 7 => ⟨S100000, .f32⟩
  | 8 => ⟨S640000x1, .i32⟩
  | 9 => ⟨S100000, .f32⟩
  | 10 => ⟨S_, .f32⟩
  | 11 => ⟨S100000, .f32⟩
  | 12 => ⟨S100000, .f32⟩
  | 13 => ⟨S100000x1, .f32⟩
  | 14 => ⟨S100000x128, .f32⟩
  | 15 => ⟨S100000x128, .f32⟩
  | 16 => ⟨S_, .i32⟩
  | 17 => ⟨S640000, .i32⟩
  | 18 => ⟨S640000, .i1⟩
  | 19 => ⟨S640000, .f32⟩
  | 20 => ⟨S640000x1, .f32⟩
  | 21 => ⟨S640000x128, .f32⟩
  | 22 => ⟨S640000x128, .f32⟩
  | 23 => ⟨S_, .f32⟩
  | 24 => ⟨S100000x128, .f32⟩
  | 25 => ⟨S640000x1, .i32⟩
  | 26 => ⟨S100000x128, .f32⟩
  | 27 => ⟨S_, .f32⟩
  | 28 => ⟨S100000, .f32⟩
  | 29 => ⟨S640000x1, .i32⟩
  | 30 => ⟨S100000, .f32⟩
  | 31 => ⟨S_, .f32⟩
  | 32 => ⟨S100000, .f32⟩
  | 33 => ⟨S100000, .f32⟩
  | 34 => ⟨S100000x1, .f32⟩
  | 35 => ⟨S100000x128, .f32⟩
  | 36 => ⟨S100000x128, .f32⟩
  | 37 => ⟨S_, .i32⟩
  | 38 => ⟨S640000, .i32⟩
  | 39 => ⟨S640000, .i1⟩
  | 40 => ⟨S640000, .f32⟩
  | 41 => ⟨S640000x1, .f32⟩
  | 42 => ⟨S640000x128, .f32⟩
  | 43 => ⟨S640000x128, .f32⟩
  | 44 => ⟨S_, .f32⟩
  | 45 => ⟨S100000x128, .f32⟩
  | 46 => ⟨S640000x1, .i32⟩
  | 47 => ⟨S100000x128, .f32⟩
  | 48 => ⟨S_, .f32⟩
  | 49 => ⟨S100000, .f32⟩
  | 50 => ⟨S640000x1, .i32⟩
  | 51 => ⟨S100000, .f32⟩
  | 52 => ⟨S_, .f32⟩
  | 53 => ⟨S100000, .f32⟩
  | 54 => ⟨S100000, .f32⟩
  | 55 => ⟨S100000x1, .f32⟩
  | 56 => ⟨S100000x128, .f32⟩
  | 57 => ⟨S100000x128, .f32⟩
  | 58 => ⟨S_, .i32⟩
  | 59 => ⟨S640000, .i32⟩
  | 60 => ⟨S640000, .i1⟩
  | 61 => ⟨S640000, .f32⟩
  | 62 => ⟨S640000x1, .f32⟩
  | 63 => ⟨S640000x128, .f32⟩
  | 64 => ⟨S640000x128, .f32⟩
  | 65 => ⟨S_, .f32⟩
  | 66 => ⟨S100000x128, .f32⟩
  | 67 => ⟨S640000x1, .i32⟩
  | 68 => ⟨S100000x128, .f32⟩
  | 69 => ⟨S_, .f32⟩
  | 70 => ⟨S100000, .f32⟩
  | 71 => ⟨S640000x1, .i32⟩
  | 72 => ⟨S100000, .f32⟩
  | 73 => ⟨S_, .f32⟩
  | 74 => ⟨S100000, .f32⟩
  | 75 => ⟨S100000, .f32⟩
  | 76 => ⟨S100000x1, .f32⟩
  | 77 => ⟨S100000x128, .f32⟩
  | 78 => ⟨S100000x128, .f32⟩
  | 79 => ⟨S_, .i32⟩
  | 80 => ⟨S640000, .i32⟩
  | 81 => ⟨S640000, .i1⟩
  | 82 => ⟨S640000, .f32⟩
  | 83 => ⟨S640000x1, .f32⟩
  | 84 => ⟨S640000x128, .f32⟩
  | 85 => ⟨S640000x128, .f32⟩
  | 86 => ⟨S_, .f32⟩
  | 87 => ⟨S100000x128, .f32⟩
  | 88 => ⟨S640000x1, .i32⟩
  | 89 => ⟨S100000x128, .f32⟩
  | 90 => ⟨S_, .f32⟩
  | 91 => ⟨S100000, .f32⟩
  | 92 => ⟨S640000x1, .i32⟩
  | 93 => ⟨S100000, .f32⟩
  | 94 => ⟨S_, .f32⟩
  | 95 => ⟨S100000, .f32⟩
  | 96 => ⟨S100000, .f32⟩
  | 97 => ⟨S100000x1, .f32⟩
  | 98 => ⟨S100000x128, .f32⟩
  | 99 => ⟨S100000x128, .f32⟩
  | 100 => ⟨S_, .i32⟩
  | 101 => ⟨S640000, .i32⟩
  | 102 => ⟨S640000, .i1⟩
  | 103 => ⟨S640000, .f32⟩
  | 104 => ⟨S640000x1, .f32⟩
  | 105 => ⟨S640000x128, .f32⟩
  | 106 => ⟨S640000x128, .f32⟩
  | 107 => ⟨S_, .f32⟩
  | 108 => ⟨S100000x128, .f32⟩
  | 109 => ⟨S640000x1, .i32⟩
  | 110 => ⟨S100000x128, .f32⟩
  | 111 => ⟨S_, .f32⟩
  | 112 => ⟨S100000, .f32⟩
  | 113 => ⟨S640000x1, .i32⟩
  | 114 => ⟨S100000, .f32⟩
  | 115 => ⟨S_, .f32⟩
  | 116 => ⟨S100000, .f32⟩
  | 117 => ⟨S100000, .f32⟩
  | 118 => ⟨S100000x1, .f32⟩
  | 119 => ⟨S100000x128, .f32⟩
  | 120 => ⟨S100000x128, .f32⟩
  | 121 => ⟨S1x100000x128, .f32⟩
  | 122 => ⟨S1x100000x128, .f32⟩
  | 123 => ⟨S1x100000x128, .f32⟩
  | 124 => ⟨S1x100000x128, .f32⟩
  | 125 => ⟨S1x100000x128, .f32⟩
  | 126 => ⟨S1x100000x128, .f32⟩
  | 127 => ⟨S1x100000x128, .f32⟩
  | _ => ⟨S100000x128, .f32⟩

abbrev hbmTy0_3 (i : Nat) : BufTy := match i % 128 with
  | 0 => ⟨S1x100000x128, .f32⟩
  | 1 => ⟨S8x100000x128, .f32⟩
  | 2 => ⟨S100000x128, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S1x5000x128, .f32⟩
  | .local _ .vmem, ⟨3, _⟩ => ⟨S1x5000x128, .f32⟩
  | .local _ .vmem, ⟨4, _⟩ => ⟨S1x128x128, .f32⟩
  | .local _ .vmem, ⟨5, _⟩ => ⟨S1x128x128, .f32⟩
  | .local _ .vmem, ⟨6, _⟩ => ⟨S128x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x5000x128, .f32⟩
  | .local _ .vmem, ⟨14, _⟩ => ⟨S1x5000x128, .f32⟩
  | .local _ .vmem, ⟨15, _⟩ => ⟨S1x128x128, .f32⟩
  | .local _ .vmem, ⟨16, _⟩ => ⟨S1x128x128, .f32⟩
  | .local _ .vmem, ⟨17, _⟩ => ⟨S128x128, .f32⟩
  | .local _ .vmem, ⟨18, _⟩ => ⟨S128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_12 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_13 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_14 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_15 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_c_16 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_17 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_18 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_19 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_c_20 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_cst_21 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_cst_22 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_cst_23 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_c_24 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_cst_25 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_cst_26 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_cst_27 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_c_28 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_cst_29 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_cst_30 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_cst_31 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_c_32 : Ref sig .tc := ⟨.hbm, 200, rfl⟩
abbrev main_v157 : Ref sig .tc := ⟨.hbm, 201, rfl⟩
abbrev main_v158 : Ref sig .tc := ⟨.hbm, 202, rfl⟩
abbrev main_c_33 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_c_34 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_cst_35 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_cst_36 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_cst_37 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_c_38 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_cst_39 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_cst_40 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_cst_41 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_c_42 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_cst_43 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_cst_44 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_cst_45 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_c_46 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_cst_47 : Ref sig .tc := ⟨.hbm, 279, rfl⟩
abbrev main_v221 : Ref sig .tc := ⟨.hbm, 280, rfl⟩
abbrev main_v222 : Ref sig .tc := ⟨.hbm, 281, rfl⟩
abbrev main_v223 : Ref sig .tc := ⟨.hbm, 282, rfl⟩
abbrev main_cst_48 : Ref sig .tc := ⟨.hbm, 283, rfl⟩
abbrev main_v224 : Ref sig .tc := ⟨.hbm, 284, rfl⟩
abbrev main_v225 : Ref sig .tc := ⟨.hbm, 285, rfl⟩
abbrev main_v226 : Ref sig .tc := ⟨.hbm, 286, rfl⟩
abbrev main_cst_49 : Ref sig .tc := ⟨.hbm, 287, rfl⟩
abbrev main_v227 : Ref sig .tc := ⟨.hbm, 288, rfl⟩
abbrev main_v228 : Ref sig .tc := ⟨.hbm, 289, rfl⟩
abbrev main_v229 : Ref sig .tc := ⟨.hbm, 290, rfl⟩
abbrev main_v230 : Ref sig .tc := ⟨.hbm, 291, rfl⟩
abbrev main_v231 : Ref sig .tc := ⟨.hbm, 292, rfl⟩
abbrev main_c_50 : Ref sig .tc := ⟨.hbm, 293, rfl⟩
abbrev main_v232 : Ref sig .tc := ⟨.hbm, 294, rfl⟩
abbrev main_v233 : Ref sig .tc := ⟨.hbm, 295, rfl⟩
abbrev main_v234 : Ref sig .tc := ⟨.hbm, 296, rfl⟩
abbrev main_v235 : Ref sig .tc := ⟨.hbm, 297, rfl⟩
abbrev main_v236 : Ref sig .tc := ⟨.hbm, 298, rfl⟩
abbrev main_v237 : Ref sig .tc := ⟨.hbm, 299, rfl⟩
abbrev main_cst_51 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_cst_52 : Ref sig .tc := ⟨.hbm, 304, rfl⟩
abbrev main_v241 : Ref sig .tc := ⟨.hbm, 305, rfl⟩
abbrev main_v242 : Ref sig .tc := ⟨.hbm, 306, rfl⟩
abbrev main_v243 : Ref sig .tc := ⟨.hbm, 307, rfl⟩
abbrev main_cst_53 : Ref sig .tc := ⟨.hbm, 308, rfl⟩
abbrev main_v244 : Ref sig .tc := ⟨.hbm, 309, rfl⟩
abbrev main_v245 : Ref sig .tc := ⟨.hbm, 310, rfl⟩
abbrev main_v246 : Ref sig .tc := ⟨.hbm, 311, rfl⟩
abbrev main_v247 : Ref sig .tc := ⟨.hbm, 312, rfl⟩
abbrev main_v248 : Ref sig .tc := ⟨.hbm, 313, rfl⟩
abbrev main_c_54 : Ref sig .tc := ⟨.hbm, 314, rfl⟩
abbrev main_v249 : Ref sig .tc := ⟨.hbm, 315, rfl⟩
abbrev main_v250 : Ref sig .tc := ⟨.hbm, 316, rfl⟩
abbrev main_v251 : Ref sig .tc := ⟨.hbm, 317, rfl⟩
abbrev main_v252 : Ref sig .tc := ⟨.hbm, 318, rfl⟩
abbrev main_v253 : Ref sig .tc := ⟨.hbm, 319, rfl⟩
abbrev main_v254 : Ref sig .tc := ⟨.hbm, 320, rfl⟩
abbrev main_cst_55 : Ref sig .tc := ⟨.hbm, 321, rfl⟩
abbrev main_v255 : Ref sig .tc := ⟨.hbm, 322, rfl⟩
abbrev main_v256 : Ref sig .tc := ⟨.hbm, 323, rfl⟩
abbrev main_v257 : Ref sig .tc := ⟨.hbm, 324, rfl⟩
abbrev main_cst_56 : Ref sig .tc := ⟨.hbm, 325, rfl⟩
abbrev main_v258 : Ref sig .tc := ⟨.hbm, 326, rfl⟩
abbrev main_v259 : Ref sig .tc := ⟨.hbm, 327, rfl⟩
abbrev main_v260 : Ref sig .tc := ⟨.hbm, 328, rfl⟩
abbrev main_cst_57 : Ref sig .tc := ⟨.hbm, 329, rfl⟩
abbrev main_v261 : Ref sig .tc := ⟨.hbm, 330, rfl⟩
abbrev main_v262 : Ref sig .tc := ⟨.hbm, 331, rfl⟩
abbrev main_v263 : Ref sig .tc := ⟨.hbm, 332, rfl⟩
abbrev main_v264 : Ref sig .tc := ⟨.hbm, 333, rfl⟩
abbrev main_v265 : Ref sig .tc := ⟨.hbm, 334, rfl⟩
abbrev main_c_58 : Ref sig .tc := ⟨.hbm, 335, rfl⟩
abbrev main_v266 : Ref sig .tc := ⟨.hbm, 336, rfl⟩
abbrev main_v267 : Ref sig .tc := ⟨.hbm, 337, rfl⟩
abbrev main_v268 : Ref sig .tc := ⟨.hbm, 338, rfl⟩
abbrev main_v269 : Ref sig .tc := ⟨.hbm, 339, rfl⟩
abbrev main_v270 : Ref sig .tc := ⟨.hbm, 340, rfl⟩
abbrev main_v271 : Ref sig .tc := ⟨.hbm, 341, rfl⟩
abbrev main_cst_59 : Ref sig .tc := ⟨.hbm, 342, rfl⟩
abbrev main_v272 : Ref sig .tc := ⟨.hbm, 343, rfl⟩
abbrev main_v273 : Ref sig .tc := ⟨.hbm, 344, rfl⟩
abbrev main_v274 : Ref sig .tc := ⟨.hbm, 345, rfl⟩
abbrev main_cst_60 : Ref sig .tc := ⟨.hbm, 346, rfl⟩
abbrev main_v275 : Ref sig .tc := ⟨.hbm, 347, rfl⟩
abbrev main_v276 : Ref sig .tc := ⟨.hbm, 348, rfl⟩
abbrev main_v277 : Ref sig .tc := ⟨.hbm, 349, rfl⟩
abbrev main_cst_61 : Ref sig .tc := ⟨.hbm, 350, rfl⟩
abbrev main_v278 : Ref sig .tc := ⟨.hbm, 351, rfl⟩
abbrev main_v279 : Ref sig .tc := ⟨.hbm, 352, rfl⟩
abbrev main_v280 : Ref sig .tc := ⟨.hbm, 353, rfl⟩
abbrev main_v281 : Ref sig .tc := ⟨.hbm, 354, rfl⟩
abbrev main_v282 : Ref sig .tc := ⟨.hbm, 355, rfl⟩
abbrev main_c_62 : Ref sig .tc := ⟨.hbm, 356, rfl⟩
abbrev main_v283 : Ref sig .tc := ⟨.hbm, 357, rfl⟩
abbrev main_v284 : Ref sig .tc := ⟨.hbm, 358, rfl⟩
abbrev main_v285 : Ref sig .tc := ⟨.hbm, 359, rfl⟩
abbrev main_v286 : Ref sig .tc := ⟨.hbm, 360, rfl⟩
abbrev main_v287 : Ref sig .tc := ⟨.hbm, 361, rfl⟩
abbrev main_v288 : Ref sig .tc := ⟨.hbm, 362, rfl⟩
abbrev main_cst_63 : Ref sig .tc := ⟨.hbm, 363, rfl⟩
abbrev main_v289 : Ref sig .tc := ⟨.hbm, 364, rfl⟩
abbrev main_v290 : Ref sig .tc := ⟨.hbm, 365, rfl⟩
abbrev main_v291 : Ref sig .tc := ⟨.hbm, 366, rfl⟩
abbrev main_cst_64 : Ref sig .tc := ⟨.hbm, 367, rfl⟩
abbrev main_v292 : Ref sig .tc := ⟨.hbm, 368, rfl⟩
abbrev main_v293 : Ref sig .tc := ⟨.hbm, 369, rfl⟩
abbrev main_v294 : Ref sig .tc := ⟨.hbm, 370, rfl⟩
abbrev main_cst_65 : Ref sig .tc := ⟨.hbm, 371, rfl⟩
abbrev main_v295 : Ref sig .tc := ⟨.hbm, 372, rfl⟩
abbrev main_v296 : Ref sig .tc := ⟨.hbm, 373, rfl⟩
abbrev main_v297 : Ref sig .tc := ⟨.hbm, 374, rfl⟩
abbrev main_v298 : Ref sig .tc := ⟨.hbm, 375, rfl⟩
abbrev main_v299 : Ref sig .tc := ⟨.hbm, 376, rfl⟩
abbrev main_v300 : Ref sig .tc := ⟨.hbm, 377, rfl⟩
abbrev main_v301 : Ref sig .tc := ⟨.hbm, 378, rfl⟩
abbrev main_v302 : Ref sig .tc := ⟨.hbm, 379, rfl⟩
abbrev main_v303 : Ref sig .tc := ⟨.hbm, 380, rfl⟩
abbrev main_v304 : Ref sig .tc := ⟨.hbm, 381, rfl⟩
abbrev main_v305 : Ref sig .tc := ⟨.hbm, 382, rfl⟩
abbrev main_v306 : Ref sig .tc := ⟨.hbm, 383, rfl⟩
abbrev main_v307 : Ref sig .tc := ⟨.hbm, 384, rfl⟩
abbrev main_v308 : Ref sig .tc := ⟨.hbm, 385, rfl⟩
abbrev main_v309 : Ref sig .tc := ⟨.hbm, 386, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨2, ![20, 8], ![false, false]⟩

def k0_cond2 (i : grid0.Coords) : BitVec 1 :=
  let arg1 : BitVec 32 := BitVec.ofNat 32 (i 1).val
  let c7_i32 : BitVec 32 := 7#32
  let v15 : BitVec 1 := Scalar.cmpi .eq arg1 c7_i32
  let v16 : BitVec 32 := Scalar.extui v15
  let c0_i32_10 : BitVec 32 := 0#32
  let v17 : BitVec 1 := Scalar.cmpi .ne v16 c0_i32_10
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![20, 8], ![false, false]⟩

def k1_cond2 (i : grid1.Coords) : BitVec 1 :=
  let arg1 : BitVec 32 := BitVec.ofNat 32 (i 1).val
  let c7_i32 : BitVec 32 := 7#32
  let v15 : BitVec 1 := Scalar.cmpi .eq arg1 c7_i32
  let v16 : BitVec 32 := Scalar.extui v15
  let c0_i32_10 : BitVec 32 := 0#32
  let v17 : BitVec 1 := Scalar.cmpi .ne v16 c0_i32_10
  v17

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S100000x128_S1x100000x128_1_2 : S100000x128.BroadcastsInDim S1x100000x128 (![1, 2] : Fin 2 → Fin S1x100000x128.rank)
  concatenates_S1x100000x128_S1x100000x128_S1x100000x128_S1x100000x128_S1x100000x128_S1x100000x128_S1x100000x128_S1x100000x128_S8x100000x128_d0 : Shape.Concatenates [S1x100000x128, S1x100000x128, S1x100000x128, S1x100000x128, S1x100000x128, S1x100000x128, S1x100000x128, S1x100000x128] S8x100000x128 0
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  shapeCasts_S5000x128_S5000x128 : S5000x128.ShapeCasts S5000x128
  inb_S1x5000x128_S1x5000x128_0_0_0 : ∀ a, (![0, 0, 0] : Fin 3 → Nat) a + S1x5000x128.size a ≤ S1x5000x128.size a
  h_S1x5000x128 : 0 < S1x5000x128.numel
  shapeCasts_S1x5000x128_S5000x128 : S1x5000x128.ShapeCasts S5000x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x5000x128.size a ≤ S8x100000x128.size a
  hwx0_1 : ∀ i : grid0.Coords, EltTy.bits .f32 = 32 ∨ (Rect.block (s := S8x100000x128) S1x5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S8x128x128.size a
  hwx0_2 : ∀ i : grid0.Coords, EltTy.bits .f32 = 32 ∨ (Rect.block (s := S8x128x128) S1x128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x5000x128.size a ≤ S8x100000x128.size a
  hwx1_1 : ∀ i : grid1.Coords, EltTy.bits .f32 = 32 ∨ (Rect.block (s := S8x100000x128) S1x5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x128.size a ≤ S8x128x128.size a
  hwx1_2 : ∀ i : grid1.Coords, EltTy.bits .f32 = 32 ∨ (Rect.block (s := S8x128x128) S1x128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v155) S1x5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v156) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v156) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v308) S1x5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S1x128x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v309) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S100000x128 : Shape := ⟨2, ![100000, 128]⟩
abbrev S2x640000 : Shape := ⟨2, ![2, 640000]⟩
abbrev S640000 : Shape := ⟨1, ![640000]⟩
abbrev S8x128x128 : Shape := ⟨3, ![8, 128, 128]⟩
abbrev S128x128 : Shape := ⟨2, ![128, 128]⟩
abbrev S128 : Shape := ⟨1, ![128]⟩
abbrev S1x640000 : Shape := ⟨2, ![1, 640000]⟩
abbrev S1x128 : Shape := ⟨2, ![1, 128]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S1x128x128 : Shape := ⟨3, ![1, 128, 128]⟩

abbrev nBuf : Space → Nat
  | .hbm => 445
  | .vmem => 0
  | .smem => 0
  | _ => 0

abbrev hbmTy0_0 (i : Nat) : BufTy := match i % 128 with
  | 0 => ⟨S100000x128, .f32⟩
  | 1 => ⟨S2x640000, .i32⟩
  | 2 => ⟨S640000, .i32⟩
  | 3 => ⟨S8x128x128, .f32⟩
  | 4 => ⟨S128x128, .f32⟩
  | 5 => ⟨S128, .f32⟩
  | 6 => ⟨S8x128x128, .f32⟩
  | 7 => ⟨S128x128, .f32⟩
  | 8 => ⟨S128, .f32⟩
  | 9 => ⟨S1x640000, .i32⟩
  | 10 => ⟨S640000, .i32⟩
  | 11 => ⟨S1x640000, .i32⟩
  | 12 => ⟨S640000, .i32⟩
  | 13 => ⟨S100000x128, .f32⟩
  | 14 => ⟨S1x128, .f32⟩
  | 15 => ⟨S100000x128, .f32⟩
  | 16 => ⟨S100000x128, .f32⟩
  | 17 => ⟨S_, .i32⟩
  | 18 => ⟨S640000, .i32⟩
  | 19 => ⟨S640000, .i1⟩
  | 20 => ⟨S_, .i32⟩
  | 21 => ⟨S640000, .i32⟩
  | 22 => ⟨S640000, .i32⟩
  | 23 => ⟨S640000, .i32⟩
  | 24 => ⟨S640000x1, .i32⟩
  | 25 => ⟨S640000x128, .f32⟩
  | 26 => ⟨S_, .i32⟩
  | 27 => ⟨S640000, .i32⟩
  | 28 => ⟨S640000, .i1⟩
  | 29 => ⟨S640000, .f32⟩
  | 30 => ⟨S640000x1, .f32⟩
  | 31 => ⟨S640000x128, .f32⟩
  | 32 => ⟨S640000x128, .f32⟩
  | 33 => ⟨S_, .f32⟩
  | 34 => ⟨S100000x128, .f32⟩
  | 35 => ⟨S640000x1, .i32⟩
  | 36 => ⟨S100000x128, .f32⟩
  | 37 => ⟨S_, .f32⟩
  | 38 => ⟨S100000, .f32⟩
  | 39 => ⟨S640000x1, .i32⟩
  | 40 => ⟨S100000, .f32⟩
  | 41 => ⟨S_, .f32⟩
  | 42 => ⟨S100000, .f32⟩
  | 43 => ⟨S100000, .f32⟩
  | 44 => ⟨S100000x1, .f32⟩
  | 45 => ⟨S100000x128, .f32⟩
  | 46 => ⟨S100000x128, .f32⟩
  | 47 => ⟨S1x128x128, .f32⟩
  | 48 => ⟨S128x128, .f32⟩
  | 49 => ⟨S100000x128, .f32⟩
  | 50 => ⟨S100000x128, .f32⟩
  | 51 => ⟨S_, .i32⟩
  | 52 => ⟨S640000, .i32⟩
  | 53 => ⟨S640000, .i1⟩
  | 54 => ⟨S640000, .f32⟩
  | 55 => ⟨S640000x1, .f32⟩
  | 56 => ⟨S640000x128, .f32⟩
  | 57 => ⟨S640000x128, .f32⟩
  | 58 => ⟨S_, .f32⟩
  | 59 => ⟨S100000x128, .f32⟩
  | 60 => ⟨S640000x1, .i32⟩
  | 61 => ⟨S100000x128, .f32⟩
  | 62 => ⟨S_, .f32⟩
  | 63 => ⟨S100000, .f32⟩
  | 64 => ⟨S640000x1, .i32⟩
  | 65 => ⟨S100000, .f32⟩
  | 66 => ⟨S_, .f32⟩
  | 67 => ⟨S100000, .f32⟩
  | 68 => ⟨S100000, .f32⟩
  | 69 => ⟨S100000x1, .f32⟩
  | 70 => ⟨S100000x128, .f32⟩
  | 71 => ⟨S100000x128, .f32⟩
  | 72 => ⟨S1x128x128, .f32⟩
  | 73 => ⟨S128x128, .f32⟩
  | 74 => ⟨S100000x128, .f32⟩
  | 75 => ⟨S100000x128, .f32⟩
  | 76 => ⟨S_, .i32⟩
  | 77 => ⟨S640000, .i32⟩
  | 78 => ⟨S640000, .i1⟩
  | 79 => ⟨S640000, .f32⟩
  | 80 => ⟨S640000x1, .f32⟩
  | 81 => ⟨S640000x128, .f32⟩
  | 82 => ⟨S640000x128, .f32⟩
  | 83 => ⟨S_, .f32⟩
  | 84 => ⟨S100000x128, .f32⟩
  | 85 => ⟨S640000x1, .i32⟩
  | 86 => ⟨S100000x128, .f32⟩
  | 87 => ⟨S_, .f32⟩
  | 88 => ⟨S100000, .f32⟩
  | 89 => ⟨S640000x1, .i32⟩
  | 90 => ⟨S100000, .f32⟩
  | 91 => ⟨S_, .f32⟩
  | 92 => ⟨S100000, .f32⟩
  | 93 => ⟨S100000, .f32⟩
  | 94 => ⟨S100000x1, .f32⟩
  | 95 => ⟨S100000x128, .f32⟩
  | 96 => ⟨S100000x128, .f32⟩
  | 97 => ⟨S1x128x128, .f32⟩
  | 98 => ⟨S128x128, .f32⟩
  | 99 => ⟨S100000x128, .f32⟩
  | 100 => ⟨S100000x128, .f32⟩
  | 101 => ⟨S_, .i32⟩
  | 102 => ⟨S640000, .i32⟩
  | 103 => ⟨S640000, .i1⟩
  | 104 => ⟨S640000, .f32⟩
  | 105 => ⟨S640000x1, .f32⟩
  | 106 => ⟨S640000x128, .f32⟩
  | 107 => ⟨S640000x128, .f32⟩
  | 108 => ⟨S_, .f32⟩
  | 109 => ⟨S100000x128, .f32⟩
  | 110 => ⟨S640000x1, .i32⟩
  | 111 => ⟨S100000x128, .f32⟩
  | 112 => ⟨S_, .f32⟩
  | 113 => ⟨S100000, .f32⟩
  | 114 => ⟨S640000x1, .i32⟩
  | 115 => ⟨S100000, .f32⟩
  | 116 => ⟨S_, .f32⟩
  | 117 => ⟨S100000, .f32⟩
  | 118 => ⟨S100000, .f32⟩
  | 119 => ⟨S100000x1, .f32⟩
  | 120 => ⟨S100000x128, .f32⟩
  | 121 => ⟨S100000x128, .f32⟩
  | 122 => ⟨S1x128x128, .f32⟩
  | 123 => ⟨S128x128, .f32⟩
  | 124 => ⟨S100000x128, .f32⟩
  | 125 => ⟨S100000x128, .f32⟩
  | 126 => ⟨S_, .i32⟩
  | 127 => ⟨S640000, .i32⟩
  | _ => ⟨S100000x128, .f32⟩

abbrev hbmTy0_1 (i : Nat) : BufTy := match i % 128 with
  | 0 => ⟨S640000, .i1⟩
  | 1 => ⟨S640000, .f32⟩
  | 2 => ⟨S640000x1, .f32⟩
  | 3 => ⟨S640000x128, .f32⟩
  | 4 => ⟨S640000x128, .f32⟩
  | 5 => ⟨S_, .f32⟩
  | 6 => ⟨S100000x128, .f32⟩
  | 7 => ⟨S640000x1, .i32⟩
  | 8 => ⟨S100000x128, .f32⟩
  | 9 => ⟨S_, .f32⟩
  | 10 => ⟨S100000, .f32⟩
  | 11 => ⟨S640000x1, .i32⟩
  | 12 => ⟨S100000, .f32⟩
  | 13 => ⟨S_, .f32⟩
  | 14 => ⟨S100000, .f32⟩
  | 15 => ⟨S100000, .f32⟩
  | 16 => ⟨S100000x1, .f32⟩
  | 17 => ⟨S100000x128, .f32⟩
  | 18 => ⟨S100000x128, .f32⟩
  | 19 => ⟨S1x128x128, .f32⟩
  | 20 => ⟨S128x128, .f32⟩
  | 21 => ⟨S100000x128, .f32⟩
  | 22 => ⟨S100000x128, .f32⟩
  | 23 => ⟨S_, .i32⟩
  | 24 => ⟨S640000, .i32⟩
  | 25 => ⟨S640000, .i1⟩
  | 26 => ⟨S640000, .f32⟩
  | 27 => ⟨S640000x1, .f32⟩
  | 28 => ⟨S640000x128, .f32⟩
  | 29 => ⟨S640000x128, .f32⟩
  | 30 => ⟨S_, .f32⟩
  | 31 => ⟨S100000x128, .f32⟩
  | 32 => ⟨S640000x1, .i32⟩
  | 33 => ⟨S100000x128, .f32⟩
  | 34 => ⟨S_, .f32⟩
  | 35 => ⟨S100000, .f32⟩
  | 36 => ⟨S640000x1, .i32⟩
  | 37 => ⟨S100000, .f32⟩
  | 38 => ⟨S_, .f32⟩
  | 39 => ⟨S100000, .f32⟩
  | 40 => ⟨S100000, .f32⟩
  | 41 => ⟨S100000x1, .f32⟩
  | 42 => ⟨S100000x128, .f32⟩
  | 43 => ⟨S100000x128, .f32⟩
  | 44 => ⟨S1x128x128, .f32⟩
  | 45 => ⟨S128x128, .f32⟩
  | 46 => ⟨S100000x128, .f32⟩
  | 47 => ⟨S100000x128, .f32⟩
  | 48 => ⟨S_, .i32⟩
  | 49 => ⟨S640000, .i32⟩
  | 50 => ⟨S640000, .i1⟩
  | 51 => ⟨S640000, .f32⟩
  | 52 => ⟨S640000x1, .f32⟩
  | 53 => ⟨S640000x128, .f32⟩
  | 54 => ⟨S640000x128, .f32⟩
  | 55 => ⟨S_, .f32⟩
  | 56 => ⟨S100000x128, .f32⟩
  | 57 => ⟨S640000x1, .i32⟩
  | 58 => ⟨S100000x128, .f32⟩
  | 59 => ⟨S_, .f32⟩
  | 60 => ⟨S100000, .f32⟩
  | 61 => ⟨S640000x1, .i32⟩
  | 62 => ⟨S100000, .f32⟩
  | 63 => ⟨S_, .f32⟩
  | 64 => ⟨S100000, .f32⟩
  | 65 => ⟨S100000, .f32⟩
  | 66 => ⟨S100000x1, .f32⟩
  | 67 => ⟨S100000x128, .f32⟩
  | 68 => ⟨S100000x128, .f32⟩
  | 69 => ⟨S1x128x128, .f32⟩
  | 70 => ⟨S128x128, .f32⟩
  | 71 => ⟨S100000x128, .f32⟩
  | 72 => ⟨S100000x128, .f32⟩
  | 73 => ⟨S_, .i32⟩
  | 74 => ⟨S640000, .i32⟩
  | 75 => ⟨S640000, .i1⟩
  | 76 => ⟨S640000, .f32⟩
  | 77 => ⟨S640000x1, .f32⟩
  | 78 => ⟨S640000x128, .f32⟩
  | 79 => ⟨S640000x128, .f32⟩
  | 80 => ⟨S_, .f32⟩
  | 81 => ⟨S100000x128, .f32⟩
  | 82 => ⟨S640000x1, .i32⟩
  | 83 => ⟨S100000x128, .f32⟩
  | 84 => ⟨S_, .f32⟩
  | 85 => ⟨S100000, .f32⟩
  | 86 => ⟨S640000x1, .i32⟩
  | 87 => ⟨S100000, .f32⟩
  | 88 => ⟨S_, .f32⟩
  | 89 => ⟨S100000, .f32⟩
  | 90 => ⟨S100000, .f32⟩
  | 91 => ⟨S100000x1, .f32⟩
  | 92 => ⟨S100000x128, .f32⟩
  | 93 => ⟨S100000x128, .f32⟩
  | 94 => ⟨S1x128x128, .f32⟩
  | 95 => ⟨S128x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S100000x128, .f32⟩
  | 102 => ⟨S1x128, .f32⟩
  | 103 => ⟨S100000x128, .f32⟩
  | 104 => ⟨S100000x128, .f32⟩
  | 105 => ⟨S_, .i32⟩
  | 106 => ⟨S640000, .i32⟩
  | 107 => ⟨S640000, .i1⟩
  | 108 => ⟨S_, .i32⟩
  | 109 => ⟨S640000, .i32⟩
  | 110 => ⟨S640000, .i32⟩
  | 111 => ⟨S640000, .i32⟩
  | 112 => ⟨S640000x1, .i32⟩
  | 113 => ⟨S640000x128, .f32⟩
  | 114 => ⟨S_, .i32⟩
  | 115 => ⟨S640000, .i32⟩
  | 116 => ⟨S640000, .i1⟩
  | 117 => ⟨S640000, .f32⟩
  | 118 => ⟨S640000x1, .f32⟩
  | 119 => ⟨S640000x128, .f32⟩
  | 120 => ⟨S640000x128, .f32⟩
  | 121 => ⟨S_, .f32⟩
  | 122 => ⟨S100000x128, .f32⟩
  | 123 => ⟨S640000x1, .i32⟩
  | 124 => ⟨S100000x128, .f32⟩
  | 125 => ⟨S_, .f32⟩
  | 126 => ⟨S100000, .f32⟩
  | 127 => ⟨S640000x1, .i32⟩
  | _ => ⟨S100000x128, .f32⟩

abbrev hbmTy0_2 (i : Nat) : BufTy := match i % 128 with
  | 0 => ⟨S100000, .f32⟩
  | 1 => ⟨S_, .f32⟩
  | 2 => ⟨S100000, .f32⟩
  | 3 => ⟨S100000, .f32⟩
  | 4 => ⟨S100000x1, .f32⟩
  | 5 => ⟨S100000x128, .f32⟩
  | 6 => ⟨S100000x128, .f32⟩
  | 7 => ⟨S1x128x128, .f32⟩
  | 8 => ⟨S128x128, .f32⟩
  | 9 => ⟨S100000x128, .f32⟩
  | 10 => ⟨S100000x128, .f32⟩
  | 11 => ⟨S_, .i32⟩
  | 12 => ⟨S640000, .i32⟩
  | 13 => ⟨S640000, .i1⟩
  | 14 => ⟨S640000, .f32⟩
  | 15 => ⟨S640000x1, .f32⟩
  | 16 => ⟨S640000x128, .f32⟩
  | 17 => ⟨S640000x128, .f32⟩
  | 18 => ⟨S_, .f32⟩
  | 19 => ⟨S100000x128, .f32⟩
  | 20 => ⟨S640000x1, .i32⟩
  | 21 => ⟨S100000x128, .f32⟩
  | 22 => ⟨S_, .f32⟩
  | 23 => ⟨S100000, .f32⟩
  | 24 => ⟨S640000x1, .i32⟩
  | 25 => ⟨S100000, .f32⟩
  | 26 => ⟨S_, .f32⟩
  | 27 => ⟨S100000, .f32⟩
  | 28 => ⟨S100000, .f32⟩
  | 29 => ⟨S100000x1, .f32⟩
  | 30 => ⟨S100000x128, .f32⟩
  | 31 => ⟨S100000x128, .f32⟩
  | 32 => ⟨S1x128x128, .f32⟩
  | 33 => ⟨S128x128, .f32⟩
  | 34 => ⟨S100000x128, .f32⟩
  | 35 => ⟨S100000x128, .f32⟩
  | 36 => ⟨S_, .i32⟩
  | 37 => ⟨S640000, .i32⟩
  | 38 => ⟨S640000, .i1⟩
  | 39 => ⟨S640000, .f32⟩
  | 40 => ⟨S640000x1, .f32⟩
  | 41 => ⟨S640000x128, .f32⟩
  | 42 => ⟨S640000x128, .f32⟩
  | 43 => ⟨S_, .f32⟩
  | 44 => ⟨S100000x128, .f32⟩
  | 45 => ⟨S640000x1, .i32⟩
  | 46 => ⟨S100000x128, .f32⟩
  | 47 => ⟨S_, .f32⟩
  | 48 => ⟨S100000, .f32⟩
  | 49 => ⟨S640000x1, .i32⟩
  | 50 => ⟨S100000, .f32⟩
  | 51 => ⟨S_, .f32⟩
  | 52 => ⟨S100000, .f32⟩
  | 53 => ⟨S100000, .f32⟩
  | 54 => ⟨S100000x1, .f32⟩
  | 55 => ⟨S100000x128, .f32⟩
  | 56 => ⟨S100000x128, .f32⟩
  | 57 => ⟨S1x128x128, .f32⟩
  | 58 => ⟨S128x128, .f32⟩
  | 59 => ⟨S100000x128, .f32⟩
  | 60 => ⟨S100000x128, .f32⟩
  | 61 => ⟨S_, .i32⟩
  | 62 => ⟨S640000, .i32⟩
  | 63 => ⟨S640000, .i1⟩
  | 64 => ⟨S640000, .f32⟩
  | 65 => ⟨S640000x1, .f32⟩
  | 66 => ⟨S640000x128, .f32⟩
  | 67 => ⟨S640000x128, .f32⟩
  | 68 => ⟨S_, .f32⟩
  | 69 => ⟨S100000x128, .f32⟩
  | 70 => ⟨S640000x1, .i32⟩
  | 71 => ⟨S100000x128, .f32⟩
  | 72 => ⟨S_, .f32⟩
  | 73 => ⟨S100000, .f32⟩
  | 74 => ⟨S640000x1, .i32⟩
  | 75 => ⟨S100000, .f32⟩
  | 76 => ⟨S_, .f32⟩
  | 77 => ⟨S100000, .f32⟩
  | 78 => ⟨S100000, .f32⟩
  | 79 => ⟨S100000x1, .f32⟩
  | 80 => ⟨S100000x128, .f32⟩
  | 81 => ⟨S100000x128, .f32⟩
  | 82 => ⟨S1x128x128, .f32⟩
  | 83 => ⟨S128x128, .f32⟩
  | 84 => ⟨S100000x128, .f32⟩
  | 85 => ⟨S100000x128, .f32⟩
  | 86 => ⟨S_, .i32⟩
  | 87 => ⟨S640000, .i32⟩
  | 88 => ⟨S640000, .i1⟩
  | 89 => ⟨S640000, .f32⟩
  | 90 => ⟨S640000x1, .f32⟩
  | 91 => ⟨S640000x128, .f32⟩
  | 92 => ⟨S640000x128, .f32⟩
  | 93 => ⟨S_, .f32⟩
  | 94 => ⟨S100000x128, .f32⟩
  | 95 => ⟨S640000x1, .i32⟩
  | 96 => ⟨S100000x128, .f32⟩
  | 97 => ⟨S_, .f32⟩
  | 98 => ⟨S100000, .f32⟩
  | 99 => ⟨S640000x1, .i32⟩
  | 100 => ⟨S100000, .f32⟩
  | 101 => ⟨S_, .f32⟩
  | 102 => ⟨S100000, .f32⟩
  | 103 => ⟨S100000, .f32⟩
  | 104 => ⟨S100000x1, .f32⟩
  | 105 => ⟨S100000x128, .f32⟩
  | 106 => ⟨S100000x128, .f32⟩
  | 107 => ⟨S1x128x128, .f32⟩
  | 108 => ⟨S128x128, .f32⟩
  | 109 => ⟨S100000x128, .f32⟩
  | 110 => ⟨S100000x128, .f32⟩
  | 111 => ⟨S_, .i32⟩
  | 112 => ⟨S640000, .i32⟩
  | 113 => ⟨S640000, .i1⟩
  | 114 => ⟨S640000, .f32⟩
  | 115 => ⟨S640000x1, .f32⟩
  | 116 => ⟨S640000x128, .f32⟩
  | 117 => ⟨S640000x128, .f32⟩
  | 118 => ⟨S_, .f32⟩
  | 119 => ⟨S100000x128, .f32⟩
  | 120 => ⟨S640000x1, .i32⟩
  | 121 => ⟨S100000x128, .f32⟩
  | 122 => ⟨S_, .f32⟩
  | 123 => ⟨S100000, .f32⟩
  | 124 => ⟨S640000x1, .i32⟩
  | 125 => ⟨S100000, .f32⟩
  | 126 => ⟨S_, .f32⟩
  | 127 => ⟨S100000, .f32⟩
  | _ => ⟨S100000x128, .f32⟩

abbrev hbmTy0_3 (i : Nat) : BufTy := match i % 128 with
  | 0 => ⟨S100000, .f32⟩
  | 1 => ⟨S100000x1, .f32⟩
  | 2 => ⟨S100000x128, .f32⟩
  | 3 => ⟨S100000x128, .f32⟩
  | 4 => ⟨S1x128x128, .f32⟩
  | 5 => ⟨S128x128, .f32⟩
  | 6 => ⟨S100000x128, .f32⟩
  | 7 => ⟨S100000x128, .f32⟩
  | 8 => ⟨S_, .i32⟩
  | 9 => ⟨S640000, .i32⟩
  | 10 => ⟨S640000, .i1⟩
  | 11 => ⟨S640000, .f32⟩
  | 12 => ⟨S640000x1, .f32⟩
  | 13 => ⟨S640000x128, .f32⟩
  | 14 => ⟨S640000x128, .f32⟩
  | 15 => ⟨S_, .f32⟩
  | 16 => ⟨S100000x128, .f32⟩
  | 17 => ⟨S640000x1, .i32⟩
  | 18 => ⟨S100000x128, .f32⟩
  | 19 => ⟨S_, .f32⟩
  | 20 => ⟨S100000, .f32⟩
  | 21 => ⟨S640000x1, .i32⟩
  | 22 => ⟨S100000, .f32⟩
  | 23 => ⟨S_, .f32⟩
  | 24 => ⟨S100000, .f32⟩
  | 25 => ⟨S100000, .f32⟩
  | 26 => ⟨S100000x1, .f32⟩
  | 27 => ⟨S100000x128, .f32⟩
  | 28 => ⟨S100000x128, .f32⟩
  | 29 => ⟨S1x128x128, .f32⟩
  | 30 => ⟨S128x128, .f32⟩
  | 31 => ⟨S100000x128, .f32⟩
  | 32 => ⟨S100000x128, .f32⟩
  | 33 => ⟨S_, .i32⟩
  | 34 => ⟨S640000, .i32⟩
  | 35 => ⟨S640000, .i1⟩
  | 36 => ⟨S640000, .f32⟩
  | 37 => ⟨S640000x1, .f32⟩
  | 38 => ⟨S640000x128, .f32⟩
  | 39 => ⟨S640000x128, .f32⟩
  | 40 => ⟨S_, .f32⟩
  | 41 => ⟨S100000x128, .f32⟩
  | 42 => ⟨S640000x1, .i32⟩
  | 43 => ⟨S100000x128, .f32⟩
  | 44 => ⟨S_, .f32⟩
  | 45 => ⟨S100000, .f32⟩
  | 46 => ⟨S640000x1, .i32⟩
  | 47 => ⟨S100000, .f32⟩
  | 48 => ⟨S_, .f32⟩
  | 49 => ⟨S100000, .f32⟩
  | 50 => ⟨S100000, .f32⟩
  | 51 => ⟨S100000x1, .f32⟩
  | 52 => ⟨S100000x128, .f32⟩
  | 53 => ⟨S100000x128, .f32⟩
  | 54 => ⟨S1x128x128, .f32⟩
  | 55 => ⟨S128x128, .f32⟩
  | 56 => ⟨S100000x128, .f32⟩
  | 57 => ⟨S100000x128, .f32⟩
  | 58 => ⟨S_, .f32⟩
  | 59 => ⟨S100000x128, .f32⟩
  | 60 => ⟨S100000x128, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_4 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c_8 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_9 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_10 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_11 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_c_12 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_13 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_14 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_15 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_c_16 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_cst_17 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_cst_18 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_cst_19 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_c_20 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_cst_21 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_cst_22 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_cst_23 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_c_24 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_cst_25 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_cst_26 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_cst_27 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_c_28 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_cst_29 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_cst_30 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_cst_31 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_call0_cst : Ref sig .tc := ⟨.hbm, 226, rfl⟩
abbrev main_call0_v0 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_c_32 : Ref sig .tc := ⟨.hbm, 233, rfl⟩
abbrev main_v188 : Ref sig .tc := ⟨.hbm, 234, rfl⟩
abbrev main_v189 : Ref sig .tc := ⟨.hbm, 235, rfl⟩
abbrev main_c_33 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_c_34 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_cst_35 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_cst_36 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_cst_37 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_c_38 : Ref sig .tc := ⟨.hbm, 267, rfl⟩
abbrev main_v216 : Ref sig .tc := ⟨.hbm, 268, rfl⟩
abbrev main_v217 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_v221 : Ref sig .tc := ⟨.hbm, 273, rfl⟩
abbrev main_cst_39 : Ref sig .tc := ⟨.hbm, 274, rfl⟩
abbrev main_v222 : Ref sig .tc := ⟨.hbm, 275, rfl⟩
abbrev main_v223 : Ref sig .tc := ⟨.hbm, 276, rfl⟩
abbrev main_v224 : Ref sig .tc := ⟨.hbm, 277, rfl⟩
abbrev main_cst_40 : Ref sig .tc := ⟨.hbm, 278, rfl⟩
abbrev main_v225 : Ref sig .tc := ⟨.hbm, 279, rfl⟩
abbrev main_v226 : Ref sig .tc := ⟨.hbm, 280, rfl⟩
abbrev main_v227 : Ref sig .tc := ⟨.hbm, 281, rfl⟩
abbrev main_cst_41 : Ref sig .tc := ⟨.hbm, 282, rfl⟩
abbrev main_v228 : Ref sig .tc := ⟨.hbm, 283, rfl⟩
abbrev main_v229 : Ref sig .tc := ⟨.hbm, 284, rfl⟩
abbrev main_v230 : Ref sig .tc := ⟨.hbm, 285, rfl⟩
abbrev main_v231 : Ref sig .tc := ⟨.hbm, 286, rfl⟩
abbrev main_v232 : Ref sig .tc := ⟨.hbm, 287, rfl⟩
abbrev main_v233 : Ref sig .tc := ⟨.hbm, 288, rfl⟩
abbrev main_v234 : Ref sig .tc := ⟨.hbm, 289, rfl⟩
abbrev main_v235 : Ref sig .tc := ⟨.hbm, 290, rfl⟩
abbrev main_v236 : Ref sig .tc := ⟨.hbm, 291, rfl⟩
abbrev main_c_42 : Ref sig .tc := ⟨.hbm, 292, rfl⟩
abbrev main_v237 : Ref sig .tc := ⟨.hbm, 293, rfl⟩
abbrev main_v238 : Ref sig .tc := ⟨.hbm, 294, rfl⟩
abbrev main_v239 : Ref sig .tc := ⟨.hbm, 295, rfl⟩
abbrev main_v240 : Ref sig .tc := ⟨.hbm, 296, rfl⟩
abbrev main_v241 : Ref sig .tc := ⟨.hbm, 297, rfl⟩
abbrev main_v242 : Ref sig .tc := ⟨.hbm, 298, rfl⟩
abbrev main_cst_43 : Ref sig .tc := ⟨.hbm, 299, rfl⟩
abbrev main_v243 : Ref sig .tc := ⟨.hbm, 300, rfl⟩
abbrev main_v244 : Ref sig .tc := ⟨.hbm, 301, rfl⟩
abbrev main_v245 : Ref sig .tc := ⟨.hbm, 302, rfl⟩
abbrev main_cst_44 : Ref sig .tc := ⟨.hbm, 303, rfl⟩
abbrev main_v246 : Ref sig .tc := ⟨.hbm, 304, rfl⟩
abbrev main_v247 : Ref sig .tc := ⟨.hbm, 305, rfl⟩
abbrev main_v248 : Ref sig .tc := ⟨.hbm, 306, rfl⟩
abbrev main_cst_45 : Ref sig .tc := ⟨.hbm, 307, rfl⟩
abbrev main_v249 : Ref sig .tc := ⟨.hbm, 308, rfl⟩
abbrev main_v250 : Ref sig .tc := ⟨.hbm, 309, rfl⟩
abbrev main_v251 : Ref sig .tc := ⟨.hbm, 310, rfl⟩
abbrev main_v252 : Ref sig .tc := ⟨.hbm, 311, rfl⟩
abbrev main_v253 : Ref sig .tc := ⟨.hbm, 312, rfl⟩
abbrev main_v254 : Ref sig .tc := ⟨.hbm, 313, rfl⟩
abbrev main_v255 : Ref sig .tc := ⟨.hbm, 314, rfl⟩
abbrev main_v256 : Ref sig .tc := ⟨.hbm, 315, rfl⟩
abbrev main_v257 : Ref sig .tc := ⟨.hbm, 316, rfl⟩
abbrev main_c_46 : Ref sig .tc := ⟨.hbm, 317, rfl⟩
abbrev main_v258 : Ref sig .tc := ⟨.hbm, 318, rfl⟩
abbrev main_v259 : Ref sig .tc := ⟨.hbm, 319, rfl⟩
abbrev main_v260 : Ref sig .tc := ⟨.hbm, 320, rfl⟩
abbrev main_v261 : Ref sig .tc := ⟨.hbm, 321, rfl⟩
abbrev main_v262 : Ref sig .tc := ⟨.hbm, 322, rfl⟩
abbrev main_v263 : Ref sig .tc := ⟨.hbm, 323, rfl⟩
abbrev main_cst_47 : Ref sig .tc := ⟨.hbm, 324, rfl⟩
abbrev main_v264 : Ref sig .tc := ⟨.hbm, 325, rfl⟩
abbrev main_v265 : Ref sig .tc := ⟨.hbm, 326, rfl⟩
abbrev main_v266 : Ref sig .tc := ⟨.hbm, 327, rfl⟩
abbrev main_cst_48 : Ref sig .tc := ⟨.hbm, 328, rfl⟩
abbrev main_v267 : Ref sig .tc := ⟨.hbm, 329, rfl⟩
abbrev main_v268 : Ref sig .tc := ⟨.hbm, 330, rfl⟩
abbrev main_v269 : Ref sig .tc := ⟨.hbm, 331, rfl⟩
abbrev main_cst_49 : Ref sig .tc := ⟨.hbm, 332, rfl⟩
abbrev main_v270 : Ref sig .tc := ⟨.hbm, 333, rfl⟩
abbrev main_v271 : Ref sig .tc := ⟨.hbm, 334, rfl⟩
abbrev main_v272 : Ref sig .tc := ⟨.hbm, 335, rfl⟩
abbrev main_v273 : Ref sig .tc := ⟨.hbm, 336, rfl⟩
abbrev main_v274 : Ref sig .tc := ⟨.hbm, 337, rfl⟩
abbrev main_v275 : Ref sig .tc := ⟨.hbm, 338, rfl⟩
abbrev main_v276 : Ref sig .tc := ⟨.hbm, 339, rfl⟩
abbrev main_v277 : Ref sig .tc := ⟨.hbm, 340, rfl⟩
abbrev main_v278 : Ref sig .tc := ⟨.hbm, 341, rfl⟩
abbrev main_c_50 : Ref sig .tc := ⟨.hbm, 342, rfl⟩
abbrev main_v279 : Ref sig .tc := ⟨.hbm, 343, rfl⟩
abbrev main_v280 : Ref sig .tc := ⟨.hbm, 344, rfl⟩
abbrev main_v281 : Ref sig .tc := ⟨.hbm, 345, rfl⟩
abbrev main_v282 : Ref sig .tc := ⟨.hbm, 346, rfl⟩
abbrev main_v283 : Ref sig .tc := ⟨.hbm, 347, rfl⟩
abbrev main_v284 : Ref sig .tc := ⟨.hbm, 348, rfl⟩
abbrev main_cst_51 : Ref sig .tc := ⟨.hbm, 349, rfl⟩
abbrev main_v285 : Ref sig .tc := ⟨.hbm, 350, rfl⟩
abbrev main_v286 : Ref sig .tc := ⟨.hbm, 351, rfl⟩
abbrev main_v287 : Ref sig .tc := ⟨.hbm, 352, rfl⟩
abbrev main_cst_52 : Ref sig .tc := ⟨.hbm, 353, rfl⟩
abbrev main_v288 : Ref sig .tc := ⟨.hbm, 354, rfl⟩
abbrev main_v289 : Ref sig .tc := ⟨.hbm, 355, rfl⟩
abbrev main_v290 : Ref sig .tc := ⟨.hbm, 356, rfl⟩
abbrev main_cst_53 : Ref sig .tc := ⟨.hbm, 357, rfl⟩
abbrev main_v291 : Ref sig .tc := ⟨.hbm, 358, rfl⟩
abbrev main_v292 : Ref sig .tc := ⟨.hbm, 359, rfl⟩
abbrev main_v293 : Ref sig .tc := ⟨.hbm, 360, rfl⟩
abbrev main_v294 : Ref sig .tc := ⟨.hbm, 361, rfl⟩
abbrev main_v295 : Ref sig .tc := ⟨.hbm, 362, rfl⟩
abbrev main_v296 : Ref sig .tc := ⟨.hbm, 363, rfl⟩
abbrev main_v297 : Ref sig .tc := ⟨.hbm, 364, rfl⟩
abbrev main_v298 : Ref sig .tc := ⟨.hbm, 365, rfl⟩
abbrev main_v299 : Ref sig .tc := ⟨.hbm, 366, rfl⟩
abbrev main_c_54 : Ref sig .tc := ⟨.hbm, 367, rfl⟩
abbrev main_v300 : Ref sig .tc := ⟨.hbm, 368, rfl⟩
abbrev main_v301 : Ref sig .tc := ⟨.hbm, 369, rfl⟩
abbrev main_v302 : Ref sig .tc := ⟨.hbm, 370, rfl⟩
abbrev main_v303 : Ref sig .tc := ⟨.hbm, 371, rfl⟩
abbrev main_v304 : Ref sig .tc := ⟨.hbm, 372, rfl⟩
abbrev main_v305 : Ref sig .tc := ⟨.hbm, 373, rfl⟩
abbrev main_cst_55 : Ref sig .tc := ⟨.hbm, 374, rfl⟩
abbrev main_v306 : Ref sig .tc := ⟨.hbm, 375, rfl⟩
abbrev main_v307 : Ref sig .tc := ⟨.hbm, 376, rfl⟩
abbrev main_v308 : Ref sig .tc := ⟨.hbm, 377, rfl⟩
abbrev main_cst_56 : Ref sig .tc := ⟨.hbm, 378, rfl⟩
abbrev main_v309 : Ref sig .tc := ⟨.hbm, 379, rfl⟩
abbrev main_v310 : Ref sig .tc := ⟨.hbm, 380, rfl⟩
abbrev main_v311 : Ref sig .tc := ⟨.hbm, 381, rfl⟩
abbrev main_cst_57 : Ref sig .tc := ⟨.hbm, 382, rfl⟩
abbrev main_v312 : Ref sig .tc := ⟨.hbm, 383, rfl⟩
abbrev main_v313 : Ref sig .tc := ⟨.hbm, 384, rfl⟩
abbrev main_v314 : Ref sig .tc := ⟨.hbm, 385, rfl⟩
abbrev main_v315 : Ref sig .tc := ⟨.hbm, 386, rfl⟩
abbrev main_v316 : Ref sig .tc := ⟨.hbm, 387, rfl⟩
abbrev main_v317 : Ref sig .tc := ⟨.hbm, 388, rfl⟩
abbrev main_v318 : Ref sig .tc := ⟨.hbm, 389, rfl⟩
abbrev main_v319 : Ref sig .tc := ⟨.hbm, 390, rfl⟩
abbrev main_v320 : Ref sig .tc := ⟨.hbm, 391, rfl⟩
abbrev main_c_58 : Ref sig .tc := ⟨.hbm, 392, rfl⟩
abbrev main_v321 : Ref sig .tc := ⟨.hbm, 393, rfl⟩
abbrev main_v322 : Ref sig .tc := ⟨.hbm, 394, rfl⟩
abbrev main_v323 : Ref sig .tc := ⟨.hbm, 395, rfl⟩
abbrev main_v324 : Ref sig .tc := ⟨.hbm, 396, rfl⟩
abbrev main_v325 : Ref sig .tc := ⟨.hbm, 397, rfl⟩
abbrev main_v326 : Ref sig .tc := ⟨.hbm, 398, rfl⟩
abbrev main_cst_59 : Ref sig .tc := ⟨.hbm, 399, rfl⟩
abbrev main_v327 : Ref sig .tc := ⟨.hbm, 400, rfl⟩
abbrev main_v328 : Ref sig .tc := ⟨.hbm, 401, rfl⟩
abbrev main_v329 : Ref sig .tc := ⟨.hbm, 402, rfl⟩
abbrev main_cst_60 : Ref sig .tc := ⟨.hbm, 403, rfl⟩
abbrev main_v330 : Ref sig .tc := ⟨.hbm, 404, rfl⟩
abbrev main_v331 : Ref sig .tc := ⟨.hbm, 405, rfl⟩
abbrev main_v332 : Ref sig .tc := ⟨.hbm, 406, rfl⟩
abbrev main_cst_61 : Ref sig .tc := ⟨.hbm, 407, rfl⟩
abbrev main_v333 : Ref sig .tc := ⟨.hbm, 408, rfl⟩
abbrev main_v334 : Ref sig .tc := ⟨.hbm, 409, rfl⟩
abbrev main_v335 : Ref sig .tc := ⟨.hbm, 410, rfl⟩
abbrev main_v336 : Ref sig .tc := ⟨.hbm, 411, rfl⟩
abbrev main_v337 : Ref sig .tc := ⟨.hbm, 412, rfl⟩
abbrev main_v338 : Ref sig .tc := ⟨.hbm, 413, rfl⟩
abbrev main_v339 : Ref sig .tc := ⟨.hbm, 414, rfl⟩
abbrev main_v340 : Ref sig .tc := ⟨.hbm, 415, rfl⟩
abbrev main_v341 : Ref sig .tc := ⟨.hbm, 416, rfl⟩
abbrev main_c_62 : Ref sig .tc := ⟨.hbm, 417, rfl⟩
abbrev main_v342 : Ref sig .tc := ⟨.hbm, 418, rfl⟩
abbrev main_v343 : Ref sig .tc := ⟨.hbm, 419, rfl⟩
abbrev main_v344 : Ref sig .tc := ⟨.hbm, 420, rfl⟩
abbrev main_v345 : Ref sig .tc := ⟨.hbm, 421, rfl⟩
abbrev main_v346 : Ref sig .tc := ⟨.hbm, 422, rfl⟩
abbrev main_v347 : Ref sig .tc := ⟨.hbm, 423, rfl⟩
abbrev main_cst_63 : Ref sig .tc := ⟨.hbm, 424, rfl⟩
abbrev main_v348 : Ref sig .tc := ⟨.hbm, 425, rfl⟩
abbrev main_v349 : Ref sig .tc := ⟨.hbm, 426, rfl⟩
abbrev main_v350 : Ref sig .tc := ⟨.hbm, 427, rfl⟩
abbrev main_cst_64 : Ref sig .tc := ⟨.hbm, 428, rfl⟩
abbrev main_v351 : Ref sig .tc := ⟨.hbm, 429, rfl⟩
abbrev main_v352 : Ref sig .tc := ⟨.hbm, 430, rfl⟩
abbrev main_v353 : Ref sig .tc := ⟨.hbm, 431, rfl⟩
abbrev main_cst_65 : Ref sig .tc := ⟨.hbm, 432, rfl⟩
abbrev main_v354 : Ref sig .tc := ⟨.hbm, 433, rfl⟩
abbrev main_v355 : Ref sig .tc := ⟨.hbm, 434, rfl⟩
abbrev main_v356 : Ref sig .tc := ⟨.hbm, 435, rfl⟩
abbrev main_v357 : Ref sig .tc := ⟨.hbm, 436, rfl⟩
abbrev main_v358 : Ref sig .tc := ⟨.hbm, 437, rfl⟩
abbrev main_v359 : Ref sig .tc := ⟨.hbm, 438, rfl⟩
abbrev main_v360 : Ref sig .tc := ⟨.hbm, 439, rfl⟩
abbrev main_v361 : Ref sig .tc := ⟨.hbm, 440, rfl⟩
abbrev main_v362 : Ref sig .tc := ⟨.hbm, 441, rfl⟩
abbrev main_call1_cst : Ref sig .tc := ⟨.hbm, 442, rfl⟩
abbrev main_call1_v0 : Ref sig .tc := ⟨.hbm, 443, rfl⟩
abbrev main_v363 : Ref sig .tc := ⟨.hbm, 444, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S8x128x128_S1x128x128_0_0_0 : S8x128x128.Slices ![0, 0, 0] S1x128x128
  shapeCasts_S1x128x128_S128x128 : S1x128x128.ShapeCasts S128x128
  slices_S8x128x128_S1x128x128_1_0_0 : S8x128x128.Slices ![1, 0, 0] S1x128x128
  slices_S8x128x128_S1x128x128_2_0_0 : S8x128x128.Slices ![2, 0, 0] S1x128x128
  slices_S8x128x128_S1x128x128_3_0_0 : S8x128x128.Slices ![3, 0, 0] S1x128x128
  slices_S8x128x128_S1x128x128_4_0_0 : S8x128x128.Slices ![4, 0, 0] S1x128x128
  slices_S8x128x128_S1x128x128_5_0_0 : S8x128x128.Slices ![5, 0, 0] S1x128x128
  slices_S8x128x128_S1x128x128_6_0_0 : S8x128x128.Slices ![6, 0, 0] S1x128x128
  slices_S8x128x128_S1x128x128_7_0_0 : S8x128x128.Slices ![7, 0, 0] S1x128x128
  dot_S100000x128_S128x128_S100000x128_1_0_0_1_n_n_wf : DotDims.WF S100000x128 S128x128 S100000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf

class Facts : Prop extends Facts₀ where

variable [Facts]
-- ==== Proof.KRun0.lean ====
import proofs.«171321_j63273458205156_1_alg».proof.Proof.Gen.Kernel.Launch
import proofs.«171321_j63273458205156_1_alg».proof.Proof.Gen.Kernel.Skeleton
import proofs.«171321_j63273458205156_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Run0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-!
The body of pallas_call 0 run once per control case, on any whole staging buffers.

The body reads the relation index `r` (grid coordinate 1). At `r = 0` it first sets the scratch accumulator to
`x·root + bias`; at every `r` it adds `agg_r·W_r` to the accumulator; at `r = 7` it writes `max(acc, 0)` to the output
block. So there are three cases — first relation, a middle relation, last relation — and in each the buffers the
body stores into end at the stated pure functions of what it loaded (`k0_pay1`, `k0_pay2`, `k0_pay3`), every other
buffer as it was.
-/

/-- A load of the whole of a whole buffer whose contents read `X` reads `X`. -/
theorem readAt_unread_whole {sp : Space} {S : Shape} {e : EltTy} (M : Memref sig .tc sp S e) (h : M.IsWhole)
    {off : Fin S.rank → Nat} (hz : off = fun _ => 0) (inb : ∀ a, off a + S.size a ≤ S.size a) (X : S.Idx → Elt F e) :
    View.readAt (Elt F) M.view (Rect.unit off S.size inb).toLoadRect (h.unread X) = X := by
  rw [View.readAt_eq_ld, h.read_unread, View.ld_unit_zero hz]

theorem hz2 : (![0, 0] : Fin S5000x128.rank → Nat) = fun _ => 0 := by funext a; fin_cases a <;> rfl
theorem hz2' : (![0, 0] : Fin S128x128.rank → Nat) = fun _ => 0 := by funext a; fin_cases a <;> rfl
theorem hz3 : (![0, 0, 0] : Fin S1x5000x128.rank → Nat) = fun _ => 0 := by funext a; fin_cases a <;> rfl
theorem hz3' : (![0, 0, 0] : Fin S1x128x128.rank → Nat) = fun _ => 0 := by funext a; fin_cases a <;> rfl
theorem hz1 : (![0] : Fin S128.rank → Nat) = fun _ => 0 := by funext a; fin_cases a; rfl

/-- "The relation index is 0", as the body computes it from the grid point. -/
abbrev cond0_1 (i : grid0.Coords) : Prop := (Scalar.cmpi .ne (Scalar.extui (Scalar.cmpi .eq (BitVec.ofNat 32 (i 1).val) 0#32)) 0#32) = 1#1

set_option maxHeartbeats 1000000 in
/-- First relation: the accumulator is set to `x·root + bias` and relation 0's product is added; the output block is not touched. -/
theorem runA (c : Dev nD) (i : grid0.Coords) (hc1 : cond0_1 i) (hc2 : ¬ k0_cond2 i = 1#1)
    (M2 : Memref sig .tc .vmem S5000x128 .f32) (h2 : M2.IsWhole) (M3 : Memref sig .tc .vmem S1x5000x128 .f32) (h3 : M3.IsWhole)
    (M4 : Memref sig .tc .vmem S1x128x128 .f32) (h4 : M4.IsWhole) (M5 : Memref sig .tc .vmem S128x128 .f32) (h5 : M5.IsWhole)
    (M6 : Memref sig .tc .vmem S128 .f32) (h6 : M6.IsWhole) (M7 : Memref sig .tc .vmem S5000x128 .f32) (h7 : M7.IsWhole)
    (M8 : Memref sig .tc .vmem S5000x128 .f32) (h8 : M8.IsWhole)
    (x : Vec F S5000x128 .f32) (ag : Vec F S1x5000x128 .f32) (w : Vec F S1x128x128 .f32) (rt : Vec F S128x128 .f32) (bs : Vec F S128 .f32)
    (E : Set ℕ) (K : PUnit → sProp 𝕄) :
    iprop(owns (c : Thread nD τ) M2 fullShare x ∗ owns (c : Thread nD τ) M3 fullShare ag ∗ owns (c : Thread nD τ) M4 fullShare w
        ∗ owns (c : Thread nD τ) M5 fullShare rt ∗ owns (c : Thread nD τ) M6 fullShare bs ∗ (∃ d, owns (c : Thread nD τ) M8 fullShare d)
        ∗ (iprop(owns (c : Thread nD τ) M2 fullShare x ∗ owns (c : Thread nD τ) M3 fullShare ag ∗ owns (c : Thread nD τ) M4 fullShare w
            ∗ owns (c : Thread nD τ) M5 fullShare rt ∗ owns (c : Thread nD τ) M6 fullShare bs
            ∗ owns (c : Thread nD τ) M8 fullShare (k0_pay2 (k0_pay1 x rt bs) ag w)) -∗ K ⟨⟩))
      ⊢ wp frame (wpE (defs₀ (F := F)) Variants.none c none) E (cc0__rgcn_mm_kernel i M2 h2 M3 h3 M4 h4 M5 h5 M6 h6 M7 h7 M8 h8) K := by
  simp only [cc0__rgcn_mm_kernel_eq_skeleton]; unfold cc0__rgcn_mm_kernel_skel
  unfold owns
  iintro ⟨⟨%f2, %hf2, H2⟩, ⟨%f3, %hf3, H3⟩, ⟨%f4, %hf4, H4⟩, ⟨%f5, %hf5, H5⟩, ⟨%f6, %hf6, H6⟩, ⟨%d8, %f8, -, H8⟩, Hk⟩
  obtain rfl := h2.eq_unread hf2
  obtain rfl := h3.eq_unread hf3
  obtain rfl := h4.eq_unread hf4
  obtain rfl := h5.eq_unread hf5
  obtain rfl := h6.eq_unread hf6
  sl_exec (disch := first | exact hc1 | exact hc2)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  iexists _; isplitr; swap; · iexact H8
  ipureintro
  rw [View.read_writes_eq_canon _ _ _ (fun y => ⟨_, List.mem_cons_self, View.mem_set_unit_zero hz2 inb_S5000x128_S5000x128_0_0 y⟩), View.canon_cons_unit_zero hz2]
  sl_unfold_run_names
  rw [View.readCov_unit_zero _ hz2, readAt_unread_whole M2 h2 hz2, readAt_unread_whole M5 h5 hz2', readAt_unread_whole M6 h6 hz1,
    readAt_unread_whole M3 h3 hz3, readAt_unread_whole M4 h4 hz3']

set_option maxHeartbeats 1000000 in
/-- A middle relation: that relation's product is added to the accumulator; nothing else is touched. -/
theorem runB (c : Dev nD) (i : grid0.Coords) (hc1 : ¬ cond0_1 i) (hc2 : ¬ k0_cond2 i = 1#1)
    (M2 : Memref sig .tc .vmem S5000x128 .f32) (h2 : M2.IsWhole) (M3 : Memref sig .tc .vmem S1x5000x128 .f32) (h3 : M3.IsWhole)
    (M4 : Memref sig .tc .vmem S1x128x128 .f32) (h4 : M4.IsWhole) (M5 : Memref sig .tc .vmem S128x128 .f32) (h5 : M5.IsWhole)
    (M6 : Memref sig .tc .vmem S128 .f32) (h6 : M6.IsWhole) (M7 : Memref sig .tc .vmem S5000x128 .f32) (h7 : M7.IsWhole)
    (M8 : Memref sig .tc .vmem S5000x128 .f32) (h8 : M8.IsWhole)
    (acc : Vec F S5000x128 .f32) (ag : Vec F S1x5000x128 .f32) (w : Vec F S1x128x128 .f32)
    (E : Set ℕ) (K : PUnit → sProp 𝕄) :
    iprop(owns (c : Thread nD τ) M3 fullShare ag ∗ owns (c : Thread nD τ) M4 fullShare w ∗ owns (c : Thread nD τ) M8 fullShare acc
        ∗ (iprop(owns (c : Thread nD τ) M3 fullShare ag ∗ owns (c : Thread nD τ) M4 fullShare w
            ∗ owns (c : Thread nD τ) M8 fullShare (k0_pay2 acc ag w)) -∗ K ⟨⟩))
      ⊢ wp frame (wpE (defs₀ (F := F)) Variants.none c none) E (cc0__rgcn_mm_kernel i M2 h2 M3 h3 M4 h4 M5 h5 M6 h6 M7 h7 M8 h8) K := by
  simp only [cc0__rgcn_mm_kernel_eq_skeleton]; unfold cc0__rgcn_mm_kernel_skel
  unfold owns
  iintro ⟨⟨%f3, %hf3, H3⟩, ⟨%f4, %hf4, H4⟩, ⟨%f8, %hf8, H8⟩, Hk⟩
  obtain rfl := h3.eq_unread hf3
  obtain rfl := h4.eq_unread hf4
  obtain rfl := h8.eq_unread hf8
  sl_exec (disch := first | exact hc1 | exact hc2)
  sl_step
  iapply Hk
  isplitl [H3]
  · iexists _; isplitr; · ipureintro; exact h3.read_unread _
    iexact H3
  isplitl [H4]
  · iexists _; isplitr; · ipureintro; exact h4.read_unread _
    iexact H4
  iexists _; isplitr; swap; · iexact H8
  ipureintro
  rw [View.read_writes_eq_canon _ _ _ (fun y => ⟨_, List.mem_cons_self, View.mem_set_unit_zero hz2 inb_S5000x128_S5000x128_0_0 y⟩), View.canon_cons_unit_zero hz2]
  sl_unfold_run_names
  rw [readAt_unread_whole M8 h8 hz2, readAt_unread_whole M3 h3 hz3, readAt_unread_whole M4 h4 hz3']

set_option maxHeartbeats 1000000 in
/-- Last relation: its product is added to the accumulator, and the output block is set to the accumulator clamped below at zero. -/
theorem runC (c : Dev nD) (i : grid0.Coords) (hc1 : ¬ cond0_1 i) (hc2 : k0_cond2 i = 1#1)
    (M2 : Memref sig .tc .vmem S5000x128 .f32) (h2 : M2.IsWhole) (M3 : Memref sig .tc .vmem S1x5000x128 .f32) (h3 : M3.IsWhole)
    (M4 : Memref sig .tc .vmem S1x128x128 .f32) (h4 : M4.IsWhole) (M5 : Memref sig .tc .vmem S128x128 .f32) (h5 : M5.IsWhole)
    (M6 : Memref sig .tc .vmem S128 .f32) (h6 : M6.IsWhole) (M7 : Memref sig .tc .vmem S5000x128 .f32) (h7 : M7.IsWhole)
    (M8 : Memref sig .tc .vmem S5000x128 .f32) (h8 : M8.IsWhole)
    (acc : Vec F S5000x128 .f32) (ag : Vec F S1x5000x128 .f32) (w : Vec F S1x128x128 .f32)
    (E : Set ℕ) (K : PUnit → sProp 𝕄) :
    iprop(owns (c : Thread nD τ) M3 fullShare ag ∗ owns (c : Thread nD τ) M4 fullShare w ∗ owns (c : Thread nD τ) M8 fullShare acc
        ∗ (∃ d, owns (c : Thread nD τ) M7 fullShare d)
        ∗ (iprop(owns (c : Thread nD τ) M3 fullShare ag ∗ owns (c : Thread nD τ) M4 fullShare w
            ∗ owns (c : Thread nD τ) M8 fullShare (k0_pay2 acc ag w)
            ∗ owns (c : Thread nD τ) M7 fullShare (k0_pay3 (k0_pay2 acc ag w))) -∗ K ⟨⟩))
      ⊢ wp frame (wpE (defs₀ (F := F)) Variants.none c none) E (cc0__rgcn_mm_kernel i M2 h2 M3 h3 M4 h4 M5 h5 M6 h6 M7 h7 M8 h8) K := by
  simp only [cc0__rgcn_mm_kernel_eq_skeleton]; unfold cc0__rgcn_mm_kernel_skel
  unfold owns
  iintro ⟨⟨%f3, %hf3, H3⟩, ⟨%f4, %hf4, H4⟩, ⟨%f8, %hf8, H8⟩, ⟨%d7, %f7, -, H7⟩, Hk⟩
  obtain rfl := h3.eq_unread hf3
  obtain rfl := h4.eq_unread hf4
  obtain rfl := h8.eq_unread hf8
  sl_exec (disch := first | exact hc1 | exact hc2)
  sl_step
  iapply Hk
  isplitl [H3]
  · iexists _; isplitr; · ipureintro; exact h3.read_unread _
    iexact H3
  isplitl [H4]
  · iexists _; isplitr; · ipureintro; exact h4.read_unread _
    iexact H4
  isplitl [H8]
  · iexists _; isplitr; swap; · iexact H8
    ipureintro
    (try sl_unfold_run_names)
    rw [View.read_writes_eq_canon _ _ _ (fun y => ⟨_, List.mem_cons_self, View.mem_set_unit_zero hz2 inb_S5000x128_S5000x128_0_0 y⟩), View.canon_cons_unit_zero hz2]
    (try sl_unfold_run_names)
    rw [readAt_unread_whole M8 h8 hz2, readAt_unread_whole M3 h3 hz3, readAt_unread_whole M4 h4 hz3']
  iexists _; isplitr; swap; · iexact H7
  ipureintro
  (try sl_unfold_run_names)
  rw [View.read_writes_eq_canon _ _ _ (fun y => ⟨_, List.mem_cons_self, View.mem_set_unit_zero hz2 inb_S5000x128_S5000x128_0_0 y⟩), View.canon_cons_unit_zero hz2]
  (try sl_unfold_run_names)
  rw [View.readCov_unit_zero _ hz2, readAt_unread_whole M8 h8 hz2, readAt_unread_whole M3 h3 hz3, readAt_unread_whole M4 h4 hz3']

end Cert.Kernel.Run0

end
-- ==== Proof.KReg0.lean ====
import proofs.«171321_j63273458205156_1_alg».proof.Proof.Gen.Kernel.Launch
import proofs.«171321_j63273458205156_1_alg».proof.Proof.Gen.Kernel.Skeleton
import proofs.«171321_j63273458205156_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic
import proofs.«171321_j63273458205156_1_alg».proof.Proof.KRun0

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-!
pallas_call 0 as a pipeline over a 20 × 8 grid (row tile, relation), entered with the TensorCore's buffers at `V`.

Point `t` works on row tile `t / 8` and relation `t % 8`. The scratch accumulator after point `t` (`accAt`) is, by recursion
on the point: at a first relation the root term plus bias plus relation 0's product of that tile's blocks; otherwise the
previous point's accumulator plus this relation's product. The output block is written at last relations only, as the
accumulator clamped below at zero; at every other point its staging buffer is handed back as found. The invariant between
points holds the scratch at the accumulator, and whatever returns the rest of the core's scoped buffers once the scratch
is given back.
-/

open Cert.Kernel.Run0

section Region
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## An input window's staging buffer holds its block at every point, fetched there or not -/

theorem before_in_0 {c : Dev nD} (dat : Dat τ (Elt F) Unit ℕ (Pipeline.UD sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in_1 {c : Dev nD} (dat : Dat τ (Elt F) Unit ℕ (Pipeline.UD sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in_2 {c : Dev nD} (dat : Dat τ (Elt F) Unit ℕ (Pipeline.UD sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in_3 {c : Dev nD} (dat : Dat τ (Elt F) Unit ℕ (Pipeline.UD sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_in_4 {c : Dev nD} (dat : Dat τ (Elt F) Unit ℕ (Pipeline.UD sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The branch conditions and the schedule, decided over the grid -/

theorem hc1_iff : ∀ t : Fin cfg0.N, cond0_1 (grid0.coords t) ↔ t.val % 8 = 0 :=
  (by decide +kernel : ∀ t : Fin grid0.N, cond0_1 (grid0.coords t) ↔ t.val % 8 = 0)
theorem hc2_iff : ∀ t : Fin cfg0.N, k0_cond2 (grid0.coords t) = 1#1 ↔ t.val % 8 = 7 :=
  (by decide +kernel : ∀ t : Fin grid0.N, k0_cond2 (grid0.coords t) = 1#1 ↔ t.val % 8 = 7)
theorem idle5_iff : ∀ t : Fin cfg0.N, cfg0.idle 5 (cfg0.grid.coords t) = true ↔ t.val % 8 ≠ 7 :=
  (by decide +kernel : ∀ t : Fin grid0.N, idle0 5 (grid0.coords t) = true ↔ t.val % 8 ≠ 7)

/-! ## The accumulator, point by point -/

/-- The scratch accumulator's memref. -/
abbrev scM : Memref sig .tc .vmem S5000x128 .f32 := Memref.whole cc0_scratch0

/-- Point number `n` (taken modulo the 160 points). -/
def pt (n : ℕ) : Fin cfg0.N := ⟨n % 160, by rw [show cfg0.N = 160 from N_0]; exact Nat.mod_lt _ (by decide)⟩
theorem pt_val (t : Fin cfg0.N) : pt t.val = t :=
  Fin.ext (Nat.mod_eq_of_lt (by have := t.isLt; have hN : cfg0.N = 160 := N_0; omega))

/-- The accumulator after a first relation's point: root term, bias and relation 0's product of the point's blocks. -/
def initAt (c : Dev nD) (t : Fin cfg0.N) : Vec F S5000x128 .f32 :=
  k0_pay2 (k0_pay1 (iblk V c 0 t) (iblk V c 3 t) (iblk V c 4 t)) (iblk V c 1 t) (iblk V c 2 t)
/-- The accumulator after a later relation's point: the previous one plus this relation's product. -/
def addAt (c : Dev nD) (prev : Vec F S5000x128 .f32) (t : Fin cfg0.N) : Vec F S5000x128 .f32 :=
  k0_pay2 prev (iblk V c 1 t) (iblk V c 2 t)
/-- The accumulator after point `n`. -/
def accAt (c : Dev nD) : ℕ → Vec F S5000x128 .f32
  | 0 => initAt V c (pt 0)
  | n + 1 => if (n + 1) % 8 = 0 then initAt V c (pt (n + 1)) else addAt V c (accAt c n) (pt (n + 1))

theorem accAt_first (c : Dev nD) (t : Fin cfg0.N) (h : t.val % 8 = 0) : accAt V c t.val = initAt V c t := by
  have key : ∀ k, k % 8 = 0 → accAt V c k = initAt V c (pt k) := by
    intro k hk
    cases k with
    | zero => rfl
    | succ n => show (if (n + 1) % 8 = 0 then _ else _) = _; rw [if_pos hk]
  rw [key _ h, pt_val]
theorem accAt_next (c : Dev nD) (t : Fin cfg0.N) (n : ℕ) (hn : t.val = n + 1) (h : t.val % 8 ≠ 0) :
    accAt V c t.val = addAt V c (accAt V c n) t := by
  have key : ∀ k, (k + 1) % 8 ≠ 0 → accAt V c (k + 1) = addAt V c (accAt V c k) (pt (k + 1)) := by
    intro k hk; show (if (k + 1) % 8 = 0 then _ else _) = _; rw [if_neg hk]
  have e := key n (by omega)
  have hp : pt (n + 1) = t := by rw [← hn, pt_val]
  rw [hn, e, hp]

/-! ## The invariant between points -/

/-- What gives back the core's other scoped buffers once the scratch is returned at any contents. -/
def Back (c : Dev nD) : sProp 𝕄 :=
  iprop((∃ d, owns (c : Thread nD τ) scM fullShare d) -∗ Pipeline.scopedRest (Ix := Unit) (Name := ℕ) (U := Pipeline.UD sig nD τ) (Lvl := ℕ) (Val := Elt F) spec0 c)

/-- Before point `n`: at the first point the scoped buffers as the region found them; later, the scratch at the previous point's accumulator. -/
def Phi (c : Dev nD) : ℕ → sProp 𝕄
  | 0 => Pipeline.scopedRest (Ix := Unit) (Name := ℕ) (U := Pipeline.UD sig nD τ) (Lvl := ℕ) (Val := Elt F) spec0 c
  | n + 1 => iprop(owns (c : Thread nD τ) scM fullShare (accAt V c n) ∗ Back c)

/-- The scoped buffers split into the scratch at some contents and what returns the rest. -/
theorem scoped_split (c : Dev nD) :
    (Pipeline.scopedRest (Ix := Unit) (Name := ℕ) (U := Pipeline.UD sig nD τ) (Lvl := ℕ) (Val := Elt F) spec0 c : sProp 𝕄)
      ⊢ iprop((∃ d, owns (c : Thread nD τ) scM fullShare d) ∗ Back c) := by
  unfold Back
  rw [scopedRest0_eq]
  simp only [owns_whole]
  iintro ⟨⟨%fs, Hs⟩, R0, R1, R2, R3, R4, R5, R6, R7, R8, R9, R10⟩
  isplitl [Hs]
  · iexists fs; iexact Hs
  iintro ⟨%d, Hs'⟩
  isplitl [Hs']; · iexists d; iexact Hs'
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  iexact R10

/-- At any point the invariant yields the scratch at some contents and what returns the rest. -/
theorem Phi_open (c : Dev nD) : ∀ n, Phi V c n ⊢ iprop((∃ d, owns (c : Thread nD τ) scM fullShare d) ∗ Back c)
  | 0 => scoped_split c
  | n + 1 => by
    unfold Phi
    iintro ⟨Hs, Hb⟩
    isplitl [Hs]; · iexists _; iexact Hs
    iexact Hb

/-- The invariant gives the scoped buffers back. -/
theorem Phi_close (c : Dev nD) (n : ℕ) :
    Phi V c n ⊢ (Pipeline.scopedRest (Ix := Unit) (Name := ℕ) (U := Pipeline.UD sig nD τ) (Lvl := ℕ) (Val := Elt F) spec0 c : sProp 𝕄) := by
  refine (Phi_open V c n).trans ?_
  unfold Back
  iintro ⟨Hs, Hb⟩
  iapply Hb; iexact Hs

/-! ## The pipeline's proof data -/

/-- The proof data: the arrays as found; after the body each input's buffer at its block, the output's at the accumulator
    clamped below at zero (read only at last relations); the invariant above; nothing owed; full shares. -/
def dat (c : Dev nD) : Dat τ (Elt F) Unit ℕ (Pipeline.UD sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => k0_pay3 (accAt V c t.val)
  Φ t := Phi V c t.val
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = k0_pay3 (accAt V c t.val) := by dsimp only [dat]
theorem before_0 (c : Dev nD) (t : Fin cfg0.N) (d) : (dat V c).before 0 t d = iblk V c 0 t := before_in_0 V (dat V c) (A_eq V c 0) (after_0 V c) t d
theorem before_1 (c : Dev nD) (t : Fin cfg0.N) (d) : (dat V c).before 1 t d = iblk V c 1 t := before_in_1 V (dat V c) (A_eq V c 1) (after_1 V c) t d
theorem before_2 (c : Dev nD) (t : Fin cfg0.N) (d) : (dat V c).before 2 t d = iblk V c 2 t := before_in_2 V (dat V c) (A_eq V c 2) (after_2 V c) t d
theorem before_3 (c : Dev nD) (t : Fin cfg0.N) (d) : (dat V c).before 3 t d = iblk V c 3 t := before_in_3 V (dat V c) (A_eq V c 3) (after_3 V c) t d
theorem before_4 (c : Dev nD) (t : Fin cfg0.N) (d) : (dat V c).before 4 t d = iblk V c 4 t := before_in_4 V (dat V c) (A_eq V c 4) (after_4 V c) t d

end Region

end Cert.Kernel.Reg0

end
-- ==== Proof.KBody0.lean ====
import proofs.«171321_j63273458205156_1_alg».proof.Proof.Gen.Kernel.Launch
import proofs.«171321_j63273458205156_1_alg».proof.Proof.Gen.Kernel.Skeleton
import proofs.«171321_j63273458205156_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic
import proofs.«171321_j63273458205156_1_alg».proof.Proof.KReg0

set_option maxRecDepth 16384

noncomputable section

namespace Cert.Kernel.Body0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-!
The body obligation of pallas_call 0: at every grid point the kernel body, called on the current staging buffers holding
the point's blocks and on the scratch at the previous accumulator, runs to its end leaving the scratch at this point's
accumulator, the inputs as they were, and the output block at the clamped accumulator at last relations (its buffer as
found at every other point). Three cases by the relation index `t % 8`: 0, 1 … 6, 7.
-/

open Cert.Kernel.Run0 Cert.Kernel.Reg0

section Body
variable (V : (c : Dev nD) → (b : Ref sig .tc) → Buf (Elt F) ((c : Thread nD τ).loc b))

theorem Phi_succ (c : Dev nD) (n : ℕ) :
    Phi V c (n + 1) = iprop(owns (c : Thread nD τ) scM fullShare (accAt V c n) ∗ Back c) := rfl

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ (dat V c).leavesExact 5 t)

set_option maxHeartbeats 1000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [after_0, after_1, after_2, after_3, after_4]
  rw [show (dat V c).Φ t.succ = Phi V c (t.val + 1) from rfl, show (dat V c).Φ t.castSucc = Phi V c t.val from rfl]
  unfold Dat.owesAt Pipeline.owesWithin
  rw [show (dat V c).owed t.castSucc = 0 from rfl, show (dat V c).owed t.succ = 0 from rfl]
  have hflush : t.val % 8 ≠ 7 → (cfg0.win 5).flush t = false := fun hne => by
    cases hq : (cfg0.win 5).flush t with
    | false => rfl
    | true => exact absurd ((flush0_5 t).mp hq) hne
  by_cases h0 : t.val % 8 = 0
  · -- first relation
    have hc1 : cond0_1 (grid0.coords t) := (hc1_iff t).mpr h0
    have hc2 : ¬ k0_cond2 (grid0.coords t) = 1#1 := fun h => by have := (hc2_iff t).mp h; omega
    have hidle : cfg0.idle 5 (cfg0.grid.coords t) = true := (idle5_iff t).mpr (by omega)
    have hfl := hflush (by omega)
    rw [Dat.leavesExact_idle (dat V c) 5 t hidle hfl]
    rw [Phi_succ, accAt_first V c t h0]; unfold initAt
    iintro ⟨HΦ, ⟨%W, -, HW⟩, ⟨%d0, H0⟩, ⟨%d1, H1⟩, ⟨%d2, H2⟩, ⟨%d3, H3⟩, ⟨%d4, H4⟩, H5⟩
    ihave HΦ' := (Phi_open V c t.val) $$ HΦ
    icases HΦ' with ⟨Hs, Hb⟩
    iapply (runA c (grid0.coords t) hc1 hc2 _ _ _ _ _ _ _ _ _ _ _ _ _ _ (iblk V c 0 t) (iblk V c 1 t) (iblk V c 2 t) (iblk V c 3 t) (iblk V c 4 t) Set.univ _)
    isplitl [H0]; · iexact H0
    isplitl [H1]; · iexact H1
    isplitl [H2]; · iexact H2
    isplitl [H3]; · iexact H3
    isplitl [H4]; · iexact H4
    isplitl [Hs]; · iexact Hs
    iintro ⟨H0, H1, H2, H3, H4, Hs⟩
    isplitl [Hs Hb]
    · isplitl [Hs]; · iexact Hs
      iexact Hb
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    iexact H5
  obtain ⟨n, hn⟩ : ∃ n, t.val = n + 1 := ⟨t.val - 1, by omega⟩
  have hΦ : Phi V c t.val = iprop(owns (c : Thread nD τ) scM fullShare (accAt V c n) ∗ Back c) := by rw [hn]; rfl
  have hc1 : ¬ cond0_1 (grid0.coords t) := fun h => h0 ((hc1_iff t).mp h)
  by_cases h7 : t.val % 8 = 7
  · -- last relation
    have hc2 : k0_cond2 (grid0.coords t) = 1#1 := (hc2_iff t).mpr h7
    have hidle : cfg0.idle 5 (cfg0.grid.coords t) = false :=
      Bool.eq_false_iff.mpr fun h => ((idle5_iff t).mp h) h7
    rw [show (dat V c).leavesExact 5 t = owns (c : Thread nD τ) (st0_5 t) fullShare ((dat V c).after 5 t) from by
      unfold Dat.leavesExact; rw [hidle], after_5]
    rw [hΦ, Phi_succ, accAt_next V c t n hn h0]; unfold addAt
    iintro ⟨⟨Hs, Hb⟩, ⟨%W, -, HW⟩, ⟨%d0, H0⟩, ⟨%d1, H1⟩, ⟨%d2, H2⟩, ⟨%d3, H3⟩, ⟨%d4, H4⟩, ⟨%d5, H5⟩⟩
    iapply (runC c (grid0.coords t) hc1 hc2 _ _ _ _ _ _ _ _ _ _ _ _ _ _ (accAt V c n) (iblk V c 1 t) (iblk V c 2 t) Set.univ _)
    isplitl [H1]; · iexact H1
    isplitl [H2]; · iexact H2
    isplitl [Hs]; · iexact Hs
    isplitl [H5]; · iexists _; iexact H5
    iintro ⟨H1, H2, Hs, H5⟩
    isplitl [Hs Hb]
    · isplitl [Hs]; · iexact Hs
      iexact Hb
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    iexact H5
  · -- a middle relation
    have hc2 : ¬ k0_cond2 (grid0.coords t) = 1#1 := fun h => h7 ((hc2_iff t).mp h)
    have hidle : cfg0.idle 5 (cfg0.grid.coords t) = true := (idle5_iff t).mpr h7
    have hfl := hflush h7
    rw [Dat.leavesExact_idle (dat V c) 5 t hidle hfl]
    rw [hΦ, Phi_succ, accAt_next V c t n hn h0]; unfold addAt
    iintro ⟨⟨Hs, Hb⟩, ⟨%W, -, HW⟩, ⟨%d0, H0⟩, ⟨%d1, H1⟩, ⟨%d2, H2⟩, ⟨%d3, H3⟩, ⟨%d4, H4⟩, H5⟩
    iapply (runB c (grid0.coords t) hc1 hc2 _ _ _ _ _ _ _ _ _ _ _ _ _ _ (accAt V c n) (iblk V c 1 t) (iblk V c 2 t) Set.univ _)
    isplitl [H1]; · iexact H1
    isplitl [H2]; · iexact H2
    isplitl [Hs]; · iexact Hs
    iintro ⟨H1, H2, Hs⟩
    isplitl [Hs Hb]
    · isplitl [Hs]; · iexact Hs
      iexact Hb
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dat (F := F) V c) (defs₀ (F := F)) Variants.none () Set.univ := fun t => by
  rw [bigSep_W0, bigSep_W0]
  exact sound_body V c t

end Body

end Cert.Kernel.Body0

end
-- ==== Proof.KRun1.lean ====
import proofs.«171321_j63273458205156_1_alg».proof.Proof.Gen.Kernel.Launch
import proofs.«171321_j63273458205156_1_alg».proof.Proof.Gen.Kernel.Skeleton
import proofs.«171321_j63273458205156_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Run1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-!
The body of pallas_call 1 run once per control case, on any whole staging buffers.

The body reads the relation index `r` (grid coordinate 1). At `r = 0` it first sets the scratch accumulator to
`x·root + bias`; at every `r` it adds `agg_r·W_r` to the accumulator; at `r = 7` it writes `max(acc, 0)` to the output
block. So there are three cases — first relation, a middle relation, last relation — and in each the buffers the
body stores into end at the stated pure functions of what it loaded (`k1_pay1`, `k1_pay2`, `k1_pay3`), every other
buffer as it was.
-/

/-- A load of the whole of a whole buffer whose contents read `X` reads `X`. -/
theorem readAt_unread_whole {sp : Space} {S : Shape} {e : EltTy} (M : Memref sig .tc sp S e) (h : M.IsWhole)
    {off : Fin S.rank → Nat} (hz : off = fun _ => 0) (inb : ∀ a, off a + S.size a ≤ S.size a) (X : S.Idx → Elt F e) :
    View.readAt (Elt F) M.view (Rect.unit off S.size inb).toLoadRect (h.unread X) = X := by
  rw [View.readAt_eq_ld, h.read_unread, View.ld_unit_zero hz]

theorem hz2 : (![0, 0] : Fin S5000x128.rank → Nat) = fun _ => 0 := by funext a; fin_cases a <;> rfl
theorem hz2' : (![0, 0] : Fin S128x128.rank → Nat) = fun _ => 0 := by funext a; fin_cases a <;> rfl
theorem hz3 : (![0, 0, 0] : Fin S1x5000x128.rank → Nat) = fun _ => 0 := by funext a; fin_cases a <;> rfl
theorem hz3' : (![0, 0, 0] : Fin S1x128x128.rank → Nat) = fun _ => 0 := by funext a; fin_cases a <;> rfl
theorem hz1 : (![0] : Fin S128.rank → Nat) = fun _ => 0 := by funext a; fin_cases a; rfl

/-- "The relation index is 0", as the body computes it from the grid point. -/
abbrev cond1_1 (i : grid1.Coords) : Prop := (Scalar.cmpi .ne (Scalar.extui (Scalar.cmpi .eq (BitVec.ofNat 32 (i 1).val) 0#32)) 0#32) = 1#1

set_option maxHeartbeats 1000000 in
/-- First relation: the accumulator is set to `x·root + bias` and relation 0's product is added; the output block is not touched. -/
theorem runA (c : Dev nD) (i : grid1.Coords) (hc1 : cond1_1 i) (hc2 : ¬ k1_cond2 i = 1#1)
    (M2 : Memref sig .tc .vmem S5000x128 .f32) (h2 : M2.IsWhole) (M3 : Memref sig .tc .vmem S1x5000x128 .f32) (h3 : M3.IsWhole)
    (M4 : Memref sig .tc .vmem S1x128x128 .f32) (h4 : M4.IsWhole) (M5 : Memref sig .tc .vmem S128x128 .f32) (h5 : M5.IsWhole)
    (M6 : Memref sig .tc .vmem S128 .f32) (h6 : M6.IsWhole) (M7 : Memref sig .tc .vmem S5000x128 .f32) (h7 : M7.IsWhole)
    (M8 : Memref sig .tc .vmem S5000x128 .f32) (h8 : M8.IsWhole)
    (x : Vec F S5000x128 .f32) (ag : Vec F S1x5000x128 .f32) (w : Vec F S1x128x128 .f32) (rt : Vec F S128x128 .f32) (bs : Vec F S128 .f32)
    (E : Set ℕ) (K : PUnit → sProp 𝕄) :
    iprop(owns (c : Thread nD τ) M2 fullShare x ∗ owns (c : Thread nD τ) M3 fullShare ag ∗ owns (c : Thread nD τ) M4 fullShare w
        ∗ owns (c : Thread nD τ) M5 fullShare rt ∗ owns (c : Thread nD τ) M6 fullShare bs ∗ (∃ d, owns (c : Thread nD τ) M8 fullShare d)
        ∗ (iprop(owns (c : Thread nD τ) M2 fullShare x ∗ owns (c : Thread nD τ) M3 fullShare ag ∗ owns (c : Thread nD τ) M4 fullShare w
            ∗ owns (c : Thread nD τ) M5 fullShare rt ∗ owns (c : Thread nD τ) M6 fullShare bs
            ∗ owns (c : Thread nD τ) M8 fullShare (k1_pay2 (k1_pay1 x rt bs) ag w)) -∗ K ⟨⟩))
      ⊢ wp frame (wpE (defs₀ (F := F)) Variants.none c none) E (cc1__rgcn_mm_kernel i M2 h2 M3 h3 M4 h4 M5 h5 M6 h6 M7 h7 M8 h8) K := by
  simp only [cc1__rgcn_mm_kernel_eq_skeleton]; unfold cc1__rgcn_mm_kernel_skel
  unfold owns
  iintro ⟨⟨%f2, %hf2, H2⟩, ⟨%f3, %hf3, H3⟩, ⟨%f4, %hf4, H4⟩, ⟨%f5, %hf5, H5⟩, ⟨%f6, %hf6, H6⟩, ⟨%d8, %f8, -, H8⟩, Hk⟩
  obtain rfl := h2.eq_unread hf2
  obtain rfl := h3.eq_unread hf3
  obtain rfl := h4.eq_unread hf4
  obtain rfl := h5.eq_unread hf5
  obtain rfl := h6.eq_unread hf6
  sl_exec (disch := first | exact hc1 | exact hc2)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  iexists _; isplitr; swap; · iexact H8
  ipureintro
  rw [View.read_writes_eq_canon _ _ _ (fun y => ⟨_, List.mem_cons_self, View.mem_set_unit_zero hz2 inb_S5000x128_S5000x128_0_0 y⟩), View.canon_cons_unit_zero hz2]
  sl_unfold_run_names
  rw [View.readCov_unit_zero _ hz2, readAt_unread_whole M2 h2 hz2, readAt_unread_whole M5 h5 hz2', readAt_unread_whole M6 h6 hz1,
    readAt_unread_whole M3 h3 hz3, readAt_unread_whole M4 h4 hz3']

set_option maxHeartbeats 1000000 in
/-- A middle relation: that relation's product is added to the accumulator; nothing else is touched. -/
theorem runB (c : Dev nD) (i : grid1.Coords) (hc1 : ¬ cond1_1 i) (hc2 : ¬ k1_cond2 i = 1#1)
    (M2 : Memref sig .tc .vmem S5000x128 .f32) (h2 : M2.IsWhole) (M3 : Memref sig .tc .vmem S1x5000x128 .f32) (h3 : M3.IsWhole)
    (M4 : Memref sig .tc .vmem S1x128x128 .f32) (h4 : M4.IsWhole) (M5 : Memref sig .tc .vmem S128x128 .f32) (h5 : M5.IsWhole)
    (M6 : Memref sig .tc .vmem S128 .f32) (h6 : M6.IsWhole) (M7 : Memref sig .tc .vmem S5000x128 .f32) (h7 : M7.IsWhole)
    (M8 : Memref sig .tc .vmem S5000x128 .f32) (h8 : M8.IsWhole)
    (acc : Vec F S5000x128 .f32) (ag : Vec F S1x5000x128 .f32) (w : Vec F S1x128x128 .f32)
    (E : Set ℕ) (K : PUnit → sProp 𝕄) :
    iprop(owns (c : Thread nD τ) M3 fullShare ag ∗ owns (c : Thread nD τ) M4 fullShare w ∗ owns (c : Thread nD τ) M8 fullShare acc
        ∗ (iprop(owns (c : Thread nD τ) M3 fullShare ag ∗ owns (c : Thread nD τ) M4 fullShare w
            ∗ owns (c : Thread nD τ) M8 fullShare (k1_pay2 acc ag w)) -∗ K ⟨⟩))
      ⊢ wp frame (wpE (defs₀ (F := F)) Variants.none c none) E (cc1__rgcn_mm_kernel i M2 h2 M3 h3 M4 h4 M5 h5 M6 h6 M7 h7 M8 h8) K := by
  simp only [cc1__rgcn_mm_kernel_eq_skeleton]; unfold cc1__rgcn_mm_kernel_skel
  unfold owns
  iintro ⟨⟨%f3, %hf3, H3⟩, ⟨%f4, %hf4, H4⟩, ⟨%f8, %hf8, H8⟩, Hk⟩
  obtain rfl := h3.eq_unread hf3
  obtain rfl := h4.eq_unread hf4
  obtain rfl := h8.eq_unread hf8
  sl_exec (disch := first | exact hc1 | exact hc2)
  sl_step
  iapply Hk
  isplitl [H3]
  · iexists _; isplitr; · ipureintro; exact h3.read_unread _
    iexact H3
  isplitl [H4]
  · iexists _; isplitr; · ipureintro; exact h4.read_unread _
    iexact H4
  iexists _; isplitr; swap; · iexact H8
  ipureintro
  rw [View.read_writes_eq_canon _ _ _ (fun y => ⟨_, List.mem_cons_self, View.mem_set_unit_zero hz2 inb_S5000x128_S5000x128_0_0 y⟩), View.canon_cons_unit_zero hz2]
  sl_unfold_run_names
  rw [readAt_unread_whole M8 h8 hz2, readAt_unread_whole M3 h3 hz3, readAt_unread_whole M4 h4 hz3']

set_option maxHeartbeats 1000000 in
/-- Last relation: its product is added to the accumulator, and the output block is set to the accumulator clamped below at zero. -/
theorem runC (c : Dev nD) (i : grid1.Coords) (hc1 : ¬ cond1_1 i) (hc2 : k1_cond2 i = 1#1)
    (M2 : Memref sig .tc .vmem S5000x128 .f32) (h2 : M2.IsWhole) (M3 : Memref sig .tc .vmem S1x5000x128 .f32) (h3 : M3.IsWhole)
    (M4 : Memref sig .tc .vmem S1x128x128 .f32) (h4 : M4.IsWhole) (M5 : Memref sig .tc .vmem S128x128 .f32) (h5 : M5.IsWhole)
    (M6 : Memref sig .tc .vmem S128 .f32) (h6 : M6.IsWhole) (M7 : Memref sig .tc .vmem S5000x128 .f32) (h7 : M7.IsWhole)
    (M8 : Memref sig .tc .vmem S5000x128 .f32) (h8 : M8.IsWhole)
    (acc : Vec F S5000x128 .f32) (ag : Vec F S1x5000x128 .f32) (w : Vec F S1x128x128 .f32)
    (E : Set ℕ) (K : PUnit → sProp 𝕄) :
    iprop(owns (c : Thread nD τ) M3 fullShare ag ∗ owns (c : Thread nD τ) M4 fullShare w ∗ owns (c : Thread nD τ) M8 fullShare acc
        ∗ (∃ d, owns (c : Thread nD τ) M7 fullShare d)
        ∗ (iprop(owns (c : Thread nD τ) M3 fullShare ag ∗ owns (c : Thread nD τ) M4 fullShare w
            ∗ owns (c : Thread nD τ) M8 fullShare (k1_pay2 acc ag w)
            ∗ owns (c : Thread nD τ) M7 fullShare (k1_pay3 (k1_pay2 acc ag w))) -∗ K ⟨⟩))
      ⊢ wp frame (wpE (defs₀ (F := F)) Variants.none c none) E (cc1__rgcn_mm_kernel i M2 h2 M3 h3 M4 h4 M5 h5 M6 h6 M7 h7 M8 h8) K := by
  simp only [cc1__rgcn_mm_kernel_eq_skeleton]; unfold cc1__rgcn_mm_kernel_skel
  unfold owns
  iintro ⟨⟨%f3, %hf3, H3⟩, ⟨%f4, %hf4, H4⟩, ⟨%f8, %hf8, H8⟩, ⟨%d7, %f7, -, H7⟩, Hk⟩
  obtain rfl := h3.eq_unread hf3
  obtain rfl := h4.eq_unread hf4
  obtain rfl := h8.eq_unread hf8
  sl_exec (disch := first | exact hc1 | exact hc2)
  sl_step
  iapply Hk
  isplitl [H3]
  · iexists _; isplitr; · ipureintro; exact h3.read_unread _
    iexact H3
  isplitl [H4]
  · iexists _; isplitr; · ipureintro; exact h4.read_unread _
    iexact H4
  isplitl [H8]
  · iexists _; isplitr; swap; · iexact H8
    ipureintro
    (try sl_unfold_run_names)
    rw [View.read_writes_eq_canon _ _ _ (fun y => ⟨_, List.mem_cons_self, View.mem_set_unit_zero hz2 inb_S5000x128_S5000x128_0_0 y⟩), View.canon_cons_unit_zero hz2]
    (try sl_unfold_run_names)
    rw [readAt_unread_whole M8 h8 hz2, readAt_unread_whole M3 h3 hz3, readAt_unread_whole M4 h4 hz3']
  iexists _; isplitr; swap; · iexact H7
  ipureintro
  (try sl_unfold_run_names)
  rw [View.read_writes_eq_canon _ _ _ (fun y => ⟨_, List.mem_cons_self, View.mem_set_unit_zero hz2 inb_S5000x128_S5000x128_0_0 y⟩), View.canon_cons_unit_zero hz2]
  (try sl_unfold_run_names)
  rw [View.readCov_unit_zero _ hz2, readAt_unread_whole M8 h8 hz2, readAt_unread_whole M3 h3 hz3, readAt_unread_whole M4 h4 hz3']

end Cert.Kernel.Run1

end
-- ==== Proof.KReg1.lean ====
import proofs.«171321_j63273458205156_1_alg».proof.Proof.Gen.Kernel.Launch
import proofs.«171321_j63273458205156_1_alg».proof.Proof.Gen.Kernel.Skeleton
import proofs.«171321_j63273458205156_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic
import proofs.«171321_j63273458205156_1_alg».proof.Proof.KRun1

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-!
pallas_call 1 as a pipeline over a 20 × 8 grid (row tile, relation), entered with the TensorCore's buffers at `V`.

Point `t` works on row tile `t / 8` and relation `t % 8`. The scratch accumulator after point `t` (`accAt`) is, by recursion
on the point: at a first relation the root term plus bias plus relation 0's product of that tile's blocks; otherwise the
previous point's accumulator plus this relation's product. The output block is written at last relations only, as the
accumulator clamped below at zero; at every other point its staging buffer is handed back as found. The invariant between
points holds the scratch at the accumulator, and whatever returns the rest of the core's scoped buffers once the scratch
is given back.
-/

open Cert.Kernel.Run1

section Region
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## An input window's staging buffer holds its block at every point, fetched there or not -/

theorem before_in_0 {c : Dev nD} (dat : Dat τ (Elt F) Unit ℕ (Pipeline.UD sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in_1 {c : Dev nD} (dat : Dat τ (Elt F) Unit ℕ (Pipeline.UD sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in_2 {c : Dev nD} (dat : Dat τ (Elt F) Unit ℕ (Pipeline.UD sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in_3 {c : Dev nD} (dat : Dat τ (Elt F) Unit ℕ (Pipeline.UD sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_in_4 {c : Dev nD} (dat : Dat τ (Elt F) Unit ℕ (Pipeline.UD sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The branch conditions and the schedule, decided over the grid -/

theorem hc1_iff : ∀ t : Fin cfg1.N, cond1_1 (grid1.coords t) ↔ t.val % 8 = 0 :=
  (by decide +kernel : ∀ t : Fin grid1.N, cond1_1 (grid1.coords t) ↔ t.val % 8 = 0)
theorem hc2_iff : ∀ t : Fin cfg1.N, k1_cond2 (grid1.coords t) = 1#1 ↔ t.val % 8 = 7 :=
  (by decide +kernel : ∀ t : Fin grid1.N, k1_cond2 (grid1.coords t) = 1#1 ↔ t.val % 8 = 7)
theorem idle5_iff : ∀ t : Fin cfg1.N, cfg1.idle 5 (cfg1.grid.coords t) = true ↔ t.val % 8 ≠ 7 :=
  (by decide +kernel : ∀ t : Fin grid1.N, idle1 5 (grid1.coords t) = true ↔ t.val % 8 ≠ 7)

/-! ## The accumulator, point by point -/

/-- The scratch accumulator's memref. -/
abbrev scM : Memref sig .tc .vmem S5000x128 .f32 := Memref.whole cc1_scratch0

/-- Point number `n` (taken modulo the 160 points). -/
def pt (n : ℕ) : Fin cfg1.N := ⟨n % 160, by rw [show cfg1.N = 160 from N_1]; exact Nat.mod_lt _ (by decide)⟩
theorem pt_val (t : Fin cfg1.N) : pt t.val = t :=
  Fin.ext (Nat.mod_eq_of_lt (by have := t.isLt; have hN : cfg1.N = 160 := N_1; omega))

/-- The accumulator after a first relation's point: root term, bias and relation 0's product of the point's blocks. -/
def initAt (c : Dev nD) (t : Fin cfg1.N) : Vec F S5000x128 .f32 :=
  k1_pay2 (k1_pay1 (iblk V c 0 t) (iblk V c 3 t) (iblk V c 4 t)) (iblk V c 1 t) (iblk V c 2 t)
/-- The accumulator after a later relation's point: the previous one plus this relation's product. -/
def addAt (c : Dev nD) (prev : Vec F S5000x128 .f32) (t : Fin cfg1.N) : Vec F S5000x128 .f32 :=
  k1_pay2 prev (iblk V c 1 t) (iblk V c 2 t)
/-- The accumulator after point `n`. -/
def accAt (c : Dev nD) : ℕ → Vec F S5000x128 .f32
  | 0 => initAt V c (pt 0)
  | n + 1 => if (n + 1) % 8 = 0 then initAt V c (pt (n + 1)) else addAt V c (accAt c n) (pt (n + 1))

theorem accAt_first (c : Dev nD) (t : Fin cfg1.N) (h : t.val % 8 = 0) : accAt V c t.val = initAt V c t := by
  have key : ∀ k, k % 8 = 0 → accAt V c k = initAt V c (pt k) := by
    intro k hk
    cases k with
    | zero => rfl
    | succ n => show (if (n + 1) % 8 = 0 then _ else _) = _; rw [if_pos hk]
  rw [key _ h, pt_val]
theorem accAt_next (c : Dev nD) (t : Fin cfg1.N) (n : ℕ) (hn : t.val = n + 1) (h : t.val % 8 ≠ 0) :
    accAt V c t.val = addAt V c (accAt V c n) t := by
  have key : ∀ k, (k + 1) % 8 ≠ 0 → accAt V c (k + 1) = addAt V c (accAt V c k) (pt (k + 1)) := by
    intro k hk; show (if (k + 1) % 8 = 0 then _ else _) = _; rw [if_neg hk]
  have e := key n (by omega)
  have hp : pt (n + 1) = t := by rw [← hn, pt_val]
  rw [hn, e, hp]

/-! ## The invariant between points -/

/-- What gives back the core's other scoped buffers once the scratch is returned at any contents. -/
def Back (c : Dev nD) : sProp 𝕄 :=
  iprop((∃ d, owns (c : Thread nD τ) scM fullShare d) -∗ Pipeline.scopedRest (Ix := Unit) (Name := ℕ) (U := Pipeline.UD sig nD τ) (Lvl := ℕ) (Val := Elt F) spec1 c)

/-- Before point `n`: at the first point the scoped buffers as the region found them; later, the scratch at the previous point's accumulator. -/
def Phi (c : Dev nD) : ℕ → sProp 𝕄
  | 0 => Pipeline.scopedRest (Ix := Unit) (Name := ℕ) (U := Pipeline.UD sig nD τ) (Lvl := ℕ) (Val := Elt F) spec1 c
  | n + 1 => iprop(owns (c : Thread nD τ) scM fullShare (accAt V c n) ∗ Back c)

/-- The scoped buffers split into the scratch at some contents and what returns the rest. -/
theorem scoped_split (c : Dev nD) :
    (Pipeline.scopedRest (Ix := Unit) (Name := ℕ) (U := Pipeline.UD sig nD τ) (Lvl := ℕ) (Val := Elt F) spec1 c : sProp 𝕄)
      ⊢ iprop((∃ d, owns (c : Thread nD τ) scM fullShare d) ∗ Back c) := by
  unfold Back
  rw [scopedRest1_eq]
  simp only [owns_whole]
  iintro ⟨R0, R1, R2, R3, R4, R5, R6, R7, R8, R9, R10, ⟨%fs, Hs⟩⟩
  isplitl [Hs]
  · iexists fs; iexact Hs
  iintro ⟨%d, Hs'⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  iexists d; iexact Hs'

/-- At any point the invariant yields the scratch at some contents and what returns the rest. -/
theorem Phi_open (c : Dev nD) : ∀ n, Phi V c n ⊢ iprop((∃ d, owns (c : Thread nD τ) scM fullShare d) ∗ Back c)
  | 0 => scoped_split c
  | n + 1 => by
    unfold Phi
    iintro ⟨Hs, Hb⟩
    isplitl [Hs]; · iexists _; iexact Hs
    iexact Hb

/-- The invariant gives the scoped buffers back. -/
theorem Phi_close (c : Dev nD) (n : ℕ) :
    Phi V c n ⊢ (Pipeline.scopedRest (Ix := Unit) (Name := ℕ) (U := Pipeline.UD sig nD τ) (Lvl := ℕ) (Val := Elt F) spec1 c : sProp 𝕄) := by
  refine (Phi_open V c n).trans ?_
  unfold Back
  iintro ⟨Hs, Hb⟩
  iapply Hb; iexact Hs

/-! ## The pipeline's proof data -/

/-- The proof data: the arrays as found; after the body each input's buffer at its block, the output's at the accumulator
    clamped below at zero (read only at last relations); the invariant above; nothing owed; full shares. -/
def dat (c : Dev nD) : Dat τ (Elt F) Unit ℕ (Pipeline.UD sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => k1_pay3 (accAt V c t.val)
  Φ t := Phi V c t.val
  q _ := fullShare
  owed _ := 0

theorem A_eq (c : Dev nD) (w : Fin cfg1.W) : (dat V c).A w = V c (Pipeline.arrRef spec1 w) := by dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = k1_pay3 (accAt V c t.val) := by dsimp only [dat]
theorem before_0 (c : Dev nD) (t : Fin cfg1.N) (d) : (dat V c).before 0 t d = iblk V c 0 t := before_in_0 V (dat V c) (A_eq V c 0) (after_0 V c) t d
theorem before_1 (c : Dev nD) (t : Fin cfg1.N) (d) : (dat V c).before 1 t d = iblk V c 1 t := before_in_1 V (dat V c) (A_eq V c 1) (after_1 V c) t d
theorem before_2 (c : Dev nD) (t : Fin cfg1.N) (d) : (dat V c).before 2 t d = iblk V c 2 t := before_in_2 V (dat V c) (A_eq V c 2) (after_2 V c) t d
theorem before_3 (c : Dev nD) (t : Fin cfg1.N) (d) : (dat V c).before 3 t d = iblk V c 3 t := before_in_3 V (dat V c) (A_eq V c 3) (after_3 V c) t d
theorem before_4 (c : Dev nD) (t : Fin cfg1.N) (d) : (dat V c).before 4 t d = iblk V c 4 t := before_in_4 V (dat V c) (A_eq V c 4) (after_4 V c) t d

end Region

end Cert.Kernel.Reg1

end
-- ==== Proof.KBody1.lean ====
import proofs.«171321_j63273458205156_1_alg».proof.Proof.Gen.Kernel.Launch
import proofs.«171321_j63273458205156_1_alg».proof.Proof.Gen.Kernel.Skeleton
import proofs.«171321_j63273458205156_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic
import proofs.«171321_j63273458205156_1_alg».proof.Proof.KReg1

set_option maxRecDepth 16384

noncomputable section

namespace Cert.Kernel.Body1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-!
The body obligation of pallas_call 1: at every grid point the kernel body, called on the current staging buffers holding
the point's blocks and on the scratch at the previous accumulator, runs to its end leaving the scratch at this point's
accumulator, the inputs as they were, and the output block at the clamped accumulator at last relations (its buffer as
found at every other point). Three cases by the relation index `t % 8`: 0, 1 … 6, 7.
-/

open Cert.Kernel.Run1 Cert.Kernel.Reg1

section Body
variable (V : (c : Dev nD) → (b : Ref sig .tc) → Buf (Elt F) ((c : Thread nD τ).loc b))

theorem Phi_succ (c : Dev nD) (n : ℕ) :
    Phi V c (n + 1) = iprop(owns (c : Thread nD τ) scM fullShare (accAt V c n) ∗ Back c) := rfl

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ (dat V c).leavesExact 5 t)

set_option maxHeartbeats 1000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [after_0, after_1, after_2, after_3, after_4]
  rw [show (dat V c).Φ t.succ = Phi V c (t.val + 1) from rfl, show (dat V c).Φ t.castSucc = Phi V c t.val from rfl]
  unfold Dat.owesAt Pipeline.owesWithin
  rw [show (dat V c).owed t.castSucc = 0 from rfl, show (dat V c).owed t.succ = 0 from rfl]
  have hflush : t.val % 8 ≠ 7 → (cfg1.win 5).flush t = false := fun hne => by
    cases hq : (cfg1.win 5).flush t with
    | false => rfl
    | true => exact absurd ((flush1_5 t).mp hq) hne
  by_cases h0 : t.val % 8 = 0
  · -- first relation
    have hc1 : cond1_1 (grid1.coords t) := (hc1_iff t).mpr h0
    have hc2 : ¬ k1_cond2 (grid1.coords t) = 1#1 := fun h => by have := (hc2_iff t).mp h; omega
    have hidle : cfg1.idle 5 (cfg1.grid.coords t) = true := (idle5_iff t).mpr (by omega)
    have hfl := hflush (by omega)
    rw [Dat.leavesExact_idle (dat V c) 5 t hidle hfl]
    rw [Phi_succ, accAt_first V c t h0]; unfold initAt
    iintro ⟨HΦ, ⟨%W, -, HW⟩, ⟨%d0, H0⟩, ⟨%d1, H1⟩, ⟨%d2, H2⟩, ⟨%d3, H3⟩, ⟨%d4, H4⟩, H5⟩
    ihave HΦ' := (Phi_open V c t.val) $$ HΦ
    icases HΦ' with ⟨Hs, Hb⟩
    iapply (runA c (grid1.coords t) hc1 hc2 _ _ _ _ _ _ _ _ _ _ _ _ _ _ (iblk V c 0 t) (iblk V c 1 t) (iblk V c 2 t) (iblk V c 3 t) (iblk V c 4 t) Set.univ _)
    isplitl [H0]; · iexact H0
    isplitl [H1]; · iexact H1
    isplitl [H2]; · iexact H2
    isplitl [H3]; · iexact H3
    isplitl [H4]; · iexact H4
    isplitl [Hs]; · iexact Hs
    iintro ⟨H0, H1, H2, H3, H4, Hs⟩
    isplitl [Hs Hb]
    · isplitl [Hs]; · iexact Hs
      iexact Hb
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    iexact H5
  obtain ⟨n, hn⟩ : ∃ n, t.val = n + 1 := ⟨t.val - 1, by omega⟩
  have hΦ : Phi V c t.val = iprop(owns (c : Thread nD τ) scM fullShare (accAt V c n) ∗ Back c) := by rw [hn]; rfl
  have hc1 : ¬ cond1_1 (grid1.coords t) := fun h => h0 ((hc1_iff t).mp h)
  by_cases h7 : t.val % 8 = 7
  · -- last relation
    have hc2 : k1_cond2 (grid1.coords t) = 1#1 := (hc2_iff t).mpr h7
    have hidle : cfg1.idle 5 (cfg1.grid.coords t) = false :=
      Bool.eq_false_iff.mpr fun h => ((idle5_iff t).mp h) h7
    rw [show (dat V c).leavesExact 5 t = owns (c : Thread nD τ) (st1_5 t) fullShare ((dat V c).after 5 t) from by
      unfold Dat.leavesExact; rw [hidle], after_5]
    rw [hΦ, Phi_succ, accAt_next V c t n hn h0]; unfold addAt
    iintro ⟨⟨Hs, Hb⟩, ⟨%W, -, HW⟩, ⟨%d0, H0⟩, ⟨%d1, H1⟩, ⟨%d2, H2⟩, ⟨%d3, H3⟩, ⟨%d4, H4⟩, ⟨%d5, H5⟩⟩
    iapply (runC c (grid1.coords t) hc1 hc2 _ _ _ _ _ _ _ _ _ _ _ _ _ _ (accAt V c n) (iblk V c 1 t) (iblk V c 2 t) Set.univ _)
    isplitl [H1]; · iexact H1
    isplitl [H2]; · iexact H2
    isplitl [Hs]; · iexact Hs
    isplitl [H5]; · iexists _; iexact H5
    iintro ⟨H1, H2, Hs, H5⟩
    isplitl [Hs Hb]
    · isplitl [Hs]; · iexact Hs
      iexact Hb
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    iexact H5
  · -- a middle relation
    have hc2 : ¬ k1_cond2 (grid1.coords t) = 1#1 := fun h => h7 ((hc2_iff t).mp h)
    have hidle : cfg1.idle 5 (cfg1.grid.coords t) = true := (idle5_iff t).mpr h7
    have hfl := hflush h7
    rw [Dat.leavesExact_idle (dat V c) 5 t hidle hfl]
    rw [hΦ, Phi_succ, accAt_next V c t n hn h0]; unfold addAt
    iintro ⟨⟨Hs, Hb⟩, ⟨%W, -, HW⟩, ⟨%d0, H0⟩, ⟨%d1, H1⟩, ⟨%d2, H2⟩, ⟨%d3, H3⟩, ⟨%d4, H4⟩, H5⟩
    iapply (runB c (grid1.coords t) hc1 hc2 _ _ _ _ _ _ _ _ _ _ _ _ _ _ (accAt V c n) (iblk V c 1 t) (iblk V c 2 t) Set.univ _)
    isplitl [H1]; · iexact H1
    isplitl [H2]; · iexact H2
    isplitl [Hs]; · iexact Hs
    iintro ⟨H1, H2, Hs⟩
    isplitl [Hs Hb]
    · isplitl [Hs]; · iexact Hs
      iexact Hb
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dat (F := F) V c) (defs₀ (F := F)) Variants.none () Set.univ := fun t => by
  rw [bigSep_W1, bigSep_W1]
  exact sound_body V c t

end Body

end Cert.Kernel.Body1

end
-- ==== Proof.HostKeptK.lean ====
import proofs.«171321_j63273458205156_1_alg».proof.Proof.Gen.Kernel.Launch

/-!
The references the two host stretches of the kernel program, read at the word level, write, and that every other reference — the nine
arguments among them, and for the second stretch the first region's stacked operand and result — keeps its contents
over a stretch.
-/

set_option maxRecDepth 8000
set_option maxHeartbeats 4000000

noncomputable section

namespace Cert.HostSideK

open Idealize.ShloMosaic Idealize.ShloMosaic.TcCoe
open Cert.Kernel Cert.Kernel.Gen

variable {F : FTy → Type} [FloatOps F]

/-- The references `hostOps0`'s operations write, in order. -/
abbrev hostOps0_W : List (Ref sig .tc) :=
  [ main_v0, main_v1, main_v2, main_v3, main_c, main_v4, main_v5, main_c_0, main_v6, main_v7, main_v8, main_v9,
    main_v10, main_c_1, main_v11, main_v12, main_v13, main_v14, main_v15, main_v16, main_cst, main_v17, main_v18, main_v19,
    main_cst_2, main_v20, main_v21, main_v22, main_cst_3, main_v23, main_v24, main_v25, main_v26, main_v27, main_c_4, main_v28,
    main_v29, main_v30, main_v31, main_v32, main_v33, main_cst_5, main_v34, main_v35, main_v36, main_cst_6, main_v37, main_v38,
    main_v39, main_cst_7, main_v40, main_v41, main_v42, main_v43, main_v44, main_c_8, main_v45, main_v46, main_v47, main_v48,
    main_v49, main_v50, main_cst_9, main_v51, main_v52, main_v53, main_cst_10, main_v54, main_v55, main_v56, main_cst_11, main_v57,
    main_v58, main_v59, main_v60, main_v61, main_c_12, main_v62, main_v63, main_v64, main_v65, main_v66, main_v67, main_cst_13,
    main_v68, main_v69, main_v70, main_cst_14, main_v71, main_v72, main_v73, main_cst_15, main_v74, main_v75, main_v76, main_v77,
    main_v78, main_c_16, main_v79, main_v80, main_v81, main_v82, main_v83, main_v84, main_cst_17, main_v85, main_v86, main_v87,
    main_cst_18, main_v88, main_v89, main_v90, main_cst_19, main_v91, main_v92, main_v93, main_v94, main_v95, main_c_20, main_v96,
    main_v97, main_v98, main_v99, main_v100, main_v101, main_cst_21, main_v102, main_v103, main_v104, main_cst_22, main_v105, main_v106,
    main_v107, main_cst_23, main_v108, main_v109, main_v110, main_v111, main_v112, main_c_24, main_v113, main_v114, main_v115, main_v116,
    main_v117, main_v118, main_cst_25, main_v119, main_v120, main_v121, main_cst_26, main_v122, main_v123, main_v124, main_cst_27, main_v125,
    main_v126, main_v127, main_v128, main_v129, main_c_28, main_v130, main_v131, main_v132, main_v133, main_v134, main_v135, main_cst_29,
    main_v136, main_v137, main_v138, main_cst_30, main_v139, main_v140, main_v141, main_cst_31, main_v142, main_v143, main_v144, main_v145,
    main_v146, main_v147, main_v148, main_v149, main_v150, main_v151, main_v152, main_v153, main_v154, main_v155 ]

/-- Every operation of `hostOps0` writes a reference of the list. -/
theorem hostOps0_writes :
    (hostOps0 (F := F)).Forall fun op => op.writes ⊆ (hostOps0_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)

/-- A reference `hostOps0` does not write keeps its contents over it. -/
theorem kept0 (V : Valuation τ sig (Elt F)) (r : Ref sig .tc) (h : r ∉ hostOps0_W) :
    StableHlo.after (hostOps0 (F := F)) V r = V r :=
  StableHlo.after_of_writes_sub hostOps0 V hostOps0_writes h

/-- The same as the absence of a writer. -/
theorem notw0 (r : Ref sig .tc) (h : r ∉ hostOps0_W) :
    ∀ op ∈ (hostOps0 (F := F)), Proc.devRef (τ := τ) .tc r ∉ op.writes := fun op hop hb => by
  obtain ⟨y, hy, he⟩ := List.mem_map.mp (List.mem_toFinset.mp ((List.forall_iff_forall_mem.mp hostOps0_writes) op hop hb))
  exact h (Proc.devRef_injective _ he ▸ hy)

/-- The references `hostOps1`'s operations write, in order. -/
abbrev hostOps1_W : List (Ref sig .tc) :=
  [ main_c_32, main_v157, main_v158, main_c_33, main_v159, main_v160, main_v161, main_v162, main_v163, main_c_34, main_v164, main_v165,
    main_v166, main_v167, main_v168, main_v169, main_cst_35, main_v170, main_v171, main_v172, main_cst_36, main_v173, main_v174, main_v175,
    main_cst_37, main_v176, main_v177, main_v178, main_v179, main_v180, main_c_38, main_v181, main_v182, main_v183, main_v184, main_v185,
    main_v186, main_cst_39, main_v187, main_v188, main_v189, main_cst_40, main_v190, main_v191, main_v192, main_cst_41, main_v193, main_v194,
    main_v195, main_v196, main_v197, main_c_42, main_v198, main_v199, main_v200, main_v201, main_v202, main_v203, main_cst_43, main_v204,
    main_v205, main_v206, main_cst_44, main_v207, main_v208, main_v209, main_cst_45, main_v210, main_v211, main_v212, main_v213, main_v214,
    main_c_46, main_v215, main_v216, main_v217, main_v218, main_v219, main_v220, main_cst_47, main_v221, main_v222, main_v223, main_cst_48,
    main_v224, main_v225, main_v226, main_cst_49, main_v227, main_v228, main_v229, main_v230, main_v231, main_c_50, main_v232, main_v233,
    main_v234, main_v235, main_v236, main_v237, main_cst_51, main_v238, main_v239, main_v240, main_cst_52, main_v241, main_v242, main_v243,
    main_cst_53, main_v244, main_v245, main_v246, main_v247, main_v248, main_c_54, main_v249, main_v250, main_v251, main_v252, main_v253,
    main_v254, main_cst_55, main_v255, main_v256, main_v257, main_cst_56, main_v258, main_v259, main_v260, main_cst_57, main_v261, main_v262,
    main_v263, main_v264, main_v265, main_c_58, main_v266, main_v267, main_v268, main_v269, main_v270, main_v271, main_cst_59, main_v272,
    main_v273, main_v274, main_cst_60, main_v275, main_v276, main_v277, main_cst_61, main_v278, main_v279, main_v280, main_v281, main_v282,
    main_c_62, main_v283, main_v284, main_v285, main_v286, main_v287, main_v288, main_cst_63, main_v289, main_v290, main_v291, main_cst_64,
    main_v292, main_v293, main_v294, main_cst_65, main_v295, main_v296, main_v297, main_v298, main_v299, main_v300, main_v301, main_v302,
    main_v303, main_v304, main_v305, main_v306, main_v307, main_v308 ]

/-- Every operation of `hostOps1` writes a reference of the list. -/
theorem hostOps1_writes :
    (hostOps1 (F := F)).Forall fun op => op.writes ⊆ (hostOps1_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)

/-- A reference `hostOps1` does not write keeps its contents over it. -/
theorem kept1 (V : Valuation τ sig (Elt F)) (r : Ref sig .tc) (h : r ∉ hostOps1_W) :
    StableHlo.after (hostOps1 (F := F)) V r = V r :=
  StableHlo.after_of_writes_sub hostOps1 V hostOps1_writes h

/-- The same as the absence of a writer. -/
theorem notw1 (r : Ref sig .tc) (h : r ∉ hostOps1_W) :
    ∀ op ∈ (hostOps1 (F := F)), Proc.devRef (τ := τ) .tc r ∉ op.writes := fun op hop hb => by
  obtain ⟨y, hy, he⟩ := List.mem_map.mp (List.mem_toFinset.mp ((List.forall_iff_forall_mem.mp hostOps1_writes) op hop hb))
  exact h (Proc.devRef_injective _ he ▸ hy)

/-- The first stretch writes none of the nine arguments. -/
theorem args_not_written0 :
    main_arg0 ∉ hostOps0_W ∧ main_arg1 ∉ hostOps0_W ∧ main_arg2 ∉ hostOps0_W ∧ main_arg3 ∉ hostOps0_W ∧ main_arg4 ∉ hostOps0_W
      ∧ main_arg5 ∉ hostOps0_W ∧ main_arg6 ∉ hostOps0_W ∧ main_arg7 ∉ hostOps0_W ∧ main_arg8 ∉ hostOps0_W := by decide

/-- The second stretch writes none of the nine arguments, nor the sources and destinations the first stretch left,
    nor the first region's stacked operand and result. -/
theorem args_not_written1 :
    main_arg0 ∉ hostOps1_W ∧ main_arg1 ∉ hostOps1_W ∧ main_arg2 ∉ hostOps1_W ∧ main_arg3 ∉ hostOps1_W ∧ main_arg4 ∉ hostOps1_W
      ∧ main_arg5 ∉ hostOps1_W ∧ main_arg6 ∉ hostOps1_W ∧ main_arg7 ∉ hostOps1_W ∧ main_arg8 ∉ hostOps1_W
      ∧ main_v1 ∉ hostOps1_W ∧ main_v3 ∉ hostOps1_W ∧ main_v155 ∉ hostOps1_W ∧ main_v156 ∉ hostOps1_W := by decide

end Cert.HostSideK

end
-- ==== Proof.KMain.lean ====
import proofs.«171321_j63273458205156_1_alg».proof.Proof.Gen.Kernel.Launch
import proofs.«171321_j63273458205156_1_alg».proof.Proof.Gen.Kernel.Skeleton
import proofs.«171321_j63273458205156_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic
import proofs.«171321_j63273458205156_1_alg».proof.Proof.KBody0
import proofs.«171321_j63273458205156_1_alg».proof.Proof.KBody1
import proofs.«171321_j63273458205156_1_alg».proof.Proof.HostKeptK

set_option maxRecDepth 16384

noncomputable section

namespace Cert.Kernel.Main

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-!
The whole program's run: 190 host operations (the eight mean aggregates of the input features, stacked), the first
layer's pallas_call, 186 more host operations (the aggregates of the hidden layer), the second layer's pallas_call.

The buffer contents at each boundary are a fold from the launch memory: a stretch of host operations applies them; a
pallas_call leaves its result array at what its write-backs leave and every other buffer as it found it. Every weakly fair
execution terminates without fault in a state where the result array holds the second call's written-back blocks and the
nine argument arrays are as launched — no host operation writes an argument, and a call only reads them.
-/

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first stretch of host operations (the first call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first call: its arrays at what the pipeline leaves, everything else as entered. -/
def W2 (c : Dev nD) : Valuation τ sig (Elt F) :=
  Pipeline.withArrays spec0 c (W1 m ρ c) fun w => (Cert.Kernel.Reg0.dat (V1 m ρ) c).arrAt w cfg0.N
theorem W2_arr (c : Dev nD) (w : Fin cfg0.W) :
    W2 m ρ c (Proc.devRef .tc (Pipeline.arrRef spec0 w)) = (Cert.Kernel.Reg0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Cert.Kernel.Reg0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second stretch of host operations (the second call's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second call. -/
def W4 (c : Dev nD) : Valuation τ sig (Elt F) :=
  Pipeline.withArrays spec1 c (W3 m ρ c) fun w => (Cert.Kernel.Reg1.dat (V3 m ρ) c).arrAt w cfg1.N
theorem W4_arr (c : Dev nD) (w : Fin cfg1.W) :
    W4 m ρ c (Proc.devRef .tc (Pipeline.arrRef spec1 w)) = (Cert.Kernel.Reg1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (Cert.Kernel.Reg1.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := Cert.HostSideK.kept1 _ main_arg0 (by decide)
    _ = W1 m ρ c (Proc.devRef .tc main_arg0) := (W2_arr m ρ c 0).trans (((Cert.Kernel.Reg0.dat (V1 m ρ) c).arrAt_in 0 rfl _).trans (Cert.Kernel.Reg0.A_eq (V1 m ρ) c 0))
    _ = W0 m ρ c (Proc.devRef .tc main_arg0) := Cert.HostSideK.kept0 _ main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := Cert.HostSideK.kept1 _ main_arg1 (by decide)
    _ = W1 m ρ c (Proc.devRef .tc main_arg1) := W2_of_ne m ρ c main_arg1 (by decide)
    _ = W0 m ρ c (Proc.devRef .tc main_arg1) := Cert.HostSideK.kept0 _ main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := Cert.HostSideK.kept1 _ main_arg2 (by decide)
    _ = W1 m ρ c (Proc.devRef .tc main_arg2) := W2_of_ne m ρ c main_arg2 (by decide)
    _ = W0 m ρ c (Proc.devRef .tc main_arg2) := Cert.HostSideK.kept0 _ main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := Cert.HostSideK.kept1 _ main_arg3 (by decide)
    _ = W1 m ρ c (Proc.devRef .tc main_arg3) := (W2_arr m ρ c 2).trans (((Cert.Kernel.Reg0.dat (V1 m ρ) c).arrAt_in 2 rfl _).trans (Cert.Kernel.Reg0.A_eq (V1 m ρ) c 2))
    _ = W0 m ρ c (Proc.devRef .tc main_arg3) := Cert.HostSideK.kept0 _ main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := Cert.HostSideK.kept1 _ main_arg4 (by decide)
    _ = W1 m ρ c (Proc.devRef .tc main_arg4) := (W2_arr m ρ c 3).trans (((Cert.Kernel.Reg0.dat (V1 m ρ) c).arrAt_in 3 rfl _).trans (Cert.Kernel.Reg0.A_eq (V1 m ρ) c 3))
    _ = W0 m ρ c (Proc.devRef .tc main_arg4) := Cert.HostSideK.kept0 _ main_arg4 (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := Cert.HostSideK.kept1 _ main_arg5 (by decide)
    _ = W1 m ρ c (Proc.devRef .tc main_arg5) := (W2_arr m ρ c 4).trans (((Cert.Kernel.Reg0.dat (V1 m ρ) c).arrAt_in 4 rfl _).trans (Cert.Kernel.Reg0.A_eq (V1 m ρ) c 4))
    _ = W0 m ρ c (Proc.devRef .tc main_arg5) := Cert.HostSideK.kept0 _ main_arg5 (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := (W4_arr m ρ c 2).trans (((Cert.Kernel.Reg1.dat (V3 m ρ) c).arrAt_in 2 rfl _).trans (Cert.Kernel.Reg1.A_eq (V3 m ρ) c 2))
    _ = W2 m ρ c (Proc.devRef .tc main_arg6) := Cert.HostSideK.kept1 _ main_arg6 (by decide)
    _ = W1 m ρ c (Proc.devRef .tc main_arg6) := W2_of_ne m ρ c main_arg6 (by decide)
    _ = W0 m ρ c (Proc.devRef .tc main_arg6) := Cert.HostSideK.kept0 _ main_arg6 (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := (W4_arr m ρ c 3).trans (((Cert.Kernel.Reg1.dat (V3 m ρ) c).arrAt_in 3 rfl _).trans (Cert.Kernel.Reg1.A_eq (V3 m ρ) c 3))
    _ = W2 m ρ c (Proc.devRef .tc main_arg7) := Cert.HostSideK.kept1 _ main_arg7 (by decide)
    _ = W1 m ρ c (Proc.devRef .tc main_arg7) := W2_of_ne m ρ c main_arg7 (by decide)
    _ = W0 m ρ c (Proc.devRef .tc main_arg7) := Cert.HostSideK.kept0 _ main_arg7 (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := (W4_arr m ρ c 4).trans (((Cert.Kernel.Reg1.dat (V3 m ρ) c).arrAt_in 4 rfl _).trans (Cert.Kernel.Reg1.A_eq (V3 m ρ) c 4))
    _ = W2 m ρ c (Proc.devRef .tc main_arg8) := Cert.HostSideK.kept1 _ main_arg8 (by decide)
    _ = W1 m ρ c (Proc.devRef .tc main_arg8) := W2_of_ne m ρ c main_arg8 (by decide)
    _ = W0 m ρ c (Proc.devRef .tc main_arg8) := Cert.HostSideK.kept0 _ main_arg8 (by decide)
    _ = m ((c : Thread nD τ).loc main_arg8) := rfl

/-- The result array at the end: what the second call's write-backs leave. -/
theorem W4_result (c : Dev nD) : W4 m ρ c (Proc.devRef .tc main_v309) = (Cert.Kernel.Reg1.dat (V3 m ρ) c).arrAt 5 cfg1.N := W4_arr m ρ c 5

/-! ## The proof data family and the thread state -/

abbrev adm : (p : Fin 2) → (pcfgs (F := F) p).Adm := fun p => (cfgs p).toPCfg_adm
/-- Each call's proof data at its entry contents (a literal match, so that the pinned configuration at a numeral reduces). -/
def pdats : (p : Fin 2) → (c : Dev nD) → Dat τ (Elt F) Unit ℕ (Pipeline.UD sig nD τ) ℕ (Pipeline.pin (pcfgs (F := F)) adm p) c
  | ⟨0, _⟩ => fun c => Cert.Kernel.Reg0.dat (V1 m ρ) c
  | ⟨1, _⟩ => fun c => Cert.Kernel.Reg1.dat (V3 m ρ) c
abbrev 𝒱₀ : Variants := Variants.none
abbrev L : GSem nD τ sig → Finset Unit := fun _ => ∅
abbrev lv : GSem nD τ sig → Unit → ℕ := fun _ _ => 0
/-- What rides beside the buffers: the core owes nothing. -/
abbrev R (c : Dev nD) : sProp 𝕄 := iprop(∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
set_option maxRecDepth 65536 in
theorem hostOps0_fresh : (hostOps0 : List (HloOp τ sig (Elt F))).Forall fun op => op.fresh = ∅ := by
  simp only [List.Forall]; repeat' constructor
set_option maxRecDepth 65536 in
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The calls as segments -/

set_option backward.isDefEq.respectTransparency.types false in
/-- pallas_call 0 over the thread state: entered from every unscoped buffer at the contents before it, left with its
    result array at what the write-backs leave and every other buffer as entered. Its arrays are split out of the unscoped
    buffers and put back; the scoped buffers go into the invariant and come back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Cert.Kernel.Body0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X _ := BI.emp
  Y _ := BI.emp
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m ρ 0 c).Φ 0 = Pipeline.scopedRest (Ix := Unit) (Name := ℕ) (U := Pipeline.UD sig nD τ) (Lvl := ℕ) (Val := Elt F) spec0 c from rfl]
    iintro ⟨-, -, Hr⟩; iexact Hr
  hout c := by
    rw [Pipeline.ownSems0_none, show (pdats m ρ 0 c).Φ (Fin.last _) = Cert.Kernel.Reg0.Phi (V1 m ρ) c cfg0.N from rfl]
    iintro Hr
    isplitr; · iempintro
    isplitr; · iempintro
    iapply (Cert.Kernel.Reg0.Phi_close (V1 m ρ) c cfg0.N); iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- pallas_call 1 over the thread state: entered from every unscoped buffer at the contents before it, left with its
    result array at what the write-backs leave and every other buffer as entered. Its arrays are split out of the unscoped
    buffers and put back; the scoped buffers go into the invariant and come back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Cert.Kernel.Body1.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X _ := BI.emp
  Y _ := BI.emp
  Z c := Pipeline.unscopedRest (Ix := Unit) (Name := ℕ) (U := Pipeline.UD sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m ρ 1 c).Φ 0 = Pipeline.scopedRest (Ix := Unit) (Name := ℕ) (U := Pipeline.UD sig nD τ) (Lvl := ℕ) (Val := Elt F) spec1 c from rfl]
    iintro ⟨-, -, Hr⟩; iexact Hr
  hout c := by
    rw [Pipeline.ownSems0_none, show (pdats m ρ 1 c).Φ (Fin.last _) = Cert.Kernel.Reg1.Phi (V3 m ρ) c cfg1.N from rfl]
    iintro Hr
    isplitr; · iempintro
    isplitr; · iempintro
    iapply (Cert.Kernel.Reg1.Phi_close (V3 m ρ) c cfg1.N); iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## The program as four segments, and its run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution terminates without fault, with the result array at the second call's written-back blocks
    and the nine arguments as launched. -/
theorem run_main : θ_run defs (onTc (τ := τ) (main (F := F))) ⟨m, fun _ => 0, ρ⟩ (fun r => ∀ c : Dev nD,
      r.2.mem ((c.tc : Thread nD τ).loc main_v309) = (Cert.Kernel.Reg1.dat (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => StableHlo.held (c : Thread nD τ) (Pipeline.ucRefs τ sig) (W4 m ρ c))
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, -, -⟩, -⟩
      imodintro
      isplitl [Hh]; · iexact Hh
      iexists ∅; iexact HO)
    (QY := fun c s => ∀ b ∈ Pipeline.ucRefs τ sig, s.mem (((c : Thread nD τ)).1, b) = W4 m ρ c b)
    (hfin := fun c s' => by
      iintro ⟨Hh, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v309 (by decide))).trans (W4_result m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.Kernel.Main

end
-- ==== Proof.KiRun0.lean ====
import proofs.«171321_j63273458205156_1_alg».proof.Proof.Gen.KernelIdeal.Launch
import proofs.«171321_j63273458205156_1_alg».proof.Proof.Gen.KernelIdeal.Skeleton
import proofs.«171321_j63273458205156_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Run0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-!
The body of pallas_call 0 run once per control case, on any whole staging buffers.

The body reads the relation index `r` (grid coordinate 1). At `r = 0` it first sets the scratch accumulator to
`x·root + bias`; at every `r` it adds `agg_r·W_r` to the accumulator; at `r = 7` it writes `max(acc, 0)` to the output
block. So there are three cases — first relation, a middle relation, last relation — and in each the buffers the
body stores into end at the stated pure functions of what it loaded (`k0_pay1`, `k0_pay2`, `k0_pay3`), every other
buffer as it was.
-/

/-- A load of the whole of a whole buffer whose contents read `X` reads `X`. -/
theorem readAt_unread_whole {sp : Space} {S : Shape} {e : EltTy} (M : Memref sig .tc sp S e) (h : M.IsWhole)
    {off : Fin S.rank → Nat} (hz : off = fun _ => 0) (inb : ∀ a, off a + S.size a ≤ S.size a) (X : S.Idx → Elt F e) :
    View.readAt (Elt F) M.view (Rect.unit off S.size inb).toLoadRect (h.unread X) = X := by
  rw [View.readAt_eq_ld, h.read_unread, View.ld_unit_zero hz]

theorem hz2 : (![0, 0] : Fin S5000x128.rank → Nat) = fun _ => 0 := by funext a; fin_cases a <;> rfl
theorem hz2' : (![0, 0] : Fin S128x128.rank → Nat) = fun _ => 0 := by funext a; fin_cases a <;> rfl
theorem hz3 : (![0, 0, 0] : Fin S1x5000x128.rank → Nat) = fun _ => 0 := by funext a; fin_cases a <;> rfl
theorem hz3' : (![0, 0, 0] : Fin S1x128x128.rank → Nat) = fun _ => 0 := by funext a; fin_cases a <;> rfl
theorem hz1 : (![0] : Fin S128.rank → Nat) = fun _ => 0 := by funext a; fin_cases a; rfl

/-- "The relation index is 0", as the body computes it from the grid point. -/
abbrev cond0_1 (i : grid0.Coords) : Prop := (Scalar.cmpi .ne (Scalar.extui (Scalar.cmpi .eq (BitVec.ofNat 32 (i 1).val) 0#32)) 0#32) = 1#1

set_option maxHeartbeats 1000000 in
/-- First relation: the accumulator is set to `x·root + bias` and relation 0's product is added; the output block is not touched. -/
theorem runA (c : Dev nD) (i : grid0.Coords) (hc1 : cond0_1 i) (hc2 : ¬ k0_cond2 i = 1#1)
    (M2 : Memref sig .tc .vmem S5000x128 .f32) (h2 : M2.IsWhole) (M3 : Memref sig .tc .vmem S1x5000x128 .f32) (h3 : M3.IsWhole)
    (M4 : Memref sig .tc .vmem S1x128x128 .f32) (h4 : M4.IsWhole) (M5 : Memref sig .tc .vmem S128x128 .f32) (h5 : M5.IsWhole)
    (M6 : Memref sig .tc .vmem S128 .f32) (h6 : M6.IsWhole) (M7 : Memref sig .tc .vmem S5000x128 .f32) (h7 : M7.IsWhole)
    (M8 : Memref sig .tc .vmem S5000x128 .f32) (h8 : M8.IsWhole)
    (x : Vec F S5000x128 .f32) (ag : Vec F S1x5000x128 .f32) (w : Vec F S1x128x128 .f32) (rt : Vec F S128x128 .f32) (bs : Vec F S128 .f32)
    (E : Set ℕ) (K : PUnit → sProp 𝕄) :
    iprop(owns (c : Thread nD τ) M2 fullShare x ∗ owns (c : Thread nD τ) M3 fullShare ag ∗ owns (c : Thread nD τ) M4 fullShare w
        ∗ owns (c : Thread nD τ) M5 fullShare rt ∗ owns (c : Thread nD τ) M6 fullShare bs ∗ (∃ d, owns (c : Thread nD τ) M8 fullShare d)
        ∗ (iprop(owns (c : Thread nD τ) M2 fullShare x ∗ owns (c : Thread nD τ) M3 fullShare ag ∗ owns (c : Thread nD τ) M4 fullShare w
            ∗ owns (c : Thread nD τ) M5 fullShare rt ∗ owns (c : Thread nD τ) M6 fullShare bs
            ∗ owns (c : Thread nD τ) M8 fullShare (k0_pay2 (k0_pay1 x rt bs) ag w)) -∗ K ⟨⟩))
      ⊢ wp frame (wpE (defs₀ (F := F)) Variants.none c none) E (cc0__rgcn_mm_kernel i M2 h2 M3 h3 M4 h4 M5 h5 M6 h6 M7 h7 M8 h8) K := by
  simp only [cc0__rgcn_mm_kernel_eq_skeleton]; unfold cc0__rgcn_mm_kernel_skel
  unfold owns
  iintro ⟨⟨%f2, %hf2, H2⟩, ⟨%f3, %hf3, H3⟩, ⟨%f4, %hf4, H4⟩, ⟨%f5, %hf5, H5⟩, ⟨%f6, %hf6, H6⟩, ⟨%d8, %f8, -, H8⟩, Hk⟩
  obtain rfl := h2.eq_unread hf2
  obtain rfl := h3.eq_unread hf3
  obtain rfl := h4.eq_unread hf4
  obtain rfl := h5.eq_unread hf5
  obtain rfl := h6.eq_unread hf6
  sl_exec (disch := first | exact hc1 | exact hc2)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  iexists _; isplitr; swap; · iexact H8
  ipureintro
  rw [View.read_writes_eq_canon _ _ _ (fun y => ⟨_, List.mem_cons_self, View.mem_set_unit_zero hz2 inb_S5000x128_S5000x128_0_0 y⟩), View.canon_cons_unit_zero hz2]
  sl_unfold_run_names
  rw [View.readCov_unit_zero _ hz2, readAt_unread_whole M2 h2 hz2, readAt_unread_whole M5 h5 hz2', readAt_unread_whole M6 h6 hz1,
    readAt_unread_whole M3 h3 hz3, readAt_unread_whole M4 h4 hz3']

set_option maxHeartbeats 1000000 in
/-- A middle relation: that relation's product is added to the accumulator; nothing else is touched. -/
theorem runB (c : Dev nD) (i : grid0.Coords) (hc1 : ¬ cond0_1 i) (hc2 : ¬ k0_cond2 i = 1#1)
    (M2 : Memref sig .tc .vmem S5000x128 .f32) (h2 : M2.IsWhole) (M3 : Memref sig .tc .vmem S1x5000x128 .f32) (h3 : M3.IsWhole)
    (M4 : Memref sig .tc .vmem S1x128x128 .f32) (h4 : M4.IsWhole) (M5 : Memref sig .tc .vmem S128x128 .f32) (h5 : M5.IsWhole)
    (M6 : Memref sig .tc .vmem S128 .f32) (h6 : M6.IsWhole) (M7 : Memref sig .tc .vmem S5000x128 .f32) (h7 : M7.IsWhole)
    (M8 : Memref sig .tc .vmem S5000x128 .f32) (h8 : M8.IsWhole)
    (acc : Vec F S5000x128 .f32) (ag : Vec F S1x5000x128 .f32) (w : Vec F S1x128x128 .f32)
    (E : Set ℕ) (K : PUnit → sProp 𝕄) :
    iprop(owns (c : Thread nD τ) M3 fullShare ag ∗ owns (c : Thread nD τ) M4 fullShare w ∗ owns (c : Thread nD τ) M8 fullShare acc
        ∗ (iprop(owns (c : Thread nD τ) M3 fullShare ag ∗ owns (c : Thread nD τ) M4 fullShare w
            ∗ owns (c : Thread nD τ) M8 fullShare (k0_pay2 acc ag w)) -∗ K ⟨⟩))
      ⊢ wp frame (wpE (defs₀ (F := F)) Variants.none c none) E (cc0__rgcn_mm_kernel i M2 h2 M3 h3 M4 h4 M5 h5 M6 h6 M7 h7 M8 h8) K := by
  simp only [cc0__rgcn_mm_kernel_eq_skeleton]; unfold cc0__rgcn_mm_kernel_skel
  unfold owns
  iintro ⟨⟨%f3, %hf3, H3⟩, ⟨%f4, %hf4, H4⟩, ⟨%f8, %hf8, H8⟩, Hk⟩
  obtain rfl := h3.eq_unread hf3
  obtain rfl := h4.eq_unread hf4
  obtain rfl := h8.eq_unread hf8
  sl_exec (disch := first | exact hc1 | exact hc2)
  sl_step
  iapply Hk
  isplitl [H3]
  · iexists _; isplitr; · ipureintro; exact h3.read_unread _
    iexact H3
  isplitl [H4]
  · iexists _; isplitr; · ipureintro; exact h4.read_unread _
    iexact H4
  iexists _; isplitr; swap; · iexact H8
  ipureintro
  rw [View.read_writes_eq_canon _ _ _ (fun y => ⟨_, List.mem_cons_self, View.mem_set_unit_zero hz2 inb_S5000x128_S5000x128_0_0 y⟩), View.canon_cons_unit_zero hz2]
  sl_unfold_run_names
  rw [readAt_unread_whole M8 h8 hz2, readAt_unread_whole M3 h3 hz3, readAt_unread_whole M4 h4 hz3']

set_option maxHeartbeats 1000000 in
/-- Last relation: its product is added to the accumulator, and the output block is set to the accumulator clamped below at zero. -/
theorem runC (c : Dev nD) (i : grid0.Coords) (hc1 : ¬ cond0_1 i) (hc2 : k0_cond2 i = 1#1)
    (M2 : Memref sig .tc .vmem S5000x128 .f32) (h2 : M2.IsWhole) (M3 : Memref sig .tc .vmem S1x5000x128 .f32) (h3 : M3.IsWhole)
    (M4 : Memref sig .tc .vmem S1x128x128 .f32) (h4 : M4.IsWhole) (M5 : Memref sig .tc .vmem S128x128 .f32) (h5 : M5.IsWhole)
    (M6 : Memref sig .tc .vmem S128 .f32) (h6 : M6.IsWhole) (M7 : Memref sig .tc .vmem S5000x128 .f32) (h7 : M7.IsWhole)
    (M8 : Memref sig .tc .vmem S5000x128 .f32) (h8 : M8.IsWhole)
    (acc : Vec F S5000x128 .f32) (ag : Vec F S1x5000x128 .f32) (w : Vec F S1x128x128 .f32)
    (E : Set ℕ) (K : PUnit → sProp 𝕄) :
    iprop(owns (c : Thread nD τ) M3 fullShare ag ∗ owns (c : Thread nD τ) M4 fullShare w ∗ owns (c : Thread nD τ) M8 fullShare acc
        ∗ (∃ d, owns (c : Thread nD τ) M7 fullShare d)
        ∗ (iprop(owns (c : Thread nD τ) M3 fullShare ag ∗ owns (c : Thread nD τ) M4 fullShare w
            ∗ owns (c : Thread nD τ) M8 fullShare (k0_pay2 acc ag w)
            ∗ owns (c : Thread nD τ) M7 fullShare (k0_pay3 (k0_pay2 acc ag w))) -∗ K ⟨⟩))
      ⊢ wp frame (wpE (defs₀ (F := F)) Variants.none c none) E (cc0__rgcn_mm_kernel i M2 h2 M3 h3 M4 h4 M5 h5 M6 h6 M7 h7 M8 h8) K := by
  simp only [cc0__rgcn_mm_kernel_eq_skeleton]; unfold cc0__rgcn_mm_kernel_skel
  unfold owns
  iintro ⟨⟨%f3, %hf3, H3⟩, ⟨%f4, %hf4, H4⟩, ⟨%f8, %hf8, H8⟩, ⟨%d7, %f7, -, H7⟩, Hk⟩
  obtain rfl := h3.eq_unread hf3
  obtain rfl := h4.eq_unread hf4
  obtain rfl := h8.eq_unread hf8
  sl_exec (disch := first | exact hc1 | exact hc2)
  sl_step
  iapply Hk
  isplitl [H3]
  · iexists _; isplitr; · ipureintro; exact h3.read_unread _
    iexact H3
  isplitl [H4]
  · iexists _; isplitr; · ipureintro; exact h4.read_unread _
    iexact H4
  isplitl [H8]
  · iexists _; isplitr; swap; · iexact H8
    ipureintro
    (try sl_unfold_run_names)
    rw [View.read_writes_eq_canon _ _ _ (fun y => ⟨_, List.mem_cons_self, View.mem_set_unit_zero hz2 inb_S5000x128_S5000x128_0_0 y⟩), View.canon_cons_unit_zero hz2]
    (try sl_unfold_run_names)
    rw [readAt_unread_whole M8 h8 hz2, readAt_unread_whole M3 h3 hz3, readAt_unread_whole M4 h4 hz3']
  iexists _; isplitr; swap; · iexact H7
  ipureintro
  (try sl_unfold_run_names)
  rw [View.read_writes_eq_canon _ _ _ (fun y => ⟨_, List.mem_cons_self, View.mem_set_unit_zero hz2 inb_S5000x128_S5000x128_0_0 y⟩), View.canon_cons_unit_zero hz2]
  (try sl_unfold_run_names)
  rw [View.readCov_unit_zero _ hz2, readAt_unread_whole M8 h8 hz2, readAt_unread_whole M3 h3 hz3, readAt_unread_whole M4 h4 hz3']

end Cert.KernelIdeal.Run0

end
-- ==== Proof.KiReg0.lean ====
import proofs.«171321_j63273458205156_1_alg».proof.Proof.Gen.KernelIdeal.Launch
import proofs.«171321_j63273458205156_1_alg».proof.Proof.Gen.KernelIdeal.Skeleton
import proofs.«171321_j63273458205156_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic
import proofs.«171321_j63273458205156_1_alg».proof.Proof.KiRun0

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-!
pallas_call 0 as a pipeline over a 20 × 8 grid (row tile, relation), entered with the TensorCore's buffers at `V`.

Point `t` works on row tile `t / 8` and relation `t % 8`. The scratch accumulator after point `t` (`accAt`) is, by recursion
on the point: at a first relation the root term plus bias plus relation 0's product of that tile's blocks; otherwise the
previous point's accumulator plus this relation's product. The output block is written at last relations only, as the
accumulator clamped below at zero; at every other point its staging buffer is handed back as found. The invariant between
points holds the scratch at the accumulator, and whatever returns the rest of the core's scoped buffers once the scratch
is given back.
-/

open Cert.KernelIdeal.Run0

section Region
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## An input window's staging buffer holds its block at every point, fetched there or not -/

theorem before_in_0 {c : Dev nD} (dat : Dat τ (Elt F) Unit ℕ (Pipeline.UD sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in_1 {c : Dev nD} (dat : Dat τ (Elt F) Unit ℕ (Pipeline.UD sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in_2 {c : Dev nD} (dat : Dat τ (Elt F) Unit ℕ (Pipeline.UD sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in_3 {c : Dev nD} (dat : Dat τ (Elt F) Unit ℕ (Pipeline.UD sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_in_4 {c : Dev nD} (dat : Dat τ (Elt F) Unit ℕ (Pipeline.UD sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The branch conditions and the schedule, decided over the grid -/

theorem hc1_iff : ∀ t : Fin cfg0.N, cond0_1 (grid0.coords t) ↔ t.val % 8 = 0 :=
  (by decide +kernel : ∀ t : Fin grid0.N, cond0_1 (grid0.coords t) ↔ t.val % 8 = 0)
theorem hc2_iff : ∀ t : Fin cfg0.N, k0_cond2 (grid0.coords t) = 1#1 ↔ t.val % 8 = 7 :=
  (by decide +kernel : ∀ t : Fin grid0.N, k0_cond2 (grid0.coords t) = 1#1 ↔ t.val % 8 = 7)
theorem idle5_iff : ∀ t : Fin cfg0.N, cfg0.idle 5 (cfg0.grid.coords t) = true ↔ t.val % 8 ≠ 7 :=
  (by decide +kernel : ∀ t : Fin grid0.N, idle0 5 (grid0.coords t) = true ↔ t.val % 8 ≠ 7)

/-! ## The accumulator, point by point -/

/-- The scratch accumulator's memref. -/
abbrev scM : Memref sig .tc .vmem S5000x128 .f32 := Memref.whole cc0_scratch0

/-- Point number `n` (taken modulo the 160 points). -/
def pt (n : ℕ) : Fin cfg0.N := ⟨n % 160, by rw [show cfg0.N = 160 from N_0]; exact Nat.mod_lt _ (by decide)⟩
theorem pt_val (t : Fin cfg0.N) : pt t.val = t :=
  Fin.ext (Nat.mod_eq_of_lt (by have := t.isLt; have hN : cfg0.N = 160 := N_0; omega))

/-- The accumulator after a first relation's point: root term, bias and relation 0's product of the point's blocks. -/
def initAt (c : Dev nD) (t : Fin cfg0.N) : Vec F S5000x128 .f32 :=
  k0_pay2 (k0_pay1 (iblk V c 0 t) (iblk V c 3 t) (iblk V c 4 t)) (iblk V c 1 t) (iblk V c 2 t)
/-- The accumulator after a later relation's point: the previous one plus this relation's product. -/
def addAt (c : Dev nD) (prev : Vec F S5000x128 .f32) (t : Fin cfg0.N) : Vec F S5000x128 .f32 :=
  k0_pay2 prev (iblk V c 1 t) (iblk V c 2 t)
/-- The accumulator after point `n`. -/
def accAt (c : Dev nD) : ℕ → Vec F S5000x128 .f32
  | 0 => initAt V c (pt 0)
  | n + 1 => if (n + 1) % 8 = 0 then initAt V c (pt (n + 1)) else addAt V c (accAt c n) (pt (n + 1))

theorem accAt_first (c : Dev nD) (t : Fin cfg0.N) (h : t.val % 8 = 0) : accAt V c t.val = initAt V c t := by
  have key : ∀ k, k % 8 = 0 → accAt V c k = initAt V c (pt k) := by
    intro k hk
    cases k with
    | zero => rfl
    | succ n => show (if (n + 1) % 8 = 0 then _ else _) = _; rw [if_pos hk]
  rw [key _ h, pt_val]
theorem accAt_next (c : Dev nD) (t : Fin cfg0.N) (n : ℕ) (hn : t.val = n + 1) (h : t.val % 8 ≠ 0) :
    accAt V c t.val = addAt V c (accAt V c n) t := by
  have key : ∀ k, (k + 1) % 8 ≠ 0 → accAt V c (k + 1) = addAt V c (accAt V c k) (pt (k + 1)) := by
    intro k hk; show (if (k + 1) % 8 = 0 then _ else _) = _; rw [if_neg hk]
  have e := key n (by omega)
  have hp : pt (n + 1) = t := by rw [← hn, pt_val]
  rw [hn, e, hp]

/-! ## The invariant between points -/

/-- What gives back the core's other scoped buffers once the scratch is returned at any contents. -/
def Back (c : Dev nD) : sProp 𝕄 :=
  iprop((∃ d, owns (c : Thread nD τ) scM fullShare d) -∗ Pipeline.scopedRest (Ix := Unit) (Name := ℕ) (U := Pipeline.UD sig nD τ) (Lvl := ℕ) (Val := Elt F) spec0 c)

/-- Before point `n`: at the first point the scoped buffers as the region found them; later, the scratch at the previous point's accumulator. -/
def Phi (c : Dev nD) : ℕ → sProp 𝕄
  | 0 => Pipeline.scopedRest (Ix := Unit) (Name := ℕ) (U := Pipeline.UD sig nD τ) (Lvl := ℕ) (Val := Elt F) spec0 c
  | n + 1 => iprop(owns (c : Thread nD τ) scM fullShare (accAt V c n) ∗ Back c)

/-- The scoped buffers split into the scratch at some contents and what returns the rest. -/
theorem scoped_split (c : Dev nD) :
    (Pipeline.scopedRest (Ix := Unit) (Name := ℕ) (U := Pipeline.UD sig nD τ) (Lvl := ℕ) (Val := Elt F) spec0 c : sProp 𝕄)
      ⊢ iprop((∃ d, owns (c : Thread nD τ) scM fullShare d) ∗ Back c) := by
  unfold Back
  rw [scopedRest0_eq]
  simp only [owns_whole]
  iintro ⟨⟨%fs, Hs⟩, R0, R1, R2, R3, R4, R5, R6, R7, R8, R9, R10⟩
  isplitl [Hs]
  · iexists fs; iexact Hs
  iintro ⟨%d, Hs'⟩
  isplitl [Hs']; · iexists d; iexact Hs'
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  iexact R10

/-- At any point the invariant yields the scratch at some contents and what returns the rest. -/
theorem Phi_open (c : Dev nD) : ∀ n, Phi V c n ⊢ iprop((∃ d, owns (c : Thread nD τ) scM fullShare d) ∗ Back c)
  | 0 => scoped_split c
  | n + 1 => by
    unfold Phi
    iintro ⟨Hs, Hb⟩
    isplitl [Hs]; · iexists _; iexact Hs
    iexact Hb

/-- The invariant gives the scoped buffers back. -/
theorem Phi_close (c : Dev nD) (n : ℕ) :
    Phi V c n ⊢ (Pipeline.scopedRest (Ix := Unit) (Name := ℕ) (U := Pipeline.UD sig nD τ) (Lvl := ℕ) (Val := Elt F) spec0 c : sProp 𝕄) := by
  refine (Phi_open V c n).trans ?_
  unfold Back
  iintro ⟨Hs, Hb⟩
  iapply Hb; iexact Hs

/-! ## The pipeline's proof data -/

/-- The proof data: the arrays as found; after the body each input's buffer at its block, the output's at the accumulator
    clamped below at zero (read only at last relations); the invariant above; nothing owed; full shares. -/
def dat (c : Dev nD) : Dat τ (Elt F) Unit ℕ (Pipeline.UD sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => k0_pay3 (accAt V c t.val)
  Φ t := Phi V c t.val
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = k0_pay3 (accAt V c t.val) := by dsimp only [dat]
theorem before_0 (c : Dev nD) (t : Fin cfg0.N) (d) : (dat V c).before 0 t d = iblk V c 0 t := before_in_0 V (dat V c) (A_eq V c 0) (after_0 V c) t d
theorem before_1 (c : Dev nD) (t : Fin cfg0.N) (d) : (dat V c).before 1 t d = iblk V c 1 t := before_in_1 V (dat V c) (A_eq V c 1) (after_1 V c) t d
theorem before_2 (c : Dev nD) (t : Fin cfg0.N) (d) : (dat V c).before 2 t d = iblk V c 2 t := before_in_2 V (dat V c) (A_eq V c 2) (after_2 V c) t d
theorem before_3 (c : Dev nD) (t : Fin cfg0.N) (d) : (dat V c).before 3 t d = iblk V c 3 t := before_in_3 V (dat V c) (A_eq V c 3) (after_3 V c) t d
theorem before_4 (c : Dev nD) (t : Fin cfg0.N) (d) : (dat V c).before 4 t d = iblk V c 4 t := before_in_4 V (dat V c) (A_eq V c 4) (after_4 V c) t d

end Region

end Cert.KernelIdeal.Reg0

end
-- ==== Proof.KiBody0.lean ====
import proofs.«171321_j63273458205156_1_alg».proof.Proof.Gen.KernelIdeal.Launch
import proofs.«171321_j63273458205156_1_alg».proof.Proof.Gen.KernelIdeal.Skeleton
import proofs.«171321_j63273458205156_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic
import proofs.«171321_j63273458205156_1_alg».proof.Proof.KiReg0

set_option maxRecDepth 16384

noncomputable section

namespace Cert.KernelIdeal.Body0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-!
The body obligation of pallas_call 0: at every grid point the kernel body, called on the current staging buffers holding
the point's blocks and on the scratch at the previous accumulator, runs to its end leaving the scratch at this point's
accumulator, the inputs as they were, and the output block at the clamped accumulator at last relations (its buffer as
found at every other point). Three cases by the relation index `t % 8`: 0, 1 … 6, 7.
-/

open Cert.KernelIdeal.Run0 Cert.KernelIdeal.Reg0

section Body
variable (V : (c : Dev nD) → (b : Ref sig .tc) → Buf (Elt F) ((c : Thread nD τ).loc b))

theorem Phi_succ (c : Dev nD) (n : ℕ) :
    Phi V c (n + 1) = iprop(owns (c : Thread nD τ) scM fullShare (accAt V c n) ∗ Back c) := rfl

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ (dat V c).leavesExact 5 t)

set_option maxHeartbeats 1000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [after_0, after_1, after_2, after_3, after_4]
  rw [show (dat V c).Φ t.succ = Phi V c (t.val + 1) from rfl, show (dat V c).Φ t.castSucc = Phi V c t.val from rfl]
  unfold Dat.owesAt Pipeline.owesWithin
  rw [show (dat V c).owed t.castSucc = 0 from rfl, show (dat V c).owed t.succ = 0 from rfl]
  have hflush : t.val % 8 ≠ 7 → (cfg0.win 5).flush t = false := fun hne => by
    cases hq : (cfg0.win 5).flush t with
    | false => rfl
    | true => exact absurd ((flush0_5 t).mp hq) hne
  by_cases h0 : t.val % 8 = 0
  · -- first relation
    have hc1 : cond0_1 (grid0.coords t) := (hc1_iff t).mpr h0
    have hc2 : ¬ k0_cond2 (grid0.coords t) = 1#1 := fun h => by have := (hc2_iff t).mp h; omega
    have hidle : cfg0.idle 5 (cfg0.grid.coords t) = true := (idle5_iff t).mpr (by omega)
    have hfl := hflush (by omega)
    rw [Dat.leavesExact_idle (dat V c) 5 t hidle hfl]
    rw [Phi_succ, accAt_first V c t h0]; unfold initAt
    iintro ⟨HΦ, ⟨%W, -, HW⟩, ⟨%d0, H0⟩, ⟨%d1, H1⟩, ⟨%d2, H2⟩, ⟨%d3, H3⟩, ⟨%d4, H4⟩, H5⟩
    ihave HΦ' := (Phi_open V c t.val) $$ HΦ
    icases HΦ' with ⟨Hs, Hb⟩
    iapply (runA c (grid0.coords t) hc1 hc2 _ _ _ _ _ _ _ _ _ _ _ _ _ _ (iblk V c 0 t) (iblk V c 1 t) (iblk V c 2 t) (iblk V c 3 t) (iblk V c 4 t) Set.univ _)
    isplitl [H0]; · iexact H0
    isplitl [H1]; · iexact H1
    isplitl [H2]; · iexact H2
    isplitl [H3]; · iexact H3
    isplitl [H4]; · iexact H4
    isplitl [Hs]; · iexact Hs
    iintro ⟨H0, H1, H2, H3, H4, Hs⟩
    isplitl [Hs Hb]
    · isplitl [Hs]; · iexact Hs
      iexact Hb
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    iexact H5
  obtain ⟨n, hn⟩ : ∃ n, t.val = n + 1 := ⟨t.val - 1, by omega⟩
  have hΦ : Phi V c t.val = iprop(owns (c : Thread nD τ) scM fullShare (accAt V c n) ∗ Back c) := by rw [hn]; rfl
  have hc1 : ¬ cond0_1 (grid0.coords t) := fun h => h0 ((hc1_iff t).mp h)
  by_cases h7 : t.val % 8 = 7
  · -- last relation
    have hc2 : k0_cond2 (grid0.coords t) = 1#1 := (hc2_iff t).mpr h7
    have hidle : cfg0.idle 5 (cfg0.grid.coords t) = false :=
      Bool.eq_false_iff.mpr fun h => ((idle5_iff t).mp h) h7
    rw [show (dat V c).leavesExact 5 t = owns (c : Thread nD τ) (st0_5 t) fullShare ((dat V c).after 5 t) from by
      unfold Dat.leavesExact; rw [hidle], after_5]
    rw [hΦ, Phi_succ, accAt_next V c t n hn h0]; unfold addAt
    iintro ⟨⟨Hs, Hb⟩, ⟨%W, -, HW⟩, ⟨%d0, H0⟩, ⟨%d1, H1⟩, ⟨%d2, H2⟩, ⟨%d3, H3⟩, ⟨%d4, H4⟩, ⟨%d5, H5⟩⟩
    iapply (runC c (grid0.coords t) hc1 hc2 _ _ _ _ _ _ _ _ _ _ _ _ _ _ (accAt V c n) (iblk V c 1 t) (iblk V c 2 t) Set.univ _)
    isplitl [H1]; · iexact H1
    isplitl [H2]; · iexact H2
    isplitl [Hs]; · iexact Hs
    isplitl [H5]; · iexists _; iexact H5
    iintro ⟨H1, H2, Hs, H5⟩
    isplitl [Hs Hb]
    · isplitl [Hs]; · iexact Hs
      iexact Hb
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    iexact H5
  · -- a middle relation
    have hc2 : ¬ k0_cond2 (grid0.coords t) = 1#1 := fun h => h7 ((hc2_iff t).mp h)
    have hidle : cfg0.idle 5 (cfg0.grid.coords t) = true := (idle5_iff t).mpr h7
    have hfl := hflush h7
    rw [Dat.leavesExact_idle (dat V c) 5 t hidle hfl]
    rw [hΦ, Phi_succ, accAt_next V c t n hn h0]; unfold addAt
    iintro ⟨⟨Hs, Hb⟩, ⟨%W, -, HW⟩, ⟨%d0, H0⟩, ⟨%d1, H1⟩, ⟨%d2, H2⟩, ⟨%d3, H3⟩, ⟨%d4, H4⟩, H5⟩
    iapply (runB c (grid0.coords t) hc1 hc2 _ _ _ _ _ _ _ _ _ _ _ _ _ _ (accAt V c n) (iblk V c 1 t) (iblk V c 2 t) Set.univ _)
    isplitl [H1]; · iexact H1
    isplitl [H2]; · iexact H2
    isplitl [Hs]; · iexact Hs
    iintro ⟨H1, H2, Hs⟩
    isplitl [Hs Hb]
    · isplitl [Hs]; · iexact Hs
      iexact Hb
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dat (F := F) V c) (defs₀ (F := F)) Variants.none () Set.univ := fun t => by
  rw [bigSep_W0, bigSep_W0]
  exact sound_body V c t

end Body

end Cert.KernelIdeal.Body0

end
-- ==== Proof.KiRun1.lean ====
import proofs.«171321_j63273458205156_1_alg».proof.Proof.Gen.KernelIdeal.Launch
import proofs.«171321_j63273458205156_1_alg».proof.Proof.Gen.KernelIdeal.Skeleton
import proofs.«171321_j63273458205156_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Run1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-!
The body of pallas_call 1 run once per control case, on any whole staging buffers.

The body reads the relation index `r` (grid coordinate 1). At `r = 0` it first sets the scratch accumulator to
`x·root + bias`; at every `r` it adds `agg_r·W_r` to the accumulator; at `r = 7` it writes `max(acc, 0)` to the output
block. So there are three cases — first relation, a middle relation, last relation — and in each the buffers the
body stores into end at the stated pure functions of what it loaded (`k1_pay1`, `k1_pay2`, `k1_pay3`), every other
buffer as it was.
-/

/-- A load of the whole of a whole buffer whose contents read `X` reads `X`. -/
theorem readAt_unread_whole {sp : Space} {S : Shape} {e : EltTy} (M : Memref sig .tc sp S e) (h : M.IsWhole)
    {off : Fin S.rank → Nat} (hz : off = fun _ => 0) (inb : ∀ a, off a + S.size a ≤ S.size a) (X : S.Idx → Elt F e) :
    View.readAt (Elt F) M.view (Rect.unit off S.size inb).toLoadRect (h.unread X) = X := by
  rw [View.readAt_eq_ld, h.read_unread, View.ld_unit_zero hz]

theorem hz2 : (![0, 0] : Fin S5000x128.rank → Nat) = fun _ => 0 := by funext a; fin_cases a <;> rfl
theorem hz2' : (![0, 0] : Fin S128x128.rank → Nat) = fun _ => 0 := by funext a; fin_cases a <;> rfl
theorem hz3 : (![0, 0, 0] : Fin S1x5000x128.rank → Nat) = fun _ => 0 := by funext a; fin_cases a <;> rfl
theorem hz3' : (![0, 0, 0] : Fin S1x128x128.rank → Nat) = fun _ => 0 := by funext a; fin_cases a <;> rfl
theorem hz1 : (![0] : Fin S128.rank → Nat) = fun _ => 0 := by funext a; fin_cases a; rfl

/-- "The relation index is 0", as the body computes it from the grid point. -/
abbrev cond1_1 (i : grid1.Coords) : Prop := (Scalar.cmpi .ne (Scalar.extui (Scalar.cmpi .eq (BitVec.ofNat 32 (i 1).val) 0#32)) 0#32) = 1#1

set_option maxHeartbeats 1000000 in
/-- First relation: the accumulator is set to `x·root + bias` and relation 0's product is added; the output block is not touched. -/
theorem runA (c : Dev nD) (i : grid1.Coords) (hc1 : cond1_1 i) (hc2 : ¬ k1_cond2 i = 1#1)
    (M2 : Memref sig .tc .vmem S5000x128 .f32) (h2 : M2.IsWhole) (M3 : Memref sig .tc .vmem S1x5000x128 .f32) (h3 : M3.IsWhole)
    (M4 : Memref sig .tc .vmem S1x128x128 .f32) (h4 : M4.IsWhole) (M5 : Memref sig .tc .vmem S128x128 .f32) (h5 : M5.IsWhole)
    (M6 : Memref sig .tc .vmem S128 .f32) (h6 : M6.IsWhole) (M7 : Memref sig .tc .vmem S5000x128 .f32) (h7 : M7.IsWhole)
    (M8 : Memref sig .tc .vmem S5000x128 .f32) (h8 : M8.IsWhole)
    (x : Vec F S5000x128 .f32) (ag : Vec F S1x5000x128 .f32) (w : Vec F S1x128x128 .f32) (rt : Vec F S128x128 .f32) (bs : Vec F S128 .f32)
    (E : Set ℕ) (K : PUnit → sProp 𝕄) :
    iprop(owns (c : Thread nD τ) M2 fullShare x ∗ owns (c : Thread nD τ) M3 fullShare ag ∗ owns (c : Thread nD τ) M4 fullShare w
        ∗ owns (c : Thread nD τ) M5 fullShare rt ∗ owns (c : Thread nD τ) M6 fullShare bs ∗ (∃ d, owns (c : Thread nD τ) M8 fullShare d)
        ∗ (iprop(owns (c : Thread nD τ) M2 fullShare x ∗ owns (c : Thread nD τ) M3 fullShare ag ∗ owns (c : Thread nD τ) M4 fullShare w
            ∗ owns (c : Thread nD τ) M5 fullShare rt ∗ owns (c : Thread nD τ) M6 fullShare bs
            ∗ owns (c : Thread nD τ) M8 fullShare (k1_pay2 (k1_pay1 x rt bs) ag w)) -∗ K ⟨⟩))
      ⊢ wp frame (wpE (defs₀ (F := F)) Variants.none c none) E (cc1__rgcn_mm_kernel i M2 h2 M3 h3 M4 h4 M5 h5 M6 h6 M7 h7 M8 h8) K := by
  simp only [cc1__rgcn_mm_kernel_eq_skeleton]; unfold cc1__rgcn_mm_kernel_skel
  unfold owns
  iintro ⟨⟨%f2, %hf2, H2⟩, ⟨%f3, %hf3, H3⟩, ⟨%f4, %hf4, H4⟩, ⟨%f5, %hf5, H5⟩, ⟨%f6, %hf6, H6⟩, ⟨%d8, %f8, -, H8⟩, Hk⟩
  obtain rfl := h2.eq_unread hf2
  obtain rfl := h3.eq_unread hf3
  obtain rfl := h4.eq_unread hf4
  obtain rfl := h5.eq_unread hf5
  obtain rfl := h6.eq_unread hf6
  sl_exec (disch := first | exact hc1 | exact hc2)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  iexists _; isplitr; swap; · iexact H8
  ipureintro
  rw [View.read_writes_eq_canon _ _ _ (fun y => ⟨_, List.mem_cons_self, View.mem_set_unit_zero hz2 inb_S5000x128_S5000x128_0_0 y⟩), View.canon_cons_unit_zero hz2]
  sl_unfold_run_names
  rw [View.readCov_unit_zero _ hz2, readAt_unread_whole M2 h2 hz2, readAt_unread_whole M5 h5 hz2', readAt_unread_whole M6 h6 hz1,
    readAt_unread_whole M3 h3 hz3, readAt_unread_whole M4 h4 hz3']

set_option maxHeartbeats 1000000 in
/-- A middle relation: that relation's product is added to the accumulator; nothing else is touched. -/
theorem runB (c : Dev nD) (i : grid1.Coords) (hc1 : ¬ cond1_1 i) (hc2 : ¬ k1_cond2 i = 1#1)
    (M2 : Memref sig .tc .vmem S5000x128 .f32) (h2 : M2.IsWhole) (M3 : Memref sig .tc .vmem S1x5000x128 .f32) (h3 : M3.IsWhole)
    (M4 : Memref sig .tc .vmem S1x128x128 .f32) (h4 : M4.IsWhole) (M5 : Memref sig .tc .vmem S128x128 .f32) (h5 : M5.IsWhole)
    (M6 : Memref sig .tc .vmem S128 .f32) (h6 : M6.IsWhole) (M7 : Memref sig .tc .vmem S5000x128 .f32) (h7 : M7.IsWhole)
    (M8 : Memref sig .tc .vmem S5000x128 .f32) (h8 : M8.IsWhole)
    (acc : Vec F S5000x128 .f32) (ag : Vec F S1x5000x128 .f32) (w : Vec F S1x128x128 .f32)
    (E : Set ℕ) (K : PUnit → sProp 𝕄) :
    iprop(owns (c : Thread nD τ) M3 fullShare ag ∗ owns (c : Thread nD τ) M4 fullShare w ∗ owns (c : Thread nD τ) M8 fullShare acc
        ∗ (iprop(owns (c : Thread nD τ) M3 fullShare ag ∗ owns (c : Thread nD τ) M4 fullShare w
            ∗ owns (c : Thread nD τ) M8 fullShare (k1_pay2 acc ag w)) -∗ K ⟨⟩))
      ⊢ wp frame (wpE (defs₀ (F := F)) Variants.none c none) E (cc1__rgcn_mm_kernel i M2 h2 M3 h3 M4 h4 M5 h5 M6 h6 M7 h7 M8 h8) K := by
  simp only [cc1__rgcn_mm_kernel_eq_skeleton]; unfold cc1__rgcn_mm_kernel_skel
  unfold owns
  iintro ⟨⟨%f3, %hf3, H3⟩, ⟨%f4, %hf4, H4⟩, ⟨%f8, %hf8, H8⟩, Hk⟩
  obtain rfl := h3.eq_unread hf3
  obtain rfl := h4.eq_unread hf4
  obtain rfl := h8.eq_unread hf8
  sl_exec (disch := first | exact hc1 | exact hc2)
  sl_step
  iapply Hk
  isplitl [H3]
  · iexists _; isplitr; · ipureintro; exact h3.read_unread _
    iexact H3
  isplitl [H4]
  · iexists _; isplitr; · ipureintro; exact h4.read_unread _
    iexact H4
  iexists _; isplitr; swap; · iexact H8
  ipureintro
  rw [View.read_writes_eq_canon _ _ _ (fun y => ⟨_, List.mem_cons_self, View.mem_set_unit_zero hz2 inb_S5000x128_S5000x128_0_0 y⟩), View.canon_cons_unit_zero hz2]
  sl_unfold_run_names
  rw [readAt_unread_whole M8 h8 hz2, readAt_unread_whole M3 h3 hz3, readAt_unread_whole M4 h4 hz3']

set_option maxHeartbeats 1000000 in
/-- Last relation: its product is added to the accumulator, and the output block is set to the accumulator clamped below at zero. -/
theorem runC (c : Dev nD) (i : grid1.Coords) (hc1 : ¬ cond1_1 i) (hc2 : k1_cond2 i = 1#1)
    (M2 : Memref sig .tc .vmem S5000x128 .f32) (h2 : M2.IsWhole) (M3 : Memref sig .tc .vmem S1x5000x128 .f32) (h3 : M3.IsWhole)
    (M4 : Memref sig .tc .vmem S1x128x128 .f32) (h4 : M4.IsWhole) (M5 : Memref sig .tc .vmem S128x128 .f32) (h5 : M5.IsWhole)
    (M6 : Memref sig .tc .vmem S128 .f32) (h6 : M6.IsWhole) (M7 : Memref sig .tc .vmem S5000x128 .f32) (h7 : M7.IsWhole)
    (M8 : Memref sig .tc .vmem S5000x128 .f32) (h8 : M8.IsWhole)
    (acc : Vec F S5000x128 .f32) (ag : Vec F S1x5000x128 .f32) (w : Vec F S1x128x128 .f32)
    (E : Set ℕ) (K : PUnit → sProp 𝕄) :
    iprop(owns (c : Thread nD τ) M3 fullShare ag ∗ owns (c : Thread nD τ) M4 fullShare w ∗ owns (c : Thread nD τ) M8 fullShare acc
        ∗ (∃ d, owns (c : Thread nD τ) M7 fullShare d)
        ∗ (iprop(owns (c : Thread nD τ) M3 fullShare ag ∗ owns (c : Thread nD τ) M4 fullShare w
            ∗ owns (c : Thread nD τ) M8 fullShare (k1_pay2 acc ag w)
            ∗ owns (c : Thread nD τ) M7 fullShare (k1_pay3 (k1_pay2 acc ag w))) -∗ K ⟨⟩))
      ⊢ wp frame (wpE (defs₀ (F := F)) Variants.none c none) E (cc1__rgcn_mm_kernel i M2 h2 M3 h3 M4 h4 M5 h5 M6 h6 M7 h7 M8 h8) K := by
  simp only [cc1__rgcn_mm_kernel_eq_skeleton]; unfold cc1__rgcn_mm_kernel_skel
  unfold owns
  iintro ⟨⟨%f3, %hf3, H3⟩, ⟨%f4, %hf4, H4⟩, ⟨%f8, %hf8, H8⟩, ⟨%d7, %f7, -, H7⟩, Hk⟩
  obtain rfl := h3.eq_unread hf3
  obtain rfl := h4.eq_unread hf4
  obtain rfl := h8.eq_unread hf8
  sl_exec (disch := first | exact hc1 | exact hc2)
  sl_step
  iapply Hk
  isplitl [H3]
  · iexists _; isplitr; · ipureintro; exact h3.read_unread _
    iexact H3
  isplitl [H4]
  · iexists _; isplitr; · ipureintro; exact h4.read_unread _
    iexact H4
  isplitl [H8]
  · iexists _; isplitr; swap; · iexact H8
    ipureintro
    (try sl_unfold_run_names)
    rw [View.read_writes_eq_canon _ _ _ (fun y => ⟨_, List.mem_cons_self, View.mem_set_unit_zero hz2 inb_S5000x128_S5000x128_0_0 y⟩), View.canon_cons_unit_zero hz2]
    (try sl_unfold_run_names)
    rw [readAt_unread_whole M8 h8 hz2, readAt_unread_whole M3 h3 hz3, readAt_unread_whole M4 h4 hz3']
  iexists _; isplitr; swap; · iexact H7
  ipureintro
  (try sl_unfold_run_names)
  rw [View.read_writes_eq_canon _ _ _ (fun y => ⟨_, List.mem_cons_self, View.mem_set_unit_zero hz2 inb_S5000x128_S5000x128_0_0 y⟩), View.canon_cons_unit_zero hz2]
  (try sl_unfold_run_names)
  rw [View.readCov_unit_zero _ hz2, readAt_unread_whole M8 h8 hz2, readAt_unread_whole M3 h3 hz3, readAt_unread_whole M4 h4 hz3']

end Cert.KernelIdeal.Run1

end
-- ==== Proof.KiReg1.lean ====
import proofs.«171321_j63273458205156_1_alg».proof.Proof.Gen.KernelIdeal.Launch
import proofs.«171321_j63273458205156_1_alg».proof.Proof.Gen.KernelIdeal.Skeleton
import proofs.«171321_j63273458205156_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic
import proofs.«171321_j63273458205156_1_alg».proof.Proof.KiRun1

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-!
pallas_call 1 as a pipeline over a 20 × 8 grid (row tile, relation), entered with the TensorCore's buffers at `V`.

Point `t` works on row tile `t / 8` and relation `t % 8`. The scratch accumulator after point `t` (`accAt`) is, by recursion
on the point: at a first relation the root term plus bias plus relation 0's product of that tile's blocks; otherwise the
previous point's accumulator plus this relation's product. The output block is written at last relations only, as the
accumulator clamped below at zero; at every other point its staging buffer is handed back as found. The invariant between
points holds the scratch at the accumulator, and whatever returns the rest of the core's scoped buffers once the scratch
is given back.
-/

open Cert.KernelIdeal.Run1

section Region
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## An input window's staging buffer holds its block at every point, fetched there or not -/

theorem before_in_0 {c : Dev nD} (dat : Dat τ (Elt F) Unit ℕ (Pipeline.UD sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in_1 {c : Dev nD} (dat : Dat τ (Elt F) Unit ℕ (Pipeline.UD sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in_2 {c : Dev nD} (dat : Dat τ (Elt F) Unit ℕ (Pipeline.UD sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in_3 {c : Dev nD} (dat : Dat τ (Elt F) Unit ℕ (Pipeline.UD sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_in_4 {c : Dev nD} (dat : Dat τ (Elt F) Unit ℕ (Pipeline.UD sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The branch conditions and the schedule, decided over the grid -/

theorem hc1_iff : ∀ t : Fin cfg1.N, cond1_1 (grid1.coords t) ↔ t.val % 8 = 0 :=
  (by decide +kernel : ∀ t : Fin grid1.N, cond1_1 (grid1.coords t) ↔ t.val % 8 = 0)
theorem hc2_iff : ∀ t : Fin cfg1.N, k1_cond2 (grid1.coords t) = 1#1 ↔ t.val % 8 = 7 :=
  (by decide +kernel : ∀ t : Fin grid1.N, k1_cond2 (grid1.coords t) = 1#1 ↔ t.val % 8 = 7)
theorem idle5_iff : ∀ t : Fin cfg1.N, cfg1.idle 5 (cfg1.grid.coords t) = true ↔ t.val % 8 ≠ 7 :=
  (by decide +kernel : ∀ t : Fin grid1.N, idle1 5 (grid1.coords t) = true ↔ t.val % 8 ≠ 7)

/-! ## The accumulator, point by point -/

/-- The scratch accumulator's memref. -/
abbrev scM : Memref sig .tc .vmem S5000x128 .f32 := Memref.whole cc1_scratch0

/-- Point number `n` (taken modulo the 160 points). -/
def pt (n : ℕ) : Fin cfg1.N := ⟨n % 160, by rw [show cfg1.N = 160 from N_1]; exact Nat.mod_lt _ (by decide)⟩
theorem pt_val (t : Fin cfg1.N) : pt t.val = t :=
  Fin.ext (Nat.mod_eq_of_lt (by have := t.isLt; have hN : cfg1.N = 160 := N_1; omega))

/-- The accumulator after a first relation's point: root term, bias and relation 0's product of the point's blocks. -/
def initAt (c : Dev nD) (t : Fin cfg1.N) : Vec F S5000x128 .f32 :=
  k1_pay2 (k1_pay1 (iblk V c 0 t) (iblk V c 3 t) (iblk V c 4 t)) (iblk V c 1 t) (iblk V c 2 t)
/-- The accumulator after a later relation's point: the previous one plus this relation's product. -/
def addAt (c : Dev nD) (prev : Vec F S5000x128 .f32) (t : Fin cfg1.N) : Vec F S5000x128 .f32 :=
  k1_pay2 prev (iblk V c 1 t) (iblk V c 2 t)
/-- The accumulator after point `n`. -/
def accAt (c : Dev nD) : ℕ → Vec F S5000x128 .f32
  | 0 => initAt V c (pt 0)
  | n + 1 => if (n + 1) % 8 = 0 then initAt V c (pt (n + 1)) else addAt V c (accAt c n) (pt (n + 1))

theorem accAt_first (c : Dev nD) (t : Fin cfg1.N) (h : t.val % 8 = 0) : accAt V c t.val = initAt V c t := by
  have key : ∀ k, k % 8 = 0 → accAt V c k = initAt V c (pt k) := by
    intro k hk
    cases k with
    | zero => rfl
    | succ n => show (if (n + 1) % 8 = 0 then _ else _) = _; rw [if_pos hk]
  rw [key _ h, pt_val]
theorem accAt_next (c : Dev nD) (t : Fin cfg1.N) (n : ℕ) (hn : t.val = n + 1) (h : t.val % 8 ≠ 0) :
    accAt V c t.val = addAt V c (accAt V c n) t := by
  have key : ∀ k, (k + 1) % 8 ≠ 0 → accAt V c (k + 1) = addAt V c (accAt V c k) (pt (k + 1)) := by
    intro k hk; show (if (k + 1) % 8 = 0 then _ else _) = _; rw [if_neg hk]
  have e := key n (by omega)
  have hp : pt (n + 1) = t := by rw [← hn, pt_val]
  rw [hn, e, hp]

/-! ## The invariant between points -/

/-- What gives back the core's other scoped buffers once the scratch is returned at any contents. -/
def Back (c : Dev nD) : sProp 𝕄 :=
  iprop((∃ d, owns (c : Thread nD τ) scM fullShare d) -∗ Pipeline.scopedRest (Ix := Unit) (Name := ℕ) (U := Pipeline.UD sig nD τ) (Lvl := ℕ) (Val := Elt F) spec1 c)

/-- Before point `n`: at the first point the scoped buffers as the region found them; later, the scratch at the previous point's accumulator. -/
def Phi (c : Dev nD) : ℕ → sProp 𝕄
  | 0 => Pipeline.scopedRest (Ix := Unit) (Name := ℕ) (U := Pipeline.UD sig nD τ) (Lvl := ℕ) (Val := Elt F) spec1 c
  | n + 1 => iprop(owns (c : Thread nD τ) scM fullShare (accAt V c n) ∗ Back c)

/-- The scoped buffers split into the scratch at some contents and what returns the rest. -/
theorem scoped_split (c : Dev nD) :
    (Pipeline.scopedRest (Ix := Unit) (Name := ℕ) (U := Pipeline.UD sig nD τ) (Lvl := ℕ) (Val := Elt F) spec1 c : sProp 𝕄)
      ⊢ iprop((∃ d, owns (c : Thread nD τ) scM fullShare d) ∗ Back c) := by
  unfold Back
  rw [scopedRest1_eq]
  simp only [owns_whole]
  iintro ⟨R0, R1, R2, R3, R4, R5, R6, R7, R8, R9, R10, ⟨%fs, Hs⟩⟩
  isplitl [Hs]
  · iexists fs; iexact Hs
  iintro ⟨%d, Hs'⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  iexists d; iexact Hs'

/-- At any point the invariant yields the scratch at some contents and what returns the rest. -/
theorem Phi_open (c : Dev nD) : ∀ n, Phi V c n ⊢ iprop((∃ d, owns (c : Thread nD τ) scM fullShare d) ∗ Back c)
  | 0 => scoped_split c
  | n + 1 => by
    unfold Phi
    iintro ⟨Hs, Hb⟩
    isplitl [Hs]; · iexists _; iexact Hs
    iexact Hb

/-- The invariant gives the scoped buffers back. -/
theorem Phi_close (c : Dev nD) (n : ℕ) :
    Phi V c n ⊢ (Pipeline.scopedRest (Ix := Unit) (Name := ℕ) (U := Pipeline.UD sig nD τ) (Lvl := ℕ) (Val := Elt F) spec1 c : sProp 𝕄) := by
  refine (Phi_open V c n).trans ?_
  unfold Back
  iintro ⟨Hs, Hb⟩
  iapply Hb; iexact Hs

/-! ## The pipeline's proof data -/

/-- The proof data: the arrays as found; after the body each input's buffer at its block, the output's at the accumulator
    clamped below at zero (read only at last relations); the invariant above; nothing owed; full shares. -/
def dat (c : Dev nD) : Dat τ (Elt F) Unit ℕ (Pipeline.UD sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => k1_pay3 (accAt V c t.val)
  Φ t := Phi V c t.val
  q _ := fullShare
  owed _ := 0

theorem A_eq (c : Dev nD) (w : Fin cfg1.W) : (dat V c).A w = V c (Pipeline.arrRef spec1 w) := by dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = k1_pay3 (accAt V c t.val) := by dsimp only [dat]
theorem before_0 (c : Dev nD) (t : Fin cfg1.N) (d) : (dat V c).before 0 t d = iblk V c 0 t := before_in_0 V (dat V c) (A_eq V c 0) (after_0 V c) t d
theorem before_1 (c : Dev nD) (t : Fin cfg1.N) (d) : (dat V c).before 1 t d = iblk V c 1 t := before_in_1 V (dat V c) (A_eq V c 1) (after_1 V c) t d
theorem before_2 (c : Dev nD) (t : Fin cfg1.N) (d) : (dat V c).before 2 t d = iblk V c 2 t := before_in_2 V (dat V c) (A_eq V c 2) (after_2 V c) t d
theorem before_3 (c : Dev nD) (t : Fin cfg1.N) (d) : (dat V c).before 3 t d = iblk V c 3 t := before_in_3 V (dat V c) (A_eq V c 3) (after_3 V c) t d
theorem before_4 (c : Dev nD) (t : Fin cfg1.N) (d) : (dat V c).before 4 t d = iblk V c 4 t := before_in_4 V (dat V c) (A_eq V c 4) (after_4 V c) t d

end Region

end Cert.KernelIdeal.Reg1

end
-- ==== Proof.KiBody1.lean ====
import proofs.«171321_j63273458205156_1_alg».proof.Proof.Gen.KernelIdeal.Launch
import proofs.«171321_j63273458205156_1_alg».proof.Proof.Gen.KernelIdeal.Skeleton
import proofs.«171321_j63273458205156_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic
import proofs.«171321_j63273458205156_1_alg».proof.Proof.KiReg1

set_option maxRecDepth 16384

noncomputable section

namespace Cert.KernelIdeal.Body1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-!
The body obligation of pallas_call 1: at every grid point the kernel body, called on the current staging buffers holding
the point's blocks and on the scratch at the previous accumulator, runs to its end leaving the scratch at this point's
accumulator, the inputs as they were, and the output block at the clamped accumulator at last relations (its buffer as
found at every other point). Three cases by the relation index `t % 8`: 0, 1 … 6, 7.
-/

open Cert.KernelIdeal.Run1 Cert.KernelIdeal.Reg1

section Body
variable (V : (c : Dev nD) → (b : Ref sig .tc) → Buf (Elt F) ((c : Thread nD τ).loc b))

theorem Phi_succ (c : Dev nD) (n : ℕ) :
    Phi V c (n + 1) = iprop(owns (c : Thread nD τ) scM fullShare (accAt V c n) ∗ Back c) := rfl

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ (dat V c).leavesExact 5 t)

set_option maxHeartbeats 1000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [after_0, after_1, after_2, after_3, after_4]
  rw [show (dat V c).Φ t.succ = Phi V c (t.val + 1) from rfl, show (dat V c).Φ t.castSucc = Phi V c t.val from rfl]
  unfold Dat.owesAt Pipeline.owesWithin
  rw [show (dat V c).owed t.castSucc = 0 from rfl, show (dat V c).owed t.succ = 0 from rfl]
  have hflush : t.val % 8 ≠ 7 → (cfg1.win 5).flush t = false := fun hne => by
    cases hq : (cfg1.win 5).flush t with
    | false => rfl
    | true => exact absurd ((flush1_5 t).mp hq) hne
  by_cases h0 : t.val % 8 = 0
  · -- first relation
    have hc1 : cond1_1 (grid1.coords t) := (hc1_iff t).mpr h0
    have hc2 : ¬ k1_cond2 (grid1.coords t) = 1#1 := fun h => by have := (hc2_iff t).mp h; omega
    have hidle : cfg1.idle 5 (cfg1.grid.coords t) = true := (idle5_iff t).mpr (by omega)
    have hfl := hflush (by omega)
    rw [Dat.leavesExact_idle (dat V c) 5 t hidle hfl]
    rw [Phi_succ, accAt_first V c t h0]; unfold initAt
    iintro ⟨HΦ, ⟨%W, -, HW⟩, ⟨%d0, H0⟩, ⟨%d1, H1⟩, ⟨%d2, H2⟩, ⟨%d3, H3⟩, ⟨%d4, H4⟩, H5⟩
    ihave HΦ' := (Phi_open V c t.val) $$ HΦ
    icases HΦ' with ⟨Hs, Hb⟩
    iapply (runA c (grid1.coords t) hc1 hc2 _ _ _ _ _ _ _ _ _ _ _ _ _ _ (iblk V c 0 t) (iblk V c 1 t) (iblk V c 2 t) (iblk V c 3 t) (iblk V c 4 t) Set.univ _)
    isplitl [H0]; · iexact H0
    isplitl [H1]; · iexact H1
    isplitl [H2]; · iexact H2
    isplitl [H3]; · iexact H3
    isplitl [H4]; · iexact H4
    isplitl [Hs]; · iexact Hs
    iintro ⟨H0, H1, H2, H3, H4, Hs⟩
    isplitl [Hs Hb]
    · isplitl [Hs]; · iexact Hs
      iexact Hb
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    iexact H5
  obtain ⟨n, hn⟩ : ∃ n, t.val = n + 1 := ⟨t.val - 1, by omega⟩
  have hΦ : Phi V c t.val = iprop(owns (c : Thread nD τ) scM fullShare (accAt V c n) ∗ Back c) := by rw [hn]; rfl
  have hc1 : ¬ cond1_1 (grid1.coords t) := fun h => h0 ((hc1_iff t).mp h)
  by_cases h7 : t.val % 8 = 7
  · -- last relation
    have hc2 : k1_cond2 (grid1.coords t) = 1#1 := (hc2_iff t).mpr h7
    have hidle : cfg1.idle 5 (cfg1.grid.coords t) = false :=
      Bool.eq_false_iff.mpr fun h => ((idle5_iff t).mp h) h7
    rw [show (dat V c).leavesExact 5 t = owns (c : Thread nD τ) (st1_5 t) fullShare ((dat V c).after 5 t) from by
      unfold Dat.leavesExact; rw [hidle], after_5]
    rw [hΦ, Phi_succ, accAt_next V c t n hn h0]; unfold addAt
    iintro ⟨⟨Hs, Hb⟩, ⟨%W, -, HW⟩, ⟨%d0, H0⟩, ⟨%d1, H1⟩, ⟨%d2, H2⟩, ⟨%d3, H3⟩, ⟨%d4, H4⟩, ⟨%d5, H5⟩⟩
    iapply (runC c (grid1.coords t) hc1 hc2 _ _ _ _ _ _ _ _ _ _ _ _ _ _ (accAt V c n) (iblk V c 1 t) (iblk V c 2 t) Set.univ _)
    isplitl [H1]; · iexact H1
    isplitl [H2]; · iexact H2
    isplitl [Hs]; · iexact Hs
    isplitl [H5]; · iexists _; iexact H5
    iintro ⟨H1, H2, Hs, H5⟩
    isplitl [Hs Hb]
    · isplitl [Hs]; · iexact Hs
      iexact Hb
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    iexact H5
  · -- a middle relation
    have hc2 : ¬ k1_cond2 (grid1.coords t) = 1#1 := fun h => h7 ((hc2_iff t).mp h)
    have hidle : cfg1.idle 5 (cfg1.grid.coords t) = true := (idle5_iff t).mpr h7
    have hfl := hflush h7
    rw [Dat.leavesExact_idle (dat V c) 5 t hidle hfl]
    rw [hΦ, Phi_succ, accAt_next V c t n hn h0]; unfold addAt
    iintro ⟨⟨Hs, Hb⟩, ⟨%W, -, HW⟩, ⟨%d0, H0⟩, ⟨%d1, H1⟩, ⟨%d2, H2⟩, ⟨%d3, H3⟩, ⟨%d4, H4⟩, H5⟩
    iapply (runB c (grid1.coords t) hc1 hc2 _ _ _ _ _ _ _ _ _ _ _ _ _ _ (accAt V c n) (iblk V c 1 t) (iblk V c 2 t) Set.univ _)
    isplitl [H1]; · iexact H1
    isplitl [H2]; · iexact H2
    isplitl [Hs]; · iexact Hs
    iintro ⟨H1, H2, Hs⟩
    isplitl [Hs Hb]
    · isplitl [Hs]; · iexact Hs
      iexact Hb
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dat (F := F) V c) (defs₀ (F := F)) Variants.none () Set.univ := fun t => by
  rw [bigSep_W1, bigSep_W1]
  exact sound_body V c t

end Body

end Cert.KernelIdeal.Body1

end
-- ==== Proof.HostKept.lean ====
import proofs.«171321_j63273458205156_1_alg».proof.Proof.Gen.KernelIdeal.Launch

/-!
The references the two host stretches of the kernel program write, and that every other reference — the nine
arguments among them, and for the second stretch the first region's stacked operand and result — keeps its contents
over a stretch.
-/

set_option maxRecDepth 8000
set_option maxHeartbeats 4000000

noncomputable section

namespace Cert.HostSide

open Idealize.ShloMosaic Idealize.ShloMosaic.TcCoe
open Cert.KernelIdeal Cert.KernelIdeal.Gen

variable {F : FTy → Type} [FloatOps F]

/-- The references `hostOps0`'s operations write, in order. -/
abbrev hostOps0_W : List (Ref sig .tc) :=
  [ main_v0, main_v1, main_v2, main_v3, main_c, main_v4, main_v5, main_c_0, main_v6, main_v7, main_v8, main_v9,
    main_v10, main_c_1, main_v11, main_v12, main_v13, main_v14, main_v15, main_v16, main_cst, main_v17, main_v18, main_v19,
    main_cst_2, main_v20, main_v21, main_v22, main_cst_3, main_v23, main_v24, main_v25, main_v26, main_v27, main_c_4, main_v28,
    main_v29, main_v30, main_v31, main_v32, main_v33, main_cst_5, main_v34, main_v35, main_v36, main_cst_6, main_v37, main_v38,
    main_v39, main_cst_7, main_v40, main_v41, main_v42, main_v43, main_v44, main_c_8, main_v45, main_v46, main_v47, main_v48,
    main_v49, main_v50, main_cst_9, main_v51, main_v52, main_v53, main_cst_10, main_v54, main_v55, main_v56, main_cst_11, main_v57,
    main_v58, main_v59, main_v60, main_v61, main_c_12, main_v62, main_v63, main_v64, main_v65, main_v66, main_v67, main_cst_13,
    main_v68, main_v69, main_v70, main_cst_14, main_v71, main_v72, main_v73, main_cst_15, main_v74, main_v75, main_v76, main_v77,
    main_v78, main_c_16, main_v79, main_v80, main_v81, main_v82, main_v83, main_v84, main_cst_17, main_v85, main_v86, main_v87,
    main_cst_18, main_v88, main_v89, main_v90, main_cst_19, main_v91, main_v92, main_v93, main_v94, main_v95, main_c_20, main_v96,
    main_v97, main_v98, main_v99, main_v100, main_v101, main_cst_21, main_v102, main_v103, main_v104, main_cst_22, main_v105, main_v106,
    main_v107, main_cst_23, main_v108, main_v109, main_v110, main_v111, main_v112, main_c_24, main_v113, main_v114, main_v115, main_v116,
    main_v117, main_v118, main_cst_25, main_v119, main_v120, main_v121, main_cst_26, main_v122, main_v123, main_v124, main_cst_27, main_v125,
    main_v126, main_v127, main_v128, main_v129, main_c_28, main_v130, main_v131, main_v132, main_v133, main_v134, main_v135, main_cst_29,
    main_v136, main_v137, main_v138, main_cst_30, main_v139, main_v140, main_v141, main_cst_31, main_v142, main_v143, main_v144, main_v145,
    main_v146, main_v147, main_v148, main_v149, main_v150, main_v151, main_v152, main_v153, main_v154, main_v155 ]

/-- Every operation of `hostOps0` writes a reference of the list. -/
theorem hostOps0_writes :
    (hostOps0 (F := F)).Forall fun op => op.writes ⊆ (hostOps0_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)

/-- A reference `hostOps0` does not write keeps its contents over it. -/
theorem kept0 (V : Valuation τ sig (Elt F)) (r : Ref sig .tc) (h : r ∉ hostOps0_W) :
    StableHlo.after (hostOps0 (F := F)) V r = V r :=
  StableHlo.after_of_writes_sub hostOps0 V hostOps0_writes h

/-- The same as the absence of a writer. -/
theorem notw0 (r : Ref sig .tc) (h : r ∉ hostOps0_W) :
    ∀ op ∈ (hostOps0 (F := F)), Proc.devRef (τ := τ) .tc r ∉ op.writes := fun op hop hb => by
  obtain ⟨y, hy, he⟩ := List.mem_map.mp (List.mem_toFinset.mp ((List.forall_iff_forall_mem.mp hostOps0_writes) op hop hb))
  exact h (Proc.devRef_injective _ he ▸ hy)

/-- The references `hostOps1`'s operations write, in order. -/
abbrev hostOps1_W : List (Ref sig .tc) :=
  [ main_c_32, main_v157, main_v158, main_c_33, main_v159, main_v160, main_v161, main_v162, main_v163, main_c_34, main_v164, main_v165,
    main_v166, main_v167, main_v168, main_v169, main_cst_35, main_v170, main_v171, main_v172, main_cst_36, main_v173, main_v174, main_v175,
    main_cst_37, main_v176, main_v177, main_v178, main_v179, main_v180, main_c_38, main_v181, main_v182, main_v183, main_v184, main_v185,
    main_v186, main_cst_39, main_v187, main_v188, main_v189, main_cst_40, main_v190, main_v191, main_v192, main_cst_41, main_v193, main_v194,
    main_v195, main_v196, main_v197, main_c_42, main_v198, main_v199, main_v200, main_v201, main_v202, main_v203, main_cst_43, main_v204,
    main_v205, main_v206, main_cst_44, main_v207, main_v208, main_v209, main_cst_45, main_v210, main_v211, main_v212, main_v213, main_v214,
    main_c_46, main_v215, main_v216, main_v217, main_v218, main_v219, main_v220, main_cst_47, main_v221, main_v222, main_v223, main_cst_48,
    main_v224, main_v225, main_v226, main_cst_49, main_v227, main_v228, main_v229, main_v230, main_v231, main_c_50, main_v232, main_v233,
    main_v234, main_v235, main_v236, main_v237, main_cst_51, main_v238, main_v239, main_v240, main_cst_52, main_v241, main_v242, main_v243,
    main_cst_53, main_v244, main_v245, main_v246, main_v247, main_v248, main_c_54, main_v249, main_v250, main_v251, main_v252, main_v253,
    main_v254, main_cst_55, main_v255, main_v256, main_v257, main_cst_56, main_v258, main_v259, main_v260, main_cst_57, main_v261, main_v262,
    main_v263, main_v264, main_v265, main_c_58, main_v266, main_v267, main_v268, main_v269, main_v270, main_v271, main_cst_59, main_v272,
    main_v273, main_v274, main_cst_60, main_v275, main_v276, main_v277, main_cst_61, main_v278, main_v279, main_v280, main_v281, main_v282,
    main_c_62, main_v283, main_v284, main_v285, main_v286, main_v287, main_v288, main_cst_63, main_v289, main_v290, main_v291, main_cst_64,
    main_v292, main_v293, main_v294, main_cst_65, main_v295, main_v296, main_v297, main_v298, main_v299, main_v300, main_v301, main_v302,
    main_v303, main_v304, main_v305, main_v306, main_v307, main_v308 ]

/-- Every operation of `hostOps1` writes a reference of the list. -/
theorem hostOps1_writes :
    (hostOps1 (F := F)).Forall fun op => op.writes ⊆ (hostOps1_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)

/-- A reference `hostOps1` does not write keeps its contents over it. -/
theorem kept1 (V : Valuation τ sig (Elt F)) (r : Ref sig .tc) (h : r ∉ hostOps1_W) :
    StableHlo.after (hostOps1 (F := F)) V r = V r :=
  StableHlo.after_of_writes_sub hostOps1 V hostOps1_writes h

/-- The same as the absence of a writer. -/
theorem notw1 (r : Ref sig .tc) (h : r ∉ hostOps1_W) :
    ∀ op ∈ (hostOps1 (F := F)), Proc.devRef (τ := τ) .tc r ∉ op.writes := fun op hop hb => by
  obtain ⟨y, hy, he⟩ := List.mem_map.mp (List.mem_toFinset.mp ((List.forall_iff_forall_mem.mp hostOps1_writes) op hop hb))
  exact h (Proc.devRef_injective _ he ▸ hy)

/-- The first stretch writes none of the nine arguments. -/
theorem args_not_written0 :
    main_arg0 ∉ hostOps0_W ∧ main_arg1 ∉ hostOps0_W ∧ main_arg2 ∉ hostOps0_W ∧ main_arg3 ∉ hostOps0_W ∧ main_arg4 ∉ hostOps0_W
      ∧ main_arg5 ∉ hostOps0_W ∧ main_arg6 ∉ hostOps0_W ∧ main_arg7 ∉ hostOps0_W ∧ main_arg8 ∉ hostOps0_W := by decide

/-- The second stretch writes none of the nine arguments, nor the sources and destinations the first stretch left,
    nor the first region's stacked operand and result. -/
theorem args_not_written1 :
    main_arg0 ∉ hostOps1_W ∧ main_arg1 ∉ hostOps1_W ∧ main_arg2 ∉ hostOps1_W ∧ main_arg3 ∉ hostOps1_W ∧ main_arg4 ∉ hostOps1_W
      ∧ main_arg5 ∉ hostOps1_W ∧ main_arg6 ∉ hostOps1_W ∧ main_arg7 ∉ hostOps1_W ∧ main_arg8 ∉ hostOps1_W
      ∧ main_v1 ∉ hostOps1_W ∧ main_v3 ∉ hostOps1_W ∧ main_v155 ∉ hostOps1_W ∧ main_v156 ∉ hostOps1_W := by decide

end Cert.HostSide

end
-- ==== Proof.KiMain.lean ====
import proofs.«171321_j63273458205156_1_alg».proof.Proof.Gen.KernelIdeal.Launch
import proofs.«171321_j63273458205156_1_alg».proof.Proof.Gen.KernelIdeal.Skeleton
import proofs.«171321_j63273458205156_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic
import proofs.«171321_j63273458205156_1_alg».proof.Proof.KiBody0
import proofs.«171321_j63273458205156_1_alg».proof.Proof.KiBody1
import proofs.«171321_j63273458205156_1_alg».proof.Proof.HostKept

set_option maxRecDepth 16384

noncomputable section

namespace Cert.KernelIdeal.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-!
The whole program's run: 190 host operations (the eight mean aggregates of the input features, stacked), the first
layer's pallas_call, 186 more host operations (the aggregates of the hidden layer), the second layer's pallas_call.

The buffer contents at each boundary are a fold from the launch memory: a stretch of host operations applies them; a
pallas_call leaves its result array at what its write-backs leave and every other buffer as it found it. Every weakly fair
execution terminates without fault in a state where the result array holds the second call's written-back blocks and the
nine argument arrays are as launched — no host operation writes an argument, and a call only reads them.
-/

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first stretch of host operations (the first call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first call: its arrays at what the pipeline leaves, everything else as entered. -/
def W2 (c : Dev nD) : Valuation τ sig (Elt F) :=
  Pipeline.withArrays spec0 c (W1 m ρ c) fun w => (Cert.KernelIdeal.Reg0.dat (V1 m ρ) c).arrAt w cfg0.N
theorem W2_arr (c : Dev nD) (w : Fin cfg0.W) :
    W2 m ρ c (Proc.devRef .tc (Pipeline.arrRef spec0 w)) = (Cert.KernelIdeal.Reg0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Cert.KernelIdeal.Reg0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second stretch of host operations (the second call's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second call. -/
def W4 (c : Dev nD) : Valuation τ sig (Elt F) :=
  Pipeline.withArrays spec1 c (W3 m ρ c) fun w => (Cert.KernelIdeal.Reg1.dat (V3 m ρ) c).arrAt w cfg1.N
theorem W4_arr (c : Dev nD) (w : Fin cfg1.W) :
    W4 m ρ c (Proc.devRef .tc (Pipeline.arrRef spec1 w)) = (Cert.KernelIdeal.Reg1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (Cert.KernelIdeal.Reg1.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := Cert.HostSide.kept1 _ main_arg0 (by decide)
    _ = W1 m ρ c (Proc.devRef .tc main_arg0) := (W2_arr m ρ c 0).trans (((Cert.KernelIdeal.Reg0.dat (V1 m ρ) c).arrAt_in 0 rfl _).trans (Cert.KernelIdeal.Reg0.A_eq (V1 m ρ) c 0))
    _ = W0 m ρ c (Proc.devRef .tc main_arg0) := Cert.HostSide.kept0 _ main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := Cert.HostSide.kept1 _ main_arg1 (by decide)
    _ = W1 m ρ c (Proc.devRef .tc main_arg1) := W2_of_ne m ρ c main_arg1 (by decide)
    _ = W0 m ρ c (Proc.devRef .tc main_arg1) := Cert.HostSide.kept0 _ main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := Cert.HostSide.kept1 _ main_arg2 (by decide)
    _ = W1 m ρ c (Proc.devRef .tc main_arg2) := W2_of_ne m ρ c main_arg2 (by decide)
    _ = W0 m ρ c (Proc.devRef .tc main_arg2) := Cert.HostSide.kept0 _ main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := Cert.HostSide.kept1 _ main_arg3 (by decide)
    _ = W1 m ρ c (Proc.devRef .tc main_arg3) := (W2_arr m ρ c 2).trans (((Cert.KernelIdeal.Reg0.dat (V1 m ρ) c).arrAt_in 2 rfl _).trans (Cert.KernelIdeal.Reg0.A_eq (V1 m ρ) c 2))
    _ = W0 m ρ c (Proc.devRef .tc main_arg3) := Cert.HostSide.kept0 _ main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := Cert.HostSide.kept1 _ main_arg4 (by decide)
    _ = W1 m ρ c (Proc.devRef .tc main_arg4) := (W2_arr m ρ c 3).trans (((Cert.KernelIdeal.Reg0.dat (V1 m ρ) c).arrAt_in 3 rfl _).trans (Cert.KernelIdeal.Reg0.A_eq (V1 m ρ) c 3))
    _ = W0 m ρ c (Proc.devRef .tc main_arg4) := Cert.HostSide.kept0 _ main_arg4 (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := Cert.HostSide.kept1 _ main_arg5 (by decide)
    _ = W1 m ρ c (Proc.devRef .tc main_arg5) := (W2_arr m ρ c 4).trans (((Cert.KernelIdeal.Reg0.dat (V1 m ρ) c).arrAt_in 4 rfl _).trans (Cert.KernelIdeal.Reg0.A_eq (V1 m ρ) c 4))
    _ = W0 m ρ c (Proc.devRef .tc main_arg5) := Cert.HostSide.kept0 _ main_arg5 (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := (W4_arr m ρ c 2).trans (((Cert.KernelIdeal.Reg1.dat (V3 m ρ) c).arrAt_in 2 rfl _).trans (Cert.KernelIdeal.Reg1.A_eq (V3 m ρ) c 2))
    _ = W2 m ρ c (Proc.devRef .tc main_arg6) := Cert.HostSide.kept1 _ main_arg6 (by decide)
    _ = W1 m ρ c (Proc.devRef .tc main_arg6) := W2_of_ne m ρ c main_arg6 (by decide)
    _ = W0 m ρ c (Proc.devRef .tc main_arg6) := Cert.HostSide.kept0 _ main_arg6 (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := (W4_arr m ρ c 3).trans (((Cert.KernelIdeal.Reg1.dat (V3 m ρ) c).arrAt_in 3 rfl _).trans (Cert.KernelIdeal.Reg1.A_eq (V3 m ρ) c 3))
    _ = W2 m ρ c (Proc.devRef .tc main_arg7) := Cert.HostSide.kept1 _ main_arg7 (by decide)
    _ = W1 m ρ c (Proc.devRef .tc main_arg7) := W2_of_ne m ρ c main_arg7 (by decide)
    _ = W0 m ρ c (Proc.devRef .tc main_arg7) := Cert.HostSide.kept0 _ main_arg7 (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := (W4_arr m ρ c 4).trans (((Cert.KernelIdeal.Reg1.dat (V3 m ρ) c).arrAt_in 4 rfl _).trans (Cert.KernelIdeal.Reg1.A_eq (V3 m ρ) c 4))
    _ = W2 m ρ c (Proc.devRef .tc main_arg8) := Cert.HostSide.kept1 _ main_arg8 (by decide)
    _ = W1 m ρ c (Proc.devRef .tc main_arg8) := W2_of_ne m ρ c main_arg8 (by decide)
    _ = W0 m ρ c (Proc.devRef .tc main_arg8) := Cert.HostSide.kept0 _ main_arg8 (by decide)
    _ = m ((c : Thread nD τ).loc main_arg8) := rfl

/-- The result array at the end: what the second call's write-backs leave. -/
theorem W4_result (c : Dev nD) : W4 m ρ c (Proc.devRef .tc main_v309) = (Cert.KernelIdeal.Reg1.dat (V3 m ρ) c).arrAt 5 cfg1.N := W4_arr m ρ c 5

/-! ## The proof data family and the thread state -/

abbrev adm : (p : Fin 2) → (pcfgs (F := F) p).Adm := fun p => (cfgs p).toPCfg_adm
/-- Each call's proof data at its entry contents (a literal match, so that the pinned configuration at a numeral reduces). -/
def pdats : (p : Fin 2) → (c : Dev nD) → Dat τ (Elt F) Unit ℕ (Pipeline.UD sig nD τ) ℕ (Pipeline.pin (pcfgs (F := F)) adm p) c
  | ⟨0, _⟩ => fun c => Cert.KernelIdeal.Reg0.dat (V1 m ρ) c
  | ⟨1, _⟩ => fun c => Cert.KernelIdeal.Reg1.dat (V3 m ρ) c
abbrev 𝒱₀ : Variants := Variants.none
abbrev L : GSem nD τ sig → Finset Unit := fun _ => ∅
abbrev lv : GSem nD τ sig → Unit → ℕ := fun _ _ => 0
/-- What rides beside the buffers: the core owes nothing. -/
abbrev R (c : Dev nD) : sProp 𝕄 := iprop(∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
set_option maxRecDepth 65536 in
theorem hostOps0_fresh : (hostOps0 : List (HloOp τ sig (Elt F))).Forall fun op => op.fresh = ∅ := by
  simp only [List.Forall]; repeat' constructor
set_option maxRecDepth 65536 in
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The calls as segments -/

set_option backward.isDefEq.respectTransparency.types false in
/-- pallas_call 0 over the thread state: entered from every unscoped buffer at the contents before it, left with its
    result array at what the write-backs leave and every other buffer as entered. Its arrays are split out of the unscoped
    buffers and put back; the scoped buffers go into the invariant and come back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Cert.KernelIdeal.Body0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X _ := BI.emp
  Y _ := BI.emp
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m ρ 0 c).Φ 0 = Pipeline.scopedRest (Ix := Unit) (Name := ℕ) (U := Pipeline.UD sig nD τ) (Lvl := ℕ) (Val := Elt F) spec0 c from rfl]
    iintro ⟨-, -, Hr⟩; iexact Hr
  hout c := by
    rw [Pipeline.ownSems0_none, show (pdats m ρ 0 c).Φ (Fin.last _) = Cert.KernelIdeal.Reg0.Phi (V1 m ρ) c cfg0.N from rfl]
    iintro Hr
    isplitr; · iempintro
    isplitr; · iempintro
    iapply (Cert.KernelIdeal.Reg0.Phi_close (V1 m ρ) c cfg0.N); iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- pallas_call 1 over the thread state: entered from every unscoped buffer at the contents before it, left with its
    result array at what the write-backs leave and every other buffer as entered. Its arrays are split out of the unscoped
    buffers and put back; the scoped buffers go into the invariant and come back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Cert.KernelIdeal.Body1.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X _ := BI.emp
  Y _ := BI.emp
  Z c := Pipeline.unscopedRest (Ix := Unit) (Name := ℕ) (U := Pipeline.UD sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m ρ 1 c).Φ 0 = Pipeline.scopedRest (Ix := Unit) (Name := ℕ) (U := Pipeline.UD sig nD τ) (Lvl := ℕ) (Val := Elt F) spec1 c from rfl]
    iintro ⟨-, -, Hr⟩; iexact Hr
  hout c := by
    rw [Pipeline.ownSems0_none, show (pdats m ρ 1 c).Φ (Fin.last _) = Cert.KernelIdeal.Reg1.Phi (V3 m ρ) c cfg1.N from rfl]
    iintro Hr
    isplitr; · iempintro
    isplitr; · iempintro
    iapply (Cert.KernelIdeal.Reg1.Phi_close (V3 m ρ) c cfg1.N); iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## The program as four segments, and its run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution terminates without fault, with the result array at the second call's written-back blocks
    and the nine arguments as launched. -/
theorem run_main : θ_run defs (onTc (τ := τ) (main (F := F))) ⟨m, fun _ => 0, ρ⟩ (fun r => ∀ c : Dev nD,
      r.2.mem ((c.tc : Thread nD τ).loc main_v309) = (Cert.KernelIdeal.Reg1.dat (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => StableHlo.held (c : Thread nD τ) (Pipeline.ucRefs τ sig) (W4 m ρ c))
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, -, -⟩, -⟩
      imodintro
      isplitl [Hh]; · iexact Hh
      iexists ∅; iexact HO)
    (QY := fun c s => ∀ b ∈ Pipeline.ucRefs τ sig, s.mem (((c : Thread nD τ)).1, b) = W4 m ρ c b)
    (hfin := fun c s' => by
      iintro ⟨Hh, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v309 (by decide))).trans (W4_result m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Main

end
-- ==== Proof.HostSeg0.lean ====
import proofs.«171321_j63273458205156_1_alg».proof.Proof.Gen.KernelIdeal.Launch

/-!
The host stretch `hostOps0` of the kernel program cut into ten consecutive segments — the shared slices, index wrap and gather;
one segment per relation (its mask, the masked rows, the two scatter-additions, the clamp and the division); the
eight unit-row broadcasts and the concatenation — with the references each segment writes, and the fact that a
reference a segment does not write keeps its contents over it.
-/

set_option maxRecDepth 4000

noncomputable section

namespace Cert.HostSide

open Idealize.ShloMosaic Idealize.ShloMosaic.TcCoe
open Cert.KernelIdeal Cert.KernelIdeal.Gen

variable {F : FTy → Type} [FloatOps F]

/-- Operations 1 … 13 of the stretch. -/
def pre0 : List (HloOp τ sig (Elt F)) :=
  [
    StableHlo.unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v0 main_v1 rfl shapeCasts_S1x640000_S640000,
    StableHlo.unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v2 main_v3 rfl shapeCasts_S1x640000_S640000,
    StableHlo.nullary main_c (constantI S_ 32 0#32),
    StableHlo.unary main_c main_v4 (broadcastInDim S640000 ![] bcast_S_S640000 : (⟨S_, .i32⟩ : BufTy).Contents (Elt F) → (⟨S640000, .i32⟩ : BufTy).Contents (Elt F)),
    StableHlo.binary main_v1 main_v4 main_v5 (cmpi .slt : (⟨S640000, .i32⟩ : BufTy).Contents (Elt F) → (⟨S640000, .i32⟩ : BufTy).Contents (Elt F) → (⟨S640000, .i1⟩ : BufTy).Contents (Elt F)),
    StableHlo.nullary main_c_0 (constantI S_ 32 100000#32),
    StableHlo.unary main_c_0 main_v6 (broadcastInDim S640000 ![] bcast_S_S640000 : (⟨S_, .i32⟩ : BufTy).Contents (Elt F) → (⟨S640000, .i32⟩ : BufTy).Contents (Elt F)),
    StableHlo.binary main_v1 main_v6 main_v7 (addi : (⟨S640000, .i32⟩ : BufTy).Contents (Elt F) → (⟨S640000, .i32⟩ : BufTy).Contents (Elt F) → (⟨S640000, .i32⟩ : BufTy).Contents (Elt F)),
    StableHlo.ternary main_v5 main_v7 main_v1 main_v8 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v8 main_v9 (broadcastInDim S640000x1 ![0] bcast_S640000_S640000x1_0 : (⟨S640000, .i32⟩ : BufTy).Contents (Elt F) → (⟨S640000x1, .i32⟩ : BufTy).Contents (Elt F)),
    StableHlo.binary main_arg0 main_v9 main_v10 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)) ]

/-- Operations 14 … 34 of the stretch. -/
def b0_0 : List (HloOp τ sig (Elt F)) :=
  [
    StableHlo.nullary main_c_1 (constantI S_ 32 0#32),
    StableHlo.unary main_c_1 main_v11 (broadcastInDim S640000 ![] bcast_S_S640000 : (⟨S_, .i32⟩ : BufTy).Contents (Elt F) → (⟨S640000, .i32⟩ : BufTy).Contents (Elt F)),
    StableHlo.binary main_arg2 main_v11 main_v12 (cmpi .eq : (⟨S640000, .i32⟩ : BufTy).Contents (Elt F) → (⟨S640000, .i32⟩ : BufTy).Contents (Elt F) → (⟨S640000, .i1⟩ : BufTy).Contents (Elt F)),
    StableHlo.unary main_v12 main_v13 (uitofp .f32 : (⟨S640000, .i1⟩ : BufTy).Contents (Elt F) → (⟨S640000, .f32⟩ : BufTy).Contents (Elt F)),
    StableHlo.unary main_v13 main_v14 (broadcastInDim S640000x1 ![0] bcast_S640000_S640000x1_0 : (⟨S640000, .f32⟩ : BufTy).Contents (Elt F) → (⟨S640000x1, .f32⟩ : BufTy).Contents (Elt F)),
    StableHlo.unary main_v14 main_v15 (broadcastInDim S640000x128 ![0, 1] bcast_S640000x1_S640000x128_0_1 : (⟨S640000x1, .f32⟩ : BufTy).Contents (Elt F) → (⟨S640000x128, .f32⟩ : BufTy).Contents (Elt F)),
    StableHlo.binary main_v10 main_v15 main_v16 (mulf : (⟨S640000x128, .f32⟩ : BufTy).Contents (Elt F) → (⟨S640000x128, .f32⟩ : BufTy).Contents (Elt F) → (⟨S640000x128, .f32⟩ : BufTy).Contents (Elt F)),
    StableHlo.nullary main_cst (constant S_ .f32 0x00000000#32),
    StableHlo.unary main_cst main_v17 (broadcastInDim S100000x128 ![] bcast_S_S100000x128 : (⟨S_, .f32⟩ : BufTy).Contents (Elt F) → (⟨S100000x128, .f32⟩ : BufTy).Contents (Elt F)),
    StableHlo.unary main_v3 main_v18 (broadcastInDim S640000x1 ![0] bcast_S640000_S640000x1_0 : (⟨S640000, .i32⟩ : BufTy).Contents (Elt F) → (⟨S640000x1, .i32⟩ : BufTy).Contents (Elt F)),
    StableHlo.ternary main_v17 main_v18 main_v16 main_v19 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    StableHlo.nullary main_cst_2 (constant S_ .f32 0x00000000#32),
    StableHlo.unary main_cst_2 main_v20 (broadcastInDim S100000 ![] bcast_S_S100000 : (⟨S_, .f32⟩ : BufTy).Contents (Elt F) → (⟨S100000, .f32⟩ : BufTy).Contents (Elt F)),
    StableHlo.unary main_v3 main_v21 (broadcastInDim S640000x1 ![0] bcast_S640000_S640000x1_0 : (⟨S640000, .i32⟩ : BufTy).Contents (Elt F) → (⟨S640000x1, .i32⟩ : BufTy).Contents (Elt F)),
    StableHlo.ternary main_v20 main_v21 main_v13 main_v22 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    StableHlo.nullary main_cst_3 (constant S_ .f32 0x3F800000#32),
    StableHlo.unary main_cst_3 main_v23 (broadcastInDim S100000 ![] bcast_S_S100000 : (⟨S_, .f32⟩ : BufTy).Contents (Elt F) → (⟨S100000, .f32⟩ : BufTy).Contents (Elt F)),
    StableHlo.binary main_v22 main_v23 main_v24 (maximumf : (⟨S100000, .f32⟩ : BufTy).Contents (Elt F) → (⟨S100000, .f32⟩ : BufTy).Contents (Elt F) → (⟨S100000, .f32⟩ : BufTy).Contents (Elt F)),
    StableHlo.unary main_v24 main_v25 (broadcastInDim S100000x1 ![0] bcast_S100000_S100000x1_0 : (⟨S100000, .f32⟩ : BufTy).Contents (Elt F) → (⟨S100000x1, .f32⟩ : BufTy).Contents (Elt F)),
    StableHlo.unary main_v25 main_v26 (broadcastInDim S100000x128 ![0, 1] bcast_S100000x1_S100000x128_0_1 : (⟨S100000x1, .f32⟩ : BufTy).Contents (Elt F) → (⟨S100000x128, .f32⟩ : BufTy).Contents (Elt F)),
    StableHlo.binary main_v19 main_v26 main_v27 (Host.divf : (⟨S100000x128, .f32⟩ : BufTy).Contents (Elt F) → (⟨S100000x128, .f32⟩ : BufTy).Contents (Elt F) → (⟨S100000x128, .f32⟩ : BufTy).Contents (Elt F)) ]

/-- Operations 35 … 55 of the stretch. -/
def b0_1 : List (HloOp τ sig (Elt F)) :=
  [
    StableHlo.nullary main_c_4 (constantI S_ 32 1#32),
    StableHlo.unary main_c_4 main_v28 (broadcastInDim S640000 ![] bcast_S_S640000 : (⟨S_, .i32⟩ : BufTy).Contents (Elt F) → (⟨S640000, .i32⟩ : BufTy).Contents (Elt F)),
    StableHlo.binary main_arg2 main_v28 main_v29 (cmpi .eq : (⟨S640000, .i32⟩ : BufTy).Contents (Elt F) → (⟨S640000, .i32⟩ : BufTy).Contents (Elt F) → (⟨S640000, .i1⟩ : BufTy).Contents (Elt F)),
    StableHlo.unary main_v29 main_v30 (uitofp .f32 : (⟨S640000, .i1⟩ : BufTy).Contents (Elt F) → (⟨S640000, .f32⟩ : BufTy).Contents (Elt F)),
    StableHlo.unary main_v30 main_v31 (broadcastInDim S640000x1 ![0] bcast_S640000_S640000x1_0 : (⟨S640000, .f32⟩ : BufTy).Contents (Elt F) → (⟨S640000x1, .f32⟩ : BufTy).Contents (Elt F)),
    StableHlo.unary main_v31 main_v32 (broadcastInDim S640000x128 ![0, 1] bcast_S640000x1_S640000x128_0_1 : (⟨S640000x1, .f32⟩ : BufTy).Contents (Elt F) → (⟨S640000x128, .f32⟩ : BufTy).Contents (Elt F)),
    StableHlo.binary main_v10 main_v32 main_v33 (mulf : (⟨S640000x128, .f32⟩ : BufTy).Contents (Elt F) → (⟨S640000x128, .f32⟩ : BufTy).Contents (Elt F) → (⟨S640000x128, .f32⟩ : BufTy).Contents (Elt F)),
    StableHlo.nullary main_cst_5 (constant S_ .f32 0x00000000#32),
    StableHlo.unary main_cst_5 main_v34 (broadcastInDim S100000x128 ![] bcast_S_S100000x128 : (⟨S_, .f32⟩ : BufTy).Contents (Elt F) → (⟨S100000x128, .f32⟩ : BufTy).Contents (Elt F)),
    StableHlo.unary main_v3 main_v35 (broadcastInDim S640000x1 ![0] bcast_S640000_S640000x1_0 : (⟨S640000, .i32⟩ : BufTy).Contents (Elt F) → (⟨S640000x1, .i32⟩ : BufTy).Contents (Elt F)),
    StableHlo.ternary main_v34 main_v35 main_v33 main_v36 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    StableHlo.nullary main_cst_6 (constant S_ .f32 0x00000000#32),
    StableHlo.unary main_cst_6 main_v37 (broadcastInDim S100000 ![] bcast_S_S100000 : (⟨S_, .f32⟩ : BufTy).Contents (Elt F) → (⟨S100000, .f32⟩ : BufTy).Contents (Elt F)),
    StableHlo.unary main_v3 main_v38 (broadcastInDim S640000x1 ![0] bcast_S640000_S640000x1_0 : (⟨S640000, .i32⟩ : BufTy).Contents (Elt F) → (⟨S640000x1, .i32⟩ : BufTy).Contents (Elt F)),
    StableHlo.ternary main_v37 main_v38 main_v30 main_v39 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    StableHlo.nullary main_cst_7 (constant S_ .f32 0x3F800000#32),
    StableHlo.unary main_cst_7 main_v40 (broadcastInDim S100000 ![] bcast_S_S100000 : (⟨S_, .f32⟩ : BufTy).Contents (Elt F) → (⟨S100000, .f32⟩ : BufTy).Contents (Elt F)),
    StableHlo.binary main_v39 main_v40 main_v41 (maximumf : (⟨S100000, .f32⟩ : BufTy).Contents (Elt F) → (⟨S100000, .f32⟩ : BufTy).Contents (Elt F) → (⟨S100000, .f32⟩ : BufTy).Contents (Elt F)),
    StableHlo.unary main_v41 main_v42 (broadcastInDim S100000x1 ![0] bcast_S100000_S100000x1_0 : (⟨S100000, .f32⟩ : BufTy).Contents (Elt F) → (⟨S100000x1, .f32⟩ : BufTy).Contents (Elt F)),
    StableHlo.unary main_v42 main_v43 (broadcastInDim S100000x128 ![0, 1] bcast_S100000x1_S100000x128_0_1 : (⟨S100000x1, .f32⟩ : BufTy).Contents (Elt F) → (⟨S100000x128, .f32⟩ : BufTy).Contents (Elt F)),
    StableHlo.binary main_v36 main_v43 main_v44 (Host.divf : (⟨S100000x128, .f32⟩ : BufTy).Contents (Elt F) → (⟨S100000x128, .f32⟩ : BufTy).Contents (Elt F) → (⟨S100000x128, .f32⟩ : BufTy).Contents (Elt F)) ]

/-- Operations 56 … 76 of the stretch. -/
def b0_2 : List (HloOp τ sig (Elt F)) :=
  [
    StableHlo.nullary main_c_8 (constantI S_ 32 2#32),
    StableHlo.unary main_c_8 main_v45 (broadcastInDim S640000 ![] bcast_S_S640000 : (⟨S_, .i32⟩ : BufTy).Contents (Elt F) → (⟨S640000, .i32⟩ : BufTy).Contents (Elt F)),
    StableHlo.binary main_arg2 main_v45 main_v46 (cmpi .eq : (⟨S640000, .i32⟩ : BufTy).Contents (Elt F) → (⟨S640000, .i32⟩ : BufTy).Contents (Elt F) → (⟨S640000, .i1⟩ : BufTy).Contents (Elt F)),
    StableHlo.unary main_v46 main_v47 (uitofp .f32 : (⟨S640000, .i1⟩ : BufTy).Contents (Elt F) → (⟨S640000, .f32⟩ : BufTy).Contents (Elt F)),
    StableHlo.unary main_v47 main_v48 (broadcastInDim S640000x1 ![0] bcast_S640000_S640000x1_0 : (⟨S640000, .f32⟩ : BufTy).Contents (Elt F) → (⟨S640000x1, .f32⟩ : BufTy).Contents (Elt F)),
    StableHlo.unary main_v48 main_v49 (broadcastInDim S640000x128 ![0, 1] bcast_S640000x1_S640000x128_0_1 : (⟨S640000x1, .f32⟩ : BufTy).Contents (Elt F) → (⟨S640000x128, .f32⟩ : BufTy).Contents (Elt F)),
    StableHlo.binary main_v10 main_v49 main_v50 (mulf : (⟨S640000x128, .f32⟩ : BufTy).Contents (Elt F) → (⟨S640000x128, .f32⟩ : BufTy).Contents (Elt F) → (⟨S640000x128, .f32⟩ : BufTy).Contents (Elt F)),
    StableHlo.nullary main_cst_9 (constant S_ .f32 0x00000000#32),
    StableHlo.unary main_cst_9 main_v51 (broadcastInDim S100000x128 ![] bcast_S_S100000x128 : (⟨S_, .f32⟩ : BufTy).Contents (Elt F) → (⟨S100000x128, .f32⟩ : BufTy).Contents (Elt F)),
    StableHlo.unary main_v3 main_v52 (broadcastInDim S640000x1 ![0] bcast_S640000_S640000x1_0 : (⟨S640000, .i32⟩ : BufTy).Contents (Elt F) → (⟨S640000x1, .i32⟩ : BufTy).Contents (Elt F)),
    StableHlo.ternary main_v51 main_v52 main_v50 main_v53 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    StableHlo.nullary main_cst_10 (constant S_ .f32 0x00000000#32),
    StableHlo.unary main_cst_10 main_v54 (broadcastInDim S100000 ![] bcast_S_S100000 : (⟨S_, .f32⟩ : BufTy).Contents (Elt F) → (⟨S100000, .f32⟩ : BufTy).Contents (Elt F)),
    StableHlo.unary main_v3 main_v55 (broadcastInDim S640000x1 ![0] bcast_S640000_S640000x1_0 : (⟨S640000, .i32⟩ : BufTy).Contents (Elt F) → (⟨S640000x1, .i32⟩ : BufTy).Contents (Elt F)),
    StableHlo.ternary main_v54 main_v55 main_v47 main_v56 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    StableHlo.nullary main_cst_11 (constant S_ .f32 0x3F800000#32),
    StableHlo.unary main_cst_11 main_v57 (broadcastInDim S100000 ![] bcast_S_S100000 : (⟨S_, .f32⟩ : BufTy).Contents (Elt F) → (⟨S100000, .f32⟩ : BufTy).Contents (Elt F)),
    StableHlo.binary main_v56 main_v57 main_v58 (maximumf : (⟨S100000, .f32⟩ : BufTy).Contents (Elt F) → (⟨S100000, .f32⟩ : BufTy).Contents (Elt F) → (⟨S100000, .f32⟩ : BufTy).Contents (Elt F)),
    StableHlo.unary main_v58 main_v59 (broadcastInDim S100000x1 ![0] bcast_S100000_S100000x1_0 : (⟨S100000, .f32⟩ : BufTy).Contents (Elt F) → (⟨S100000x1, .f32⟩ : BufTy).Contents (Elt F)),
    StableHlo.unary main_v59 main_v60 (broadcastInDim S100000x128 ![0, 1] bcast_S100000x1_S100000x128_0_1 : (⟨S100000x1, .f32⟩ : BufTy).Contents (Elt F) → (⟨S100000x128, .f32⟩ : BufTy).Contents (Elt F)),
    StableHlo.binary main_v53 main_v60 main_v61 (Host.divf : (⟨S100000x128, .f32⟩ : BufTy).Contents (Elt F) → (⟨S100000x128, .f32⟩ : BufTy).Contents (Elt F) → (⟨S100000x128, .f32⟩ : BufTy).Contents (Elt F)) ]

/-- Operations 77 … 97 of the stretch. -/
def b0_3 : List (HloOp τ sig (Elt F)) :=
  [
    StableHlo.nullary main_c_12 (constantI S_ 32 3#32),
    StableHlo.unary main_c_12 main_v62 (broadcastInDim S640000 ![] bcast_S_S640000 : (⟨S_, .i32⟩ : BufTy).Contents (Elt F) → (⟨S640000, .i32⟩ : BufTy).Contents (Elt F)),
    StableHlo.binary main_arg2 main_v62 main_v63 (cmpi .eq : (⟨S640000, .i32⟩ : BufTy).Contents (Elt F) → (⟨S640000, .i32⟩ : BufTy).Contents (Elt F) → (⟨S640000, .i1⟩ : BufTy).Contents (Elt F)),
    StableHlo.unary main_v63 main_v64 (uitofp .f32 : (⟨S640000, .i1⟩ : BufTy).Contents (Elt F) → (⟨S640000, .f32⟩ : BufTy).Contents (Elt F)),
    StableHlo.unary main_v64 main_v65 (broadcastInDim S640000x1 ![0] bcast_S640000_S640000x1_0 : (⟨S640000, .f32⟩ : BufTy).Contents (Elt F) → (⟨S640000x1, .f32⟩ : BufTy).Contents (Elt F)),
    StableHlo.unary main_v65 main_v66 (broadcastInDim S640000x128 ![0, 1] bcast_S640000x1_S640000x128_0_1 : (⟨S640000x1, .f32⟩ : BufTy).Contents (Elt F) → (⟨S640000x128, .f32⟩ : BufTy).Contents (Elt F)),
    StableHlo.binary main_v10 main_v66 main_v67 (mulf : (⟨S640000x128, .f32⟩ : BufTy).Contents (Elt F) → (⟨S640000x128, .f32⟩ : BufTy).Contents (Elt F) → (⟨S640000x128, .f32⟩ : BufTy).Contents (Elt F)),
    StableHlo.nullary main_cst_13 (constant S_ .f32 0x00000000#32),
    StableHlo.unary main_cst_13 main_v68 (broadcastInDim S100000x128 ![] bcast_S_S100000x128 : (⟨S_, .f32⟩ : BufTy).Contents (Elt F) → (⟨S100000x128, .f32⟩ : BufTy).Contents (Elt F)),
    StableHlo.unary main_v3 main_v69 (broadcastInDim S640000x1 ![0] bcast_S640000_S640000x1_0 : (⟨S640000, .i32⟩ : BufTy).Contents (Elt F) → (⟨S640000x1, .i32⟩ : BufTy).Contents (Elt F)),
    StableHlo.ternary main_v68 main_v69 main_v67 main_v70 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    StableHlo.nullary main_cst_14 (constant S_ .f32 0x00000000#32),
    StableHlo.unary main_cst_14 main_v71 (broadcastInDim S100000 ![] bcast_S_S100000 : (⟨S_, .f32⟩ : BufTy).Contents (Elt F) → (⟨S100000, .f32⟩ : BufTy).Contents (Elt F)),
    StableHlo.unary main_v3 main_v72 (broadcastInDim S640000x1 ![0] bcast_S640000_S640000x1_0 : (⟨S640000, .i32⟩ : BufTy).Contents (Elt F) → (⟨S640000x1, .i32⟩ : BufTy).Contents (Elt F)),
    StableHlo.ternary main_v71 main_v72 main_v64 main_v73 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    StableHlo.nullary main_cst_15 (constant S_ .f32 0x3F800000#32),
    StableHlo.unary main_cst_15 main_v74 (broadcastInDim S100000 ![] bcast_S_S100000 : (⟨S_, .f32⟩ : BufTy).Contents (Elt F) → (⟨S100000, .f32⟩ : BufTy).Contents (Elt F)),
    StableHlo.binary main_v73 main_v74 main_v75 (maximumf : (⟨S100000, .f32⟩ : BufTy).Contents (Elt F) → (⟨S100000, .f32⟩ : BufTy).Contents (Elt F) → (⟨S100000, .f32⟩ : BufTy).Contents (Elt F)),
    StableHlo.unary main_v75 main_v76 (broadcastInDim S100000x1 ![0] bcast_S100000_S100000x1_0 : (⟨S100000, .f32⟩ : BufTy).Contents (Elt F) → (⟨S100000x1, .f32⟩ : BufTy).Contents (Elt F)),
    StableHlo.unary main_v76 main_v77 (broadcastInDim S100000x128 ![0, 1] bcast_S100000x1_S100000x128_0_1 : (⟨S100000x1, .f32⟩ : BufTy).Contents (Elt F) → (⟨S100000x128, .f32⟩ : BufTy).Contents (Elt F)),
    StableHlo.binary main_v70 main_v77 main_v78 (Host.divf : (⟨S100000x128, .f32⟩ : BufTy).Contents (Elt F) → (⟨S100000x128, .f32⟩ : BufTy).Contents (Elt F) → (⟨S100000x128, .f32⟩ : BufTy).Contents (Elt F)) ]

/-- Operations 98 … 118 of the stretch. -/
def b0_4 : List (HloOp τ sig (Elt F)) :=
  [
    StableHlo.nullary main_c_16 (constantI S_ 32 4#32),
    StableHlo.unary main_c_16 main_v79 (broadcastInDim S640000 ![] bcast_S_S640000 : (⟨S_, .i32⟩ : BufTy).Contents (Elt F) → (⟨S640000, .i32⟩ : BufTy).Contents (Elt F)),
    StableHlo.binary main_arg2 main_v79 main_v80 (cmpi .eq : (⟨S640000, .i32⟩ : BufTy).Contents (Elt F) → (⟨S640000, .i32⟩ : BufTy).Contents (Elt F) → (⟨S640000, .i1⟩ : BufTy).Contents (Elt F)),
    StableHlo.unary main_v80 main_v81 (uitofp .f32 : (⟨S640000, .i1⟩ : BufTy).Contents (Elt F) → (⟨S640000, .f32⟩ : BufTy).Contents (Elt F)),
    StableHlo.unary main_v81 main_v82 (broadcastInDim S640000x1 ![0] bcast_S640000_S640000x1_0 : (⟨S640000, .f32⟩ : BufTy).Contents (Elt F) → (⟨S640000x1, .f32⟩ : BufTy).Contents (Elt F)),
    StableHlo.unary main_v82 main_v83 (broadcastInDim S640000x128 ![0, 1] bcast_S640000x1_S640000x128_0_1 : (⟨S640000x1, .f32⟩ : BufTy).Contents (Elt F) → (⟨S640000x128, .f32⟩ : BufTy).Contents (Elt F)),
    StableHlo.binary main_v10 main_v83 main_v84 (mulf : (⟨S640000x128, .f32⟩ : BufTy).Contents (Elt F) → (⟨S640000x128, .f32⟩ : BufTy).Contents (Elt F) → (⟨S640000x128, .f32⟩ : BufTy).Contents (Elt F)),
    StableHlo.nullary main_cst_17 (constant S_ .f32 0x00000000#32),
    StableHlo.unary main_cst_17 main_v85 (broadcastInDim S100000x128 ![] bcast_S_S100000x128 : (⟨S_, .f32⟩ : BufTy).Contents (Elt F) → (⟨S100000x128, .f32⟩ : BufTy).Contents (Elt F)),
    StableHlo.unary main_v3 main_v86 (broadcastInDim S640000x1 ![0] bcast_S640000_S640000x1_0 : (⟨S640000, .i32⟩ : BufTy).Contents (Elt F) → (⟨S640000x1, .i32⟩ : BufTy).Contents (Elt F)),
    StableHlo.ternary main_v85 main_v86 main_v84 main_v87 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    StableHlo.nullary main_cst_18 (constant S_ .f32 0x00000000#32),
    StableHlo.unary main_cst_18 main_v88 (broadcastInDim S100000 ![] bcast_S_S100000 : (⟨S_, .f32⟩ : BufTy).Contents (Elt F) → (⟨S100000, .f32⟩ : BufTy).Contents (Elt F)),
    StableHlo.unary main_v3 main_v89 (broadcastInDim S640000x1 ![0] bcast_S640000_S640000x1_0 : (⟨S640000, .i32⟩ : BufTy).Contents (Elt F) → (⟨S640000x1, .i32⟩ : BufTy).Contents (Elt F)),
    StableHlo.ternary main_v88 main_v89 main_v81 main_v90 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    StableHlo.nullary main_cst_19 (constant S_ .f32 0x3F800000#32),
    StableHlo.unary main_cst_19 main_v91 (broadcastInDim S100000 ![] bcast_S_S100000 : (⟨S_, .f32⟩ : BufTy).Contents (Elt F) → (⟨S100000, .f32⟩ : BufTy).Contents (Elt F)),
    StableHlo.binary main_v90 main_v91 main_v92 (maximumf : (⟨S100000, .f32⟩ : BufTy).Contents (Elt F) → (⟨S100000, .f32⟩ : BufTy).Contents (Elt F) → (⟨S100000, .f32⟩ : BufTy).Contents (Elt F)),
    StableHlo.unary main_v92 main_v93 (broadcastInDim S100000x1 ![0] bcast_S100000_S100000x1_0 : (⟨S100000, .f32⟩ : BufTy).Contents (Elt F) → (⟨S100000x1, .f32⟩ : BufTy).Contents (Elt F)),
    StableHlo.unary main_v93 main_v94 (broadcastInDim S100000x128 ![0, 1] bcast_S100000x1_S100000x128_0_1 : (⟨S100000x1, .f32⟩ : BufTy).Contents (Elt F) → (⟨S100000x128, .f32⟩ : BufTy).Contents (Elt F)),
    StableHlo.binary main_v87 main_v94 main_v95 (Host.divf : (⟨S100000x128, .f32⟩ : BufTy).Contents (Elt F) → (⟨S100000x128, .f32⟩ : BufTy).Contents (Elt F) → (⟨S100000x128, .f32⟩ : BufTy).Contents (Elt F)) ]

/-- Operations 119 … 139 of the stretch. -/
def b0_5 : List (HloOp τ sig (Elt F)) :=
  [
    StableHlo.nullary main_c_20 (constantI S_ 32 5#32),
    StableHlo.unary main_c_20 main_v96 (broadcastInDim S640000 ![] bcast_S_S640000 : (⟨S_, .i32⟩ : BufTy).Contents (Elt F) → (⟨S640000, .i32⟩ : BufTy).Contents (Elt F)),
    StableHlo.binary main_arg2 main_v96 main_v97 (cmpi .eq : (⟨S640000, .i32⟩ : BufTy).Contents (Elt F) → (⟨S640000, .i32⟩ : BufTy).Contents (Elt F) → (⟨S640000, .i1⟩ : BufTy).Contents (Elt F)),
    StableHlo.unary main_v97 main_v98 (uitofp .f32 : (⟨S640000, .i1⟩ : BufTy).Contents (Elt F) → (⟨S640000, .f32⟩ : BufTy).Contents (Elt F)),
    StableHlo.unary main_v98 main_v99 (broadcastInDim S640000x1 ![0] bcast_S640000_S640000x1_0 : (⟨S640000, .f32⟩ : BufTy).Contents (Elt F) → (⟨S640000x1, .f32⟩ : BufTy).Contents (Elt F)),
    StableHlo.unary main_v99 main_v100 (broadcastInDim S640000x128 ![0, 1] bcast_S640000x1_S640000x128_0_1 : (⟨S640000x1, .f32⟩ : BufTy).Contents (Elt F) → (⟨S640000x128, .f32⟩ : BufTy).Contents (Elt F)),
    StableHlo.binary main_v10 main_v100 main_v101 (mulf : (⟨S640000x128, .f32⟩ : BufTy).Contents (Elt F) → (⟨S640000x128, .f32⟩ : BufTy).Contents (Elt F) → (⟨S640000x128, .f32⟩ : BufTy).Contents (Elt F)),
    StableHlo.nullary main_cst_21 (constant S_ .f32 0x00000000#32),
    StableHlo.unary main_cst_21 main_v102 (broadcastInDim S100000x128 ![] bcast_S_S100000x128 : (⟨S_, .f32⟩ : BufTy).Contents (Elt F) → (⟨S100000x128, .f32⟩ : BufTy).Contents (Elt F)),
    StableHlo.unary main_v3 main_v103 (broadcastInDim S640000x1 ![0] bcast_S640000_S640000x1_0 : (⟨S640000, .i32⟩ : BufTy).Contents (Elt F) → (⟨S640000x1, .i32⟩ : BufTy).Contents (Elt F)),
    StableHlo.ternary main_v102 main_v103 main_v101 main_v104 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    StableHlo.nullary main_cst_22 (constant S_ .f32 0x00000000#32),
    StableHlo.unary main_cst_22 main_v105 (broadcastInDim S100000 ![] bcast_S_S100000 : (⟨S_, .f32⟩ : BufTy).Contents (Elt F) → (⟨S100000, .f32⟩ : BufTy).Contents (Elt F)),
    StableHlo.unary main_v3 main_v106 (broadcastInDim S640000x1 ![0] bcast_S640000_S640000x1_0 : (⟨S640000, .i32⟩ : BufTy).Contents (Elt F) → (⟨S640000x1, .i32⟩ : BufTy).Contents (Elt F)),
    StableHlo.ternary main_v105 main_v106 main_v98 main_v107 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    StableHlo.nullary main_cst_23 (constant S_ .f32 0x3F800000#32),
    StableHlo.unary main_cst_23 main_v108 (broadcastInDim S100000 ![] bcast_S_S100000 : (⟨S_, .f32⟩ : BufTy).Contents (Elt F) → (⟨S100000, .f32⟩ : BufTy).Contents (Elt F)),
    StableHlo.binary main_v107 main_v108 main_v109 (maximumf : (⟨S100000, .f32⟩ : BufTy).Contents (Elt F) → (⟨S100000, .f32⟩ : BufTy).Contents (Elt F) → (⟨S100000, .f32⟩ : BufTy).Contents (Elt F)),
    StableHlo.unary main_v109 main_v110 (broadcastInDim S100000x1 ![0] bcast_S100000_S100000x1_0 : (⟨S100000, .f32⟩ : BufTy).Contents (Elt F) → (⟨S100000x1, .f32⟩ : BufTy).Contents (Elt F)),
    StableHlo.unary main_v110 main_v111 (broadcastInDim S100000x128 ![0, 1] bcast_S100000x1_S100000x128_0_1 : (⟨S100000x1, .f32⟩ : BufTy).Contents (Elt F) → (⟨S100000x128, .f32⟩ : BufTy).Contents (Elt F)),
    StableHlo.binary main_v104 main_v111 main_v112 (Host.divf : (⟨S100000x128, .f32⟩ : BufTy).Contents (Elt F) → (⟨S100000x128, .f32⟩ : BufTy).Contents (Elt F) → (⟨S100000x128, .f32⟩ : BufTy).Contents (Elt F)) ]

/-- Operations 140 … 160 of the stretch. -/
def b0_6 : List (HloOp τ sig (Elt F)) :=
  [
    StableHlo.nullary main_c_24 (constantI S_ 32 6#32),
    StableHlo.unary main_c_24 main_v113 (broadcastInDim S640000 ![] bcast_S_S640000 : (⟨S_, .i32⟩ : BufTy).Contents (Elt F) → (⟨S640000, .i32⟩ : BufTy).Contents (Elt F)),
    StableHlo.binary main_arg2 main_v113 main_v114 (cmpi .eq : (⟨S640000, .i32⟩ : BufTy).Contents (Elt F) → (⟨S640000, .i32⟩ : BufTy).Contents (Elt F) → (⟨S640000, .i1⟩ : BufTy).Contents (Elt F)),
    StableHlo.unary main_v114 main_v115 (uitofp .f32 : (⟨S640000, .i1⟩ : BufTy).Contents (Elt F) → (⟨S640000, .f32⟩ : BufTy).Contents (Elt F)),
    StableHlo.unary main_v115 main_v116 (broadcastInDim S640000x1 ![0] bcast_S640000_S640000x1_0 : (⟨S640000, .f32⟩ : BufTy).Contents (Elt F) → (⟨S640000x1, .f32⟩ : BufTy).Contents (Elt F)),
    StableHlo.unary main_v116 main_v117 (broadcastInDim S640000x128 ![0, 1] bcast_S640000x1_S640000x128_0_1 : (⟨S640000x1, .f32⟩ : BufTy).Contents (Elt F) → (⟨S640000x128, .f32⟩ : BufTy).Contents (Elt F)),
    StableHlo.binary main_v10 main_v117 main_v118 (mulf : (⟨S640000x128, .f32⟩ : BufTy).Contents (Elt F) → (⟨S640000x128, .f32⟩ : BufTy).Contents (Elt F) → (⟨S640000x128, .f32⟩ : BufTy).Contents (Elt F)),
    StableHlo.nullary main_cst_25 (constant S_ .f32 0x00000000#32),
    StableHlo.unary main_cst_25 main_v119 (broadcastInDim S100000x128 ![] bcast_S_S100000x128 : (⟨S_, .f32⟩ : BufTy).Contents (Elt F) → (⟨S100000x128, .f32⟩ : BufTy).Contents (Elt F)),
    StableHlo.unary main_v3 main_v120 (broadcastInDim S640000x1 ![0] bcast_S640000_S640000x1_0 : (⟨S640000, .i32⟩ : BufTy).Contents (Elt F) → (⟨S640000x1, .i32⟩ : BufTy).Contents (Elt F)),
    StableHlo.ternary main_v119 main_v120 main_v118 main_v121 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    StableHlo.nullary main_cst_26 (constant S_ .f32 0x00000000#32),
    StableHlo.unary main_cst_26 main_v122 (broadcastInDim S100000 ![] bcast_S_S100000 : (⟨S_, .f32⟩ : BufTy).Contents (Elt F) → (⟨S100000, .f32⟩ : BufTy).Contents (Elt F)),
    StableHlo.unary main_v3 main_v123 (broadcastInDim S640000x1 ![0] bcast_S640000_S640000x1_0 : (⟨S640000, .i32⟩ : BufTy).Contents (Elt F) → (⟨S640000x1, .i32⟩ : BufTy).Contents (Elt F)),
    StableHlo.ternary main_v122 main_v123 main_v115 main_v124 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    StableHlo.nullary main_cst_27 (constant S_ .f32 0x3F800000#32),
    StableHlo.unary main_cst_27 main_v125 (broadcastInDim S100000 ![] bcast_S_S100000 : (⟨S_, .f32⟩ : BufTy).Contents (Elt F) → (⟨S100000, .f32⟩ : BufTy).Contents (Elt F)),
    StableHlo.binary main_v124 main_v125 main_v126 (maximumf : (⟨S100000, .f32⟩ : BufTy).Contents (Elt F) → (⟨S100000, .f32⟩ : BufTy).Contents (Elt F) → (⟨S100000, .f32⟩ : BufTy).Contents (Elt F)),
    StableHlo.unary main_v126 main_v127 (broadcastInDim S100000x1 ![0] bcast_S100000_S100000x1_0 : (⟨S100000, .f32⟩ : BufTy).Contents (Elt F) → (⟨S100000x1, .f32⟩ : BufTy).Contents (Elt F)),
    StableHlo.unary main_v127 main_v128 (broadcastInDim S100000x128 ![0, 1] bcast_S100000x1_S100000x128_0_1 : (⟨S100000x1, .f32⟩ : BufTy).Contents (Elt F) → (⟨S100000x128, .f32⟩ : BufTy).Contents (Elt F)),
    StableHlo.binary main_v121 main_v128 main_v129 (Host.divf : (⟨S100000x128, .f32⟩ : BufTy).Contents (Elt F) → (⟨S100000x128, .f32⟩ : BufTy).Contents (Elt F) → (⟨S100000x128, .f32⟩ : BufTy).Contents (Elt F)) ]

/-- Operations 161 … 181 of the stretch. -/
def b0_7 : List (HloOp τ sig (Elt F)) :=
  [
    StableHlo.nullary main_c_28 (constantI S_ 32 7#32),
    StableHlo.unary main_c_28 main_v130 (broadcastInDim S640000 ![] bcast_S_S640000 : (⟨S_, .i32⟩ : BufTy).Contents (Elt F) → (⟨S640000, .i32⟩ : BufTy).Contents (Elt F)),
    StableHlo.binary main_arg2 main_v130 main_v131 (cmpi .eq : (⟨S640000, .i32⟩ : BufTy).Contents (Elt F) → (⟨S640000, .i32⟩ : BufTy).Contents (Elt F) → (⟨S640000, .i1⟩ : BufTy).Contents (Elt F)),
    StableHlo.unary main_v131 main_v132 (uitofp .f32 : (⟨S640000, .i1⟩ : BufTy).Contents (Elt F) → (⟨S640000, .f32⟩ : BufTy).Contents (Elt F)),
    StableHlo.unary main_v132 main_v133 (broadcastInDim S640000x1 ![0] bcast_S640000_S640000x1_0 : (⟨S640000, .f32⟩ : BufTy).Contents (Elt F) → (⟨S640000x1, .f32⟩ : BufTy).Contents (Elt F)),
    StableHlo.unary main_v133 main_v134 (broadcastInDim S640000x128 ![0, 1] bcast_S640000x1_S640000x128_0_1 : (⟨S640000x1, .f32⟩ : BufTy).Contents (Elt F) → (⟨S640000x128, .f32⟩ : BufTy).Contents (Elt F)),
    StableHlo.binary main_v10 main_v134 main_v135 (mulf : (⟨S640000x128, .f32⟩ : BufTy).Contents (Elt F) → (⟨S640000x128, .f32⟩ : BufTy).Contents (Elt F) → (⟨S640000x128, .f32⟩ : BufTy).Contents (Elt F)),
    StableHlo.nullary main_cst_29 (constant S_ .f32 0x00000000#32),
    StableHlo.unary main_cst_29 main_v136 (broadcastInDim S100000x128 ![] bcast_S_S100000x128 : (⟨S_, .f32⟩ : BufTy).Contents (Elt F) → (⟨S100000x128, .f32⟩ : BufTy).Contents (Elt F)),
    StableHlo.unary main_v3 main_v137 (broadcastInDim S640000x1 ![0] bcast_S640000_S640000x1_0 : (⟨S640000, .i32⟩ : BufTy).Contents (Elt F) → (⟨S640000x1, .i32⟩ : BufTy).Contents (Elt F)),
    StableHlo.ternary main_v136 main_v137 main_v135 main_v138 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    StableHlo.nullary main_cst_30 (constant S_ .f32 0x00000000#32),
    StableHlo.unary main_cst_30 main_v139 (broadcastInDim S100000 ![] bcast_S_S100000 : (⟨S_, .f32⟩ : BufTy).Contents (Elt F) → (⟨S100000, .f32⟩ : BufTy).Contents (Elt F)),
    StableHlo.unary main_v3 main_v140 (broadcastInDim S640000x1 ![0] bcast_S640000_S640000x1_0 : (⟨S640000, .i32⟩ : BufTy).Contents (Elt F) → (⟨S640000x1, .i32⟩ : BufTy).Contents (Elt F)),
    StableHlo.ternary main_v139 main_v140 main_v132 main_v141 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    StableHlo.nullary main_cst_31 (constant S_ .f32 0x3F800000#32),
    StableHlo.unary main_cst_31 main_v142 (broadcastInDim S100000 ![] bcast_S_S100000 : (⟨S_, .f32⟩ : BufTy).Contents (Elt F) → (⟨S100000, .f32⟩ : BufTy).Contents (Elt F)),
    StableHlo.binary main_v141 main_v142 main_v143 (maximumf : (⟨S100000, .f32⟩ : BufTy).Contents (Elt F) → (⟨S100000, .f32⟩ : BufTy).Contents (Elt F) → (⟨S100000, .f32⟩ : BufTy).Contents (Elt F)),
    StableHlo.unary main_v143 main_v144 (broadcastInDim S100000x1 ![0] bcast_S100000_S100000x1_0 : (⟨S100000, .f32⟩ : BufTy).Contents (Elt F) → (⟨S100000x1, .f32⟩ : BufTy).Contents (Elt F)),
    StableHlo.unary main_v144 main_v145 (broadcastInDim S100000x128 ![0, 1] bcast_S100000x1_S100000x128_0_1 : (⟨S100000x1, .f32⟩ : BufTy).Contents (Elt F) → (⟨S100000x128, .f32⟩ : BufTy).Contents (Elt F)),
    StableHlo.binary main_v138 main_v145 main_v146 (Host.divf : (⟨S100000x128, .f32⟩ : BufTy).Contents (Elt F) → (⟨S100000x128, .f32⟩ : BufTy).Contents (Elt F) → (⟨S100000x128, .f32⟩ : BufTy).Contents (Elt F)) ]

/-- Operations 182 … 190 of the stretch. -/
def tail0 : List (HloOp τ sig (Elt F)) :=
  [
    StableHlo.unary main_v27 main_v147 (broadcastInDim S1x100000x128 ![1, 2] bcast_S100000x128_S1x100000x128_1_2 : (⟨S100000x128, .f32⟩ : BufTy).Contents (Elt F) → (⟨S1x100000x128, .f32⟩ : BufTy).Contents (Elt F)),
    StableHlo.unary main_v44 main_v148 (broadcastInDim S1x100000x128 ![1, 2] bcast_S100000x128_S1x100000x128_1_2 : (⟨S100000x128, .f32⟩ : BufTy).Contents (Elt F) → (⟨S1x100000x128, .f32⟩ : BufTy).Contents (Elt F)),
    StableHlo.unary main_v61 main_v149 (broadcastInDim S1x100000x128 ![1, 2] bcast_S100000x128_S1x100000x128_1_2 : (⟨S100000x128, .f32⟩ : BufTy).Contents (Elt F) → (⟨S1x100000x128, .f32⟩ : BufTy).Contents (Elt F)),
    StableHlo.unary main_v78 main_v150 (broadcastInDim S1x100000x128 ![1, 2] bcast_S100000x128_S1x100000x128_1_2 : (⟨S100000x128, .f32⟩ : BufTy).Contents (Elt F) → (⟨S1x100000x128, .f32⟩ : BufTy).Contents (Elt F)),
    StableHlo.unary main_v95 main_v151 (broadcastInDim S1x100000x128 ![1, 2] bcast_S100000x128_S1x100000x128_1_2 : (⟨S100000x128, .f32⟩ : BufTy).Contents (Elt F) → (⟨S1x100000x128, .f32⟩ : BufTy).Contents (Elt F)),
    StableHlo.unary main_v112 main_v152 (broadcastInDim S1x100000x128 ![1, 2] bcast_S100000x128_S1x100000x128_1_2 : (⟨S100000x128, .f32⟩ : BufTy).Contents (Elt F) → (⟨S1x100000x128, .f32⟩ : BufTy).Contents (Elt F)),
    StableHlo.unary main_v129 main_v153 (broadcastInDim S1x100000x128 ![1, 2] bcast_S100000x128_S1x100000x128_1_2 : (⟨S100000x128, .f32⟩ : BufTy).Contents (Elt F) → (⟨S1x100000x128, .f32⟩ : BufTy).Contents (Elt F)),
    StableHlo.unary main_v146 main_v154 (broadcastInDim S1x100000x128 ![1, 2] bcast_S100000x128_S1x100000x128_1_2 : (⟨S100000x128, .f32⟩ : BufTy).Contents (Elt F) → (⟨S1x100000x128, .f32⟩ : BufTy).Contents (Elt F)),
    StableHlo.nary ![main_v147, main_v148, main_v149, main_v150, main_v151, main_v152, main_v153, main_v154] main_v155 (fun u => concatenate S8x100000x128 0 [⟨S1x100000x128, u 0⟩, ⟨S1x100000x128, u 1⟩, ⟨S1x100000x128, u 2⟩, ⟨S1x100000x128, u 3⟩, ⟨S1x100000x128, u 4⟩, ⟨S1x100000x128, u 5⟩, ⟨S1x100000x128, u 6⟩, ⟨S1x100000x128, u 7⟩] concatenates_S1x100000x128_S1x100000x128_S1x100000x128_S1x100000x128_S1x100000x128_S1x100000x128_S1x100000x128_S1x100000x128_S8x100000x128_d0) ]

/-- Two lines in a row leave what the second leaves of what the first left. -/
private theorem after_app : ∀ (l₁ l₂ : List (HloOp τ sig (Elt F))) (V : Valuation τ sig (Elt F)),
    StableHlo.after (l₁ ++ l₂) V = StableHlo.after l₂ (StableHlo.after l₁ V)
  | [], _, _ => rfl
  | op :: l₁, l₂, V => by rw [List.cons_append, StableHlo.after_cons, StableHlo.after_cons, after_app l₁ l₂]

/-- The stretch is its segments in order. -/
theorem split0 : (hostOps0 (F := F)) = pre0 ++ (b0_0 ++ (b0_1 ++ (b0_2 ++ (b0_3 ++ (b0_4 ++ (b0_5 ++ (b0_6 ++ (b0_7 ++ (tail0))))))))) := rfl

/-- What the stretch leaves is what its segments leave one after the other. -/
theorem after_split0 (V : Valuation τ sig (Elt F)) :
    StableHlo.after (hostOps0 (F := F)) V = StableHlo.after tail0 (StableHlo.after b0_7 (StableHlo.after b0_6 (StableHlo.after b0_5 (StableHlo.after b0_4 (StableHlo.after b0_3 (StableHlo.after b0_2 (StableHlo.after b0_1 (StableHlo.after b0_0 (StableHlo.after pre0 (V)))))))))) := by
  rw [split0]; simp only [after_app]

/-- The references `pre0` writes. -/
abbrev pre0_W : List (Ref sig .tc) := [main_v0, main_v1, main_v2, main_v3, main_c, main_v4, main_v5, main_c_0, main_v6, main_v7, main_v8, main_v9, main_v10]
theorem pre0_writes : (pre0 (F := F)).Forall fun op => op.writes ⊆ (pre0_W.map (Proc.devRef (τ := τ) .tc)).toFinset := by
  unfold pre0
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A reference `pre0` does not write keeps its contents over it. -/
theorem pre0_kept (W : Valuation τ sig (Elt F)) (r : Ref sig .tc) (h : r ∉ pre0_W) : StableHlo.after pre0 W r = W r :=
  StableHlo.after_of_writes_sub pre0 W pre0_writes h

/-- The references `b0_0` writes. -/
abbrev b0_0_W : List (Ref sig .tc) := [main_c_1, main_v11, main_v12, main_v13, main_v14, main_v15, main_v16, main_cst, main_v17, main_v18, main_v19, main_cst_2, main_v20, main_v21, main_v22, main_cst_3, main_v23, main_v24, main_v25, main_v26, main_v27]
theorem b0_0_writes : (b0_0 (F := F)).Forall fun op => op.writes ⊆ (b0_0_W.map (Proc.devRef (τ := τ) .tc)).toFinset := by
  unfold b0_0
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A reference `b0_0` does not write keeps its contents over it. -/
theorem b0_0_kept (W : Valuation τ sig (Elt F)) (r : Ref sig .tc) (h : r ∉ b0_0_W) : StableHlo.after b0_0 W r = W r :=
  StableHlo.after_of_writes_sub b0_0 W b0_0_writes h

/-- The references `b0_1` writes. -/
abbrev b0_1_W : List (Ref sig .tc) := [main_c_4, main_v28, main_v29, main_v30, main_v31, main_v32, main_v33, main_cst_5, main_v34, main_v35, main_v36, main_cst_6, main_v37, main_v38, main_v39, main_cst_7, main_v40, main_v41, main_v42, main_v43, main_v44]
theorem b0_1_writes : (b0_1 (F := F)).Forall fun op => op.writes ⊆ (b0_1_W.map (Proc.devRef (τ := τ) .tc)).toFinset := by
  unfold b0_1
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A reference `b0_1` does not write keeps its contents over it. -/
theorem b0_1_kept (W : Valuation τ sig (Elt F)) (r : Ref sig .tc) (h : r ∉ b0_1_W) : StableHlo.after b0_1 W r = W r :=
  StableHlo.after_of_writes_sub b0_1 W b0_1_writes h

/-- The references `b0_2` writes. -/
abbrev b0_2_W : List (Ref sig .tc) := [main_c_8, main_v45, main_v46, main_v47, main_v48, main_v49, main_v50, main_cst_9, main_v51, main_v52, main_v53, main_cst_10, main_v54, main_v55, main_v56, main_cst_11, main_v57, main_v58, main_v59, main_v60, main_v61]
theorem b0_2_writes : (b0_2 (F := F)).Forall fun op => op.writes ⊆ (b0_2_W.map (Proc.devRef (τ := τ) .tc)).toFinset := by
  unfold b0_2
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A reference `b0_2` does not write keeps its contents over it. -/
theorem b0_2_kept (W : Valuation τ sig (Elt F)) (r : Ref sig .tc) (h : r ∉ b0_2_W) : StableHlo.after b0_2 W r = W r :=
  StableHlo.after_of_writes_sub b0_2 W b0_2_writes h

/-- The references `b0_3` writes. -/
abbrev b0_3_W : List (Ref sig .tc) := [main_c_12, main_v62, main_v63, main_v64, main_v65, main_v66, main_v67, main_cst_13, main_v68, main_v69, main_v70, main_cst_14, main_v71, main_v72, main_v73, main_cst_15, main_v74, main_v75, main_v76, main_v77, main_v78]
theorem b0_3_writes : (b0_3 (F := F)).Forall fun op => op.writes ⊆ (b0_3_W.map (Proc.devRef (τ := τ) .tc)).toFinset := by
  unfold b0_3
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A reference `b0_3` does not write keeps its contents over it. -/
theorem b0_3_kept (W : Valuation τ sig (Elt F)) (r : Ref sig .tc) (h : r ∉ b0_3_W) : StableHlo.after b0_3 W r = W r :=
  StableHlo.after_of_writes_sub b0_3 W b0_3_writes h

/-- The references `b0_4` writes. -/
abbrev b0_4_W : List (Ref sig .tc) := [main_c_16, main_v79, main_v80, main_v81, main_v82, main_v83, main_v84, main_cst_17, main_v85, main_v86, main_v87, main_cst_18, main_v88, main_v89, main_v90, main_cst_19, main_v91, main_v92, main_v93, main_v94, main_v95]
theorem b0_4_writes : (b0_4 (F := F)).Forall fun op => op.writes ⊆ (b0_4_W.map (Proc.devRef (τ := τ) .tc)).toFinset := by
  unfold b0_4
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A reference `b0_4` does not write keeps its contents over it. -/
theorem b0_4_kept (W : Valuation τ sig (Elt F)) (r : Ref sig .tc) (h : r ∉ b0_4_W) : StableHlo.after b0_4 W r = W r :=
  StableHlo.after_of_writes_sub b0_4 W b0_4_writes h

/-- The references `b0_5` writes. -/
abbrev b0_5_W : List (Ref sig .tc) := [main_c_20, main_v96, main_v97, main_v98, main_v99, main_v100, main_v101, main_cst_21, main_v102, main_v103, main_v104, main_cst_22, main_v105, main_v106, main_v107, main_cst_23, main_v108, main_v109, main_v110, main_v111, main_v112]
theorem b0_5_writes : (b0_5 (F := F)).Forall fun op => op.writes ⊆ (b0_5_W.map (Proc.devRef (τ := τ) .tc)).toFinset := by
  unfold b0_5
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A reference `b0_5` does not write keeps its contents over it. -/
theorem b0_5_kept (W : Valuation τ sig (Elt F)) (r : Ref sig .tc) (h : r ∉ b0_5_W) : StableHlo.after b0_5 W r = W r :=
  StableHlo.after_of_writes_sub b0_5 W b0_5_writes h

/-- The references `b0_6` writes. -/
abbrev b0_6_W : List (Ref sig .tc) := [main_c_24, main_v113, main_v114, main_v115, main_v116, main_v117, main_v118, main_cst_25, main_v119, main_v120, main_v121, main_cst_26, main_v122, main_v123, main_v124, main_cst_27, main_v125, main_v126, main_v127, main_v128, main_v129]
theorem b0_6_writes : (b0_6 (F := F)).Forall fun op => op.writes ⊆ (b0_6_W.map (Proc.devRef (τ := τ) .tc)).toFinset := by
  unfold b0_6
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A reference `b0_6` does not write keeps its contents over it. -/
theorem b0_6_kept (W : Valuation τ sig (Elt F)) (r : Ref sig .tc) (h : r ∉ b0_6_W) : StableHlo.after b0_6 W r = W r :=
  StableHlo.after_of_writes_sub b0_6 W b0_6_writes h

/-- The references `b0_7` writes. -/
abbrev b0_7_W : List (Ref sig .tc) := [main_c_28, main_v130, main_v131, main_v132, main_v133, main_v134, main_v135, main_cst_29, main_v136, main_v137, main_v138, main_cst_30, main_v139, main_v140, main_v141, main_cst_31, main_v142, main_v143, main_v144, main_v145, main_v146]
theorem b0_7_writes : (b0_7 (F := F)).Forall fun op => op.writes ⊆ (b0_7_W.map (Proc.devRef (τ := τ) .tc)).toFinset := by
  unfold b0_7
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A reference `b0_7` does not write keeps its contents over it. -/
theorem b0_7_kept (W : Valuation τ sig (Elt F)) (r : Ref sig .tc) (h : r ∉ b0_7_W) : StableHlo.after b0_7 W r = W r :=
  StableHlo.after_of_writes_sub b0_7 W b0_7_writes h

/-- The references `tail0` writes. -/
abbrev tail0_W : List (Ref sig .tc) := [main_v147, main_v148, main_v149, main_v150, main_v151, main_v152, main_v153, main_v154, main_v155]
theorem tail0_writes : (tail0 (F := F)).Forall fun op => op.writes ⊆ (tail0_W.map (Proc.devRef (τ := τ) .tc)).toFinset := by
  unfold tail0
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A reference `tail0` does not write keeps its contents over it. -/
theorem tail0_kept (W : Valuation τ sig (Elt F)) (r : Ref sig .tc) (h : r ∉ tail0_W) : StableHlo.after tail0 W r = W r :=
  StableHlo.after_of_writes_sub tail0 W tail0_writes h

end Cert.HostSide

end
-- ==== Proof.HostAgg.lean ====
import proofs.«171321_j63273458205156_1_alg».proof.Proof.Gen.KernelIdeal
import Idealize.ShloMosaic.Lib.Pipeline.Value
import Idealize.ShloMosaic.Lib.ValueIdx

/-!
The per-relation mean aggregate of a relational graph convolution, as one function of the node features, the edge
index and the edge types, and the eight aggregates stacked along a new leading axis.

For a relation constant `rc`, node features `x` (100000 × 128), edge sources `src`, destinations `dst` and types `et`
(640000 each), `aggCore rc x src dst et` is: the source row of every edge (a negative source counted from the end),
multiplied by the indicator that the edge's type is `rc`, summed into the edge's destination node, and divided by the
number of such edges at the node, or by one where there is none. The gather, the two scatter-additions and the
division are carried as they are; nothing here opens them.
-/

noncomputable section

namespace Cert.HostSide

open Idealize.ShloMosaic
open Cert.KernelIdeal Cert.KernelIdeal.Gen

/-- Row 0 of the edge index as a vector: the source of every edge. -/
def srcOf (ei : Vec Ideal S2x640000 .i32) : Vec Ideal S640000 .i32 :=
  shapeCast S640000 (extractStridedSlice S1x640000 ![0, 0] ei slices_S2x640000_S1x640000_0_0) shapeCasts_S1x640000_S640000

/-- Row 1 of the edge index as a vector: the destination of every edge. -/
def dstOf (ei : Vec Ideal S2x640000 .i32) : Vec Ideal S640000 .i32 :=
  shapeCast S640000 (extractStridedSlice S1x640000 ![1, 0] ei slices_S2x640000_S1x640000_1_0) shapeCasts_S1x640000_S640000

/-- A negative source index counted from the end, then the indices as a column. -/
def wrapCol (src : Vec Ideal S640000 .i32) : Vec Ideal S640000x1 .i32 :=
  broadcastInDim S640000x1 ![0] bcast_S640000_S640000x1_0
    (select (cmpi .slt src (broadcastInDim S640000 ![] bcast_S_S640000 (constantI S_ 32 0#32)))
      (addi src (broadcastInDim S640000 ![] bcast_S_S640000 (constantI S_ 32 100000#32))) src)

/-- The source node's row of `x`, edge by edge. -/
def gath (x : Vec Ideal S100000x128 .f32) (src : Vec Ideal S640000 .i32) : Vec Ideal S640000x128 .f32 :=
  Host.gather gather_S100000x128_S640000x1_S640000x128_1_0_n_n_0_1_1128 x (wrapCol src)

/-- The 0/1 indicator, as a float, of the edges whose type is `rc`. -/
def maskOf (rc : BitVec 32) (et : Vec Ideal S640000 .i32) : Vec Ideal S640000 .f32 :=
  uitofp (F := Ideal) .f32 (cmpi .eq et (broadcastInDim S640000 ![] bcast_S_S640000 (constantI S_ 32 rc)))

/-- Relation `rc`'s mean aggregate of the edge rows `g`: the rows of the relation's edges summed into their
    destination nodes, divided by the number of such edges at the node (at least one). -/
def relAgg (rc : BitVec 32) (g : Vec Ideal S640000x128 .f32) (dst et : Vec Ideal S640000 .i32) : Vec Ideal S100000x128 .f32 :=
  Host.divf (F := Ideal)
    (Host.scatterAdd (F := Ideal) scatter_S100000x128_S640000x1_S640000x128_1_0_0_1
      (broadcastInDim S100000x128 ![] bcast_S_S100000x128 (constant (F := Ideal) S_ .f32 0x00000000#32))
      (broadcastInDim S640000x1 ![0] bcast_S640000_S640000x1_0 dst)
      (mulf g (broadcastInDim S640000x128 ![0, 1] bcast_S640000x1_S640000x128_0_1
        (broadcastInDim S640000x1 ![0] bcast_S640000_S640000x1_0 (maskOf rc et)))))
    (broadcastInDim S100000x128 ![0, 1] bcast_S100000x1_S100000x128_0_1
      (broadcastInDim S100000x1 ![0] bcast_S100000_S100000x1_0
        (maximumf
          (Host.scatterAdd (F := Ideal) scatter_S100000_S640000x1_S640000_n_0_0_1
            (broadcastInDim S100000 ![] bcast_S_S100000 (constant (F := Ideal) S_ .f32 0x00000000#32))
            (broadcastInDim S640000x1 ![0] bcast_S640000_S640000x1_0 dst)
            (maskOf rc et))
          (broadcastInDim S100000 ![] bcast_S_S100000 (constant (F := Ideal) S_ .f32 0x3F800000#32)))))

/-- Relation `rc`'s mean aggregate of the node features `x` over the edges `src → dst` of types `et`. -/
def aggCore (rc : BitVec 32) (x : Vec Ideal S100000x128 .f32) (src dst et : Vec Ideal S640000 .i32) : Vec Ideal S100000x128 .f32 :=
  relAgg rc (gath x src) dst et

/-- The same from the edge index `ei` (row 0 the sources, row 1 the destinations). -/
def aggRel (rc : BitVec 32) (x : Vec Ideal S100000x128 .f32) (ei : Vec Ideal S2x640000 .i32) (et : Vec Ideal S640000 .i32) :
    Vec Ideal S100000x128 .f32 :=
  aggCore rc x (srcOf ei) (dstOf ei) et

open Idealize.ShloMosaic.ValueIdx

/-- The constant of relation `r` as a 32-bit word. -/
def relConst (r : Fin 8) : BitVec 32 := BitVec.ofNat 32 r.val

/-- Eight node-feature arrays stacked along a new leading axis. -/
def stackOf (a : Fin 8 → Vec Ideal S100000x128 .f32) : Vec Ideal S8x100000x128 .f32 :=
  concatenate S8x100000x128 0 [⟨S1x100000x128, broadcastInDim S1x100000x128 ![1, 2] bcast_S100000x128_S1x100000x128_1_2 (a 0)⟩, ⟨S1x100000x128, broadcastInDim S1x100000x128 ![1, 2] bcast_S100000x128_S1x100000x128_1_2 (a 1)⟩, ⟨S1x100000x128, broadcastInDim S1x100000x128 ![1, 2] bcast_S100000x128_S1x100000x128_1_2 (a 2)⟩, ⟨S1x100000x128, broadcastInDim S1x100000x128 ![1, 2] bcast_S100000x128_S1x100000x128_1_2 (a 3)⟩, ⟨S1x100000x128, broadcastInDim S1x100000x128 ![1, 2] bcast_S100000x128_S1x100000x128_1_2 (a 4)⟩, ⟨S1x100000x128, broadcastInDim S1x100000x128 ![1, 2] bcast_S100000x128_S1x100000x128_1_2 (a 5)⟩, ⟨S1x100000x128, broadcastInDim S1x100000x128 ![1, 2] bcast_S100000x128_S1x100000x128_1_2 (a 6)⟩, ⟨S1x100000x128, broadcastInDim S1x100000x128 ![1, 2] bcast_S100000x128_S1x100000x128_1_2 (a 7)⟩] concatenates_S1x100000x128_S1x100000x128_S1x100000x128_S1x100000x128_S1x100000x128_S1x100000x128_S1x100000x128_S1x100000x128_S8x100000x128_d0

/-- An array under a new leading axis of extent one, read at an index. -/
theorem unitRow_apply (v : Vec Ideal S100000x128 .f32) (p : Fin 100000) (k : Fin 128) :
    broadcastInDim S1x100000x128 ![1, 2] bcast_S100000x128_S1x100000x128_1_2 (v) (ix3 (0 : Fin 1) p k) = v (ix2 p k) :=
  broadcastInDim_apply _ _ v _ _ (fun a => by match a with | ⟨0, _⟩ => rfl | ⟨1, _⟩ => rfl)

/-- Entry `(r, p, k)` of the stack is entry `(p, k)` of array `r`. -/
theorem stackOf_apply (a : Fin 8 → Vec Ideal S100000x128 .f32) (r : Fin 8) (p : Fin 100000) (k : Fin 128) :
    stackOf a (ix3 r p k) = a r (ix2 p k) := by
  rw [← unitRow_apply (a r) p k]
  unfold stackOf
  match r with
  | ⟨0, _⟩ =>
    refine concatenate_apply_piece 0 _ _ _ 0 ?_ S1x100000x128 _ ?_ (rfl : (3 : Nat) = 3) 0 ?_ (ix3 (0 : Fin 1) p k) ?_ ?_
    · exact (by decide : 0 < 8)
    · rfl
    · rfl
    · intro b hb; match b with | ⟨0, _⟩ => exact absurd rfl hb | ⟨1, _⟩ => rfl | ⟨2, _⟩ => rfl
    · rfl
  | ⟨1, _⟩ =>
    refine concatenate_apply_piece 0 _ _ _ 1 ?_ S1x100000x128 _ ?_ (rfl : (3 : Nat) = 3) 1 ?_ (ix3 (0 : Fin 1) p k) ?_ ?_
    · exact (by decide : 1 < 8)
    · rfl
    · rfl
    · intro b hb; match b with | ⟨0, _⟩ => exact absurd rfl hb | ⟨1, _⟩ => rfl | ⟨2, _⟩ => rfl
    · rfl
  | ⟨2, _⟩ =>
    refine concatenate_apply_piece 0 _ _ _ 2 ?_ S1x100000x128 _ ?_ (rfl : (3 : Nat) = 3) 2 ?_ (ix3 (0 : Fin 1) p k) ?_ ?_
    · exact (by decide : 2 < 8)
    · rfl
    · rfl
    · intro b hb; match b with | ⟨0, _⟩ => exact absurd rfl hb | ⟨1, _⟩ => rfl | ⟨2, _⟩ => rfl
    · rfl
  | ⟨3, _⟩ =>
    refine concatenate_apply_piece 0 _ _ _ 3 ?_ S1x100000x128 _ ?_ (rfl : (3 : Nat) = 3) 3 ?_ (ix3 (0 : Fin 1) p k) ?_ ?_
    · exact (by decide : 3 < 8)
    · rfl
    · rfl
    · intro b hb; match b with | ⟨0, _⟩ => exact absurd rfl hb | ⟨1, _⟩ => rfl | ⟨2, _⟩ => rfl
    · rfl
  | ⟨4, _⟩ =>
    refine concatenate_apply_piece 0 _ _ _ 4 ?_ S1x100000x128 _ ?_ (rfl : (3 : Nat) = 3) 4 ?_ (ix3 (0 : Fin 1) p k) ?_ ?_
    · exact (by decide : 4 < 8)
    · rfl
    · rfl
    · intro b hb; match b with | ⟨0, _⟩ => exact absurd rfl hb | ⟨1, _⟩ => rfl | ⟨2, _⟩ => rfl
    · rfl
  | ⟨5, _⟩ =>
    refine concatenate_apply_piece 0 _ _ _ 5 ?_ S1x100000x128 _ ?_ (rfl : (3 : Nat) = 3) 5 ?_ (ix3 (0 : Fin 1) p k) ?_ ?_
    · exact (by decide : 5 < 8)
    · rfl
    · rfl
    · intro b hb; match b with | ⟨0, _⟩ => exact absurd rfl hb | ⟨1, _⟩ => rfl | ⟨2, _⟩ => rfl
    · rfl
  | ⟨6, _⟩ =>
    refine concatenate_apply_piece 0 _ _ _ 6 ?_ S1x100000x128 _ ?_ (rfl : (3 : Nat) = 3) 6 ?_ (ix3 (0 : Fin 1) p k) ?_ ?_
    · exact (by decide : 6 < 8)
    · rfl
    · rfl
    · intro b hb; match b with | ⟨0, _⟩ => exact absurd rfl hb | ⟨1, _⟩ => rfl | ⟨2, _⟩ => rfl
    · rfl
  | ⟨7, _⟩ =>
    refine concatenate_apply_piece 0 _ _ _ 7 ?_ S1x100000x128 _ ?_ (rfl : (3 : Nat) = 3) 7 ?_ (ix3 (0 : Fin 1) p k) ?_ ?_
    · exact (by decide : 7 < 8)
    · rfl
    · rfl
    · intro b hb; match b with | ⟨0, _⟩ => exact absurd rfl hb | ⟨1, _⟩ => rfl | ⟨2, _⟩ => rfl
    · rfl

/-- The eight relations' mean aggregates stacked: what both matmul regions read as their second operand. -/
def stackK (x : Vec Ideal S100000x128 .f32) (src dst et : Vec Ideal S640000 .i32) : Vec Ideal S8x100000x128 .f32 :=
  stackOf fun r => aggCore (relConst r) x src dst et

/-- Entry `(r, p, k)` of the stacked aggregates is entry `(p, k)` of relation `r`'s aggregate. -/
theorem stackK_apply (x : Vec Ideal S100000x128 .f32) (src dst et : Vec Ideal S640000 .i32) (r : Fin 8) (p : Fin 100000) (k : Fin 128) :
    stackK x src dst et (ix3 r p k) = aggCore (relConst r) x src dst et (ix2 p k) :=
  stackOf_apply _ r p k

end Cert.HostSide

end
-- ==== Proof.HostBlk0.lean ====
import proofs.«171321_j63273458205156_1_alg».proof.Proof.HostSeg0
import proofs.«171321_j63273458205156_1_alg».proof.Proof.HostAgg

/-!
What each segment of the host stretch `hostOps0` leaves in the buffer it is there for, as a function of the contents
it finds: the gathered rows, each relation's mean aggregate, and the stack of the eight.
-/

set_option maxRecDepth 4000

noncomputable section

namespace Cert.HostSide

open Idealize.ShloMosaic Idealize.ShloMosaic.TcCoe
open Cert.KernelIdeal Cert.KernelIdeal.Gen

/-- The first segment leaves the sources, the destinations and the gathered source rows. -/
theorem pre0_v1 (V : Valuation τ sig (Elt Ideal)) : StableHlo.after pre0 V main_v1 = srcOf (V main_arg1) := by
  unfold pre0
  after_results_simp
  rfl
theorem pre0_v3 (V : Valuation τ sig (Elt Ideal)) : StableHlo.after pre0 V main_v3 = dstOf (V main_arg1) := by
  unfold pre0
  after_results_simp
  rfl
theorem pre0_v10 (V : Valuation τ sig (Elt Ideal)) :
    StableHlo.after pre0 V main_v10 = gath (V main_arg0) (srcOf (V main_arg1)) := by
  unfold pre0
  after_results_simp
  rfl

/-- Segment `b0_0` leaves relation 0's mean aggregate of the gathered rows it finds. -/
theorem b0_0_val (W : Valuation τ sig (Elt Ideal)) :
    StableHlo.after b0_0 W main_v27 = relAgg 0#32 (W main_v10) (W main_v3) (W main_arg2) := by
  unfold b0_0
  after_results_simp
  rfl

/-- Segment `b0_1` leaves relation 1's mean aggregate of the gathered rows it finds. -/
theorem b0_1_val (W : Valuation τ sig (Elt Ideal)) :
    StableHlo.after b0_1 W main_v44 = relAgg 1#32 (W main_v10) (W main_v3) (W main_arg2) := by
  unfold b0_1
  after_results_simp
  rfl

/-- Segment `b0_2` leaves relation 2's mean aggregate of the gathered rows it finds. -/
theorem b0_2_val (W : Valuation τ sig (Elt Ideal)) :
    StableHlo.after b0_2 W main_v61 = relAgg 2#32 (W main_v10) (W main_v3) (W main_arg2) := by
  unfold b0_2
  after_results_simp
  rfl

/-- Segment `b0_3` leaves relation 3's mean aggregate of the gathered rows it finds. -/
theorem b0_3_val (W : Valuation τ sig (Elt Ideal)) :
    StableHlo.after b0_3 W main_v78 = relAgg 3#32 (W main_v10) (W main_v3) (W main_arg2) := by
  unfold b0_3
  after_results_simp
  rfl

/-- Segment `b0_4` leaves relation 4's mean aggregate of the gathered rows it finds. -/
theorem b0_4_val (W : Valuation τ sig (Elt Ideal)) :
    StableHlo.after b0_4 W main_v95 = relAgg 4#32 (W main_v10) (W main_v3) (W main_arg2) := by
  unfold b0_4
  after_results_simp
  rfl

/-- Segment `b0_5` leaves relation 5's mean aggregate of the gathered rows it finds. -/
theorem b0_5_val (W : Valuation τ sig (Elt Ideal)) :
    StableHlo.after b0_5 W main_v112 = relAgg 5#32 (W main_v10) (W main_v3) (W main_arg2) := by
  unfold b0_5
  after_results_simp
  rfl

/-- Segment `b0_6` leaves relation 6's mean aggregate of the gathered rows it finds. -/
theorem b0_6_val (W : Valuation τ sig (Elt Ideal)) :
    StableHlo.after b0_6 W main_v129 = relAgg 6#32 (W main_v10) (W main_v3) (W main_arg2) := by
  unfold b0_6
  after_results_simp
  rfl

/-- Segment `b0_7` leaves relation 7's mean aggregate of the gathered rows it finds. -/
theorem b0_7_val (W : Valuation τ sig (Elt Ideal)) :
    StableHlo.after b0_7 W main_v146 = relAgg 7#32 (W main_v10) (W main_v3) (W main_arg2) := by
  unfold b0_7
  after_results_simp
  rfl

/-- The last segment stacks the eight aggregates it finds. -/
theorem tail0_val (W : Valuation τ sig (Elt Ideal)) :
    StableHlo.after tail0 W main_v155
      = stackOf ![W main_v27, W main_v44, W main_v61, W main_v78, W main_v95, W main_v112, W main_v129, W main_v146] := by
  unfold tail0
  simp only [StableHlo.after_cons, StableHlo.after_nil]
  rw [StableHlo.nary_result]
  -- the contents after the eight unit-row broadcasts, named
  generalize hX : HloOp.result _ _ = X
  have h0 : X main_v147 = broadcastInDim S1x100000x128 ![1, 2] bcast_S100000x128_S1x100000x128_1_2 (W main_v27) := by
    rw [← hX]; after_results_simp
  have h1 : X main_v148 = broadcastInDim S1x100000x128 ![1, 2] bcast_S100000x128_S1x100000x128_1_2 (W main_v44) := by
    rw [← hX]; after_results_simp
  have h2 : X main_v149 = broadcastInDim S1x100000x128 ![1, 2] bcast_S100000x128_S1x100000x128_1_2 (W main_v61) := by
    rw [← hX]; after_results_simp
  have h3 : X main_v150 = broadcastInDim S1x100000x128 ![1, 2] bcast_S100000x128_S1x100000x128_1_2 (W main_v78) := by
    rw [← hX]; after_results_simp
  have h4 : X main_v151 = broadcastInDim S1x100000x128 ![1, 2] bcast_S100000x128_S1x100000x128_1_2 (W main_v95) := by
    rw [← hX]; after_results_simp
  have h5 : X main_v152 = broadcastInDim S1x100000x128 ![1, 2] bcast_S100000x128_S1x100000x128_1_2 (W main_v112) := by
    rw [← hX]; after_results_simp
  have h6 : X main_v153 = broadcastInDim S1x100000x128 ![1, 2] bcast_S100000x128_S1x100000x128_1_2 (W main_v129) := by
    rw [← hX]; after_results_simp
  have h7 : X main_v154 = broadcastInDim S1x100000x128 ![1, 2] bcast_S100000x128_S1x100000x128_1_2 (W main_v146) := by
    rw [← hX]; after_results_simp
  show concatenate S8x100000x128 0 [⟨S1x100000x128, X main_v147⟩, ⟨S1x100000x128, X main_v148⟩, ⟨S1x100000x128, X main_v149⟩, ⟨S1x100000x128, X main_v150⟩, ⟨S1x100000x128, X main_v151⟩, ⟨S1x100000x128, X main_v152⟩, ⟨S1x100000x128, X main_v153⟩, ⟨S1x100000x128, X main_v154⟩] concatenates_S1x100000x128_S1x100000x128_S1x100000x128_S1x100000x128_S1x100000x128_S1x100000x128_S1x100000x128_S1x100000x128_S8x100000x128_d0 = _
  rw [h0, h1, h2, h3, h4, h5, h6, h7]
  rfl

end Cert.HostSide

end
-- ==== Proof.HostStack0.lean ====
import proofs.«171321_j63273458205156_1_alg».proof.Proof.HostBlk0

/-!
The host stretch `hostOps0` of the kernel program leaves, in the buffer the matmul region after it reads as its stacked
operand, the eight relations' mean aggregates of the node features stacked: segment by segment, each relation's
aggregate is computed from the gathered rows, the destinations and the edge types, which no later segment writes.
-/

set_option maxRecDepth 4000

noncomputable section

namespace Cert.HostSide

open Idealize.ShloMosaic Idealize.ShloMosaic.TcCoe
open Cert.KernelIdeal Cert.KernelIdeal.Gen

/-- The stacked aggregates with the eight relation constants written out. -/
private theorem stackK_lit (x : Vec Ideal S100000x128 .f32) (src dst et : Vec Ideal S640000 .i32) :
    stackK x src dst et
      = stackOf ![aggCore 0#32 x src dst et, aggCore 1#32 x src dst et, aggCore 2#32 x src dst et, aggCore 3#32 x src dst et, aggCore 4#32 x src dst et, aggCore 5#32 x src dst et, aggCore 6#32 x src dst et, aggCore 7#32 x src dst et] := by
  unfold stackK
  refine congrArg stackOf (funext fun r => ?_)
  match r with
  | ⟨0, h⟩ =>
    show aggCore 0#32 x src dst et = aggCore (relConst ⟨0, h⟩) x src dst et
    rfl
  | ⟨1, h⟩ =>
    show aggCore 1#32 x src dst et = aggCore (relConst ⟨1, h⟩) x src dst et
    rfl
  | ⟨2, h⟩ =>
    show aggCore 2#32 x src dst et = aggCore (relConst ⟨2, h⟩) x src dst et
    rfl
  | ⟨3, h⟩ =>
    show aggCore 3#32 x src dst et = aggCore (relConst ⟨3, h⟩) x src dst et
    rfl
  | ⟨4, h⟩ =>
    show aggCore 4#32 x src dst et = aggCore (relConst ⟨4, h⟩) x src dst et
    rfl
  | ⟨5, h⟩ =>
    show aggCore 5#32 x src dst et = aggCore (relConst ⟨5, h⟩) x src dst et
    rfl
  | ⟨6, h⟩ =>
    show aggCore 6#32 x src dst et = aggCore (relConst ⟨6, h⟩) x src dst et
    rfl
  | ⟨7, h⟩ =>
    show aggCore 7#32 x src dst et = aggCore (relConst ⟨7, h⟩) x src dst et
    rfl

/-- After the first host stretch `main_v155` holds the stacked aggregates of the node features `main_arg0` over the edges of `main_arg1` with types `main_arg2`. -/
theorem stack0 (V : Valuation τ sig (Elt Ideal)) :
    StableHlo.after (hostOps0 (F := Ideal)) V main_v155
      = stackK (V main_arg0) (srcOf (V main_arg1)) (dstOf (V main_arg1)) (V main_arg2) := by
  rw [after_split0]
  generalize hW0 : StableHlo.after pre0 V = W0
  have G0 : W0 main_v10 = gath (V main_arg0) (srcOf (V main_arg1)) := by rw [← hW0]; exact pre0_v10 V
  have D0 : W0 main_v3 = dstOf (V main_arg1) := by rw [← hW0]; exact pre0_v3 V
  have E0 : W0 main_arg2 = V main_arg2 := by rw [← hW0]; exact pre0_kept V main_arg2 (by decide)
  generalize hW1 : StableHlo.after b0_0 W0 = W1
  have G1 : W1 main_v10 = gath (V main_arg0) (srcOf (V main_arg1)) := by rw [← hW1, b0_0_kept W0 main_v10 (by decide)]; exact G0
  have D1 : W1 main_v3 = dstOf (V main_arg1) := by rw [← hW1, b0_0_kept W0 main_v3 (by decide)]; exact D0
  have E1 : W1 main_arg2 = V main_arg2 := by rw [← hW1, b0_0_kept W0 main_arg2 (by decide)]; exact E0
  have O0_1 : W1 main_v27 = aggCore 0#32 (V main_arg0) (srcOf (V main_arg1)) (dstOf (V main_arg1)) (V main_arg2) := by rw [← hW1, b0_0_val, G0, D0, E0]; rfl
  generalize hW2 : StableHlo.after b0_1 W1 = W2
  have G2 : W2 main_v10 = gath (V main_arg0) (srcOf (V main_arg1)) := by rw [← hW2, b0_1_kept W1 main_v10 (by decide)]; exact G1
  have D2 : W2 main_v3 = dstOf (V main_arg1) := by rw [← hW2, b0_1_kept W1 main_v3 (by decide)]; exact D1
  have E2 : W2 main_arg2 = V main_arg2 := by rw [← hW2, b0_1_kept W1 main_arg2 (by decide)]; exact E1
  have O0_2 : W2 main_v27 = aggCore 0#32 (V main_arg0) (srcOf (V main_arg1)) (dstOf (V main_arg1)) (V main_arg2) := by rw [← hW2, b0_1_kept W1 main_v27 (by decide)]; exact O0_1
  have O1_2 : W2 main_v44 = aggCore 1#32 (V main_arg0) (srcOf (V main_arg1)) (dstOf (V main_arg1)) (V main_arg2) := by rw [← hW2, b0_1_val, G1, D1, E1]; rfl
  generalize hW3 : StableHlo.after b0_2 W2 = W3
  have G3 : W3 main_v10 = gath (V main_arg0) (srcOf (V main_arg1)) := by rw [← hW3, b0_2_kept W2 main_v10 (by decide)]; exact G2
  have D3 : W3 main_v3 = dstOf (V main_arg1) := by rw [← hW3, b0_2_kept W2 main_v3 (by decide)]; exact D2
  have E3 : W3 main_arg2 = V main_arg2 := by rw [← hW3, b0_2_kept W2 main_arg2 (by decide)]; exact E2
  have O0_3 : W3 main_v27 = aggCore 0#32 (V main_arg0) (srcOf (V main_arg1)) (dstOf (V main_arg1)) (V main_arg2) := by rw [← hW3, b0_2_kept W2 main_v27 (by decide)]; exact O0_2
  have O1_3 : W3 main_v44 = aggCore 1#32 (V main_arg0) (srcOf (V main_arg1)) (dstOf (V main_arg1)) (V main_arg2) := by rw [← hW3, b0_2_kept W2 main_v44 (by decide)]; exact O1_2
  have O2_3 : W3 main_v61 = aggCore 2#32 (V main_arg0) (srcOf (V main_arg1)) (dstOf (V main_arg1)) (V main_arg2) := by rw [← hW3, b0_2_val, G2, D2, E2]; rfl
  generalize hW4 : StableHlo.after b0_3 W3 = W4
  have G4 : W4 main_v10 = gath (V main_arg0) (srcOf (V main_arg1)) := by rw [← hW4, b0_3_kept W3 main_v10 (by decide)]; exact G3
  have D4 : W4 main_v3 = dstOf (V main_arg1) := by rw [← hW4, b0_3_kept W3 main_v3 (by decide)]; exact D3
  have E4 : W4 main_arg2 = V main_arg2 := by rw [← hW4, b0_3_kept W3 main_arg2 (by decide)]; exact E3
  have O0_4 : W4 main_v27 = aggCore 0#32 (V main_arg0) (srcOf (V main_arg1)) (dstOf (V main_arg1)) (V main_arg2) := by rw [← hW4, b0_3_kept W3 main_v27 (by decide)]; exact O0_3
  have O1_4 : W4 main_v44 = aggCore 1#32 (V main_arg0) (srcOf (V main_arg1)) (dstOf (V main_arg1)) (V main_arg2) := by rw [← hW4, b0_3_kept W3 main_v44 (by decide)]; exact O1_3
  have O2_4 : W4 main_v61 = aggCore 2#32 (V main_arg0) (srcOf (V main_arg1)) (dstOf (V main_arg1)) (V main_arg2) := by rw [← hW4, b0_3_kept W3 main_v61 (by decide)]; exact O2_3
  have O3_4 : W4 main_v78 = aggCore 3#32 (V main_arg0) (srcOf (V main_arg1)) (dstOf (V main_arg1)) (V main_arg2) := by rw [← hW4, b0_3_val, G3, D3, E3]; rfl
  generalize hW5 : StableHlo.after b0_4 W4 = W5
  have G5 : W5 main_v10 = gath (V main_arg0) (srcOf (V main_arg1)) := by rw [← hW5, b0_4_kept W4 main_v10 (by decide)]; exact G4
  have D5 : W5 main_v3 = dstOf (V main_arg1) := by rw [← hW5, b0_4_kept W4 main_v3 (by decide)]; exact D4
  have E5 : W5 main_arg2 = V main_arg2 := by rw [← hW5, b0_4_kept W4 main_arg2 (by decide)]; exact E4
  have O0_5 : W5 main_v27 = aggCore 0#32 (V main_arg0) (srcOf (V main_arg1)) (dstOf (V main_arg1)) (V main_arg2) := by rw [← hW5, b0_4_kept W4 main_v27 (by decide)]; exact O0_4
  have O1_5 : W5 main_v44 = aggCore 1#32 (V main_arg0) (srcOf (V main_arg1)) (dstOf (V main_arg1)) (V main_arg2) := by rw [← hW5, b0_4_kept W4 main_v44 (by decide)]; exact O1_4
  have O2_5 : W5 main_v61 = aggCore 2#32 (V main_arg0) (srcOf (V main_arg1)) (dstOf (V main_arg1)) (V main_arg2) := by rw [← hW5, b0_4_kept W4 main_v61 (by decide)]; exact O2_4
  have O3_5 : W5 main_v78 = aggCore 3#32 (V main_arg0) (srcOf (V main_arg1)) (dstOf (V main_arg1)) (V main_arg2) := by rw [← hW5, b0_4_kept W4 main_v78 (by decide)]; exact O3_4
  have O4_5 : W5 main_v95 = aggCore 4#32 (V main_arg0) (srcOf (V main_arg1)) (dstOf (V main_arg1)) (V main_arg2) := by rw [← hW5, b0_4_val, G4, D4, E4]; rfl
  generalize hW6 : StableHlo.after b0_5 W5 = W6
  have G6 : W6 main_v10 = gath (V main_arg0) (srcOf (V main_arg1)) := by rw [← hW6, b0_5_kept W5 main_v10 (by decide)]; exact G5
  have D6 : W6 main_v3 = dstOf (V main_arg1) := by rw [← hW6, b0_5_kept W5 main_v3 (by decide)]; exact D5
  have E6 : W6 main_arg2 = V main_arg2 := by rw [← hW6, b0_5_kept W5 main_arg2 (by decide)]; exact E5
  have O0_6 : W6 main_v27 = aggCore 0#32 (V main_arg0) (srcOf (V main_arg1)) (dstOf (V main_arg1)) (V main_arg2) := by rw [← hW6, b0_5_kept W5 main_v27 (by decide)]; exact O0_5
  have O1_6 : W6 main_v44 = aggCore 1#32 (V main_arg0) (srcOf (V main_arg1)) (dstOf (V main_arg1)) (V main_arg2) := by rw [← hW6, b0_5_kept W5 main_v44 (by decide)]; exact O1_5
  have O2_6 : W6 main_v61 = aggCore 2#32 (V main_arg0) (srcOf (V main_arg1)) (dstOf (V main_arg1)) (V main_arg2) := by rw [← hW6, b0_5_kept W5 main_v61 (by decide)]; exact O2_5
  have O3_6 : W6 main_v78 = aggCore 3#32 (V main_arg0) (srcOf (V main_arg1)) (dstOf (V main_arg1)) (V main_arg2) := by rw [← hW6, b0_5_kept W5 main_v78 (by decide)]; exact O3_5
  have O4_6 : W6 main_v95 = aggCore 4#32 (V main_arg0) (srcOf (V main_arg1)) (dstOf (V main_arg1)) (V main_arg2) := by rw [← hW6, b0_5_kept W5 main_v95 (by decide)]; exact O4_5
  have O5_6 : W6 main_v112 = aggCore 5#32 (V main_arg0) (srcOf (V main_arg1)) (dstOf (V main_arg1)) (V main_arg2) := by rw [← hW6, b0_5_val, G5, D5, E5]; rfl
  generalize hW7 : StableHlo.after b0_6 W6 = W7
  have G7 : W7 main_v10 = gath (V main_arg0) (srcOf (V main_arg1)) := by rw [← hW7, b0_6_kept W6 main_v10 (by decide)]; exact G6
  have D7 : W7 main_v3 = dstOf (V main_arg1) := by rw [← hW7, b0_6_kept W6 main_v3 (by decide)]; exact D6
  have E7 : W7 main_arg2 = V main_arg2 := by rw [← hW7, b0_6_kept W6 main_arg2 (by decide)]; exact E6
  have O0_7 : W7 main_v27 = aggCore 0#32 (V main_arg0) (srcOf (V main_arg1)) (dstOf (V main_arg1)) (V main_arg2) := by rw [← hW7, b0_6_kept W6 main_v27 (by decide)]; exact O0_6
  have O1_7 : W7 main_v44 = aggCore 1#32 (V main_arg0) (srcOf (V main_arg1)) (dstOf (V main_arg1)) (V main_arg2) := by rw [← hW7, b0_6_kept W6 main_v44 (by decide)]; exact O1_6
  have O2_7 : W7 main_v61 = aggCore 2#32 (V main_arg0) (srcOf (V main_arg1)) (dstOf (V main_arg1)) (V main_arg2) := by rw [← hW7, b0_6_kept W6 main_v61 (by decide)]; exact O2_6
  have O3_7 : W7 main_v78 = aggCore 3#32 (V main_arg0) (srcOf (V main_arg1)) (dstOf (V main_arg1)) (V main_arg2) := by rw [← hW7, b0_6_kept W6 main_v78 (by decide)]; exact O3_6
  have O4_7 : W7 main_v95 = aggCore 4#32 (V main_arg0) (srcOf (V main_arg1)) (dstOf (V main_arg1)) (V main_arg2) := by rw [← hW7, b0_6_kept W6 main_v95 (by decide)]; exact O4_6
  have O5_7 : W7 main_v112 = aggCore 5#32 (V main_arg0) (srcOf (V main_arg1)) (dstOf (V main_arg1)) (V main_arg2) := by rw [← hW7, b0_6_kept W6 main_v112 (by decide)]; exact O5_6
  have O6_7 : W7 main_v129 = aggCore 6#32 (V main_arg0) (srcOf (V main_arg1)) (dstOf (V main_arg1)) (V main_arg2) := by rw [← hW7, b0_6_val, G6, D6, E6]; rfl
  generalize hW8 : StableHlo.after b0_7 W7 = W8
  have O0_8 : W8 main_v27 = aggCore 0#32 (V main_arg0) (srcOf (V main_arg1)) (dstOf (V main_arg1)) (V main_arg2) := by rw [← hW8, b0_7_kept W7 main_v27 (by decide)]; exact O0_7
  have O1_8 : W8 main_v44 = aggCore 1#32 (V main_arg0) (srcOf (V main_arg1)) (dstOf (V main_arg1)) (V main_arg2) := by rw [← hW8, b0_7_kept W7 main_v44 (by decide)]; exact O1_7
  have O2_8 : W8 main_v61 = aggCore 2#32 (V main_arg0) (srcOf (V main_arg1)) (dstOf (V main_arg1)) (V main_arg2) := by rw [← hW8, b0_7_kept W7 main_v61 (by decide)]; exact O2_7
  have O3_8 : W8 main_v78 = aggCore 3#32 (V main_arg0) (srcOf (V main_arg1)) (dstOf (V main_arg1)) (V main_arg2) := by rw [← hW8, b0_7_kept W7 main_v78 (by decide)]; exact O3_7
  have O4_8 : W8 main_v95 = aggCore 4#32 (V main_arg0) (srcOf (V main_arg1)) (dstOf (V main_arg1)) (V main_arg2) := by rw [← hW8, b0_7_kept W7 main_v95 (by decide)]; exact O4_7
  have O5_8 : W8 main_v112 = aggCore 5#32 (V main_arg0) (srcOf (V main_arg1)) (dstOf (V main_arg1)) (V main_arg2) := by rw [← hW8, b0_7_kept W7 main_v112 (by decide)]; exact O5_7
  have O6_8 : W8 main_v129 = aggCore 6#32 (V main_arg0) (srcOf (V main_arg1)) (dstOf (V main_arg1)) (V main_arg2) := by rw [← hW8, b0_7_kept W7 main_v129 (by decide)]; exact O6_7
  have O7_8 : W8 main_v146 = aggCore 7#32 (V main_arg0) (srcOf (V main_arg1)) (dstOf (V main_arg1)) (V main_arg2) := by rw [← hW8, b0_7_val, G7, D7, E7]; rfl
  rw [tail0_val, O0_8, O1_8, O2_8, O3_8, O4_8, O5_8, O6_8, O7_8, stackK_lit]

/-- The stretch leaves the edge sources in `main_v1` … -/
theorem src0 (V : Valuation τ sig (Elt Ideal)) :
    StableHlo.after (hostOps0 (F := Ideal)) V main_v1 = srcOf (V main_arg1) := by
  rw [after_split0, tail0_kept _ main_v1 (by decide), b0_7_kept _ main_v1 (by decide), b0_6_kept _ main_v1 (by decide), b0_5_kept _ main_v1 (by decide), b0_4_kept _ main_v1 (by decide), b0_3_kept _ main_v1 (by decide), b0_2_kept _ main_v1 (by decide), b0_1_kept _ main_v1 (by decide), b0_0_kept _ main_v1 (by decide)]
  exact pre0_v1 V

/-- … and the edge destinations in `main_v3`. -/
theorem dst0 (V : Valuation τ sig (Elt Ideal)) :
    StableHlo.after (hostOps0 (F := Ideal)) V main_v3 = dstOf (V main_arg1) := by
  rw [after_split0, tail0_kept _ main_v3 (by decide), b0_7_kept _ main_v3 (by decide), b0_6_kept _ main_v3 (by decide), b0_5_kept _ main_v3 (by decide), b0_4_kept _ main_v3 (by decide), b0_3_kept _ main_v3 (by decide), b0_2_kept _ main_v3 (by decide), b0_1_kept _ main_v3 (by decide), b0_0_kept _ main_v3 (by decide)]
  exact pre0_v3 V

end Cert.HostSide

end
-- ==== Proof.HostSeg1.lean ====
import proofs.«171321_j63273458205156_1_alg».proof.Proof.Gen.KernelIdeal.Launch

/-!
The host stretch `hostOps1` of the kernel program cut into ten consecutive segments — the shared index wrap and gather;
one segment per relation (its mask, the masked rows, the two scatter-additions, the clamp and the division); the
eight unit-row broadcasts and the concatenation — with the references each segment writes, and the fact that a
reference a segment does not write keeps its contents over it.
-/

set_option maxRecDepth 4000

noncomputable section

namespace Cert.HostSide

open Idealize.ShloMosaic Idealize.ShloMosaic.TcCoe
open Cert.KernelIdeal Cert.KernelIdeal.Gen

variable {F : FTy → Type} [FloatOps F]

/-- Operations 1 … 9 of the stretch. -/
def pre1 : List (HloOp τ sig (Elt F)) :=
  [
    StableHlo.nullary main_c_32 (constantI S_ 32 0#32),
    StableHlo.unary main_c_32 main_v157 (broadcastInDim S640000 ![] bcast_S_S640000 : (⟨S_, .i32⟩ : BufTy).Contents (Elt F) → (⟨S640000, .i32⟩ : BufTy).Contents (Elt F)),
    StableHlo.binary main_v1 main_v157 main_v158 (cmpi .slt : (⟨S640000, .i32⟩ : BufTy).Contents (Elt F) → (⟨S640000, .i32⟩ : BufTy).Contents (Elt F) → (⟨S640000, .i1⟩ : BufTy).Contents (Elt F)),
    StableHlo.nullary main_c_33 (constantI S_ 32 100000#32),
    StableHlo.unary main_c_33 main_v159 (broadcastInDim S640000 ![] bcast_S_S640000 : (⟨S_, .i32⟩ : BufTy).Contents (Elt F) → (⟨S640000, .i32⟩ : BufTy).Contents (Elt F)),
    StableHlo.binary main_v1 main_v159 main_v160 (addi : (⟨S640000, .i32⟩ : BufTy).Contents (Elt F) → (⟨S640000, .i32⟩ : BufTy).Contents (Elt F) → (⟨S640000, .i32⟩ : BufTy).Contents (Elt F)),
    StableHlo.ternary main_v158 main_v160 main_v1 main_v161 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v161 main_v162 (broadcastInDim S640000x1 ![0] bcast_S640000_S640000x1_0 : (⟨S640000, .i32⟩ : BufTy).Contents (Elt F) → (⟨S640000x1, .i32⟩ : BufTy).Contents (Elt F)),
    StableHlo.binary main_v156 main_v162 main_v163 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)) ]

/-- Operations 10 … 30 of the stretch. -/
def b1_0 : List (HloOp τ sig (Elt F)) :=
  [
    StableHlo.nullary main_c_34 (constantI S_ 32 0#32),
    StableHlo.unary main_c_34 main_v164 (broadcastInDim S640000 ![] bcast_S_S640000 : (⟨S_, .i32⟩ : BufTy).Contents (Elt F) → (⟨S640000, .i32⟩ : BufTy).Contents (Elt F)),
    StableHlo.binary main_arg2 main_v164 main_v165 (cmpi .eq : (⟨S640000, .i32⟩ : BufTy).Contents (Elt F) → (⟨S640000, .i32⟩ : BufTy).Contents (Elt F) → (⟨S640000, .i1⟩ : BufTy).Contents (Elt F)),
    StableHlo.unary main_v165 main_v166 (uitofp .f32 : (⟨S640000, .i1⟩ : BufTy).Contents (Elt F) → (⟨S640000, .f32⟩ : BufTy).Contents (Elt F)),
    StableHlo.unary main_v166 main_v167 (broadcastInDim S640000x1 ![0] bcast_S640000_S640000x1_0 : (⟨S640000, .f32⟩ : BufTy).Contents (Elt F) → (⟨S640000x1, .f32⟩ : BufTy).Contents (Elt F)),
    StableHlo.unary main_v167 main_v168 (broadcastInDim S640000x128 ![0, 1] bcast_S640000x1_S640000x128_0_1 : (⟨S640000x1, .f32⟩ : BufTy).Contents (Elt F) → (⟨S640000x128, .f32⟩ : BufTy).Contents (Elt F)),
    StableHlo.binary main_v163 main_v168 main_v169 (mulf : (⟨S640000x128, .f32⟩ : BufTy).Contents (Elt F) → (⟨S640000x128, .f32⟩ : BufTy).Contents (Elt F) → (⟨S640000x128, .f32⟩ : BufTy).Contents (Elt F)),
    StableHlo.nullary main_cst_35 (constant S_ .f32 0x00000000#32),
    StableHlo.unary main_cst_35 main_v170 (broadcastInDim S100000x128 ![] bcast_S_S100000x128 : (⟨S_, .f32⟩ : BufTy).Contents (Elt F) → (⟨S100000x128, .f32⟩ : BufTy).Contents (Elt F)),
    StableHlo.unary main_v3 main_v171 (broadcastInDim S640000x1 ![0] bcast_S640000_S640000x1_0 : (⟨S640000, .i32⟩ : BufTy).Contents (Elt F) → (⟨S640000x1, .i32⟩ : BufTy).Contents (Elt F)),
    StableHlo.ternary main_v170 main_v171 main_v169 main_v172 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    StableHlo.nullary main_cst_36 (constant S_ .f32 0x00000000#32),
    StableHlo.unary main_cst_36 main_v173 (broadcastInDim S100000 ![] bcast_S_S100000 : (⟨S_, .f32⟩ : BufTy).Contents (Elt F) → (⟨S100000, .f32⟩ : BufTy).Contents (Elt F)),
    StableHlo.unary main_v3 main_v174 (broadcastInDim S640000x1 ![0] bcast_S640000_S640000x1_0 : (⟨S640000, .i32⟩ : BufTy).Contents (Elt F) → (⟨S640000x1, .i32⟩ : BufTy).Contents (Elt F)),
    StableHlo.ternary main_v173 main_v174 main_v166 main_v175 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    StableHlo.nullary main_cst_37 (constant S_ .f32 0x3F800000#32),
    StableHlo.unary main_cst_37 main_v176 (broadcastInDim S100000 ![] bcast_S_S100000 : (⟨S_, .f32⟩ : BufTy).Contents (Elt F) → (⟨S100000, .f32⟩ : BufTy).Contents (Elt F)),
    StableHlo.binary main_v175 main_v176 main_v177 (maximumf : (⟨S100000, .f32⟩ : BufTy).Contents (Elt F) → (⟨S100000, .f32⟩ : BufTy).Contents (Elt F) → (⟨S100000, .f32⟩ : BufTy).Contents (Elt F)),
    StableHlo.unary main_v177 main_v178 (broadcastInDim S100000x1 ![0] bcast_S100000_S100000x1_0 : (⟨S100000, .f32⟩ : BufTy).Contents (Elt F) → (⟨S100000x1, .f32⟩ : BufTy).Contents (Elt F)),
    StableHlo.unary main_v178 main_v179 (broadcastInDim S100000x128 ![0, 1] bcast_S100000x1_S100000x128_0_1 : (⟨S100000x1, .f32⟩ : BufTy).Contents (Elt F) → (⟨S100000x128, .f32⟩ : BufTy).Contents (Elt F)),
    StableHlo.binary main_v172 main_v179 main_v180 (Host.divf : (⟨S100000x128, .f32⟩ : BufTy).Contents (Elt F) → (⟨S100000x128, .f32⟩ : BufTy).Contents (Elt F) → (⟨S100000x128, .f32⟩ : BufTy).Contents (Elt F)) ]

/-- Operations 31 … 51 of the stretch. -/
def b1_1 : List (HloOp τ sig (Elt F)) :=
  [
    StableHlo.nullary main_c_38 (constantI S_ 32 1#32),
    StableHlo.unary main_c_38 main_v181 (broadcastInDim S640000 ![] bcast_S_S640000 : (⟨S_, .i32⟩ : BufTy).Contents (Elt F) → (⟨S640000, .i32⟩ : BufTy).Contents (Elt F)),
    StableHlo.binary main_arg2 main_v181 main_v182 (cmpi .eq : (⟨S640000, .i32⟩ : BufTy).Contents (Elt F) → (⟨S640000, .i32⟩ : BufTy).Contents (Elt F) → (⟨S640000, .i1⟩ : BufTy).Contents (Elt F)),
    StableHlo.unary main_v182 main_v183 (uitofp .f32 : (⟨S640000, .i1⟩ : BufTy).Contents (Elt F) → (⟨S640000, .f32⟩ : BufTy).Contents (Elt F)),
    StableHlo.unary main_v183 main_v184 (broadcastInDim S640000x1 ![0] bcast_S640000_S640000x1_0 : (⟨S640000, .f32⟩ : BufTy).Contents (Elt F) → (⟨S640000x1, .f32⟩ : BufTy).Contents (Elt F)),
    StableHlo.unary main_v184 main_v185 (broadcastInDim S640000x128 ![0, 1] bcast_S640000x1_S640000x128_0_1 : (⟨S640000x1, .f32⟩ : BufTy).Contents (Elt F) → (⟨S640000x128, .f32⟩ : BufTy).Contents (Elt F)),
    StableHlo.binary main_v163 main_v185 main_v186 (mulf : (⟨S640000x128, .f32⟩ : BufTy).Contents (Elt F) → (⟨S640000x128, .f32⟩ : BufTy).Contents (Elt F) → (⟨S640000x128, .f32⟩ : BufTy).Contents (Elt F)),
    StableHlo.nullary main_cst_39 (constant S_ .f32 0x00000000#32),
    StableHlo.unary main_cst_39 main_v187 (broadcastInDim S100000x128 ![] bcast_S_S100000x128 : (⟨S_, .f32⟩ : BufTy).Contents (Elt F) → (⟨S100000x128, .f32⟩ : BufTy).Contents (Elt F)),
    StableHlo.unary main_v3 main_v188 (broadcastInDim S640000x1 ![0] bcast_S640000_S640000x1_0 : (⟨S640000, .i32⟩ : BufTy).Contents (Elt F) → (⟨S640000x1, .i32⟩ : BufTy).Contents (Elt F)),
    StableHlo.ternary main_v187 main_v188 main_v186 main_v189 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    StableHlo.nullary main_cst_40 (constant S_ .f32 0x00000000#32),
    StableHlo.unary main_cst_40 main_v190 (broadcastInDim S100000 ![] bcast_S_S100000 : (⟨S_, .f32⟩ : BufTy).Contents (Elt F) → (⟨S100000, .f32⟩ : BufTy).Contents (Elt F)),
    StableHlo.unary main_v3 main_v191 (broadcastInDim S640000x1 ![0] bcast_S640000_S640000x1_0 : (⟨S640000, .i32⟩ : BufTy).Contents (Elt F) → (⟨S640000x1, .i32⟩ : BufTy).Contents (Elt F)),
    StableHlo.ternary main_v190 main_v191 main_v183 main_v192 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    StableHlo.nullary main_cst_41 (constant S_ .f32 0x3F800000#32),
    StableHlo.unary main_cst_41 main_v193 (broadcastInDim S100000 ![] bcast_S_S100000 : (⟨S_, .f32⟩ : BufTy).Contents (Elt F) → (⟨S100000, .f32⟩ : BufTy).Contents (Elt F)),
    StableHlo.binary main_v192 main_v193 main_v194 (maximumf : (⟨S100000, .f32⟩ : BufTy).Contents (Elt F) → (⟨S100000, .f32⟩ : BufTy).Contents (Elt F) → (⟨S100000, .f32⟩ : BufTy).Contents (Elt F)),
    StableHlo.unary main_v194 main_v195 (broadcastInDim S100000x1 ![0] bcast_S100000_S100000x1_0 : (⟨S100000, .f32⟩ : BufTy).Contents (Elt F) → (⟨S100000x1, .f32⟩ : BufTy).Contents (Elt F)),
    StableHlo.unary main_v195 main_v196 (broadcastInDim S100000x128 ![0, 1] bcast_S100000x1_S100000x128_0_1 : (⟨S100000x1, .f32⟩ : BufTy).Contents (Elt F) → (⟨S100000x128, .f32⟩ : BufTy).Contents (Elt F)),
    StableHlo.binary main_v189 main_v196 main_v197 (Host.divf : (⟨S100000x128, .f32⟩ : BufTy).Contents (Elt F) → (⟨S100000x128, .f32⟩ : BufTy).Contents (Elt F) → (⟨S100000x128, .f32⟩ : BufTy).Contents (Elt F)) ]

/-- Operations 52 … 72 of the stretch. -/
def b1_2 : List (HloOp τ sig (Elt F)) :=
  [
    StableHlo.nullary main_c_42 (constantI S_ 32 2#32),
    StableHlo.unary main_c_42 main_v198 (broadcastInDim S640000 ![] bcast_S_S640000 : (⟨S_, .i32⟩ : BufTy).Contents (Elt F) → (⟨S640000, .i32⟩ : BufTy).Contents (Elt F)),
    StableHlo.binary main_arg2 main_v198 main_v199 (cmpi .eq : (⟨S640000, .i32⟩ : BufTy).Contents (Elt F) → (⟨S640000, .i32⟩ : BufTy).Contents (Elt F) → (⟨S640000, .i1⟩ : BufTy).Contents (Elt F)),
    StableHlo.unary main_v199 main_v200 (uitofp .f32 : (⟨S640000, .i1⟩ : BufTy).Contents (Elt F) → (⟨S640000, .f32⟩ : BufTy).Contents (Elt F)),
    StableHlo.unary main_v200 main_v201 (broadcastInDim S640000x1 ![0] bcast_S640000_S640000x1_0 : (⟨S640000, .f32⟩ : BufTy).Contents (Elt F) → (⟨S640000x1, .f32⟩ : BufTy).Contents (Elt F)),
    StableHlo.unary main_v201 main_v202 (broadcastInDim S640000x128 ![0, 1] bcast_S640000x1_S640000x128_0_1 : (⟨S640000x1, .f32⟩ : BufTy).Contents (Elt F) → (⟨S640000x128, .f32⟩ : BufTy).Contents (Elt F)),
    StableHlo.binary main_v163 main_v202 main_v203 (mulf : (⟨S640000x128, .f32⟩ : BufTy).Contents (Elt F) → (⟨S640000x128, .f32⟩ : BufTy).Contents (Elt F) → (⟨S640000x128, .f32⟩ : BufTy).Contents (Elt F)),
    StableHlo.nullary main_cst_43 (constant S_ .f32 0x00000000#32),
    StableHlo.unary main_cst_43 main_v204 (broadcastInDim S100000x128 ![] bcast_S_S100000x128 : (⟨S_, .f32⟩ : BufTy).Contents (Elt F) → (⟨S100000x128, .f32⟩ : BufTy).Contents (Elt F)),
    StableHlo.unary main_v3 main_v205 (broadcastInDim S640000x1 ![0] bcast_S640000_S640000x1_0 : (⟨S640000, .i32⟩ : BufTy).Contents (Elt F) → (⟨S640000x1, .i32⟩ : BufTy).Contents (Elt F)),
    StableHlo.ternary main_v204 main_v205 main_v203 main_v206 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    StableHlo.nullary main_cst_44 (constant S_ .f32 0x00000000#32),
    StableHlo.unary main_cst_44 main_v207 (broadcastInDim S100000 ![] bcast_S_S100000 : (⟨S_, .f32⟩ : BufTy).Contents (Elt F) → (⟨S100000, .f32⟩ : BufTy).Contents (Elt F)),
    StableHlo.unary main_v3 main_v208 (broadcastInDim S640000x1 ![0] bcast_S640000_S640000x1_0 : (⟨S640000, .i32⟩ : BufTy).Contents (Elt F) → (⟨S640000x1, .i32⟩ : BufTy).Contents (Elt F)),
    StableHlo.ternary main_v207 main_v208 main_v200 main_v209 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    StableHlo.nullary main_cst_45 (constant S_ .f32 0x3F800000#32),
    StableHlo.unary main_cst_45 main_v210 (broadcastInDim S100000 ![] bcast_S_S100000 : (⟨S_, .f32⟩ : BufTy).Contents (Elt F) → (⟨S100000, .f32⟩ : BufTy).Contents (Elt F)),
    StableHlo.binary main_v209 main_v210 main_v211 (maximumf : (⟨S100000, .f32⟩ : BufTy).Contents (Elt F) → (⟨S100000, .f32⟩ : BufTy).Contents (Elt F) → (⟨S100000, .f32⟩ : BufTy).Contents (Elt F)),
    StableHlo.unary main_v211 main_v212 (broadcastInDim S100000x1 ![0] bcast_S100000_S100000x1_0 : (⟨S100000, .f32⟩ : BufTy).Contents (Elt F) → (⟨S100000x1, .f32⟩ : BufTy).Contents (Elt F)),
    StableHlo.unary main_v212 main_v213 (broadcastInDim S100000x128 ![0, 1] bcast_S100000x1_S100000x128_0_1 : (⟨S100000x1, .f32⟩ : BufTy).Contents (Elt F) → (⟨S100000x128, .f32⟩ : BufTy).Contents (Elt F)),
    StableHlo.binary main_v206 main_v213 main_v214 (Host.divf : (⟨S100000x128, .f32⟩ : BufTy).Contents (Elt F) → (⟨S100000x128, .f32⟩ : BufTy).Contents (Elt F) → (⟨S100000x128, .f32⟩ : BufTy).Contents (Elt F)) ]

/-- Operations 73 … 93 of the stretch. -/
def b1_3 : List (HloOp τ sig (Elt F)) :=
  [
    StableHlo.nullary main_c_46 (constantI S_ 32 3#32),
    StableHlo.unary main_c_46 main_v215 (broadcastInDim S640000 ![] bcast_S_S640000 : (⟨S_, .i32⟩ : BufTy).Contents (Elt F) → (⟨S640000, .i32⟩ : BufTy).Contents (Elt F)),
    StableHlo.binary main_arg2 main_v215 main_v216 (cmpi .eq : (⟨S640000, .i32⟩ : BufTy).Contents (Elt F) → (⟨S640000, .i32⟩ : BufTy).Contents (Elt F) → (⟨S640000, .i1⟩ : BufTy).Contents (Elt F)),
    StableHlo.unary main_v216 main_v217 (uitofp .f32 : (⟨S640000, .i1⟩ : BufTy).Contents (Elt F) → (⟨S640000, .f32⟩ : BufTy).Contents (Elt F)),
    StableHlo.unary main_v217 main_v218 (broadcastInDim S640000x1 ![0] bcast_S640000_S640000x1_0 : (⟨S640000, .f32⟩ : BufTy).Contents (Elt F) → (⟨S640000x1, .f32⟩ : BufTy).Contents (Elt F)),
    StableHlo.unary main_v218 main_v219 (broadcastInDim S640000x128 ![0, 1] bcast_S640000x1_S640000x128_0_1 : (⟨S640000x1, .f32⟩ : BufTy).Contents (Elt F) → (⟨S640000x128, .f32⟩ : BufTy).Contents (Elt F)),
    StableHlo.binary main_v163 main_v219 main_v220 (mulf : (⟨S640000x128, .f32⟩ : BufTy).Contents (Elt F) → (⟨S640000x128, .f32⟩ : BufTy).Contents (Elt F) → (⟨S640000x128, .f32⟩ : BufTy).Contents (Elt F)),
    StableHlo.nullary main_cst_47 (constant S_ .f32 0x00000000#32),
    StableHlo.unary main_cst_47 main_v221 (broadcastInDim S100000x128 ![] bcast_S_S100000x128 : (⟨S_, .f32⟩ : BufTy).Contents (Elt F) → (⟨S100000x128, .f32⟩ : BufTy).Contents (Elt F)),
    StableHlo.unary main_v3 main_v222 (broadcastInDim S640000x1 ![0] bcast_S640000_S640000x1_0 : (⟨S640000, .i32⟩ : BufTy).Contents (Elt F) → (⟨S640000x1, .i32⟩ : BufTy).Contents (Elt F)),
    StableHlo.ternary main_v221 main_v222 main_v220 main_v223 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    StableHlo.nullary main_cst_48 (constant S_ .f32 0x00000000#32),
    StableHlo.unary main_cst_48 main_v224 (broadcastInDim S100000 ![] bcast_S_S100000 : (⟨S_, .f32⟩ : BufTy).Contents (Elt F) → (⟨S100000, .f32⟩ : BufTy).Contents (Elt F)),
    StableHlo.unary main_v3 main_v225 (broadcastInDim S640000x1 ![0] bcast_S640000_S640000x1_0 : (⟨S640000, .i32⟩ : BufTy).Contents (Elt F) → (⟨S640000x1, .i32⟩ : BufTy).Contents (Elt F)),
    StableHlo.ternary main_v224 main_v225 main_v217 main_v226 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    StableHlo.nullary main_cst_49 (constant S_ .f32 0x3F800000#32),
    StableHlo.unary main_cst_49 main_v227 (broadcastInDim S100000 ![] bcast_S_S100000 : (⟨S_, .f32⟩ : BufTy).Contents (Elt F) → (⟨S100000, .f32⟩ : BufTy).Contents (Elt F)),
    StableHlo.binary main_v226 main_v227 main_v228 (maximumf : (⟨S100000, .f32⟩ : BufTy).Contents (Elt F) → (⟨S100000, .f32⟩ : BufTy).Contents (Elt F) → (⟨S100000, .f32⟩ : BufTy).Contents (Elt F)),
    StableHlo.unary main_v228 main_v229 (broadcastInDim S100000x1 ![0] bcast_S100000_S100000x1_0 : (⟨S100000, .f32⟩ : BufTy).Contents (Elt F) → (⟨S100000x1, .f32⟩ : BufTy).Contents (Elt F)),
    StableHlo.unary main_v229 main_v230 (broadcastInDim S100000x128 ![0, 1] bcast_S100000x1_S100000x128_0_1 : (⟨S100000x1, .f32⟩ : BufTy).Contents (Elt F) → (⟨S100000x128, .f32⟩ : BufTy).Contents (Elt F)),
    StableHlo.binary main_v223 main_v230 main_v231 (Host.divf : (⟨S100000x128, .f32⟩ : BufTy).Contents (Elt F) → (⟨S100000x128, .f32⟩ : BufTy).Contents (Elt F) → (⟨S100000x128, .f32⟩ : BufTy).Contents (Elt F)) ]

/-- Operations 94 … 114 of the stretch. -/
def b1_4 : List (HloOp τ sig (Elt F)) :=
  [
    StableHlo.nullary main_c_50 (constantI S_ 32 4#32),
    StableHlo.unary main_c_50 main_v232 (broadcastInDim S640000 ![] bcast_S_S640000 : (⟨S_, .i32⟩ : BufTy).Contents (Elt F) → (⟨S640000, .i32⟩ : BufTy).Contents (Elt F)),
    StableHlo.binary main_arg2 main_v232 main_v233 (cmpi .eq : (⟨S640000, .i32⟩ : BufTy).Contents (Elt F) → (⟨S640000, .i32⟩ : BufTy).Contents (Elt F) → (⟨S640000, .i1⟩ : BufTy).Contents (Elt F)),
    StableHlo.unary main_v233 main_v234 (uitofp .f32 : (⟨S640000, .i1⟩ : BufTy).Contents (Elt F) → (⟨S640000, .f32⟩ : BufTy).Contents (Elt F)),
    StableHlo.unary main_v234 main_v235 (broadcastInDim S640000x1 ![0] bcast_S640000_S640000x1_0 : (⟨S640000, .f32⟩ : BufTy).Contents (Elt F) → (⟨S640000x1, .f32⟩ : BufTy).Contents (Elt F)),
    StableHlo.unary main_v235 main_v236 (broadcastInDim S640000x128 ![0, 1] bcast_S640000x1_S640000x128_0_1 : (⟨S640000x1, .f32⟩ : BufTy).Contents (Elt F) → (⟨S640000x128, .f32⟩ : BufTy).Contents (Elt F)),
    StableHlo.binary main_v163 main_v236 main_v237 (mulf : (⟨S640000x128, .f32⟩ : BufTy).Contents (Elt F) → (⟨S640000x128, .f32⟩ : BufTy).Contents (Elt F) → (⟨S640000x128, .f32⟩ : BufTy).Contents (Elt F)),
    StableHlo.nullary main_cst_51 (constant S_ .f32 0x00000000#32),
    StableHlo.unary main_cst_51 main_v238 (broadcastInDim S100000x128 ![] bcast_S_S100000x128 : (⟨S_, .f32⟩ : BufTy).Contents (Elt F) → (⟨S100000x128, .f32⟩ : BufTy).Contents (Elt F)),
    StableHlo.unary main_v3 main_v239 (broadcastInDim S640000x1 ![0] bcast_S640000_S640000x1_0 : (⟨S640000, .i32⟩ : BufTy).Contents (Elt F) → (⟨S640000x1, .i32⟩ : BufTy).Contents (Elt F)),
    StableHlo.ternary main_v238 main_v239 main_v237 main_v240 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    StableHlo.nullary main_cst_52 (constant S_ .f32 0x00000000#32),
    StableHlo.unary main_cst_52 main_v241 (broadcastInDim S100000 ![] bcast_S_S100000 : (⟨S_, .f32⟩ : BufTy).Contents (Elt F) → (⟨S100000, .f32⟩ : BufTy).Contents (Elt F)),
    StableHlo.unary main_v3 main_v242 (broadcastInDim S640000x1 ![0] bcast_S640000_S640000x1_0 : (⟨S640000, .i32⟩ : BufTy).Contents (Elt F) → (⟨S640000x1, .i32⟩ : BufTy).Contents (Elt F)),
    StableHlo.ternary main_v241 main_v242 main_v234 main_v243 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    StableHlo.nullary main_cst_53 (constant S_ .f32 0x3F800000#32),
    StableHlo.unary main_cst_53 main_v244 (broadcastInDim S100000 ![] bcast_S_S100000 : (⟨S_, .f32⟩ : BufTy).Contents (Elt F) → (⟨S100000, .f32⟩ : BufTy).Contents (Elt F)),
    StableHlo.binary main_v243 main_v244 main_v245 (maximumf : (⟨S100000, .f32⟩ : BufTy).Contents (Elt F) → (⟨S100000, .f32⟩ : BufTy).Contents (Elt F) → (⟨S100000, .f32⟩ : BufTy).Contents (Elt F)),
    StableHlo.unary main_v245 main_v246 (broadcastInDim S100000x1 ![0] bcast_S100000_S100000x1_0 : (⟨S100000, .f32⟩ : BufTy).Contents (Elt F) → (⟨S100000x1, .f32⟩ : BufTy).Contents (Elt F)),
    StableHlo.unary main_v246 main_v247 (broadcastInDim S100000x128 ![0, 1] bcast_S100000x1_S100000x128_0_1 : (⟨S100000x1, .f32⟩ : BufTy).Contents (Elt F) → (⟨S100000x128, .f32⟩ : BufTy).Contents (Elt F)),
    StableHlo.binary main_v240 main_v247 main_v248 (Host.divf : (⟨S100000x128, .f32⟩ : BufTy).Contents (Elt F) → (⟨S100000x128, .f32⟩ : BufTy).Contents (Elt F) → (⟨S100000x128, .f32⟩ : BufTy).Contents (Elt F)) ]

/-- Operations 115 … 135 of the stretch. -/
def b1_5 : List (HloOp τ sig (Elt F)) :=
  [
    StableHlo.nullary main_c_54 (constantI S_ 32 5#32),
    StableHlo.unary main_c_54 main_v249 (broadcastInDim S640000 ![] bcast_S_S640000 : (⟨S_, .i32⟩ : BufTy).Contents (Elt F) → (⟨S640000, .i32⟩ : BufTy).Contents (Elt F)),
    StableHlo.binary main_arg2 main_v249 main_v250 (cmpi .eq : (⟨S640000, .i32⟩ : BufTy).Contents (Elt F) → (⟨S640000, .i32⟩ : BufTy).Contents (Elt F) → (⟨S640000, .i1⟩ : BufTy).Contents (Elt F)),
    StableHlo.unary main_v250 main_v251 (uitofp .f32 : (⟨S640000, .i1⟩ : BufTy).Contents (Elt F) → (⟨S640000, .f32⟩ : BufTy).Contents (Elt F)),
    StableHlo.unary main_v251 main_v252 (broadcastInDim S640000x1 ![0] bcast_S640000_S640000x1_0 : (⟨S640000, .f32⟩ : BufTy).Contents (Elt F) → (⟨S640000x1, .f32⟩ : BufTy).Contents (Elt F)),
    StableHlo.unary main_v252 main_v253 (broadcastInDim S640000x128 ![0, 1] bcast_S640000x1_S640000x128_0_1 : (⟨S640000x1, .f32⟩ : BufTy).Contents (Elt F) → (⟨S640000x128, .f32⟩ : BufTy).Contents (Elt F)),
    StableHlo.binary main_v163 main_v253 main_v254 (mulf : (⟨S640000x128, .f32⟩ : BufTy).Contents (Elt F) → (⟨S640000x128, .f32⟩ : BufTy).Contents (Elt F) → (⟨S640000x128, .f32⟩ : BufTy).Contents (Elt F)),
    StableHlo.nullary main_cst_55 (constant S_ .f32 0x00000000#32),
    StableHlo.unary main_cst_55 main_v255 (broadcastInDim S100000x128 ![] bcast_S_S100000x128 : (⟨S_, .f32⟩ : BufTy).Contents (Elt F) → (⟨S100000x128, .f32⟩ : BufTy).Contents (Elt F)),
    StableHlo.unary main_v3 main_v256 (broadcastInDim S640000x1 ![0] bcast_S640000_S640000x1_0 : (⟨S640000, .i32⟩ : BufTy).Contents (Elt F) → (⟨S640000x1, .i32⟩ : BufTy).Contents (Elt F)),
    StableHlo.ternary main_v255 main_v256 main_v254 main_v257 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    StableHlo.nullary main_cst_56 (constant S_ .f32 0x00000000#32),
    StableHlo.unary main_cst_56 main_v258 (broadcastInDim S100000 ![] bcast_S_S100000 : (⟨S_, .f32⟩ : BufTy).Contents (Elt F) → (⟨S100000, .f32⟩ : BufTy).Contents (Elt F)),
    StableHlo.unary main_v3 main_v259 (broadcastInDim S640000x1 ![0] bcast_S640000_S640000x1_0 : (⟨S640000, .i32⟩ : BufTy).Contents (Elt F) → (⟨S640000x1, .i32⟩ : BufTy).Contents (Elt F)),
    StableHlo.ternary main_v258 main_v259 main_v251 main_v260 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    StableHlo.nullary main_cst_57 (constant S_ .f32 0x3F800000#32),
    StableHlo.unary main_cst_57 main_v261 (broadcastInDim S100000 ![] bcast_S_S100000 : (⟨S_, .f32⟩ : BufTy).Contents (Elt F) → (⟨S100000, .f32⟩ : BufTy).Contents (Elt F)),
    StableHlo.binary main_v260 main_v261 main_v262 (maximumf : (⟨S100000, .f32⟩ : BufTy).Contents (Elt F) → (⟨S100000, .f32⟩ : BufTy).Contents (Elt F) → (⟨S100000, .f32⟩ : BufTy).Contents (Elt F)),
    StableHlo.unary main_v262 main_v263 (broadcastInDim S100000x1 ![0] bcast_S100000_S100000x1_0 : (⟨S100000, .f32⟩ : BufTy).Contents (Elt F) → (⟨S100000x1, .f32⟩ : BufTy).Contents (Elt F)),
    StableHlo.unary main_v263 main_v264 (broadcastInDim S100000x128 ![0, 1] bcast_S100000x1_S100000x128_0_1 : (⟨S100000x1, .f32⟩ : BufTy).Contents (Elt F) → (⟨S100000x128, .f32⟩ : BufTy).Contents (Elt F)),
    StableHlo.binary main_v257 main_v264 main_v265 (Host.divf : (⟨S100000x128, .f32⟩ : BufTy).Contents (Elt F) → (⟨S100000x128, .f32⟩ : BufTy).Contents (Elt F) → (⟨S100000x128, .f32⟩ : BufTy).Contents (Elt F)) ]

/-- Operations 136 … 156 of the stretch. -/
def b1_6 : List (HloOp τ sig (Elt F)) :=
  [
    StableHlo.nullary main_c_58 (constantI S_ 32 6#32),
    StableHlo.unary main_c_58 main_v266 (broadcastInDim S640000 ![] bcast_S_S640000 : (⟨S_, .i32⟩ : BufTy).Contents (Elt F) → (⟨S640000, .i32⟩ : BufTy).Contents (Elt F)),
    StableHlo.binary main_arg2 main_v266 main_v267 (cmpi .eq : (⟨S640000, .i32⟩ : BufTy).Contents (Elt F) → (⟨S640000, .i32⟩ : BufTy).Contents (Elt F) → (⟨S640000, .i1⟩ : BufTy).Contents (Elt F)),
    StableHlo.unary main_v267 main_v268 (uitofp .f32 : (⟨S640000, .i1⟩ : BufTy).Contents (Elt F) → (⟨S640000, .f32⟩ : BufTy).Contents (Elt F)),
    StableHlo.unary main_v268 main_v269 (broadcastInDim S640000x1 ![0] bcast_S640000_S640000x1_0 : (⟨S640000, .f32⟩ : BufTy).Contents (Elt F) → (⟨S640000x1, .f32⟩ : BufTy).Contents (Elt F)),
    StableHlo.unary main_v269 main_v270 (broadcastInDim S640000x128 ![0, 1] bcast_S640000x1_S640000x128_0_1 : (⟨S640000x1, .f32⟩ : BufTy).Contents (Elt F) → (⟨S640000x128, .f32⟩ : BufTy).Contents (Elt F)),
    StableHlo.binary main_v163 main_v270 main_v271 (mulf : (⟨S640000x128, .f32⟩ : BufTy).Contents (Elt F) → (⟨S640000x128, .f32⟩ : BufTy).Contents (Elt F) → (⟨S640000x128, .f32⟩ : BufTy).Contents (Elt F)),
    StableHlo.nullary main_cst_59 (constant S_ .f32 0x00000000#32),
    StableHlo.unary main_cst_59 main_v272 (broadcastInDim S100000x128 ![] bcast_S_S100000x128 : (⟨S_, .f32⟩ : BufTy).Contents (Elt F) → (⟨S100000x128, .f32⟩ : BufTy).Contents (Elt F)),
    StableHlo.unary main_v3 main_v273 (broadcastInDim S640000x1 ![0] bcast_S640000_S640000x1_0 : (⟨S640000, .i32⟩ : BufTy).Contents (Elt F) → (⟨S640000x1, .i32⟩ : BufTy).Contents (Elt F)),
    StableHlo.ternary main_v272 main_v273 main_v271 main_v274 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    StableHlo.nullary main_cst_60 (constant S_ .f32 0x00000000#32),
    StableHlo.unary main_cst_60 main_v275 (broadcastInDim S100000 ![] bcast_S_S100000 : (⟨S_, .f32⟩ : BufTy).Contents (Elt F) → (⟨S100000, .f32⟩ : BufTy).Contents (Elt F)),
    StableHlo.unary main_v3 main_v276 (broadcastInDim S640000x1 ![0] bcast_S640000_S640000x1_0 : (⟨S640000, .i32⟩ : BufTy).Contents (Elt F) → (⟨S640000x1, .i32⟩ : BufTy).Contents (Elt F)),
    StableHlo.ternary main_v275 main_v276 main_v268 main_v277 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    StableHlo.nullary main_cst_61 (constant S_ .f32 0x3F800000#32),
    StableHlo.unary main_cst_61 main_v278 (broadcastInDim S100000 ![] bcast_S_S100000 : (⟨S_, .f32⟩ : BufTy).Contents (Elt F) → (⟨S100000, .f32⟩ : BufTy).Contents (Elt F)),
    StableHlo.binary main_v277 main_v278 main_v279 (maximumf : (⟨S100000, .f32⟩ : BufTy).Contents (Elt F) → (⟨S100000, .f32⟩ : BufTy).Contents (Elt F) → (⟨S100000, .f32⟩ : BufTy).Contents (Elt F)),
    StableHlo.unary main_v279 main_v280 (broadcastInDim S100000x1 ![0] bcast_S100000_S100000x1_0 : (⟨S100000, .f32⟩ : BufTy).Contents (Elt F) → (⟨S100000x1, .f32⟩ : BufTy).Contents (Elt F)),
    StableHlo.unary main_v280 main_v281 (broadcastInDim S100000x128 ![0, 1] bcast_S100000x1_S100000x128_0_1 : (⟨S100000x1, .f32⟩ : BufTy).Contents (Elt F) → (⟨S100000x128, .f32⟩ : BufTy).Contents (Elt F)),
    StableHlo.binary main_v274 main_v281 main_v282 (Host.divf : (⟨S100000x128, .f32⟩ : BufTy).Contents (Elt F) → (⟨S100000x128, .f32⟩ : BufTy).Contents (Elt F) → (⟨S100000x128, .f32⟩ : BufTy).Contents (Elt F)) ]

/-- Operations 157 … 177 of the stretch. -/
def b1_7 : List (HloOp τ sig (Elt F)) :=
  [
    StableHlo.nullary main_c_62 (constantI S_ 32 7#32),
    StableHlo.unary main_c_62 main_v283 (broadcastInDim S640000 ![] bcast_S_S640000 : (⟨S_, .i32⟩ : BufTy).Contents (Elt F) → (⟨S640000, .i32⟩ : BufTy).Contents (Elt F)),
    StableHlo.binary main_arg2 main_v283 main_v284 (cmpi .eq : (⟨S640000, .i32⟩ : BufTy).Contents (Elt F) → (⟨S640000, .i32⟩ : BufTy).Contents (Elt F) → (⟨S640000, .i1⟩ : BufTy).Contents (Elt F)),
    StableHlo.unary main_v284 main_v285 (uitofp .f32 : (⟨S640000, .i1⟩ : BufTy).Contents (Elt F) → (⟨S640000, .f32⟩ : BufTy).Contents (Elt F)),
    StableHlo.unary main_v285 main_v286 (broadcastInDim S640000x1 ![0] bcast_S640000_S640000x1_0 : (⟨S640000, .f32⟩ : BufTy).Contents (Elt F) → (⟨S640000x1, .f32⟩ : BufTy).Contents (Elt F)),
    StableHlo.unary main_v286 main_v287 (broadcastInDim S640000x128 ![0, 1] bcast_S640000x1_S640000x128_0_1 : (⟨S640000x1, .f32⟩ : BufTy).Contents (Elt F) → (⟨S640000x128, .f32⟩ : BufTy).Contents (Elt F)),
    StableHlo.binary main_v163 main_v287 main_v288 (mulf : (⟨S640000x128, .f32⟩ : BufTy).Contents (Elt F) → (⟨S640000x128, .f32⟩ : BufTy).Contents (Elt F) → (⟨S640000x128, .f32⟩ : BufTy).Contents (Elt F)),
    StableHlo.nullary main_cst_63 (constant S_ .f32 0x00000000#32),
    StableHlo.unary main_cst_63 main_v289 (broadcastInDim S100000x128 ![] bcast_S_S100000x128 : (⟨S_, .f32⟩ : BufTy).Contents (Elt F) → (⟨S100000x128, .f32⟩ : BufTy).Contents (Elt F)),
    StableHlo.unary main_v3 main_v290 (broadcastInDim S640000x1 ![0] bcast_S640000_S640000x1_0 : (⟨S640000, .i32⟩ : BufTy).Contents (Elt F) → (⟨S640000x1, .i32⟩ : BufTy).Contents (Elt F)),
    StableHlo.ternary main_v289 main_v290 main_v288 main_v291 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    StableHlo.nullary main_cst_64 (constant S_ .f32 0x00000000#32),
    StableHlo.unary main_cst_64 main_v292 (broadcastInDim S100000 ![] bcast_S_S100000 : (⟨S_, .f32⟩ : BufTy).Contents (Elt F) → (⟨S100000, .f32⟩ : BufTy).Contents (Elt F)),
    StableHlo.unary main_v3 main_v293 (broadcastInDim S640000x1 ![0] bcast_S640000_S640000x1_0 : (⟨S640000, .i32⟩ : BufTy).Contents (Elt F) → (⟨S640000x1, .i32⟩ : BufTy).Contents (Elt F)),
    StableHlo.ternary main_v292 main_v293 main_v285 main_v294 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    StableHlo.nullary main_cst_65 (constant S_ .f32 0x3F800000#32),
    StableHlo.unary main_cst_65 main_v295 (broadcastInDim S100000 ![] bcast_S_S100000 : (⟨S_, .f32⟩ : BufTy).Contents (Elt F) → (⟨S100000, .f32⟩ : BufTy).Contents (Elt F)),
    StableHlo.binary main_v294 main_v295 main_v296 (maximumf : (⟨S100000, .f32⟩ : BufTy).Contents (Elt F) → (⟨S100000, .f32⟩ : BufTy).Contents (Elt F) → (⟨S100000, .f32⟩ : BufTy).Contents (Elt F)),
    StableHlo.unary main_v296 main_v297 (broadcastInDim S100000x1 ![0] bcast_S100000_S100000x1_0 : (⟨S100000, .f32⟩ : BufTy).Contents (Elt F) → (⟨S100000x1, .f32⟩ : BufTy).Contents (Elt F)),
    StableHlo.unary main_v297 main_v298 (broadcastInDim S100000x128 ![0, 1] bcast_S100000x1_S100000x128_0_1 : (⟨S100000x1, .f32⟩ : BufTy).Contents (Elt F) → (⟨S100000x128, .f32⟩ : BufTy).Contents (Elt F)),
    StableHlo.binary main_v291 main_v298 main_v299 (Host.divf : (⟨S100000x128, .f32⟩ : BufTy).Contents (Elt F) → (⟨S100000x128, .f32⟩ : BufTy).Contents (Elt F) → (⟨S100000x128, .f32⟩ : BufTy).Contents (Elt F)) ]

/-- Operations 178 … 186 of the stretch. -/
def tail1 : List (HloOp τ sig (Elt F)) :=
  [
    StableHlo.unary main_v180 main_v300 (broadcastInDim S1x100000x128 ![1, 2] bcast_S100000x128_S1x100000x128_1_2 : (⟨S100000x128, .f32⟩ : BufTy).Contents (Elt F) → (⟨S1x100000x128, .f32⟩ : BufTy).Contents (Elt F)),
    StableHlo.unary main_v197 main_v301 (broadcastInDim S1x100000x128 ![1, 2] bcast_S100000x128_S1x100000x128_1_2 : (⟨S100000x128, .f32⟩ : BufTy).Contents (Elt F) → (⟨S1x100000x128, .f32⟩ : BufTy).Contents (Elt F)),
    StableHlo.unary main_v214 main_v302 (broadcastInDim S1x100000x128 ![1, 2] bcast_S100000x128_S1x100000x128_1_2 : (⟨S100000x128, .f32⟩ : BufTy).Contents (Elt F) → (⟨S1x100000x128, .f32⟩ : BufTy).Contents (Elt F)),
    StableHlo.unary main_v231 main_v303 (broadcastInDim S1x100000x128 ![1, 2] bcast_S100000x128_S1x100000x128_1_2 : (⟨S100000x128, .f32⟩ : BufTy).Contents (Elt F) → (⟨S1x100000x128, .f32⟩ : BufTy).Contents (Elt F)),
    StableHlo.unary main_v248 main_v304 (broadcastInDim S1x100000x128 ![1, 2] bcast_S100000x128_S1x100000x128_1_2 : (⟨S100000x128, .f32⟩ : BufTy).Contents (Elt F) → (⟨S1x100000x128, .f32⟩ : BufTy).Contents (Elt F)),
    StableHlo.unary main_v265 main_v305 (broadcastInDim S1x100000x128 ![1, 2] bcast_S100000x128_S1x100000x128_1_2 : (⟨S100000x128, .f32⟩ : BufTy).Contents (Elt F) → (⟨S1x100000x128, .f32⟩ : BufTy).Contents (Elt F)),
    StableHlo.unary main_v282 main_v306 (broadcastInDim S1x100000x128 ![1, 2] bcast_S100000x128_S1x100000x128_1_2 : (⟨S100000x128, .f32⟩ : BufTy).Contents (Elt F) → (⟨S1x100000x128, .f32⟩ : BufTy).Contents (Elt F)),
    StableHlo.unary main_v299 main_v307 (broadcastInDim S1x100000x128 ![1, 2] bcast_S100000x128_S1x100000x128_1_2 : (⟨S100000x128, .f32⟩ : BufTy).Contents (Elt F) → (⟨S1x100000x128, .f32⟩ : BufTy).Contents (Elt F)),
    StableHlo.nary ![main_v300, main_v301, main_v302, main_v303, main_v304, main_v305, main_v306, main_v307] main_v308 (fun u => concatenate S8x100000x128 0 [⟨S1x100000x128, u 0⟩, ⟨S1x100000x128, u 1⟩, ⟨S1x100000x128, u 2⟩, ⟨S1x100000x128, u 3⟩, ⟨S1x100000x128, u 4⟩, ⟨S1x100000x128, u 5⟩, ⟨S1x100000x128, u 6⟩, ⟨S1x100000x128, u 7⟩] concatenates_S1x100000x128_S1x100000x128_S1x100000x128_S1x100000x128_S1x100000x128_S1x100000x128_S1x100000x128_S1x100000x128_S8x100000x128_d0) ]

/-- Two lines in a row leave what the second leaves of what the first left. -/
private theorem after_app : ∀ (l₁ l₂ : List (HloOp τ sig (Elt F))) (V : Valuation τ sig (Elt F)),
    StableHlo.after (l₁ ++ l₂) V = StableHlo.after l₂ (StableHlo.after l₁ V)
  | [], _, _ => rfl
  | op :: l₁, l₂, V => by rw [List.cons_append, StableHlo.after_cons, StableHlo.after_cons, after_app l₁ l₂]

/-- The stretch is its segments in order. -/
theorem split1 : (hostOps1 (F := F)) = pre1 ++ (b1_0 ++ (b1_1 ++ (b1_2 ++ (b1_3 ++ (b1_4 ++ (b1_5 ++ (b1_6 ++ (b1_7 ++ (tail1))))))))) := rfl

/-- What the stretch leaves is what its segments leave one after the other. -/
theorem after_split1 (V : Valuation τ sig (Elt F)) :
    StableHlo.after (hostOps1 (F := F)) V = StableHlo.after tail1 (StableHlo.after b1_7 (StableHlo.after b1_6 (StableHlo.after b1_5 (StableHlo.after b1_4 (StableHlo.after b1_3 (StableHlo.after b1_2 (StableHlo.after b1_1 (StableHlo.after b1_0 (StableHlo.after pre1 (V)))))))))) := by
  rw [split1]; simp only [after_app]

/-- The references `pre1` writes. -/
abbrev pre1_W : List (Ref sig .tc) := [main_c_32, main_v157, main_v158, main_c_33, main_v159, main_v160, main_v161, main_v162, main_v163]
theorem pre1_writes : (pre1 (F := F)).Forall fun op => op.writes ⊆ (pre1_W.map (Proc.devRef (τ := τ) .tc)).toFinset := by
  unfold pre1
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A reference `pre1` does not write keeps its contents over it. -/
theorem pre1_kept (W : Valuation τ sig (Elt F)) (r : Ref sig .tc) (h : r ∉ pre1_W) : StableHlo.after pre1 W r = W r :=
  StableHlo.after_of_writes_sub pre1 W pre1_writes h

/-- The references `b1_0` writes. -/
abbrev b1_0_W : List (Ref sig .tc) := [main_c_34, main_v164, main_v165, main_v166, main_v167, main_v168, main_v169, main_cst_35, main_v170, main_v171, main_v172, main_cst_36, main_v173, main_v174, main_v175, main_cst_37, main_v176, main_v177, main_v178, main_v179, main_v180]
theorem b1_0_writes : (b1_0 (F := F)).Forall fun op => op.writes ⊆ (b1_0_W.map (Proc.devRef (τ := τ) .tc)).toFinset := by
  unfold b1_0
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A reference `b1_0` does not write keeps its contents over it. -/
theorem b1_0_kept (W : Valuation τ sig (Elt F)) (r : Ref sig .tc) (h : r ∉ b1_0_W) : StableHlo.after b1_0 W r = W r :=
  StableHlo.after_of_writes_sub b1_0 W b1_0_writes h

/-- The references `b1_1` writes. -/
abbrev b1_1_W : List (Ref sig .tc) := [main_c_38, main_v181, main_v182, main_v183, main_v184, main_v185, main_v186, main_cst_39, main_v187, main_v188, main_v189, main_cst_40, main_v190, main_v191, main_v192, main_cst_41, main_v193, main_v194, main_v195, main_v196, main_v197]
theorem b1_1_writes : (b1_1 (F := F)).Forall fun op => op.writes ⊆ (b1_1_W.map (Proc.devRef (τ := τ) .tc)).toFinset := by
  unfold b1_1
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A reference `b1_1` does not write keeps its contents over it. -/
theorem b1_1_kept (W : Valuation τ sig (Elt F)) (r : Ref sig .tc) (h : r ∉ b1_1_W) : StableHlo.after b1_1 W r = W r :=
  StableHlo.after_of_writes_sub b1_1 W b1_1_writes h

/-- The references `b1_2` writes. -/
abbrev b1_2_W : List (Ref sig .tc) := [main_c_42, main_v198, main_v199, main_v200, main_v201, main_v202, main_v203, main_cst_43, main_v204, main_v205, main_v206, main_cst_44, main_v207, main_v208, main_v209, main_cst_45, main_v210, main_v211, main_v212, main_v213, main_v214]
theorem b1_2_writes : (b1_2 (F := F)).Forall fun op => op.writes ⊆ (b1_2_W.map (Proc.devRef (τ := τ) .tc)).toFinset := by
  unfold b1_2
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A reference `b1_2` does not write keeps its contents over it. -/
theorem b1_2_kept (W : Valuation τ sig (Elt F)) (r : Ref sig .tc) (h : r ∉ b1_2_W) : StableHlo.after b1_2 W r = W r :=
  StableHlo.after_of_writes_sub b1_2 W b1_2_writes h

/-- The references `b1_3` writes. -/
abbrev b1_3_W : List (Ref sig .tc) := [main_c_46, main_v215, main_v216, main_v217, main_v218, main_v219, main_v220, main_cst_47, main_v221, main_v222, main_v223, main_cst_48, main_v224, main_v225, main_v226, main_cst_49, main_v227, main_v228, main_v229, main_v230, main_v231]
theorem b1_3_writes : (b1_3 (F := F)).Forall fun op => op.writes ⊆ (b1_3_W.map (Proc.devRef (τ := τ) .tc)).toFinset := by
  unfold b1_3
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A reference `b1_3` does not write keeps its contents over it. -/
theorem b1_3_kept (W : Valuation τ sig (Elt F)) (r : Ref sig .tc) (h : r ∉ b1_3_W) : StableHlo.after b1_3 W r = W r :=
  StableHlo.after_of_writes_sub b1_3 W b1_3_writes h

/-- The references `b1_4` writes. -/
abbrev b1_4_W : List (Ref sig .tc) := [main_c_50, main_v232, main_v233, main_v234, main_v235, main_v236, main_v237, main_cst_51, main_v238, main_v239, main_v240, main_cst_52, main_v241, main_v242, main_v243, main_cst_53, main_v244, main_v245, main_v246, main_v247, main_v248]
theorem b1_4_writes : (b1_4 (F := F)).Forall fun op => op.writes ⊆ (b1_4_W.map (Proc.devRef (τ := τ) .tc)).toFinset := by
  unfold b1_4
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A reference `b1_4` does not write keeps its contents over it. -/
theorem b1_4_kept (W : Valuation τ sig (Elt F)) (r : Ref sig .tc) (h : r ∉ b1_4_W) : StableHlo.after b1_4 W r = W r :=
  StableHlo.after_of_writes_sub b1_4 W b1_4_writes h

/-- The references `b1_5` writes. -/
abbrev b1_5_W : List (Ref sig .tc) := [main_c_54, main_v249, main_v250, main_v251, main_v252, main_v253, main_v254, main_cst_55, main_v255, main_v256, main_v257, main_cst_56, main_v258, main_v259, main_v260, main_cst_57, main_v261, main_v262, main_v263, main_v264, main_v265]
theorem b1_5_writes : (b1_5 (F := F)).Forall fun op => op.writes ⊆ (b1_5_W.map (Proc.devRef (τ := τ) .tc)).toFinset := by
  unfold b1_5
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A reference `b1_5` does not write keeps its contents over it. -/
theorem b1_5_kept (W : Valuation τ sig (Elt F)) (r : Ref sig .tc) (h : r ∉ b1_5_W) : StableHlo.after b1_5 W r = W r :=
  StableHlo.after_of_writes_sub b1_5 W b1_5_writes h

/-- The references `b1_6` writes. -/
abbrev b1_6_W : List (Ref sig .tc) := [main_c_58, main_v266, main_v267, main_v268, main_v269, main_v270, main_v271, main_cst_59, main_v272, main_v273, main_v274, main_cst_60, main_v275, main_v276, main_v277, main_cst_61, main_v278, main_v279, main_v280, main_v281, main_v282]
theorem b1_6_writes : (b1_6 (F := F)).Forall fun op => op.writes ⊆ (b1_6_W.map (Proc.devRef (τ := τ) .tc)).toFinset := by
  unfold b1_6
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A reference `b1_6` does not write keeps its contents over it. -/
theorem b1_6_kept (W : Valuation τ sig (Elt F)) (r : Ref sig .tc) (h : r ∉ b1_6_W) : StableHlo.after b1_6 W r = W r :=
  StableHlo.after_of_writes_sub b1_6 W b1_6_writes h

/-- The references `b1_7` writes. -/
abbrev b1_7_W : List (Ref sig .tc) := [main_c_62, main_v283, main_v284, main_v285, main_v286, main_v287, main_v288, main_cst_63, main_v289, main_v290, main_v291, main_cst_64, main_v292, main_v293, main_v294, main_cst_65, main_v295, main_v296, main_v297, main_v298, main_v299]
theorem b1_7_writes : (b1_7 (F := F)).Forall fun op => op.writes ⊆ (b1_7_W.map (Proc.devRef (τ := τ) .tc)).toFinset := by
  unfold b1_7
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A reference `b1_7` does not write keeps its contents over it. -/
theorem b1_7_kept (W : Valuation τ sig (Elt F)) (r : Ref sig .tc) (h : r ∉ b1_7_W) : StableHlo.after b1_7 W r = W r :=
  StableHlo.after_of_writes_sub b1_7 W b1_7_writes h

/-- The references `tail1` writes. -/
abbrev tail1_W : List (Ref sig .tc) := [main_v300, main_v301, main_v302, main_v303, main_v304, main_v305, main_v306, main_v307, main_v308]
theorem tail1_writes : (tail1 (F := F)).Forall fun op => op.writes ⊆ (tail1_W.map (Proc.devRef (τ := τ) .tc)).toFinset := by
  unfold tail1
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A reference `tail1` does not write keeps its contents over it. -/
theorem tail1_kept (W : Valuation τ sig (Elt F)) (r : Ref sig .tc) (h : r ∉ tail1_W) : StableHlo.after tail1 W r = W r :=
  StableHlo.after_of_writes_sub tail1 W tail1_writes h

end Cert.HostSide

end
-- ==== Proof.HostBlk1.lean ====
import proofs.«171321_j63273458205156_1_alg».proof.Proof.HostSeg1
import proofs.«171321_j63273458205156_1_alg».proof.Proof.HostAgg

/-!
What each segment of the host stretch `hostOps1` leaves in the buffer it is there for, as a function of the contents
it finds: the gathered rows, each relation's mean aggregate, and the stack of the eight.
-/

set_option maxRecDepth 4000

noncomputable section

namespace Cert.HostSide

open Idealize.ShloMosaic Idealize.ShloMosaic.TcCoe
open Cert.KernelIdeal Cert.KernelIdeal.Gen

/-- The first segment leaves the source rows of the hidden layer, gathered through the sources it finds. -/
theorem pre1_v163 (V : Valuation τ sig (Elt Ideal)) :
    StableHlo.after pre1 V main_v163 = gath (V main_v156) (V main_v1) := by
  unfold pre1
  after_results_simp
  rfl

/-- Segment `b1_0` leaves relation 0's mean aggregate of the gathered rows it finds. -/
theorem b1_0_val (W : Valuation τ sig (Elt Ideal)) :
    StableHlo.after b1_0 W main_v180 = relAgg 0#32 (W main_v163) (W main_v3) (W main_arg2) := by
  unfold b1_0
  after_results_simp
  rfl

/-- Segment `b1_1` leaves relation 1's mean aggregate of the gathered rows it finds. -/
theorem b1_1_val (W : Valuation τ sig (Elt Ideal)) :
    StableHlo.after b1_1 W main_v197 = relAgg 1#32 (W main_v163) (W main_v3) (W main_arg2) := by
  unfold b1_1
  after_results_simp
  rfl

/-- Segment `b1_2` leaves relation 2's mean aggregate of the gathered rows it finds. -/
theorem b1_2_val (W : Valuation τ sig (Elt Ideal)) :
    StableHlo.after b1_2 W main_v214 = relAgg 2#32 (W main_v163) (W main_v3) (W main_arg2) := by
  unfold b1_2
  after_results_simp
  rfl

/-- Segment `b1_3` leaves relation 3's mean aggregate of the gathered rows it finds. -/
theorem b1_3_val (W : Valuation τ sig (Elt Ideal)) :
    StableHlo.after b1_3 W main_v231 = relAgg 3#32 (W main_v163) (W main_v3) (W main_arg2) := by
  unfold b1_3
  after_results_simp
  rfl

/-- Segment `b1_4` leaves relation 4's mean aggregate of the gathered rows it finds. -/
theorem b1_4_val (W : Valuation τ sig (Elt Ideal)) :
    StableHlo.after b1_4 W main_v248 = relAgg 4#32 (W main_v163) (W main_v3) (W main_arg2) := by
  unfold b1_4
  after_results_simp
  rfl

/-- Segment `b1_5` leaves relation 5's mean aggregate of the gathered rows it finds. -/
theorem b1_5_val (W : Valuation τ sig (Elt Ideal)) :
    StableHlo.after b1_5 W main_v265 = relAgg 5#32 (W main_v163) (W main_v3) (W main_arg2) := by
  unfold b1_5
  after_results_simp
  rfl

/-- Segment `b1_6` leaves relation 6's mean aggregate of the gathered rows it finds. -/
theorem b1_6_val (W : Valuation τ sig (Elt Ideal)) :
    StableHlo.after b1_6 W main_v282 = relAgg 6#32 (W main_v163) (W main_v3) (W main_arg2) := by
  unfold b1_6
  after_results_simp
  rfl

/-- Segment `b1_7` leaves relation 7's mean aggregate of the gathered rows it finds. -/
theorem b1_7_val (W : Valuation τ sig (Elt Ideal)) :
    StableHlo.after b1_7 W main_v299 = relAgg 7#32 (W main_v163) (W main_v3) (W main_arg2) := by
  unfold b1_7
  after_results_simp
  rfl

/-- The last segment stacks the eight aggregates it finds. -/
theorem tail1_val (W : Valuation τ sig (Elt Ideal)) :
    StableHlo.after tail1 W main_v308
      = stackOf ![W main_v180, W main_v197, W main_v214, W main_v231, W main_v248, W main_v265, W main_v282, W main_v299] := by
  unfold tail1
  simp only [StableHlo.after_cons, StableHlo.after_nil]
  rw [StableHlo.nary_result]
  -- the contents after the eight unit-row broadcasts, named
  generalize hX : HloOp.result _ _ = X
  have h0 : X main_v300 = broadcastInDim S1x100000x128 ![1, 2] bcast_S100000x128_S1x100000x128_1_2 (W main_v180) := by
    rw [← hX]; after_results_simp
  have h1 : X main_v301 = broadcastInDim S1x100000x128 ![1, 2] bcast_S100000x128_S1x100000x128_1_2 (W main_v197) := by
    rw [← hX]; after_results_simp
  have h2 : X main_v302 = broadcastInDim S1x100000x128 ![1, 2] bcast_S100000x128_S1x100000x128_1_2 (W main_v214) := by
    rw [← hX]; after_results_simp
  have h3 : X main_v303 = broadcastInDim S1x100000x128 ![1, 2] bcast_S100000x128_S1x100000x128_1_2 (W main_v231) := by
    rw [← hX]; after_results_simp
  have h4 : X main_v304 = broadcastInDim S1x100000x128 ![1, 2] bcast_S100000x128_S1x100000x128_1_2 (W main_v248) := by
    rw [← hX]; after_results_simp
  have h5 : X main_v305 = broadcastInDim S1x100000x128 ![1, 2] bcast_S100000x128_S1x100000x128_1_2 (W main_v265) := by
    rw [← hX]; after_results_simp
  have h6 : X main_v306 = broadcastInDim S1x100000x128 ![1, 2] bcast_S100000x128_S1x100000x128_1_2 (W main_v282) := by
    rw [← hX]; after_results_simp
  have h7 : X main_v307 = broadcastInDim S1x100000x128 ![1, 2] bcast_S100000x128_S1x100000x128_1_2 (W main_v299) := by
    rw [← hX]; after_results_simp
  show concatenate S8x100000x128 0 [⟨S1x100000x128, X main_v300⟩, ⟨S1x100000x128, X main_v301⟩, ⟨S1x100000x128, X main_v302⟩, ⟨S1x100000x128, X main_v303⟩, ⟨S1x100000x128, X main_v304⟩, ⟨S1x100000x128, X main_v305⟩, ⟨S1x100000x128, X main_v306⟩, ⟨S1x100000x128, X main_v307⟩] concatenates_S1x100000x128_S1x100000x128_S1x100000x128_S1x100000x128_S1x100000x128_S1x100000x128_S1x100000x128_S1x100000x128_S8x100000x128_d0 = _
  rw [h0, h1, h2, h3, h4, h5, h6, h7]
  rfl

end Cert.HostSide

end
-- ==== Proof.HostStack1.lean ====
import proofs.«171321_j63273458205156_1_alg».proof.Proof.HostBlk1

/-!
The host stretch `hostOps1` of the kernel program leaves, in the buffer the matmul region after it reads as its stacked
operand, the eight relations' mean aggregates of the hidden layer stacked: segment by segment, each relation's
aggregate is computed from the gathered rows, the destinations and the edge types, which no later segment writes.
-/

set_option maxRecDepth 4000

noncomputable section

namespace Cert.HostSide

open Idealize.ShloMosaic Idealize.ShloMosaic.TcCoe
open Cert.KernelIdeal Cert.KernelIdeal.Gen

/-- The stacked aggregates with the eight relation constants written out. -/
private theorem stackK_lit (x : Vec Ideal S100000x128 .f32) (src dst et : Vec Ideal S640000 .i32) :
    stackK x src dst et
      = stackOf ![aggCore 0#32 x src dst et, aggCore 1#32 x src dst et, aggCore 2#32 x src dst et, aggCore 3#32 x src dst et, aggCore 4#32 x src dst et, aggCore 5#32 x src dst et, aggCore 6#32 x src dst et, aggCore 7#32 x src dst et] := by
  unfold stackK
  refine congrArg stackOf (funext fun r => ?_)
  match r with
  | ⟨0, h⟩ =>
    show aggCore 0#32 x src dst et = aggCore (relConst ⟨0, h⟩) x src dst et
    rfl
  | ⟨1, h⟩ =>
    show aggCore 1#32 x src dst et = aggCore (relConst ⟨1, h⟩) x src dst et
    rfl
  | ⟨2, h⟩ =>
    show aggCore 2#32 x src dst et = aggCore (relConst ⟨2, h⟩) x src dst et
    rfl
  | ⟨3, h⟩ =>
    show aggCore 3#32 x src dst et = aggCore (relConst ⟨3, h⟩) x src dst et
    rfl
  | ⟨4, h⟩ =>
    show aggCore 4#32 x src dst et = aggCore (relConst ⟨4, h⟩) x src dst et
    rfl
  | ⟨5, h⟩ =>
    show aggCore 5#32 x src dst et = aggCore (relConst ⟨5, h⟩) x src dst et
    rfl
  | ⟨6, h⟩ =>
    show aggCore 6#32 x src dst et = aggCore (relConst ⟨6, h⟩) x src dst et
    rfl
  | ⟨7, h⟩ =>
    show aggCore 7#32 x src dst et = aggCore (relConst ⟨7, h⟩) x src dst et
    rfl

/-- After the second host stretch `main_v308` holds the stacked aggregates of the hidden layer `main_v156` over the edges whose sources are in `main_v1` and destinations in `main_v3`, with types `main_arg2`. -/
theorem stack1 (V : Valuation τ sig (Elt Ideal)) :
    StableHlo.after (hostOps1 (F := Ideal)) V main_v308
      = stackK (V main_v156) (V main_v1) (V main_v3) (V main_arg2) := by
  rw [after_split1]
  generalize hW0 : StableHlo.after pre1 V = W0
  have G0 : W0 main_v163 = gath (V main_v156) (V main_v1) := by rw [← hW0]; exact pre1_v163 V
  have D0 : W0 main_v3 = V main_v3 := by rw [← hW0]; exact pre1_kept V main_v3 (by decide)
  have E0 : W0 main_arg2 = V main_arg2 := by rw [← hW0]; exact pre1_kept V main_arg2 (by decide)
  generalize hW1 : StableHlo.after b1_0 W0 = W1
  have G1 : W1 main_v163 = gath (V main_v156) (V main_v1) := by rw [← hW1, b1_0_kept W0 main_v163 (by decide)]; exact G0
  have D1 : W1 main_v3 = V main_v3 := by rw [← hW1, b1_0_kept W0 main_v3 (by decide)]; exact D0
  have E1 : W1 main_arg2 = V main_arg2 := by rw [← hW1, b1_0_kept W0 main_arg2 (by decide)]; exact E0
  have O0_1 : W1 main_v180 = aggCore 0#32 (V main_v156) (V main_v1) (V main_v3) (V main_arg2) := by rw [← hW1, b1_0_val, G0, D0, E0]; rfl
  generalize hW2 : StableHlo.after b1_1 W1 = W2
  have G2 : W2 main_v163 = gath (V main_v156) (V main_v1) := by rw [← hW2, b1_1_kept W1 main_v163 (by decide)]; exact G1
  have D2 : W2 main_v3 = V main_v3 := by rw [← hW2, b1_1_kept W1 main_v3 (by decide)]; exact D1
  have E2 : W2 main_arg2 = V main_arg2 := by rw [← hW2, b1_1_kept W1 main_arg2 (by decide)]; exact E1
  have O0_2 : W2 main_v180 = aggCore 0#32 (V main_v156) (V main_v1) (V main_v3) (V main_arg2) := by rw [← hW2, b1_1_kept W1 main_v180 (by decide)]; exact O0_1
  have O1_2 : W2 main_v197 = aggCore 1#32 (V main_v156) (V main_v1) (V main_v3) (V main_arg2) := by rw [← hW2, b1_1_val, G1, D1, E1]; rfl
  generalize hW3 : StableHlo.after b1_2 W2 = W3
  have G3 : W3 main_v163 = gath (V main_v156) (V main_v1) := by rw [← hW3, b1_2_kept W2 main_v163 (by decide)]; exact G2
  have D3 : W3 main_v3 = V main_v3 := by rw [← hW3, b1_2_kept W2 main_v3 (by decide)]; exact D2
  have E3 : W3 main_arg2 = V main_arg2 := by rw [← hW3, b1_2_kept W2 main_arg2 (by decide)]; exact E2
  have O0_3 : W3 main_v180 = aggCore 0#32 (V main_v156) (V main_v1) (V main_v3) (V main_arg2) := by rw [← hW3, b1_2_kept W2 main_v180 (by decide)]; exact O0_2
  have O1_3 : W3 main_v197 = aggCore 1#32 (V main_v156) (V main_v1) (V main_v3) (V main_arg2) := by rw [← hW3, b1_2_kept W2 main_v197 (by decide)]; exact O1_2
  have O2_3 : W3 main_v214 = aggCore 2#32 (V main_v156) (V main_v1) (V main_v3) (V main_arg2) := by rw [← hW3, b1_2_val, G2, D2, E2]; rfl
  generalize hW4 : StableHlo.after b1_3 W3 = W4
  have G4 : W4 main_v163 = gath (V main_v156) (V main_v1) := by rw [← hW4, b1_3_kept W3 main_v163 (by decide)]; exact G3
  have D4 : W4 main_v3 = V main_v3 := by rw [← hW4, b1_3_kept W3 main_v3 (by decide)]; exact D3
  have E4 : W4 main_arg2 = V main_arg2 := by rw [← hW4, b1_3_kept W3 main_arg2 (by decide)]; exact E3
  have O0_4 : W4 main_v180 = aggCore 0#32 (V main_v156) (V main_v1) (V main_v3) (V main_arg2) := by rw [← hW4, b1_3_kept W3 main_v180 (by decide)]; exact O0_3
  have O1_4 : W4 main_v197 = aggCore 1#32 (V main_v156) (V main_v1) (V main_v3) (V main_arg2) := by rw [← hW4, b1_3_kept W3 main_v197 (by decide)]; exact O1_3
  have O2_4 : W4 main_v214 = aggCore 2#32 (V main_v156) (V main_v1) (V main_v3) (V main_arg2) := by rw [← hW4, b1_3_kept W3 main_v214 (by decide)]; exact O2_3
  have O3_4 : W4 main_v231 = aggCore 3#32 (V main_v156) (V main_v1) (V main_v3) (V main_arg2) := by rw [← hW4, b1_3_val, G3, D3, E3]; rfl
  generalize hW5 : StableHlo.after b1_4 W4 = W5
  have G5 : W5 main_v163 = gath (V main_v156) (V main_v1) := by rw [← hW5, b1_4_kept W4 main_v163 (by decide)]; exact G4
  have D5 : W5 main_v3 = V main_v3 := by rw [← hW5, b1_4_kept W4 main_v3 (by decide)]; exact D4
  have E5 : W5 main_arg2 = V main_arg2 := by rw [← hW5, b1_4_kept W4 main_arg2 (by decide)]; exact E4
  have O0_5 : W5 main_v180 = aggCore 0#32 (V main_v156) (V main_v1) (V main_v3) (V main_arg2) := by rw [← hW5, b1_4_kept W4 main_v180 (by decide)]; exact O0_4
  have O1_5 : W5 main_v197 = aggCore 1#32 (V main_v156) (V main_v1) (V main_v3) (V main_arg2) := by rw [← hW5, b1_4_kept W4 main_v197 (by decide)]; exact O1_4
  have O2_5 : W5 main_v214 = aggCore 2#32 (V main_v156) (V main_v1) (V main_v3) (V main_arg2) := by rw [← hW5, b1_4_kept W4 main_v214 (by decide)]; exact O2_4
  have O3_5 : W5 main_v231 = aggCore 3#32 (V main_v156) (V main_v1) (V main_v3) (V main_arg2) := by rw [← hW5, b1_4_kept W4 main_v231 (by decide)]; exact O3_4
  have O4_5 : W5 main_v248 = aggCore 4#32 (V main_v156) (V main_v1) (V main_v3) (V main_arg2) := by rw [← hW5, b1_4_val, G4, D4, E4]; rfl
  generalize hW6 : StableHlo.after b1_5 W5 = W6
  have G6 : W6 main_v163 = gath (V main_v156) (V main_v1) := by rw [← hW6, b1_5_kept W5 main_v163 (by decide)]; exact G5
  have D6 : W6 main_v3 = V main_v3 := by rw [← hW6, b1_5_kept W5 main_v3 (by decide)]; exact D5
  have E6 : W6 main_arg2 = V main_arg2 := by rw [← hW6, b1_5_kept W5 main_arg2 (by decide)]; exact E5
  have O0_6 : W6 main_v180 = aggCore 0#32 (V main_v156) (V main_v1) (V main_v3) (V main_arg2) := by rw [← hW6, b1_5_kept W5 main_v180 (by decide)]; exact O0_5
  have O1_6 : W6 main_v197 = aggCore 1#32 (V main_v156) (V main_v1) (V main_v3) (V main_arg2) := by rw [← hW6, b1_5_kept W5 main_v197 (by decide)]; exact O1_5
  have O2_6 : W6 main_v214 = aggCore 2#32 (V main_v156) (V main_v1) (V main_v3) (V main_arg2) := by rw [← hW6, b1_5_kept W5 main_v214 (by decide)]; exact O2_5
  have O3_6 : W6 main_v231 = aggCore 3#32 (V main_v156) (V main_v1) (V main_v3) (V main_arg2) := by rw [← hW6, b1_5_kept W5 main_v231 (by decide)]; exact O3_5
  have O4_6 : W6 main_v248 = aggCore 4#32 (V main_v156) (V main_v1) (V main_v3) (V main_arg2) := by rw [← hW6, b1_5_kept W5 main_v248 (by decide)]; exact O4_5
  have O5_6 : W6 main_v265 = aggCore 5#32 (V main_v156) (V main_v1) (V main_v3) (V main_arg2) := by rw [← hW6, b1_5_val, G5, D5, E5]; rfl
  generalize hW7 : StableHlo.after b1_6 W6 = W7
  have G7 : W7 main_v163 = gath (V main_v156) (V main_v1) := by rw [← hW7, b1_6_kept W6 main_v163 (by decide)]; exact G6
  have D7 : W7 main_v3 = V main_v3 := by rw [← hW7, b1_6_kept W6 main_v3 (by decide)]; exact D6
  have E7 : W7 main_arg2 = V main_arg2 := by rw [← hW7, b1_6_kept W6 main_arg2 (by decide)]; exact E6
  have O0_7 : W7 main_v180 = aggCore 0#32 (V main_v156) (V main_v1) (V main_v3) (V main_arg2) := by rw [← hW7, b1_6_kept W6 main_v180 (by decide)]; exact O0_6
  have O1_7 : W7 main_v197 = aggCore 1#32 (V main_v156) (V main_v1) (V main_v3) (V main_arg2) := by rw [← hW7, b1_6_kept W6 main_v197 (by decide)]; exact O1_6
  have O2_7 : W7 main_v214 = aggCore 2#32 (V main_v156) (V main_v1) (V main_v3) (V main_arg2) := by rw [← hW7, b1_6_kept W6 main_v214 (by decide)]; exact O2_6
  have O3_7 : W7 main_v231 = aggCore 3#32 (V main_v156) (V main_v1) (V main_v3) (V main_arg2) := by rw [← hW7, b1_6_kept W6 main_v231 (by decide)]; exact O3_6
  have O4_7 : W7 main_v248 = aggCore 4#32 (V main_v156) (V main_v1) (V main_v3) (V main_arg2) := by rw [← hW7, b1_6_kept W6 main_v248 (by decide)]; exact O4_6
  have O5_7 : W7 main_v265 = aggCore 5#32 (V main_v156) (V main_v1) (V main_v3) (V main_arg2) := by rw [← hW7, b1_6_kept W6 main_v265 (by decide)]; exact O5_6
  have O6_7 : W7 main_v282 = aggCore 6#32 (V main_v156) (V main_v1) (V main_v3) (V main_arg2) := by rw [← hW7, b1_6_val, G6, D6, E6]; rfl
  generalize hW8 : StableHlo.after b1_7 W7 = W8
  have O0_8 : W8 main_v180 = aggCore 0#32 (V main_v156) (V main_v1) (V main_v3) (V main_arg2) := by rw [← hW8, b1_7_kept W7 main_v180 (by decide)]; exact O0_7
  have O1_8 : W8 main_v197 = aggCore 1#32 (V main_v156) (V main_v1) (V main_v3) (V main_arg2) := by rw [← hW8, b1_7_kept W7 main_v197 (by decide)]; exact O1_7
  have O2_8 : W8 main_v214 = aggCore 2#32 (V main_v156) (V main_v1) (V main_v3) (V main_arg2) := by rw [← hW8, b1_7_kept W7 main_v214 (by decide)]; exact O2_7
  have O3_8 : W8 main_v231 = aggCore 3#32 (V main_v156) (V main_v1) (V main_v3) (V main_arg2) := by rw [← hW8, b1_7_kept W7 main_v231 (by decide)]; exact O3_7
  have O4_8 : W8 main_v248 = aggCore 4#32 (V main_v156) (V main_v1) (V main_v3) (V main_arg2) := by rw [← hW8, b1_7_kept W7 main_v248 (by decide)]; exact O4_7
  have O5_8 : W8 main_v265 = aggCore 5#32 (V main_v156) (V main_v1) (V main_v3) (V main_arg2) := by rw [← hW8, b1_7_kept W7 main_v265 (by decide)]; exact O5_7
  have O6_8 : W8 main_v282 = aggCore 6#32 (V main_v156) (V main_v1) (V main_v3) (V main_arg2) := by rw [← hW8, b1_7_kept W7 main_v282 (by decide)]; exact O6_7
  have O7_8 : W8 main_v299 = aggCore 7#32 (V main_v156) (V main_v1) (V main_v3) (V main_arg2) := by rw [← hW8, b1_7_val, G7, D7, E7]; rfl
  rw [tail1_val, O0_8, O1_8, O2_8, O3_8, O4_8, O5_8, O6_8, O7_8, stackK_lit]

end Cert.HostSide

end
-- ==== Proof.Spec.lean ====
import Idealize.ShloMosaic.PureOps.Ideal
import Idealize.ShloMosaic.Lib.ValueIdx

/-!
One relational graph-convolution layer over the extended reals, entry by entry.

For node features `x` (100000 × 128), per-relation mean aggregates `agg` (8 × 100000 × 128), relation weights `W`
(8 × 128 × 128), a root weight (128 × 128) and a bias (128), entry `(p, q)` of the layer is

  max ( (((Σ_k x[p,k]·root[k,q]) + b[q]) + Σ_k agg[0,p,k]·W[0,k,q]) + … + Σ_k agg[7,p,k]·W[7,k,q] , 0 )

with the eight relation terms added one after the other, left to right (`accUpTo`). Row `p` of the result depends on
row `p` of `x` and of each `agg[r]` only, so the layer may be computed row block by row block.
-/

noncomputable section

namespace Cert.Rgcn

open Idealize.ShloMosaic Idealize.ShloMosaic.ValueIdx
open scoped BigOperators

/-- Node features: 100000 × 128. -/
abbrev ND : Shape := ⟨2, ![100000, 128]⟩
/-- The eight aggregates stacked: 8 × 100000 × 128. -/
abbrev RND : Shape := ⟨3, ![8, 100000, 128]⟩
/-- The eight relation weights: 8 × 128 × 128. -/
abbrev RDD : Shape := ⟨3, ![8, 128, 128]⟩
/-- The root weight: 128 × 128. -/
abbrev DD : Shape := ⟨2, ![128, 128]⟩
/-- The bias: 128. -/
abbrev D1 : Shape := ⟨1, ![128]⟩

/-- The root term and the bias at entry `(p, q)`: `Σ_k x[p,k]·root[k,q] + b[q]`. -/
def base (x : ND.Idx → EReal) (root : DD.Idx → EReal) (b : D1.Idx → EReal) (p : Fin 100000) (q : Fin 128) : EReal :=
  (∑ k : Fin 128, x (ix2 p k) * root (ix2 k q)) + b (ix1 q)

/-- Relation `r`'s term at entry `(p, q)`: `Σ_k agg[r,p,k]·W[r,k,q]`. -/
def term (agg : RND.Idx → EReal) (W : RDD.Idx → EReal) (r : Fin 8) (p : Fin 100000) (q : Fin 128) : EReal :=
  ∑ k : Fin 128, agg (ix3 r p k) * W (ix3 r k q)

/-- The relation index `s mod 8`. -/
def rel (s : ℕ) : Fin 8 := ⟨s % 8, Nat.mod_lt _ (by decide)⟩

/-- The running total after relations `0 … s`: the root term and bias, then the relation terms added left to right. -/
def accUpTo (x : ND.Idx → EReal) (agg : RND.Idx → EReal) (W : RDD.Idx → EReal) (root : DD.Idx → EReal) (b : D1.Idx → EReal)
    (p : Fin 100000) (q : Fin 128) : ℕ → EReal
  | 0 => base x root b p q + term agg W (rel 0) p q
  | s + 1 => accUpTo x agg W root b p q s + term agg W (rel (s + 1)) p q

/-- One layer at an index: the total over all eight relations, clamped below at zero. -/
def layer (x : ND.Idx → EReal) (agg : RND.Idx → EReal) (W : RDD.Idx → EReal) (root : DD.Idx → EReal) (b : D1.Idx → EReal) :
    ND.Idx → EReal :=
  fun j => max (accUpTo x agg W root b (j 0) (j 1) 7) 0

/-- The layer at explicit coordinates. -/
theorem layer_apply (x : ND.Idx → EReal) (agg : RND.Idx → EReal) (W : RDD.Idx → EReal) (root : DD.Idx → EReal) (b : D1.Idx → EReal)
    (p : Fin 100000) (q : Fin 128) : layer x agg W root b (ix2 p q) = max (accUpTo x agg W root b p q 7) 0 := rfl

/-- The total written out: the eight relation terms in order. -/
theorem accUpTo_seven (x : ND.Idx → EReal) (agg : RND.Idx → EReal) (W : RDD.Idx → EReal) (root : DD.Idx → EReal) (b : D1.Idx → EReal)
    (p : Fin 100000) (q : Fin 128) :
    accUpTo x agg W root b p q 7
      = ((((((((base x root b p q + term agg W 0 p q) + term agg W 1 p q) + term agg W 2 p q) + term agg W 3 p q)
          + term agg W 4 p q) + term agg W 5 p q) + term agg W 6 p q) + term agg W 7 p q) := rfl

end Cert.Rgcn

end
-- ==== Proof.KiVal0Idx.lean ====
import proofs.«171321_j63273458205156_1_alg».proof.Proof.KiReg0
import proofs.«171321_j63273458205156_1_alg».proof.Proof.Spec
import Idealize.ShloMosaic.Lib.Pipeline.Value
import Idealize.ShloMosaic.Lib.ValueIdx

/-!
The first matmul region's windows read at coordinates: at point `t` of its 20 × 8 grid (row tile `t / 8`, relation
`t % 8`) each input window's block is the corresponding rows, relation slab or whole of its array as the region finds it.
-/

set_option maxRecDepth 16384

noncomputable section

namespace Cert.KernelIdeal.Val

open Idealize.ShloMosaic Idealize.ShloMosaic.TcCoe Idealize.ShloMosaic.ValueIdx
open Cert.KernelIdeal Cert.KernelIdeal.Gen Cert.KernelIdeal.Reg0
open Idealize.ShloMosaic.Pipeline (Dat)
open scoped BigOperators

/-- The windows' block indices at point `t` of the 20 × 8 grid, decided once: the row tile is `t / 8`, the relation `t % 8`. -/
theorem idx0 : ∀ t : Fin cfg0.N,
    win0_0.index t (0 : Fin 2) = t.val / 8 ∧ win0_0.index t (1 : Fin 2) = 0
    ∧ win0_1.index t (0 : Fin 3) = t.val % 8 ∧ win0_1.index t (1 : Fin 3) = t.val / 8 ∧ win0_1.index t (2 : Fin 3) = 0
    ∧ win0_2.index t (0 : Fin 3) = t.val % 8 ∧ win0_2.index t (1 : Fin 3) = 0 ∧ win0_2.index t (2 : Fin 3) = 0
    ∧ win0_3.index t (0 : Fin 2) = 0 ∧ win0_3.index t (1 : Fin 2) = 0
    ∧ win0_4.index t (0 : Fin 1) = 0
    ∧ win0_5.index t (0 : Fin 2) = t.val / 8 ∧ win0_5.index t (1 : Fin 2) = 0 :=
  (by decide +kernel : ∀ t : Fin grid0.N, _)

variable (V : (c : Dev nD) → (b : Ref sig .tc) → Buf (Elt Ideal) ((c : Thread nD τ).loc b)) (c : Dev nD)

/-- The node-feature block at point `t` is rows `5000 (t / 8) …` of the array. -/
theorem blk0_at (t : Fin cfg0.N) (p : Fin 5000) (k : Fin 128) (P : Fin 100000) (hP : P.val = 5000 * (t.val / 8) + p.val) :
    (iblk V c 0 t : Vec Ideal S5000x128 .f32) (ix2 p k) = (V c main_arg0 : S100000x128.Idx → EReal) (ix2 P k) := by
  obtain ⟨e0, e1, -⟩ := idx0 t
  unfold iblk
  rw [View.read_apply]
  show (V c main_arg0 : S100000x128.Idx → EReal) _ = _
  congr 1
  funext a
  apply Fin.ext
  match a with
  | ⟨0, _⟩ => show win0_0.index t (0 : Fin 2) * 5000 + 1 * p.val = P.val; rw [e0, hP]; omega
  | ⟨1, _⟩ => show win0_0.index t (1 : Fin 2) * 128 + 1 * k.val = k.val; rw [e1]; omega

/-- The stacked-aggregate block at point `t`: relation `t % 8`, rows `5000 (t / 8) …`. -/
theorem blk1_at (t : Fin cfg0.N) (p : Fin 5000) (k : Fin 128) (R : Fin 8) (P : Fin 100000) (hR : R.val = t.val % 8)
    (hP : P.val = 5000 * (t.val / 8) + p.val) :
    (iblk V c 1 t : Vec Ideal S1x5000x128 .f32) (ix3 (0 : Fin 1) p k) = (V c main_v155 : S8x100000x128.Idx → EReal) (ix3 R P k) := by
  obtain ⟨-, -, e0, e1, e2, -⟩ := idx0 t
  unfold iblk
  rw [View.read_apply]
  show (V c main_v155 : S8x100000x128.Idx → EReal) _ = _
  congr 1
  funext a
  apply Fin.ext
  match a with
  | ⟨0, _⟩ => show win0_1.index t (0 : Fin 3) * 1 + 1 * 0 = R.val; rw [e0, hR]; omega
  | ⟨1, _⟩ => show win0_1.index t (1 : Fin 3) * 5000 + 1 * p.val = P.val; rw [e1, hP]; omega
  | ⟨2, _⟩ => show win0_1.index t (2 : Fin 3) * 128 + 1 * k.val = k.val; rw [e2]; omega

/-- The relation-weight block at point `t`: relation `t % 8`'s matrix. -/
theorem blk2_at (t : Fin cfg0.N) (k q : Fin 128) (R : Fin 8) (hR : R.val = t.val % 8) :
    (iblk V c 2 t : Vec Ideal S1x128x128 .f32) (ix3 (0 : Fin 1) k q) = (V c main_arg3 : S8x128x128.Idx → EReal) (ix3 R k q) := by
  obtain ⟨-, -, -, -, -, e0, e1, e2, -⟩ := idx0 t
  unfold iblk
  rw [View.read_apply]
  show (V c main_arg3 : S8x128x128.Idx → EReal) _ = _
  congr 1
  funext a
  apply Fin.ext
  match a with
  | ⟨0, _⟩ => show win0_2.index t (0 : Fin 3) * 1 + 1 * 0 = R.val; rw [e0, hR]; omega
  | ⟨1, _⟩ => show win0_2.index t (1 : Fin 3) * 128 + 1 * k.val = k.val; rw [e1]; omega
  | ⟨2, _⟩ => show win0_2.index t (2 : Fin 3) * 128 + 1 * q.val = q.val; rw [e2]; omega

/-- The root-weight block at every point is the whole matrix. -/
theorem blk3_at (t : Fin cfg0.N) (k q : Fin 128) :
    (iblk V c 3 t : Vec Ideal S128x128 .f32) (ix2 k q) = (V c main_arg4 : S128x128.Idx → EReal) (ix2 k q) := by
  obtain ⟨-, -, -, -, -, -, -, -, e0, e1, -⟩ := idx0 t
  unfold iblk
  rw [View.read_apply]
  show (V c main_arg4 : S128x128.Idx → EReal) _ = _
  congr 1
  funext a
  apply Fin.ext
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The bias block at every point is the whole vector. -/
theorem blk4_at (t : Fin cfg0.N) (q : Fin 128) :
    (iblk V c 4 t : Vec Ideal S128 .f32) (ix1 q) = (V c main_arg5 : S128.Idx → EReal) (ix1 q) := by
  obtain ⟨-, -, -, -, -, -, -, -, -, -, e0, -⟩ := idx0 t
  unfold iblk
  rw [View.read_apply]
  show (V c main_arg5 : S128.Idx → EReal) _ = _
  congr 1
  funext a
  apply Fin.ext
  match a with
  | ⟨0, _⟩ => show win0_4.index t (0 : Fin 1) * 128 + 1 * q.val = q.val; rw [e0]; omega

end Cert.KernelIdeal.Val

end
-- ==== Proof.KiVal0Pay.lean ====
import proofs.«171321_j63273458205156_1_alg».proof.Proof.Gen.KernelIdeal.Skeleton
import Idealize.ShloMosaic.Lib.Pipeline.Value
import Idealize.ShloMosaic.Lib.ValueIdx
import Idealize.ShloMosaic.PureOps.Ideal.Laws

/-!
The three values the first matmul kernel's body stores, read at an entry over the extended reals: the root product
plus the bias; a running total plus one relation's product; the clamp at zero. A change of float format is the identity
there, so the products are plain sums over the contracted axis.
-/

noncomputable section

namespace Cert.KernelIdeal.Val

open Idealize.ShloMosaic Idealize.ShloMosaic.ValueIdx
open Cert.KernelIdeal Cert.KernelIdeal.Gen
open scoped BigOperators

theorem lhs0_0 (i : S5000x128.Idx) (k : dot_S5000x128_S128x128_S5000x128_1_0_0_1_n_n.contr.Idx) : (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem rhs0_1 (i : S5000x128.Idx) (k : dot_S5000x128_S128x128_S5000x128_1_0_0_1_n_n.contr.Idx) : (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000 × 128 by 128 × 128 product into zero, at an entry: the sum over the contracted axis. -/
theorem mm0_at {φ₁ φ₂ : FTy} (l : FVec Ideal S5000x128 φ₁) (r : FVec Ideal S128x128 φ₂) (p : Fin 5000) (q : Fin 128) :
    FloatOps.matmul dot_S5000x128_S128x128_S5000x128_1_0_0_1_n_n none l r (constant (F := Ideal) S5000x128 .f32 0x00000000#32) (ix2 p q)
      = ∑ k : Fin 128, l (ix2 p k) * r (ix2 k q) := by
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs0_0 _ _
    | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl _ _).trans hk
    | ⟨1, _⟩ => exact rhs0_1 _ _)
  rw [el, er]

/-- The first store's value: the root product plus the bias. -/
theorem pay1_0_at (x : Vec Ideal S5000x128 .f32) (root : Vec Ideal S128x128 .f32) (b : Vec Ideal S128 .f32) (p : Fin 5000) (q : Fin 128) :
    k0_pay1 (F := Ideal) x root b (ix2 p q) = (∑ k : Fin 128, x (ix2 p k) * root (ix2 k q)) + b (ix1 q) := by
  unfold k0_pay1
  rw [shapeCast_self]
  refine (addf_apply _ _ (ix2 p q)).trans ?_
  refine congr (congrArg _ ((mm0_at _ _ p q).trans rfl)) ?_
  refine (broadcastTo_apply _ broadcasts_S1x128_S5000x128 (ix2 p q) (ix2 (0 : Fin 1) q) (fun a => by
    match a with
    | ⟨0, _⟩ => rfl
    | ⟨1, _⟩ => rfl)).trans ?_
  exact shapeCast_apply b shapeCasts_S128_S1x128 (ix2 (0 : Fin 1) q) (ix1 q) (by
    rewrite [Shape.rowMajor_val_one, Shape.rowMajor_val_two]; show q.val = 0 * 128 + q.val; omega)

/-- The second store's value: the running total plus the product of the aggregate block and the weight block. -/
theorem pay2_0_at (prev : Vec Ideal S5000x128 .f32) (ag : Vec Ideal S1x5000x128 .f32) (w : Vec Ideal S1x128x128 .f32) (p : Fin 5000) (q : Fin 128) :
    k0_pay2 (F := Ideal) prev ag w (ix2 p q) = prev (ix2 p q) + ∑ k : Fin 128, ag (ix3 (0 : Fin 1) p k) * w (ix3 (0 : Fin 1) k q) := by
  unfold k0_pay2
  rw [shapeCast_self]
  refine (addf_apply _ _ (ix2 p q)).trans ?_
  refine congrArg _ ((mm0_at _ _ p q).trans (Finset.sum_congr rfl fun k _ => ?_))
  refine congr (congrArg _ ?_) ?_
  · exact shapeCast_apply ag shapeCasts_S1x5000x128_S5000x128 (ix2 p k) (ix3 (0 : Fin 1) p k) (by
      rewrite [Shape.rowMajor_val_three, Shape.rowMajor_val_two]; show (0 * 5000 + p.val) * 128 + k.val = p.val * 128 + k.val; omega)
  · exact shapeCast_apply w shapeCasts_S1x128x128_S128x128 (ix2 k q) (ix3 (0 : Fin 1) k q) (by
      rewrite [Shape.rowMajor_val_three, Shape.rowMajor_val_two]; show (0 * 128 + k.val) * 128 + q.val = k.val * 128 + q.val; omega)

/-- The third store's value: the clamp at zero. -/
theorem pay3_0_at (v : Vec Ideal S5000x128 .f32) (p : Fin 5000) (q : Fin 128) :
    k0_pay3 (F := Ideal) v (ix2 p q) = max (v (ix2 p q)) 0 := by
  unfold k0_pay3
  refine (maximumf_apply _ _ (ix2 p q)).trans ?_
  rw [broadcast_apply]
  show max (v (ix2 p q)) (Ideal.ofBits .f32 0x00000000#32) = _
  rw [Ideal.ofBits_zero_f32]

end Cert.KernelIdeal.Val

end
-- ==== Proof.KiVal0Acc.lean ====
import proofs.«171321_j63273458205156_1_alg».proof.Proof.KiVal0Idx
import proofs.«171321_j63273458205156_1_alg».proof.Proof.KiVal0Pay
import Idealize.ShloMosaic.Lib.Pipeline.Value
import Idealize.ShloMosaic.Lib.ValueIdx

/-!
The first matmul region's scratch accumulator along a row tile: after the point of relation `r` it holds, entry by
entry, the layer's running total over relations `0 … r`.
-/

set_option maxRecDepth 16384

noncomputable section

namespace Cert.KernelIdeal.Val

open Idealize.ShloMosaic Idealize.ShloMosaic.TcCoe Idealize.ShloMosaic.ValueIdx
open Cert.KernelIdeal Cert.KernelIdeal.Gen Cert.KernelIdeal.Reg0
open Idealize.ShloMosaic.Pipeline (Dat)
open scoped BigOperators

variable (V : (c : Dev nD) → (b : Ref sig .tc) → Buf (Elt Ideal) ((c : Thread nD τ).loc b)) (c : Dev nD)

/-- Point number `n` of the grid, for `n < 160`. -/
def ptOf (n : ℕ) (h : n < 160) : Fin cfg0.N := ⟨n, by rw [show cfg0.N = 160 from N_0]; exact h⟩

/-- The scratch accumulator after the point of row tile `i` and relation `r`, at entry `(p, q)` of the tile: the layer's
    running total after relations `0 … r` at row `5000 i + p`. By induction on the relation: the first point of a tile
    sets the root term, the bias and relation 0's product; each later point adds its relation's product. -/
theorem acc_at (i : Fin 20) (p : Fin 5000) (q : Fin 128) (P : Fin 100000) (hP : P.val = 5000 * i.val + p.val) :
    ∀ (r : ℕ), r < 8 →
      accAt V c (8 * i.val + r) (ix2 p q)
        = Cert.Rgcn.accUpTo (V c main_arg0) (V c main_v155) (V c main_arg3) (V c main_arg4) (V c main_arg5) P q r
  | 0, _ => by
    have hi := i.isLt
    let t : Fin cfg0.N := ptOf (8 * i.val) (by omega)
    have htv : t.val = 8 * i.val := rfl
    have hdiv : t.val / 8 = i.val := by omega
    have hmod : t.val % 8 = 0 := by omega
    have hP' : P.val = 5000 * (t.val / 8) + p.val := by rw [hdiv]; exact hP
    have hR : (Cert.Rgcn.rel 0).val = t.val % 8 := by rw [hmod]; rfl
    have e : accAt V c (8 * i.val + 0) = initAt V c t := accAt_first V c t hmod
    rw [e]
    unfold initAt
    refine (pay2_0_at _ _ _ p q).trans ?_
    show _ = Cert.Rgcn.base (V c main_arg0) (V c main_arg4) (V c main_arg5) P q
              + Cert.Rgcn.term (V c main_v155) (V c main_arg3) (Cert.Rgcn.rel 0) P q
    refine congr (congrArg _ ?_) ?_
    · refine (pay1_0_at _ _ _ p q).trans ?_
      unfold Cert.Rgcn.base
      refine congr (congrArg _ (Finset.sum_congr rfl fun k _ => ?_)) ?_
      · rw [blk0_at V c t p k P hP', blk3_at V c t k q]
      · exact blk4_at V c t q
    · unfold Cert.Rgcn.term
      refine Finset.sum_congr rfl fun k _ => ?_
      rw [blk1_at V c t p k (Cert.Rgcn.rel 0) P hR hP', blk2_at V c t k q (Cert.Rgcn.rel 0) hR]
  | r + 1, hr => by
    have hi := i.isLt
    let t : Fin cfg0.N := ptOf (8 * i.val + (r + 1)) (by omega)
    have htv : t.val = (8 * i.val + r) + 1 := rfl
    have hdiv : t.val / 8 = i.val := by omega
    have hmod : t.val % 8 = r + 1 := by omega
    have hP' : P.val = 5000 * (t.val / 8) + p.val := by rw [hdiv]; exact hP
    have hR : (Cert.Rgcn.rel (r + 1)).val = t.val % 8 := by
      rw [hmod]; show (r + 1) % 8 = r + 1; omega
    have e : accAt V c (8 * i.val + (r + 1)) = addAt V c (accAt V c (8 * i.val + r)) t :=
      accAt_next V c t (8 * i.val + r) htv (by omega)
    rw [e]
    unfold addAt
    refine (pay2_0_at _ _ _ p q).trans ?_
    show _ = Cert.Rgcn.accUpTo (V c main_arg0) (V c main_v155) (V c main_arg3) (V c main_arg4) (V c main_arg5) P q r
              + Cert.Rgcn.term (V c main_v155) (V c main_arg3) (Cert.Rgcn.rel (r + 1)) P q
    refine congr (congrArg _ (acc_at i p q P hP r (by omega))) ?_
    unfold Cert.Rgcn.term
    refine Finset.sum_congr rfl fun k _ => ?_
    rw [blk1_at V c t p k (Cert.Rgcn.rel (r + 1)) P hR hP', blk2_at V c t k q (Cert.Rgcn.rel (r + 1)) hR]

end Cert.KernelIdeal.Val

end
-- ==== Proof.KiVal0.lean ====
import proofs.«171321_j63273458205156_1_alg».proof.Proof.KiVal0Acc
import proofs.«171321_j63273458205156_1_alg».proof.Proof.Gen.KernelIdeal.Points
import Idealize.ShloMosaic.Lib.Pipeline.Value
import Idealize.ShloMosaic.Lib.ValueIdx

/-!
The first matmul region's result array after the run, as one function of the contents the region finds: the graph
convolution layer of the node features, the stacked aggregates, the relation weights, the root weight and the bias.
Each row tile's last-relation point writes back the tile's accumulator clamped at zero, and those blocks cover the array.
-/

set_option maxRecDepth 16384

noncomputable section

namespace Cert.KernelIdeal.Val

open Idealize.ShloMosaic Idealize.ShloMosaic.TcCoe Idealize.ShloMosaic.ValueIdx
open Cert.KernelIdeal Cert.KernelIdeal.Gen Cert.KernelIdeal.Reg0
open Idealize.ShloMosaic.Pipeline (Dat)
open scoped BigOperators

variable (V : (c : Dev nD) → (b : Ref sig .tc) → Buf (Elt Ideal) ((c : Thread nD τ).loc b)) (c : Dev nD)

/-- The layer of the contents the region finds in its five input arrays. -/
abbrev layerOf : S100000x128.Idx → EReal :=
  Cert.Rgcn.layer (V c main_arg0) (V c main_v155) (V c main_arg3) (V c main_arg4) (V c main_arg5)

/-- What a last-relation point writes back is its block of the layer: the accumulator over all eight relations, clamped
    below at zero. -/
theorem flushed_eq (t : Fin cfg0.N) (h7 : t.val % 8 = 7) :
    (dat (F := Ideal) V c).flushed 5 t = ((cfg0.win 5).blk t).view.read (Elt Ideal) (layerOf V c) := by
  have hN : cfg0.N = 160 := N_0
  have htl := t.isLt
  obtain ⟨-, -, -, -, -, -, -, -, -, -, -, e0, e1⟩ := idx0 t
  show (cfg0.win 5).cut (grid0.coords t) ((dat (F := Ideal) V c).after 5 t) = _
  rw [after_5]
  funext j
  obtain ⟨p, q, rfl⟩ : ∃ (p : Fin 5000) (q : Fin 128), j = ix2 p q := ⟨j 0, j 1, eq_ix2 j⟩
  rw [View.read_apply]
  show k0_pay3 (F := Ideal) (accAt V c t.val) (ix2 p q) = layerOf V c (((cfg0.win 5).blk t).view.emb (ix2 p q))
  have hlt : 5000 * (t.val / 8) + p.val < 100000 := by have := p.isLt; omega
  have he : ((cfg0.win 5).blk t).view.emb (ix2 p q) = (ix2 (⟨5000 * (t.val / 8) + p.val, hlt⟩ : Fin 100000) q : S100000x128.Idx) := by
    funext a
    apply Fin.ext
    match a with
    | ⟨0, _⟩ => show win0_5.index t (0 : Fin 2) * 5000 + 1 * p.val = 5000 * (t.val / 8) + p.val; rw [e0]; omega
    | ⟨1, _⟩ => show win0_5.index t (1 : Fin 2) * 128 + 1 * q.val = q.val; rw [e1]; omega
  rw [he]
  refine (pay3_0_at _ p q).trans ?_
  have hacc := acc_at V c (⟨t.val / 8, by omega⟩ : Fin 20) p q ⟨5000 * (t.val / 8) + p.val, hlt⟩ rfl 7 (by decide)
  have ht : 8 * (t.val / 8) + 7 = t.val := by omega
  rw [show (8 * ((⟨t.val / 8, by omega⟩ : Fin 20) : ℕ) + 7) = t.val from ht] at hacc
  rw [hacc]
  exact (Cert.Rgcn.layer_apply _ _ _ _ _ _ q).symm

/-- An index of the result array is in point `t`'s block iff each coordinate is in the block's range on its axis. -/
theorem mem_blk5 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v156).slice (win0_5.rect t)).set ↔ _
  rw [View.set_slice_whole, Rect.mem_set_unit]
  exact Iff.rfl

/-- Every row of the result array is in the block of its row tile's last-relation point. -/
theorem cover5 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  let t : Fin cfg0.N := ptOf (8 * ((i 0).val / 5000) + 7) (by omega)
  have htv : t.val = 8 * ((i 0).val / 5000) + 7 := rfl
  obtain ⟨-, -, -, -, -, -, -, -, -, -, -, e0, e1⟩ := idx0 t
  refine ⟨t, (flush0_5 t).mpr (by omega), ?_⟩
  rw [mem_blk5]
  intro a
  match a with
  | ⟨0, _⟩ =>
    show win0_5.index t (0 : Fin 2) * 5000 ≤ (i 0).val ∧ (i 0).val < win0_5.index t (0 : Fin 2) * 5000 + 5000
    rw [e0]; omega
  | ⟨1, _⟩ =>
    show win0_5.index t (1 : Fin 2) * 128 ≤ (i 1).val ∧ (i 1).val < win0_5.index t (1 : Fin 2) * 128 + 128
    rw [e1]; omega

/-- After the region its result array holds the layer of the contents it found in its input arrays. -/
theorem final0 : ((dat (F := Ideal) V c).arrAt 5 cfg0.N : S100000x128.Idx → EReal)
    = Cert.Rgcn.layer (V c main_arg0) (V c main_v155) (V c main_arg3) (V c main_arg4) (V c main_arg5) :=
  (dat (F := Ideal) V c).arrAt_eq_of_cover 5 (layerOf V c) (fun t hf => flushed_eq V c t ((flush0_5 t).mp hf)) (cover5)

end Cert.KernelIdeal.Val

end
-- ==== Proof.KiVal1Idx.lean ====
import proofs.«171321_j63273458205156_1_alg».proof.Proof.KiReg1
import proofs.«171321_j63273458205156_1_alg».proof.Proof.Spec
import Idealize.ShloMosaic.Lib.Pipeline.Value
import Idealize.ShloMosaic.Lib.ValueIdx

/-!
The second matmul region's windows read at coordinates: at point `t` of its 20 × 8 grid (row tile `t / 8`, relation
`t % 8`) each input window's block is the corresponding rows, relation slab or whole of its array as the region finds it.
-/

set_option maxRecDepth 16384

noncomputable section

namespace Cert.KernelIdeal.Val

open Idealize.ShloMosaic Idealize.ShloMosaic.TcCoe Idealize.ShloMosaic.ValueIdx
open Cert.KernelIdeal Cert.KernelIdeal.Gen Cert.KernelIdeal.Reg1
open Idealize.ShloMosaic.Pipeline (Dat)
open scoped BigOperators

/-- The windows' block indices at point `t` of the 20 × 8 grid, decided once: the row tile is `t / 8`, the relation `t % 8`. -/
theorem idx1 : ∀ t : Fin cfg1.N,
    win1_0.index t (0 : Fin 2) = t.val / 8 ∧ win1_0.index t (1 : Fin 2) = 0
    ∧ win1_1.index t (0 : Fin 3) = t.val % 8 ∧ win1_1.index t (1 : Fin 3) = t.val / 8 ∧ win1_1.index t (2 : Fin 3) = 0
    ∧ win1_2.index t (0 : Fin 3) = t.val % 8 ∧ win1_2.index t (1 : Fin 3) = 0 ∧ win1_2.index t (2 : Fin 3) = 0
    ∧ win1_3.index t (0 : Fin 2) = 0 ∧ win1_3.index t (1 : Fin 2) = 0
    ∧ win1_4.index t (0 : Fin 1) = 0
    ∧ win1_5.index t (0 : Fin 2) = t.val / 8 ∧ win1_5.index t (1 : Fin 2) = 0 :=
  (by decide +kernel : ∀ t : Fin grid1.N, _)

variable (V : (c : Dev nD) → (b : Ref sig .tc) → Buf (Elt Ideal) ((c : Thread nD τ).loc b)) (c : Dev nD)

/-- The hidden-layer block at point `t` is rows `5000 (t / 8) …` of the array. -/
theorem blk0_1_at (t : Fin cfg1.N) (p : Fin 5000) (k : Fin 128) (P : Fin 100000) (hP : P.val = 5000 * (t.val / 8) + p.val) :
    (iblk V c 0 t : Vec Ideal S5000x128 .f32) (ix2 p k) = (V c main_v156 : S100000x128.Idx → EReal) (ix2 P k) := by
  obtain ⟨e0, e1, -⟩ := idx1 t
  unfold iblk
  rw [View.read_apply]
  show (V c main_v156 : S100000x128.Idx → EReal) _ = _
  congr 1
  funext a
  apply Fin.ext
  match a with
  | ⟨0, _⟩ => show win1_0.index t (0 : Fin 2) * 5000 + 1 * p.val = P.val; rw [e0, hP]; omega
  | ⟨1, _⟩ => show win1_0.index t (1 : Fin 2) * 128 + 1 * k.val = k.val; rw [e1]; omega

/-- The stacked-aggregate block at point `t`: relation `t % 8`, rows `5000 (t / 8) …`. -/
theorem blk1_1_at (t : Fin cfg1.N) (p : Fin 5000) (k : Fin 128) (R : Fin 8) (P : Fin 100000) (hR : R.val = t.val % 8)
    (hP : P.val = 5000 * (t.val / 8) + p.val) :
    (iblk V c 1 t : Vec Ideal S1x5000x128 .f32) (ix3 (0 : Fin 1) p k) = (V c main_v308 : S8x100000x128.Idx → EReal) (ix3 R P k) := by
  obtain ⟨-, -, e0, e1, e2, -⟩ := idx1 t
  unfold iblk
  rw [View.read_apply]
  show (V c main_v308 : S8x100000x128.Idx → EReal) _ = _
  congr 1
  funext a
  apply Fin.ext
  match a with
  | ⟨0, _⟩ => show win1_1.index t (0 : Fin 3) * 1 + 1 * 0 = R.val; rw [e0, hR]; omega
  | ⟨1, _⟩ => show win1_1.index t (1 : Fin 3) * 5000 + 1 * p.val = P.val; rw [e1, hP]; omega
  | ⟨2, _⟩ => show win1_1.index t (2 : Fin 3) * 128 + 1 * k.val = k.val; rw [e2]; omega

/-- The relation-weight block at point `t`: relation `t % 8`'s matrix. -/
theorem blk2_1_at (t : Fin cfg1.N) (k q : Fin 128) (R : Fin 8) (hR : R.val = t.val % 8) :
    (iblk V c 2 t : Vec Ideal S1x128x128 .f32) (ix3 (0 : Fin 1) k q) = (V c main_arg6 : S8x128x128.Idx → EReal) (ix3 R k q) := by
  obtain ⟨-, -, -, -, -, e0, e1, e2, -⟩ := idx1 t
  unfold iblk
  rw [View.read_apply]
  show (V c main_arg6 : S8x128x128.Idx → EReal) _ = _
  congr 1
  funext a
  apply Fin.ext
  match a with
  | ⟨0, _⟩ => show win1_2.index t (0 : Fin 3) * 1 + 1 * 0 = R.val; rw [e0, hR]; omega
  | ⟨1, _⟩ => show win1_2.index t (1 : Fin 3) * 128 + 1 * k.val = k.val; rw [e1]; omega
  | ⟨2, _⟩ => show win1_2.index t (2 : Fin 3) * 128 + 1 * q.val = q.val; rw [e2]; omega

/-- The root-weight block at every point is the whole matrix. -/
theorem blk3_1_at (t : Fin cfg1.N) (k q : Fin 128) :
    (iblk V c 3 t : Vec Ideal S128x128 .f32) (ix2 k q) = (V c main_arg7 : S128x128.Idx → EReal) (ix2 k q) := by
  obtain ⟨-, -, -, -, -, -, -, -, e0, e1, -⟩ := idx1 t
  unfold iblk
  rw [View.read_apply]
  show (V c main_arg7 : S128x128.Idx → EReal) _ = _
  congr 1
  funext a
  apply Fin.ext
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- The bias block at every point is the whole vector. -/
theorem blk4_1_at (t : Fin cfg1.N) (q : Fin 128) :
    (iblk V c 4 t : Vec Ideal S128 .f32) (ix1 q) = (V c main_arg8 : S128.Idx → EReal) (ix1 q) := by
  obtain ⟨-, -, -, -, -, -, -, -, -, -, e0, -⟩ := idx1 t
  unfold iblk
  rw [View.read_apply]
  show (V c main_arg8 : S128.Idx → EReal) _ = _
  congr 1
  funext a
  apply Fin.ext
  match a with
  | ⟨0, _⟩ => show win1_4.index t (0 : Fin 1) * 128 + 1 * q.val = q.val; rw [e0]; omega

end Cert.KernelIdeal.Val

end
-- ==== Proof.KiVal1Pay.lean ====
import proofs.«171321_j63273458205156_1_alg».proof.Proof.Gen.KernelIdeal.Skeleton
import Idealize.ShloMosaic.Lib.Pipeline.Value
import Idealize.ShloMosaic.Lib.ValueIdx
import Idealize.ShloMosaic.PureOps.Ideal.Laws

/-!
The three values the second matmul kernel's body stores, read at an entry over the extended reals: the root product
plus the bias; a running total plus one relation's product; the clamp at zero. A change of float format is the identity
there, so the products are plain sums over the contracted axis.
-/

noncomputable section

namespace Cert.KernelIdeal.Val

open Idealize.ShloMosaic Idealize.ShloMosaic.ValueIdx
open Cert.KernelIdeal Cert.KernelIdeal.Gen
open scoped BigOperators

theorem lhs1_0 (i : S5000x128.Idx) (k : dot_S5000x128_S128x128_S5000x128_1_0_0_1_n_n.contr.Idx) : (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem rhs1_1 (i : S5000x128.Idx) (k : dot_S5000x128_S128x128_S5000x128_1_0_0_1_n_n.contr.Idx) : (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000 × 128 by 128 × 128 product into zero, at an entry: the sum over the contracted axis. -/
theorem mm1_at {φ₁ φ₂ : FTy} (l : FVec Ideal S5000x128 φ₁) (r : FVec Ideal S128x128 φ₂) (p : Fin 5000) (q : Fin 128) :
    FloatOps.matmul dot_S5000x128_S128x128_S5000x128_1_0_0_1_n_n none l r (constant (F := Ideal) S5000x128 .f32 0x00000000#32) (ix2 p q)
      = ∑ k : Fin 128, l (ix2 p k) * r (ix2 k q) := by
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs1_0 _ _
    | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl _ _).trans hk
    | ⟨1, _⟩ => exact rhs1_1 _ _)
  rw [el, er]

/-- The first store's value: the root product plus the bias. -/
theorem pay1_1_at (x : Vec Ideal S5000x128 .f32) (root : Vec Ideal S128x128 .f32) (b : Vec Ideal S128 .f32) (p : Fin 5000) (q : Fin 128) :
    k1_pay1 (F := Ideal) x root b (ix2 p q) = (∑ k : Fin 128, x (ix2 p k) * root (ix2 k q)) + b (ix1 q) := by
  unfold k1_pay1
  rw [shapeCast_self, shapeCast_self]
  refine (addf_apply _ _ (ix2 p q)).trans ?_
  refine congr (congrArg _ ((mm1_at _ _ p q).trans rfl)) ?_
  refine (broadcastTo_apply _ broadcasts_S1x128_S5000x128 (ix2 p q) (ix2 (0 : Fin 1) q) (fun a => by
    match a with
    | ⟨0, _⟩ => rfl
    | ⟨1, _⟩ => rfl)).trans ?_
  exact shapeCast_apply b shapeCasts_S128_S1x128 (ix2 (0 : Fin 1) q) (ix1 q) (by
    rewrite [Shape.rowMajor_val_one, Shape.rowMajor_val_two]; show q.val = 0 * 128 + q.val; omega)

/-- The second store's value: the running total plus the product of the aggregate block and the weight block. -/
theorem pay2_1_at (prev : Vec Ideal S5000x128 .f32) (ag : Vec Ideal S1x5000x128 .f32) (w : Vec Ideal S1x128x128 .f32) (p : Fin 5000) (q : Fin 128) :
    k1_pay2 (F := Ideal) prev ag w (ix2 p q) = prev (ix2 p q) + ∑ k : Fin 128, ag (ix3 (0 : Fin 1) p k) * w (ix3 (0 : Fin 1) k q) := by
  unfold k1_pay2
  rw [shapeCast_self]
  refine (addf_apply _ _ (ix2 p q)).trans ?_
  refine congrArg _ ((mm1_at _ _ p q).trans (Finset.sum_congr rfl fun k _ => ?_))
  refine congr (congrArg _ ?_) ?_
  · exact shapeCast_apply ag shapeCasts_S1x5000x128_S5000x128 (ix2 p k) (ix3 (0 : Fin 1) p k) (by
      rewrite [Shape.rowMajor_val_three, Shape.rowMajor_val_two]; show (0 * 5000 + p.val) * 128 + k.val = p.val * 128 + k.val; omega)
  · exact shapeCast_apply w shapeCasts_S1x128x128_S128x128 (ix2 k q) (ix3 (0 : Fin 1) k q) (by
      rewrite [Shape.rowMajor_val_three, Shape.rowMajor_val_two]; show (0 * 128 + k.val) * 128 + q.val = k.val * 128 + q.val; omega)

/-- The third store's value: the clamp at zero. -/
theorem pay3_1_at (v : Vec Ideal S5000x128 .f32) (p : Fin 5000) (q : Fin 128) :
    k1_pay3 (F := Ideal) v (ix2 p q) = max (v (ix2 p q)) 0 := by
  unfold k1_pay3
  refine (maximumf_apply _ _ (ix2 p q)).trans ?_
  rw [broadcast_apply]
  show max (v (ix2 p q)) (Ideal.ofBits .f32 0x00000000#32) = _
  rw [Ideal.ofBits_zero_f32]

end Cert.KernelIdeal.Val

end
-- ==== Proof.KiVal1Acc.lean ====
import proofs.«171321_j63273458205156_1_alg».proof.Proof.KiVal1Idx
import proofs.«171321_j63273458205156_1_alg».proof.Proof.KiVal1Pay
import Idealize.ShloMosaic.Lib.Pipeline.Value
import Idealize.ShloMosaic.Lib.ValueIdx

/-!
The second matmul region's scratch accumulator along a row tile: after the point of relation `r` it holds, entry by
entry, the layer's running total over relations `0 … r`.
-/

set_option maxRecDepth 16384

noncomputable section

namespace Cert.KernelIdeal.Val

open Idealize.ShloMosaic Idealize.ShloMosaic.TcCoe Idealize.ShloMosaic.ValueIdx
open Cert.KernelIdeal Cert.KernelIdeal.Gen Cert.KernelIdeal.Reg1
open Idealize.ShloMosaic.Pipeline (Dat)
open scoped BigOperators

variable (V : (c : Dev nD) → (b : Ref sig .tc) → Buf (Elt Ideal) ((c : Thread nD τ).loc b)) (c : Dev nD)

/-- Point number `n` of the grid, for `n < 160`. -/
def ptOf1 (n : ℕ) (h : n < 160) : Fin cfg1.N := ⟨n, by rw [show cfg1.N = 160 from N_1]; exact h⟩

/-- The scratch accumulator after the point of row tile `i` and relation `r`, at entry `(p, q)` of the tile: the layer's
    running total after relations `0 … r` at row `5000 i + p`. By induction on the relation: the first point of a tile
    sets the root term, the bias and relation 0's product; each later point adds its relation's product. -/
theorem acc1_at (i : Fin 20) (p : Fin 5000) (q : Fin 128) (P : Fin 100000) (hP : P.val = 5000 * i.val + p.val) :
    ∀ (r : ℕ), r < 8 →
      accAt V c (8 * i.val + r) (ix2 p q)
        = Cert.Rgcn.accUpTo (V c main_v156) (V c main_v308) (V c main_arg6) (V c main_arg7) (V c main_arg8) P q r
  | 0, _ => by
    have hi := i.isLt
    let t : Fin cfg1.N := ptOf1 (8 * i.val) (by omega)
    have htv : t.val = 8 * i.val := rfl
    have hdiv : t.val / 8 = i.val := by omega
    have hmod : t.val % 8 = 0 := by omega
    have hP' : P.val = 5000 * (t.val / 8) + p.val := by rw [hdiv]; exact hP
    have hR : (Cert.Rgcn.rel 0).val = t.val % 8 := by rw [hmod]; rfl
    have e : accAt V c (8 * i.val + 0) = initAt V c t := accAt_first V c t hmod
    rw [e]
    unfold initAt
    refine (pay2_1_at _ _ _ p q).trans ?_
    show _ = Cert.Rgcn.base (V c main_v156) (V c main_arg7) (V c main_arg8) P q
              + Cert.Rgcn.term (V c main_v308) (V c main_arg6) (Cert.Rgcn.rel 0) P q
    refine congr (congrArg _ ?_) ?_
    · refine (pay1_1_at _ _ _ p q).trans ?_
      unfold Cert.Rgcn.base
      refine congr (congrArg _ (Finset.sum_congr rfl fun k _ => ?_)) ?_
      · rw [blk0_1_at V c t p k P hP', blk3_1_at V c t k q]
      · exact blk4_1_at V c t q
    · unfold Cert.Rgcn.term
      refine Finset.sum_congr rfl fun k _ => ?_
      rw [blk1_1_at V c t p k (Cert.Rgcn.rel 0) P hR hP', blk2_1_at V c t k q (Cert.Rgcn.rel 0) hR]
  | r + 1, hr => by
    have hi := i.isLt
    let t : Fin cfg1.N := ptOf1 (8 * i.val + (r + 1)) (by omega)
    have htv : t.val = (8 * i.val + r) + 1 := rfl
    have hdiv : t.val / 8 = i.val := by omega
    have hmod : t.val % 8 = r + 1 := by omega
    have hP' : P.val = 5000 * (t.val / 8) + p.val := by rw [hdiv]; exact hP
    have hR : (Cert.Rgcn.rel (r + 1)).val = t.val % 8 := by
      rw [hmod]; show (r + 1) % 8 = r + 1; omega
    have e : accAt V c (8 * i.val + (r + 1)) = addAt V c (accAt V c (8 * i.val + r)) t :=
      accAt_next V c t (8 * i.val + r) htv (by omega)
    rw [e]
    unfold addAt
    refine (pay2_1_at _ _ _ p q).trans ?_
    show _ = Cert.Rgcn.accUpTo (V c main_v156) (V c main_v308) (V c main_arg6) (V c main_arg7) (V c main_arg8) P q r
              + Cert.Rgcn.term (V c main_v308) (V c main_arg6) (Cert.Rgcn.rel (r + 1)) P q
    refine congr (congrArg _ (acc1_at i p q P hP r (by omega))) ?_
    unfold Cert.Rgcn.term
    refine Finset.sum_congr rfl fun k _ => ?_
    rw [blk1_1_at V c t p k (Cert.Rgcn.rel (r + 1)) P hR hP', blk2_1_at V c t k q (Cert.Rgcn.rel (r + 1)) hR]

end Cert.KernelIdeal.Val

end
-- ==== Proof.KiVal1.lean ====
import proofs.«171321_j63273458205156_1_alg».proof.Proof.KiVal1Acc
import proofs.«171321_j63273458205156_1_alg».proof.Proof.Gen.KernelIdeal.Points
import Idealize.ShloMosaic.Lib.Pipeline.Value
import Idealize.ShloMosaic.Lib.ValueIdx

/-!
The second matmul region's result array after the run, as one function of the contents the region finds: the graph
convolution layer of the hidden layer, the stacked aggregates, the relation weights, the root weight and the bias.
Each row tile's last-relation point writes back the tile's accumulator clamped at zero, and those blocks cover the array.
-/

set_option maxRecDepth 16384

noncomputable section

namespace Cert.KernelIdeal.Val

open Idealize.ShloMosaic Idealize.ShloMosaic.TcCoe Idealize.ShloMosaic.ValueIdx
open Cert.KernelIdeal Cert.KernelIdeal.Gen Cert.KernelIdeal.Reg1
open Idealize.ShloMosaic.Pipeline (Dat)
open scoped BigOperators

variable (V : (c : Dev nD) → (b : Ref sig .tc) → Buf (Elt Ideal) ((c : Thread nD τ).loc b)) (c : Dev nD)

/-- The layer of the contents the region finds in its five input arrays. -/
abbrev layerOf1 : S100000x128.Idx → EReal :=
  Cert.Rgcn.layer (V c main_v156) (V c main_v308) (V c main_arg6) (V c main_arg7) (V c main_arg8)

/-- What a last-relation point writes back is its block of the layer: the accumulator over all eight relations, clamped
    below at zero. -/
theorem flushed1_eq (t : Fin cfg1.N) (h7 : t.val % 8 = 7) :
    (dat (F := Ideal) V c).flushed 5 t = ((cfg1.win 5).blk t).view.read (Elt Ideal) (layerOf1 V c) := by
  have hN : cfg1.N = 160 := N_1
  have htl := t.isLt
  obtain ⟨-, -, -, -, -, -, -, -, -, -, -, e0, e1⟩ := idx1 t
  show (cfg1.win 5).cut (grid1.coords t) ((dat (F := Ideal) V c).after 5 t) = _
  rw [after_5]
  funext j
  obtain ⟨p, q, rfl⟩ : ∃ (p : Fin 5000) (q : Fin 128), j = ix2 p q := ⟨j 0, j 1, eq_ix2 j⟩
  rw [View.read_apply]
  show k1_pay3 (F := Ideal) (accAt V c t.val) (ix2 p q) = layerOf1 V c (((cfg1.win 5).blk t).view.emb (ix2 p q))
  have hlt : 5000 * (t.val / 8) + p.val < 100000 := by have := p.isLt; omega
  have he : ((cfg1.win 5).blk t).view.emb (ix2 p q) = (ix2 (⟨5000 * (t.val / 8) + p.val, hlt⟩ : Fin 100000) q : S100000x128.Idx) := by
    funext a
    apply Fin.ext
    match a with
    | ⟨0, _⟩ => show win1_5.index t (0 : Fin 2) * 5000 + 1 * p.val = 5000 * (t.val / 8) + p.val; rw [e0]; omega
    | ⟨1, _⟩ => show win1_5.index t (1 : Fin 2) * 128 + 1 * q.val = q.val; rw [e1]; omega
  rw [he]
  refine (pay3_1_at _ p q).trans ?_
  have hacc := acc1_at V c (⟨t.val / 8, by omega⟩ : Fin 20) p q ⟨5000 * (t.val / 8) + p.val, hlt⟩ rfl 7 (by decide)
  have ht : 8 * (t.val / 8) + 7 = t.val := by omega
  rw [show (8 * ((⟨t.val / 8, by omega⟩ : Fin 20) : ℕ) + 7) = t.val from ht] at hacc
  rw [hacc]
  exact (Cert.Rgcn.layer_apply _ _ _ _ _ _ q).symm

/-- An index of the result array is in point `t`'s block iff each coordinate is in the block's range on its axis. -/
theorem mem_blk5_1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v309).slice (win1_5.rect t)).set ↔ _
  rw [View.set_slice_whole, Rect.mem_set_unit]
  exact Iff.rfl

/-- Every row of the result array is in the block of its row tile's last-relation point. -/
theorem cover5_1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  let t : Fin cfg1.N := ptOf1 (8 * ((i 0).val / 5000) + 7) (by omega)
  have htv : t.val = 8 * ((i 0).val / 5000) + 7 := rfl
  obtain ⟨-, -, -, -, -, -, -, -, -, -, -, e0, e1⟩ := idx1 t
  refine ⟨t, (flush1_5 t).mpr (by omega), ?_⟩
  rw [mem_blk5_1]
  intro a
  match a with
  | ⟨0, _⟩ =>
    show win1_5.index t (0 : Fin 2) * 5000 ≤ (i 0).val ∧ (i 0).val < win1_5.index t (0 : Fin 2) * 5000 + 5000
    rw [e0]; omega
  | ⟨1, _⟩ =>
    show win1_5.index t (1 : Fin 2) * 128 ≤ (i 1).val ∧ (i 1).val < win1_5.index t (1 : Fin 2) * 128 + 128
    rw [e1]; omega

/-- After the region its result array holds the layer of the contents it found in its input arrays. -/
theorem final1 : ((dat (F := Ideal) V c).arrAt 5 cfg1.N : S100000x128.Idx → EReal)
    = Cert.Rgcn.layer (V c main_v156) (V c main_v308) (V c main_arg6) (V c main_arg7) (V c main_arg8) :=
  (dat (F := Ideal) V c).arrAt_eq_of_cover 5 (layerOf1 V c) (fun t hf => flushed1_eq V c t ((flush1_5 t).mp hf)) (cover5_1)

end Cert.KernelIdeal.Val

end
-- ==== Proof.KiValue.lean ====
import proofs.«171321_j63273458205156_1_alg».proof.Proof.KiMain
import proofs.«171321_j63273458205156_1_alg».proof.Proof.HostStack0
import proofs.«171321_j63273458205156_1_alg».proof.Proof.HostStack1
import proofs.«171321_j63273458205156_1_alg».proof.Proof.KiVal0
import proofs.«171321_j63273458205156_1_alg».proof.Proof.KiVal1
import proofs.«171321_j63273458205156_1_alg».proof.Proof.Spec

/-!
The kernel program's result as one function of the nine arguments, over the extended reals.

The first call leaves the hidden layer `hid` = one layer of the input features with the stacked mean aggregates the first
stretch of host operations computed from them; the second stretch computes the aggregates of the hidden layer from the same
source and destination indices and relation types; the second call leaves one layer of the hidden layer with those. Every
argument, the index vectors and the relation types reach each stage as launched: no stretch and no call writes them.
-/

noncomputable section

namespace Cert.KernelIdeal.Value

open Idealize.ShloMosaic Idealize.ShloMosaic.TcCoe Idealize.SL.Sem
open Cert.KernelIdeal Cert.KernelIdeal.Gen Cert.KernelIdeal.Main Cert.HostSide

variable (m : (ℓ : Loc nD τ sig) → Buf (Elt Ideal) ℓ) (ρ : Dev nD → PrngReg)

/-- The source and destination index vectors and the stacked aggregates of a feature array, from the launched arguments. -/
abbrev srcA (c : Dev nD) : Vec Ideal S640000 .i32 := srcOf (m ((c : Thread nD τ).loc main_arg1))
abbrev dstA (c : Dev nD) : Vec Ideal S640000 .i32 := dstOf (m ((c : Thread nD τ).loc main_arg1))

/-- The hidden layer. -/
def hid (c : Dev nD) : Cert.Rgcn.ND.Idx → EReal :=
  Cert.Rgcn.layer (m ((c : Thread nD τ).loc main_arg0)) (stackK (m ((c : Thread nD τ).loc main_arg0)) (srcA m c) (dstA m c) (m ((c : Thread nD τ).loc main_arg2)))
    (m ((c : Thread nD τ).loc main_arg3)) (m ((c : Thread nD τ).loc main_arg4)) (m ((c : Thread nD τ).loc main_arg5))
/-- The output. -/
def out (c : Dev nD) : Cert.Rgcn.ND.Idx → EReal :=
  Cert.Rgcn.layer (hid m c) (stackK (hid m c) (srcA m c) (dstA m c) (m ((c : Thread nD τ).loc main_arg2)))
    (m ((c : Thread nD τ).loc main_arg6)) (m ((c : Thread nD τ).loc main_arg7)) (m ((c : Thread nD τ).loc main_arg8))

/-! ## After the first stretch -/
theorem W1_arg0 (c : Dev nD) : W1 m ρ c (Proc.devRef .tc main_arg0) = (m ((c : Thread nD τ).loc main_arg0)) := kept0 _ main_arg0 (by decide)
theorem W1_arg2 (c : Dev nD) : W1 m ρ c (Proc.devRef .tc main_arg2) = (m ((c : Thread nD τ).loc main_arg2)) := kept0 _ main_arg2 (by decide)
theorem W1_arg3 (c : Dev nD) : W1 m ρ c (Proc.devRef .tc main_arg3) = (m ((c : Thread nD τ).loc main_arg3)) := kept0 _ main_arg3 (by decide)
theorem W1_arg4 (c : Dev nD) : W1 m ρ c (Proc.devRef .tc main_arg4) = (m ((c : Thread nD τ).loc main_arg4)) := kept0 _ main_arg4 (by decide)
theorem W1_arg5 (c : Dev nD) : W1 m ρ c (Proc.devRef .tc main_arg5) = (m ((c : Thread nD τ).loc main_arg5)) := kept0 _ main_arg5 (by decide)
theorem W1_arg6 (c : Dev nD) : W1 m ρ c (Proc.devRef .tc main_arg6) = (m ((c : Thread nD τ).loc main_arg6)) := kept0 _ main_arg6 (by decide)
theorem W1_arg7 (c : Dev nD) : W1 m ρ c (Proc.devRef .tc main_arg7) = (m ((c : Thread nD τ).loc main_arg7)) := kept0 _ main_arg7 (by decide)
theorem W1_arg8 (c : Dev nD) : W1 m ρ c (Proc.devRef .tc main_arg8) = (m ((c : Thread nD τ).loc main_arg8)) := kept0 _ main_arg8 (by decide)
theorem W1_stack (c : Dev nD) : W1 m ρ c (Proc.devRef .tc main_v155) = stackK (m ((c : Thread nD τ).loc main_arg0)) (srcA m c) (dstA m c) (m ((c : Thread nD τ).loc main_arg2)) := stack0 _
theorem W1_src (c : Dev nD) : W1 m ρ c (Proc.devRef .tc main_v1) = srcA m c := src0 _
theorem W1_dst (c : Dev nD) : W1 m ρ c (Proc.devRef .tc main_v3) = dstA m c := dst0 _

/-! ## After the first call -/

theorem W2_hid (c : Dev nD) : W2 m ρ c (Proc.devRef .tc main_v156) = hid m c := by
  refine (W2_arr m ρ c 5).trans ((Cert.KernelIdeal.Val.final0 (V1 m ρ) c).trans ?_)
  unfold hid
  rw [show V1 m ρ c main_arg0 = _ from W1_arg0 m ρ c, show V1 m ρ c main_v155 = _ from W1_stack m ρ c,
    show V1 m ρ c main_arg3 = _ from W1_arg3 m ρ c, show V1 m ρ c main_arg4 = _ from W1_arg4 m ρ c, show V1 m ρ c main_arg5 = _ from W1_arg5 m ρ c]
theorem W2_src (c : Dev nD) : W2 m ρ c (Proc.devRef .tc main_v1) = srcA m c := (W2_of_ne m ρ c main_v1 (by decide)).trans (W1_src m ρ c)
theorem W2_dst (c : Dev nD) : W2 m ρ c (Proc.devRef .tc main_v3) = dstA m c := (W2_of_ne m ρ c main_v3 (by decide)).trans (W1_dst m ρ c)
theorem W2_arg2 (c : Dev nD) : W2 m ρ c (Proc.devRef .tc main_arg2) = (m ((c : Thread nD τ).loc main_arg2)) := (W2_of_ne m ρ c main_arg2 (by decide)).trans (W1_arg2 m ρ c)
theorem W2_arg6 (c : Dev nD) : W2 m ρ c (Proc.devRef .tc main_arg6) = (m ((c : Thread nD τ).loc main_arg6)) := (W2_of_ne m ρ c main_arg6 (by decide)).trans (W1_arg6 m ρ c)
theorem W2_arg7 (c : Dev nD) : W2 m ρ c (Proc.devRef .tc main_arg7) = (m ((c : Thread nD τ).loc main_arg7)) := (W2_of_ne m ρ c main_arg7 (by decide)).trans (W1_arg7 m ρ c)
theorem W2_arg8 (c : Dev nD) : W2 m ρ c (Proc.devRef .tc main_arg8) = (m ((c : Thread nD τ).loc main_arg8)) := (W2_of_ne m ρ c main_arg8 (by decide)).trans (W1_arg8 m ρ c)

/-! ## After the second stretch -/

theorem W3_hid (c : Dev nD) : W3 m ρ c (Proc.devRef .tc main_v156) = hid m c := (kept1 _ main_v156 (by decide)).trans (W2_hid m ρ c)
theorem W3_arg6 (c : Dev nD) : W3 m ρ c (Proc.devRef .tc main_arg6) = (m ((c : Thread nD τ).loc main_arg6)) := (kept1 _ main_arg6 (by decide)).trans (W2_arg6 m ρ c)
theorem W3_arg7 (c : Dev nD) : W3 m ρ c (Proc.devRef .tc main_arg7) = (m ((c : Thread nD τ).loc main_arg7)) := (kept1 _ main_arg7 (by decide)).trans (W2_arg7 m ρ c)
theorem W3_arg8 (c : Dev nD) : W3 m ρ c (Proc.devRef .tc main_arg8) = (m ((c : Thread nD τ).loc main_arg8)) := (kept1 _ main_arg8 (by decide)).trans (W2_arg8 m ρ c)
theorem W3_stack (c : Dev nD) : W3 m ρ c (Proc.devRef .tc main_v308) = stackK (hid m c) (srcA m c) (dstA m c) (m ((c : Thread nD τ).loc main_arg2)) := by
  refine (stack1 _).trans ?_
  rw [W2_hid, W2_src, W2_dst, W2_arg2]

/-! ## The result -/

/-- What the second call's write-backs leave is the output. -/
theorem result_eq (c : Dev nD) : (Cert.KernelIdeal.Reg1.dat (V3 m ρ) c).arrAt 5 cfg1.N = out m c := by
  refine (Cert.KernelIdeal.Val.final1 (V3 m ρ) c).trans ?_
  unfold out
  rw [show V3 m ρ c main_v156 = _ from W3_hid m ρ c, show V3 m ρ c main_v308 = _ from W3_stack m ρ c,
    show V3 m ρ c main_arg6 = _ from W3_arg6 m ρ c, show V3 m ρ c main_arg7 = _ from W3_arg7 m ρ c, show V3 m ρ c main_arg8 = _ from W3_arg8 m ρ c]

end Cert.KernelIdeal.Value

end
-- ==== Proof.RefAgg.lean ====
import proofs.«171321_j63273458205156_1_alg».proof.Proof.RefReadP
import proofs.«171321_j63273458205156_1_alg».proof.Proof.Spec

/-!
The per-relation mean aggregate as the reference program computes it: one composed term of the program's own host
operations, with the relation's integer constant a parameter. The gather, the two scatter-adds and the division are
carried as they stand and never opened; the eight relations of a layer are the eight instances `0 … 7` of the one term.
-/

noncomputable section

namespace Cert.RefSide

open Idealize.ShloMosaic Idealize.ShloMosaic.TcCoe Idealize.ShloMosaic.ValueIdx
open Cert.ReferenceIdeal Cert.ReferenceIdeal.Gen Cert.ReferenceIdeal.ReadP

/-- Row 0 of the edge index as a vector: the source of every edge. -/
def srcOf (ei : Vec Ideal S2x640000 .i32) : Vec Ideal S640000 .i32 :=
  shapeCast S640000 (extractStridedSlice S1x640000 ![0, 0] ei slices_S2x640000_S1x640000_0_0) shapeCasts_S1x640000_S640000

/-- Row 1 of the edge index as a vector: the destination of every edge. -/
def dstOf (ei : Vec Ideal S2x640000 .i32) : Vec Ideal S640000 .i32 :=
  shapeCast S640000 (extractStridedSlice S1x640000 ![1, 0] ei slices_S2x640000_S1x640000_1_0) shapeCasts_S1x640000_S640000

/-- A negative source index counted from the end, then the indices as a column. -/
def wrapCol (src : Vec Ideal S640000 .i32) : Vec Ideal S640000x1 .i32 :=
  broadcastInDim S640000x1 ![0] bcast_S640000_S640000x1_0
    (select (cmpi .slt src (broadcastInDim S640000 ![] bcast_S_S640000 (constantI S_ 32 0#32)))
      (addi src (broadcastInDim S640000 ![] bcast_S_S640000 (constantI S_ 32 100000#32))) src)

/-- The source node's row of `x`, edge by edge. -/
def gath (x : Vec Ideal S100000x128 .f32) (src : Vec Ideal S640000 .i32) : Vec Ideal S640000x128 .f32 :=
  Host.gather gather_S100000x128_S640000x1_S640000x128_1_0_n_n_0_1_1128 x (wrapCol src)

/-- The 0/1 indicator, as a float, of the edges whose type is `rc`. -/
def maskOf (rc : BitVec 32) (et : Vec Ideal S640000 .i32) : Vec Ideal S640000 .f32 :=
  uitofp (F := Ideal) .f32 (cmpi .eq et (broadcastInDim S640000 ![] bcast_S_S640000 (constantI S_ 32 rc)))

/-- Relation `rc`'s mean aggregate of the edge rows `g`: the rows of the relation's edges summed into their
    destination nodes, divided by the number of such edges at the node (at least one). -/
def relAgg (rc : BitVec 32) (g : Vec Ideal S640000x128 .f32) (dst et : Vec Ideal S640000 .i32) : Vec Ideal S100000x128 .f32 :=
  Host.divf (F := Ideal)
    (Host.scatterAdd (F := Ideal) scatter_S100000x128_S640000x1_S640000x128_1_0_0_1
      (broadcastInDim S100000x128 ![] bcast_S_S100000x128 (constant (F := Ideal) S_ .f32 0x00000000#32))
      (broadcastInDim S640000x1 ![0] bcast_S640000_S640000x1_0 dst)
      (mulf g (broadcastInDim S640000x128 ![0, 1] bcast_S640000x1_S640000x128_0_1
        (broadcastInDim S640000x1 ![0] bcast_S640000_S640000x1_0 (maskOf rc et)))))
    (broadcastInDim S100000x128 ![0, 1] bcast_S100000x1_S100000x128_0_1
      (broadcastInDim S100000x1 ![0] bcast_S100000_S100000x1_0
        (maximumf
          (Host.scatterAdd (F := Ideal) scatter_S100000_S640000x1_S640000_n_0_0_1
            (broadcastInDim S100000 ![] bcast_S_S100000 (constant (F := Ideal) S_ .f32 0x00000000#32))
            (broadcastInDim S640000x1 ![0] bcast_S640000_S640000x1_0 dst)
            (maskOf rc et))
          (broadcastInDim S100000 ![] bcast_S_S100000 (constant (F := Ideal) S_ .f32 0x3F800000#32)))))

/-- Relation `rc`'s mean aggregate of the node features `x` over the edges `src → dst` of types `et`. -/
def aggCore (rc : BitVec 32) (x : Vec Ideal S100000x128 .f32) (src dst et : Vec Ideal S640000 .i32) : Vec Ideal S100000x128 .f32 :=
  relAgg rc (gath x src) dst et

/-- The same from the edge index `ei` (row 0 the sources, row 1 the destinations). -/
def aggRel (rc : BitVec 32) (x : Vec Ideal S100000x128 .f32) (ei : Vec Ideal S2x640000 .i32) (et : Vec Ideal S640000 .i32) :
    Vec Ideal S100000x128 .f32 :=
  aggCore rc x (srcOf ei) (dstOf ei) et

/-- Relation `r`'s integer constant. -/
def relConst (r : Fin 8) : BitVec 32 := BitVec.ofNat 32 r.val

/-- The eight aggregates stacked: entry `(r, p, k)` is entry `(p, k)` of relation `r`'s aggregate. -/
def A (ei : Vec Ideal S2x640000 .i32) (et : Vec Ideal S640000 .i32) (x : Cert.Rgcn.ND.Idx → EReal) : Cert.Rgcn.RND.Idx → EReal :=
  fun j => aggRel (relConst (j 0)) x ei et (ix2 (j 1) (j 2))

theorem A_apply (ei : Vec Ideal S2x640000 .i32) (et : Vec Ideal S640000 .i32) (x : Cert.Rgcn.ND.Idx → EReal)
    (r : Fin 8) (p : Fin 100000) (k : Fin 128) :
    A ei et x (ix3 r p k) = aggRel (relConst r) x ei et (ix2 p k) := rfl

/-- Relation `r`'s aggregate is slab `r` of the stack. -/
theorem aggRel_eq_slab (ei : Vec Ideal S2x640000 .i32) (et : Vec Ideal S640000 .i32) (x : Cert.Rgcn.ND.Idx → EReal) (r : Fin 8) :
    aggRel (relConst r) x ei et = fun i : S100000x128.Idx => A ei et x (ix3 r (i 0) (i 1)) := by
  funext i
  exact congrArg (aggRel (relConst r) x ei et) (eq_ix2 i)

/-! ### The program's stages are instances of the one term -/

section stages
variable (x0 : (⟨S100000x128, .f32⟩ : BufTy).Contents (Elt Ideal)) (x1 : (⟨S2x640000, .i32⟩ : BufTy).Contents (Elt Ideal))
  (x2 : (⟨S640000, .i32⟩ : BufTy).Contents (Elt Ideal)) (x3 : (⟨S8x128x128, .f32⟩ : BufTy).Contents (Elt Ideal))
  (x4 : (⟨S128x128, .f32⟩ : BufTy).Contents (Elt Ideal)) (x5 : (⟨S128, .f32⟩ : BufTy).Contents (Elt Ideal))

theorem agg1_0 : val_main_v31 (F := Ideal) x0 x1 x2 = fun i : S100000x128.Idx => A x1 x2 x0 (ix3 0 (i 0) (i 1)) :=
  (rfl : val_main_v31 (F := Ideal) x0 x1 x2 = aggRel (relConst 0) x0 x1 x2).trans (aggRel_eq_slab x1 x2 x0 0)
theorem agg1_1 : val_main_v52 (F := Ideal) x0 x1 x2 = fun i : S100000x128.Idx => A x1 x2 x0 (ix3 1 (i 0) (i 1)) :=
  (rfl : val_main_v52 (F := Ideal) x0 x1 x2 = aggRel (relConst 1) x0 x1 x2).trans (aggRel_eq_slab x1 x2 x0 1)
theorem agg1_2 : val_main_v73 (F := Ideal) x0 x1 x2 = fun i : S100000x128.Idx => A x1 x2 x0 (ix3 2 (i 0) (i 1)) :=
  (rfl : val_main_v73 (F := Ideal) x0 x1 x2 = aggRel (relConst 2) x0 x1 x2).trans (aggRel_eq_slab x1 x2 x0 2)
theorem agg1_3 : val_main_v94 (F := Ideal) x0 x1 x2 = fun i : S100000x128.Idx => A x1 x2 x0 (ix3 3 (i 0) (i 1)) :=
  (rfl : val_main_v94 (F := Ideal) x0 x1 x2 = aggRel (relConst 3) x0 x1 x2).trans (aggRel_eq_slab x1 x2 x0 3)
theorem agg1_4 : val_main_v115 (F := Ideal) x0 x1 x2 = fun i : S100000x128.Idx => A x1 x2 x0 (ix3 4 (i 0) (i 1)) :=
  (rfl : val_main_v115 (F := Ideal) x0 x1 x2 = aggRel (relConst 4) x0 x1 x2).trans (aggRel_eq_slab x1 x2 x0 4)
theorem agg1_5 : val_main_v136 (F := Ideal) x0 x1 x2 = fun i : S100000x128.Idx => A x1 x2 x0 (ix3 5 (i 0) (i 1)) :=
  (rfl : val_main_v136 (F := Ideal) x0 x1 x2 = aggRel (relConst 5) x0 x1 x2).trans (aggRel_eq_slab x1 x2 x0 5)
theorem agg1_6 : val_main_v157 (F := Ideal) x0 x1 x2 = fun i : S100000x128.Idx => A x1 x2 x0 (ix3 6 (i 0) (i 1)) :=
  (rfl : val_main_v157 (F := Ideal) x0 x1 x2 = aggRel (relConst 6) x0 x1 x2).trans (aggRel_eq_slab x1 x2 x0 6)
theorem agg1_7 : val_main_v178 (F := Ideal) x0 x1 x2 = fun i : S100000x128.Idx => A x1 x2 x0 (ix3 7 (i 0) (i 1)) :=
  (rfl : val_main_v178 (F := Ideal) x0 x1 x2 = aggRel (relConst 7) x0 x1 x2).trans (aggRel_eq_slab x1 x2 x0 7)

/-- The hidden layer's stage. -/
local notation "hid" => val_main_v183 (F := Ideal) x0 x1 x2 x3 x4 x5

theorem agg2_0 : val_main_v211 (F := Ideal) x0 x1 x2 x3 x4 x5 = fun i : S100000x128.Idx => A x1 x2 hid (ix3 0 (i 0) (i 1)) :=
  (rfl : val_main_v211 (F := Ideal) x0 x1 x2 x3 x4 x5 = aggRel (relConst 0) hid x1 x2).trans (aggRel_eq_slab x1 x2 hid 0)
theorem agg2_1 : val_main_v232 (F := Ideal) x0 x1 x2 x3 x4 x5 = fun i : S100000x128.Idx => A x1 x2 hid (ix3 1 (i 0) (i 1)) :=
  (rfl : val_main_v232 (F := Ideal) x0 x1 x2 x3 x4 x5 = aggRel (relConst 1) hid x1 x2).trans (aggRel_eq_slab x1 x2 hid 1)
theorem agg2_2 : val_main_v253 (F := Ideal) x0 x1 x2 x3 x4 x5 = fun i : S100000x128.Idx => A x1 x2 hid (ix3 2 (i 0) (i 1)) :=
  (rfl : val_main_v253 (F := Ideal) x0 x1 x2 x3 x4 x5 = aggRel (relConst 2) hid x1 x2).trans (aggRel_eq_slab x1 x2 hid 2)
theorem agg2_3 : val_main_v274 (F := Ideal) x0 x1 x2 x3 x4 x5 = fun i : S100000x128.Idx => A x1 x2 hid (ix3 3 (i 0) (i 1)) :=
  (rfl : val_main_v274 (F := Ideal) x0 x1 x2 x3 x4 x5 = aggRel (relConst 3) hid x1 x2).trans (aggRel_eq_slab x1 x2 hid 3)
theorem agg2_4 : val_main_v295 (F := Ideal) x0 x1 x2 x3 x4 x5 = fun i : S100000x128.Idx => A x1 x2 hid (ix3 4 (i 0) (i 1)) :=
  (rfl : val_main_v295 (F := Ideal) x0 x1 x2 x3 x4 x5 = aggRel (relConst 4) hid x1 x2).trans (aggRel_eq_slab x1 x2 hid 4)
theorem agg2_5 : val_main_v316 (F := Ideal) x0 x1 x2 x3 x4 x5 = fun i : S100000x128.Idx => A x1 x2 hid (ix3 5 (i 0) (i 1)) :=
  (rfl : val_main_v316 (F := Ideal) x0 x1 x2 x3 x4 x5 = aggRel (relConst 5) hid x1 x2).trans (aggRel_eq_slab x1 x2 hid 5)
theorem agg2_6 : val_main_v337 (F := Ideal) x0 x1 x2 x3 x4 x5 = fun i : S100000x128.Idx => A x1 x2 hid (ix3 6 (i 0) (i 1)) :=
  (rfl : val_main_v337 (F := Ideal) x0 x1 x2 x3 x4 x5 = aggRel (relConst 6) hid x1 x2).trans (aggRel_eq_slab x1 x2 hid 6)
theorem agg2_7 : val_main_v358 (F := Ideal) x0 x1 x2 x3 x4 x5 = fun i : S100000x128.Idx => A x1 x2 hid (ix3 7 (i 0) (i 1)) :=
  (rfl : val_main_v358 (F := Ideal) x0 x1 x2 x3 x4 x5 = aggRel (relConst 7) hid x1 x2).trans (aggRel_eq_slab x1 x2 hid 7)

end stages

end Cert.RefSide

end
-- ==== Proof.RefDense.lean ====
import proofs.«171321_j63273458205156_1_alg».proof.Proof.RefReadP
import proofs.«171321_j63273458205156_1_alg».proof.Proof.Spec

/-!
The dense part of one layer as the reference program computes it, read at an index: the root product, the bias, the
eight relation products added one after the other, and the clamp at zero. The aggregates are arbitrary arrays here.
-/

noncomputable section

namespace Cert.RefSide

open Idealize.ShloMosaic Idealize.ShloMosaic.TcCoe Idealize.ShloMosaic.ValueIdx
open Cert.ReferenceIdeal Cert.ReferenceIdeal.Gen Cert.ReferenceIdeal.ReadP
open scoped BigOperators

/-- The left operand of a product is read along row `p`. -/
theorem lidx_eq (p : Fin 100000) (q k : Fin 128) : lidx_main_v4 (ix2 p q) k = ix2 p k :=
  funext fun a => Fin.ext (by match a with | ⟨0, _⟩ => rfl | ⟨1, _⟩ => rfl)

/-- The right operand of a product is read along column `q`. -/
theorem ridx_eq (p : Fin 100000) (q k : Fin 128) : ridx_main_v4 (ix2 p q) k = ix2 k q :=
  funext fun a => Fin.ext (by match a with | ⟨0, _⟩ => rfl | ⟨1, _⟩ => rfl)

/-- A matrix product at an entry. -/
theorem dot_at (l : (⟨S100000x128, .f32⟩ : BufTy).Contents (Elt Ideal)) (r : (⟨S128x128, .f32⟩ : BufTy).Contents (Elt Ideal)) (p : Fin 100000) (q : Fin 128) :
    val_main_v4 (F := Ideal) l r (ix2 p q) = ∑ k : Fin 128, l (ix2 p k) * r (ix2 k q) := by
  rw [val_main_v4_apply]
  simp only [lidx_eq, ridx_eq]

/-- The bias spread over the rows. -/
theorem bias_at (b : (⟨S128, .f32⟩ : BufTy).Contents (Elt Ideal)) (p : Fin 100000) (q : Fin 128) :
    val_main_v6 (F := Ideal) b (ix2 p q) = b (ix1 q) := by
  rw [val_main_v6_apply, val_main_v5_apply]
  exact congrArg b (funext fun a => Fin.ext (by match a with | ⟨0, _⟩ => rfl))

/-- The clamp's constant is zero. -/
theorem zero_at (p : Fin 100000) (q : Fin 128) : val_main_call0_v0 (F := Ideal) (ix2 p q) = 0 := by
  rw [val_main_call0_v0_apply, val_main_call0_cst_apply, Ideal.ofBits_def, Ideal.ofBits_zero_f32]

/-! ### Slab `r` of the relation weights, as a matrix -/

theorem wslab0 (W : (⟨S8x128x128, .f32⟩ : BufTy).Contents (Elt Ideal)) (k q : Fin 128) :
    val_main_v33 (F := Ideal) W (ix2 k q) = W (ix3 0 k q) := by
  rw [val_main_v33_apply, val_main_v32_apply]
  refine congrArg W (funext fun a => Fin.ext ?_)
  have hk := k.isLt
  have hq := q.isLt
  match a with
  | ⟨0, _⟩ => rfl
  | ⟨1, _⟩ => show (k.val * 128 + q.val) / 128 % 128 = k.val; omega
  | ⟨2, _⟩ => show (k.val * 128 + q.val) % 128 = q.val; omega

theorem wslab1 (W : (⟨S8x128x128, .f32⟩ : BufTy).Contents (Elt Ideal)) (k q : Fin 128) :
    val_main_v54 (F := Ideal) W (ix2 k q) = W (ix3 1 k q) := by
  rw [val_main_v54_apply, val_main_v53_apply]
  refine congrArg W (funext fun a => Fin.ext ?_)
  have hk := k.isLt
  have hq := q.isLt
  match a with
  | ⟨0, _⟩ => rfl
  | ⟨1, _⟩ => show (k.val * 128 + q.val) / 128 % 128 = k.val; omega
  | ⟨2, _⟩ => show (k.val * 128 + q.val) % 128 = q.val; omega

theorem wslab2 (W : (⟨S8x128x128, .f32⟩ : BufTy).Contents (Elt Ideal)) (k q : Fin 128) :
    val_main_v75 (F := Ideal) W (ix2 k q) = W (ix3 2 k q) := by
  rw [val_main_v75_apply, val_main_v74_apply]
  refine congrArg W (funext fun a => Fin.ext ?_)
  have hk := k.isLt
  have hq := q.isLt
  match a with
  | ⟨0, _⟩ => rfl
  | ⟨1, _⟩ => show (k.val * 128 + q.val) / 128 % 128 = k.val; omega
  | ⟨2, _⟩ => show (k.val * 128 + q.val) % 128 = q.val; omega

theorem wslab3 (W : (⟨S8x128x128, .f32⟩ : BufTy).Contents (Elt Ideal)) (k q : Fin 128) :
    val_main_v96 (F := Ideal) W (ix2 k q) = W (ix3 3 k q) := by
  rw [val_main_v96_apply, val_main_v95_apply]
  refine congrArg W (funext fun a => Fin.ext ?_)
  have hk := k.isLt
  have hq := q.isLt
  match a with
  | ⟨0, _⟩ => rfl
  | ⟨1, _⟩ => show (k.val * 128 + q.val) / 128 % 128 = k.val; omega
  | ⟨2, _⟩ => show (k.val * 128 + q.val) % 128 = q.val; omega

theorem wslab4 (W : (⟨S8x128x128, .f32⟩ : BufTy).Contents (Elt Ideal)) (k q : Fin 128) :
    val_main_v117 (F := Ideal) W (ix2 k q) = W (ix3 4 k q) := by
  rw [val_main_v117_apply, val_main_v116_apply]
  refine congrArg W (funext fun a => Fin.ext ?_)
  have hk := k.isLt
  have hq := q.isLt
  match a with
  | ⟨0, _⟩ => rfl
  | ⟨1, _⟩ => show (k.val * 128 + q.val) / 128 % 128 = k.val; omega
  | ⟨2, _⟩ => show (k.val * 128 + q.val) % 128 = q.val; omega

theorem wslab5 (W : (⟨S8x128x128, .f32⟩ : BufTy).Contents (Elt Ideal)) (k q : Fin 128) :
    val_main_v138 (F := Ideal) W (ix2 k q) = W (ix3 5 k q) := by
  rw [val_main_v138_apply, val_main_v137_apply]
  refine congrArg W (funext fun a => Fin.ext ?_)
  have hk := k.isLt
  have hq := q.isLt
  match a with
  | ⟨0, _⟩ => rfl
  | ⟨1, _⟩ => show (k.val * 128 + q.val) / 128 % 128 = k.val; omega
  | ⟨2, _⟩ => show (k.val * 128 + q.val) % 128 = q.val; omega

theorem wslab6 (W : (⟨S8x128x128, .f32⟩ : BufTy).Contents (Elt Ideal)) (k q : Fin 128) :
    val_main_v159 (F := Ideal) W (ix2 k q) = W (ix3 6 k q) := by
  rw [val_main_v159_apply, val_main_v158_apply]
  refine congrArg W (funext fun a => Fin.ext ?_)
  have hk := k.isLt
  have hq := q.isLt
  match a with
  | ⟨0, _⟩ => rfl
  | ⟨1, _⟩ => show (k.val * 128 + q.val) / 128 % 128 = k.val; omega
  | ⟨2, _⟩ => show (k.val * 128 + q.val) % 128 = q.val; omega

theorem wslab7 (W : (⟨S8x128x128, .f32⟩ : BufTy).Contents (Elt Ideal)) (k q : Fin 128) :
    val_main_v180 (F := Ideal) W (ix2 k q) = W (ix3 7 k q) := by
  rw [val_main_v180_apply, val_main_v179_apply]
  refine congrArg W (funext fun a => Fin.ext ?_)
  have hk := k.isLt
  have hq := q.isLt
  match a with
  | ⟨0, _⟩ => rfl
  | ⟨1, _⟩ => show (k.val * 128 + q.val) / 128 % 128 = k.val; omega
  | ⟨2, _⟩ => show (k.val * 128 + q.val) % 128 = q.val; omega

/-- The dense part of a layer over the program's own stages: features `x`, the eight aggregates, the weights. -/
def dense (x a0 a1 a2 a3 a4 a5 a6 a7 : (⟨S100000x128, .f32⟩ : BufTy).Contents (Elt Ideal))
    (W : (⟨S8x128x128, .f32⟩ : BufTy).Contents (Elt Ideal)) (root : (⟨S128x128, .f32⟩ : BufTy).Contents (Elt Ideal)) (b : (⟨S128, .f32⟩ : BufTy).Contents (Elt Ideal)) : (⟨S100000x128, .f32⟩ : BufTy).Contents (Elt Ideal) :=
  maximumf (F := Ideal) (s := S100000x128) (φ := .f32)
    (addf (F := Ideal) (s := S100000x128) (φ := .f32) (addf (F := Ideal) (s := S100000x128) (φ := .f32) (addf (F := Ideal) (s := S100000x128) (φ := .f32) (addf (F := Ideal) (s := S100000x128) (φ := .f32) (addf (F := Ideal) (s := S100000x128) (φ := .f32) (addf (F := Ideal) (s := S100000x128) (φ := .f32) (addf (F := Ideal) (s := S100000x128) (φ := .f32) (addf (F := Ideal) (s := S100000x128) (φ := .f32) (addf (F := Ideal) (s := S100000x128) (φ := .f32) (val_main_v4 (F := Ideal) x root) (val_main_v6 (F := Ideal) b))
      (val_main_v4 (F := Ideal) a0 (val_main_v33 (F := Ideal) W)))
      (val_main_v4 (F := Ideal) a1 (val_main_v54 (F := Ideal) W)))
      (val_main_v4 (F := Ideal) a2 (val_main_v75 (F := Ideal) W)))
      (val_main_v4 (F := Ideal) a3 (val_main_v96 (F := Ideal) W)))
      (val_main_v4 (F := Ideal) a4 (val_main_v117 (F := Ideal) W)))
      (val_main_v4 (F := Ideal) a5 (val_main_v138 (F := Ideal) W)))
      (val_main_v4 (F := Ideal) a6 (val_main_v159 (F := Ideal) W)))
      (val_main_v4 (F := Ideal) a7 (val_main_v180 (F := Ideal) W)))
    (val_main_call0_v0 (F := Ideal))

theorem dense_apply (x a0 a1 a2 a3 a4 a5 a6 a7 : (⟨S100000x128, .f32⟩ : BufTy).Contents (Elt Ideal))
    (W : (⟨S8x128x128, .f32⟩ : BufTy).Contents (Elt Ideal)) (root : (⟨S128x128, .f32⟩ : BufTy).Contents (Elt Ideal)) (b : (⟨S128, .f32⟩ : BufTy).Contents (Elt Ideal)) (p : Fin 100000) (q : Fin 128) :
    dense x a0 a1 a2 a3 a4 a5 a6 a7 W root b (ix2 p q)
      = max ((((((((((∑ k : Fin 128, x (ix2 p k) * root (ix2 k q)) + b (ix1 q))
        + ∑ k : Fin 128, a0 (ix2 p k) * W (ix3 0 k q))
        + ∑ k : Fin 128, a1 (ix2 p k) * W (ix3 1 k q))
        + ∑ k : Fin 128, a2 (ix2 p k) * W (ix3 2 k q))
        + ∑ k : Fin 128, a3 (ix2 p k) * W (ix3 3 k q))
        + ∑ k : Fin 128, a4 (ix2 p k) * W (ix3 4 k q))
        + ∑ k : Fin 128, a5 (ix2 p k) * W (ix3 5 k q))
        + ∑ k : Fin 128, a6 (ix2 p k) * W (ix3 6 k q))
        + ∑ k : Fin 128, a7 (ix2 p k) * W (ix3 7 k q)) 0 := by
  unfold dense
  simp only [maximumf_apply, addf_apply, dot_at, bias_at, zero_at, wslab0, wslab1, wslab2, wslab3, wslab4, wslab5, wslab6, wslab7]

/-- Over a stack of aggregates the dense part is the layer of the specification. -/
theorem dense_eq_layer (x : Cert.Rgcn.ND.Idx → EReal) (agg : Cert.Rgcn.RND.Idx → EReal) (W : Cert.Rgcn.RDD.Idx → EReal)
    (root : Cert.Rgcn.DD.Idx → EReal) (b : Cert.Rgcn.D1.Idx → EReal) :
    dense x (fun i => agg (ix3 0 (i 0) (i 1))) (fun i => agg (ix3 1 (i 0) (i 1))) (fun i => agg (ix3 2 (i 0) (i 1)))
        (fun i => agg (ix3 3 (i 0) (i 1))) (fun i => agg (ix3 4 (i 0) (i 1))) (fun i => agg (ix3 5 (i 0) (i 1)))
        (fun i => agg (ix3 6 (i 0) (i 1))) (fun i => agg (ix3 7 (i 0) (i 1))) W root b
      = Cert.Rgcn.layer x agg W root b := by
  funext i
  obtain ⟨p, q, rfl⟩ : ∃ (p : Fin 100000) (q : Fin 128), i = ix2 p q := ⟨i 0, i 1, eq_ix2 i⟩
  rw [dense_apply, Cert.Rgcn.layer_apply, Cert.Rgcn.accUpTo_seven]
  rfl

end Cert.RefSide

end
-- ==== Proof.RefVal.lean ====
import proofs.«171321_j63273458205156_1_alg».proof.Proof.RefAgg
import proofs.«171321_j63273458205156_1_alg».proof.Proof.RefDense

/-!
The reference program's result stage is two layers of the specification, the second over the first's result, each
over the stacked aggregates that the program's own host operations compute from the layer's input features.
-/

noncomputable section

namespace Cert.RefSide

open Idealize.ShloMosaic Idealize.ShloMosaic.TcCoe Idealize.ShloMosaic.ValueIdx
open Cert.ReferenceIdeal Cert.ReferenceIdeal.Gen Cert.ReferenceIdeal.ReadP

variable (x0 : (⟨S100000x128, .f32⟩ : BufTy).Contents (Elt Ideal)) (x1 : (⟨S2x640000, .i32⟩ : BufTy).Contents (Elt Ideal))
  (x2 : (⟨S640000, .i32⟩ : BufTy).Contents (Elt Ideal)) (x3 : (⟨S8x128x128, .f32⟩ : BufTy).Contents (Elt Ideal))
  (x4 : (⟨S128x128, .f32⟩ : BufTy).Contents (Elt Ideal)) (x5 : (⟨S128, .f32⟩ : BufTy).Contents (Elt Ideal))
  (x6 : (⟨S8x128x128, .f32⟩ : BufTy).Contents (Elt Ideal)) (x7 : (⟨S128x128, .f32⟩ : BufTy).Contents (Elt Ideal)) (x8 : (⟨S128, .f32⟩ : BufTy).Contents (Elt Ideal))

/-- The hidden stage is the dense part over the first layer's eight aggregate stages. -/
theorem hidden_dense :
    val_main_v183 (F := Ideal) x0 x1 x2 x3 x4 x5
      = dense x0 (val_main_v31 (F := Ideal) x0 x1 x2) (val_main_v52 (F := Ideal) x0 x1 x2) (val_main_v73 (F := Ideal) x0 x1 x2)
          (val_main_v94 (F := Ideal) x0 x1 x2) (val_main_v115 (F := Ideal) x0 x1 x2) (val_main_v136 (F := Ideal) x0 x1 x2)
          (val_main_v157 (F := Ideal) x0 x1 x2) (val_main_v178 (F := Ideal) x0 x1 x2) x3 x4 x5 := rfl

/-- The hidden stage is the first layer. -/
theorem hidden_eq :
    val_main_v183 (F := Ideal) x0 x1 x2 x3 x4 x5 = Cert.Rgcn.layer x0 (A x1 x2 x0) x3 x4 x5 := by
  rw [hidden_dense, agg1_0, agg1_1, agg1_2, agg1_3, agg1_4, agg1_5, agg1_6, agg1_7]
  exact dense_eq_layer x0 (A x1 x2 x0) x3 x4 x5

/-- The result stage is the dense part over the hidden stage and the second layer's eight aggregate stages. -/
theorem result_dense :
    val_main_v363 (F := Ideal) x0 x1 x2 x3 x4 x5 x6 x7 x8
      = dense (val_main_v183 (F := Ideal) x0 x1 x2 x3 x4 x5)
          (val_main_v211 (F := Ideal) x0 x1 x2 x3 x4 x5) (val_main_v232 (F := Ideal) x0 x1 x2 x3 x4 x5)
          (val_main_v253 (F := Ideal) x0 x1 x2 x3 x4 x5) (val_main_v274 (F := Ideal) x0 x1 x2 x3 x4 x5)
          (val_main_v295 (F := Ideal) x0 x1 x2 x3 x4 x5) (val_main_v316 (F := Ideal) x0 x1 x2 x3 x4 x5)
          (val_main_v337 (F := Ideal) x0 x1 x2 x3 x4 x5) (val_main_v358 (F := Ideal) x0 x1 x2 x3 x4 x5) x6 x7 x8 := rfl

/-- The result stage: the second layer over the first. -/
theorem val_eq :
    val_main_v363 (F := Ideal) x0 x1 x2 x3 x4 x5 x6 x7 x8
      = Cert.Rgcn.layer (Cert.Rgcn.layer x0 (A x1 x2 x0) x3 x4 x5)
          (A x1 x2 (Cert.Rgcn.layer x0 (A x1 x2 x0) x3 x4 x5)) x6 x7 x8 := by
  rw [result_dense, agg2_0, agg2_1, agg2_2, agg2_3, agg2_4, agg2_5, agg2_6, agg2_7, hidden_eq]
  exact dense_eq_layer _ (A x1 x2 _) x6 x7 x8

end Cert.RefSide

end
-- ==== Proof.RefRunT0.lean ====
/- GENERATED by scratch/gen_refrunh.js (run in the unit directory: bun scratch/gen_refrunh.js) from the operation list of the
   generated proof/Proof/Gen/ReferenceIdeal/Run.lean (kept as scratch/Gen_ReferenceIdeal_Run.lean.txt) and the stages of
   proof/Proof/RefReadP.lean. TABLES. The reference program's 436 host operations as eight lists, cut at the printed windows
   `main_part0 … main_part7` (a called function's operations stand in its call's place): each window is the sequence of its list,
   and every operation's buffers are the TensorCore's. -/
import proofs.«171321_j63273458205156_1_alg».proof.Proof.Gen.ReferenceIdeal
import Idealize.ShloMosaic.Lib.StableHlo.Run
import Idealize.ShloMosaic.Lib.Pipeline.Frame

set_option Elab.async false

noncomputable section

namespace Cert.ReferenceIdeal.ValueH

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- @main's operations 1 … 60 of 436 (window `main_part0`). -/
abbrev ops_part0 : List (HloOp τ sig (Elt F)) :=
  [ unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    reshape main_v0 main_v1 rfl shapeCasts_S1x640000_S640000,
    unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    reshape main_v2 main_v3 rfl shapeCasts_S1x640000_S640000,
    binary main_arg0 main_arg4 main_v4 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v5 (broadcastInDim S1x128 ![1] bcast_S128_S1x128_1 : (⟨S128, .f32⟩ : BufTy).Contents (Elt F) → (⟨S1x128, .f32⟩ : BufTy).Contents (Elt F)),
    unary main_v5 main_v6 (broadcastInDim S100000x128 ![0, 1] bcast_S1x128_S100000x128_0_1 : (⟨S1x128, .f32⟩ : BufTy).Contents (Elt F) → (⟨S100000x128, .f32⟩ : BufTy).Contents (Elt F)),
    binary main_v4 main_v6 main_v7 (addf : (⟨S100000x128, .f32⟩ : BufTy).Contents (Elt F) → (⟨S100000x128, .f32⟩ : BufTy).Contents (Elt F) → (⟨S100000x128, .f32⟩ : BufTy).Contents (Elt F)),
    nullary main_c (constantI S_ 32 0#32),
    unary main_c main_v8 (broadcastInDim S640000 ![] bcast_S_S640000 : (⟨S_, .i32⟩ : BufTy).Contents (Elt F) → (⟨S640000, .i32⟩ : BufTy).Contents (Elt F)),
    binary main_v1 main_v8 main_v9 (cmpi .slt : (⟨S640000, .i32⟩ : BufTy).Contents (Elt F) → (⟨S640000, .i32⟩ : BufTy).Contents (Elt F) → (⟨S640000, .i1⟩ : BufTy).Contents (Elt F)),
    nullary main_c_0 (constantI S_ 32 100000#32),
    unary main_c_0 main_v10 (broadcastInDim S640000 ![] bcast_S_S640000 : (⟨S_, .i32⟩ : BufTy).Contents (Elt F) → (⟨S640000, .i32⟩ : BufTy).Contents (Elt F)),
    binary main_v1 main_v10 main_v11 (addi : (⟨S640000, .i32⟩ : BufTy).Contents (Elt F) → (⟨S640000, .i32⟩ : BufTy).Contents (Elt F) → (⟨S640000, .i32⟩ : BufTy).Contents (Elt F)),
    ternary main_v9 main_v11 main_v1 main_v12 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v12 main_v13 (broadcastInDim S640000x1 ![0] bcast_S640000_S640000x1_0 : (⟨S640000, .i32⟩ : BufTy).Contents (Elt F) → (⟨S640000x1, .i32⟩ : BufTy).Contents (Elt F)),
    binary main_arg0 main_v13 main_v14 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    nullary main_c_1 (constantI S_ 32 0#32),
    unary main_c_1 main_v15 (broadcastInDim S640000 ![] bcast_S_S640000 : (⟨S_, .i32⟩ : BufTy).Contents (Elt F) → (⟨S640000, .i32⟩ : BufTy).Contents (Elt F)),
    binary main_arg2 main_v15 main_v16 (cmpi .eq : (⟨S640000, .i32⟩ : BufTy).Contents (Elt F) → (⟨S640000, .i32⟩ : BufTy).Contents (Elt F) → (⟨S640000, .i1⟩ : BufTy).Contents (Elt F)),
    unary main_v16 main_v17 (uitofp .f32 : (⟨S640000, .i1⟩ : BufTy).Contents (Elt F) → (⟨S640000, .f32⟩ : BufTy).Contents (Elt F)),
    unary main_v17 main_v18 (broadcastInDim S640000x1 ![0] bcast_S640000_S640000x1_0 : (⟨S640000, .f32⟩ : BufTy).Contents (Elt F) → (⟨S640000x1, .f32⟩ : BufTy).Contents (Elt F)),
    unary main_v18 main_v19 (broadcastInDim S640000x128 ![0, 1] bcast_S640000x1_S640000x128_0_1 : (⟨S640000x1, .f32⟩ : BufTy).Contents (Elt F) → (⟨S640000x128, .f32⟩ : BufTy).Contents (Elt F)),
    binary main_v14 main_v19 main_v20 (mulf : (⟨S640000x128, .f32⟩ : BufTy).Contents (Elt F) → (⟨S640000x128, .f32⟩ : BufTy).Contents (Elt F) → (⟨S640000x128, .f32⟩ : BufTy).Contents (Elt F)),
    nullary main_cst (constant S_ .f32 0x00000000#32),
    unary main_cst main_v21 (broadcastInDim S100000x128 ![] bcast_S_S100000x128 : (⟨S_, .f32⟩ : BufTy).Contents (Elt F) → (⟨S100000x128, .f32⟩ : BufTy).Contents (Elt F)),
    unary main_v3 main_v22 (broadcastInDim S640000x1 ![0] bcast_S640000_S640000x1_0 : (⟨S640000, .i32⟩ : BufTy).Contents (Elt F) → (⟨S640000x1, .i32⟩ : BufTy).Contents (Elt F)),
    ternary main_v21 main_v22 main_v20 main_v23 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    nullary main_cst_2 (constant S_ .f32 0x00000000#32),
    unary main_cst_2 main_v24 (broadcastInDim S100000 ![] bcast_S_S100000 : (⟨S_, .f32⟩ : BufTy).Contents (Elt F) → (⟨S100000, .f32⟩ : BufTy).Contents (Elt F)),
    unary main_v3 main_v25 (broadcastInDim S640000x1 ![0] bcast_S640000_S640000x1_0 : (⟨S640000, .i32⟩ : BufTy).Contents (Elt F) → (⟨S640000x1, .i32⟩ : BufTy).Contents (Elt F)),
    ternary main_v24 main_v25 main_v17 main_v26 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    nullary main_cst_3 (constant S_ .f32 0x3F800000#32),
    unary main_cst_3 main_v27 (broadcastInDim S100000 ![] bcast_S_S100000 : (⟨S_, .f32⟩ : BufTy).Contents (Elt F) → (⟨S100000, .f32⟩ : BufTy).Contents (Elt F)),
    binary main_v26 main_v27 main_v28 (maximumf : (⟨S100000, .f32⟩ : BufTy).Contents (Elt F) → (⟨S100000, .f32⟩ : BufTy).Contents (Elt F) → (⟨S100000, .f32⟩ : BufTy).Contents (Elt F)),
    unary main_v28 main_v29 (broadcastInDim S100000x1 ![0] bcast_S100000_S100000x1_0 : (⟨S100000, .f32⟩ : BufTy).Contents (Elt F) → (⟨S100000x1, .f32⟩ : BufTy).Contents (Elt F)),
    unary main_v29 main_v30 (broadcastInDim S100000x128 ![0, 1] bcast_S100000x1_S100000x128_0_1 : (⟨S100000x1, .f32⟩ : BufTy).Contents (Elt F) → (⟨S100000x128, .f32⟩ : BufTy).Contents (Elt F)),
    binary main_v23 main_v30 main_v31 (Host.divf : (⟨S100000x128, .f32⟩ : BufTy).Contents (Elt F) → (⟨S100000x128, .f32⟩ : BufTy).Contents (Elt F) → (⟨S100000x128, .f32⟩ : BufTy).Contents (Elt F)),
    unary main_arg3 main_v32 ((extractStridedSlice S1x128x128 ![0, 0, 0] · slices_S8x128x128_S1x128x128_0_0_0) : (⟨S8x128x128, .f32⟩ : BufTy).Contents (Elt F) → (⟨S1x128x128, .f32⟩ : BufTy).Contents (Elt F)),
    reshape main_v32 main_v33 rfl shapeCasts_S1x128x128_S128x128,
    binary main_v31 main_v33 main_v34 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v7 main_v34 main_v35 (addf : (⟨S100000x128, .f32⟩ : BufTy).Contents (Elt F) → (⟨S100000x128, .f32⟩ : BufTy).Contents (Elt F) → (⟨S100000x128, .f32⟩ : BufTy).Contents (Elt F)),
    nullary main_c_4 (constantI S_ 32 1#32),
    unary main_c_4 main_v36 (broadcastInDim S640000 ![] bcast_S_S640000 : (⟨S_, .i32⟩ : BufTy).Contents (Elt F) → (⟨S640000, .i32⟩ : BufTy).Contents (Elt F)),
    binary main_arg2 main_v36 main_v37 (cmpi .eq : (⟨S640000, .i32⟩ : BufTy).Contents (Elt F) → (⟨S640000, .i32⟩ : BufTy).Contents (Elt F) → (⟨S640000, .i1⟩ : BufTy).Contents (Elt F)),
    unary main_v37 main_v38 (uitofp .f32 : (⟨S640000, .i1⟩ : BufTy).Contents (Elt F) → (⟨S640000, .f32⟩ : BufTy).Contents (Elt F)),
    unary main_v38 main_v39 (broadcastInDim S640000x1 ![0] bcast_S640000_S640000x1_0 : (⟨S640000, .f32⟩ : BufTy).Contents (Elt F) → (⟨S640000x1, .f32⟩ : BufTy).Contents (Elt F)),
    unary main_v39 main_v40 (broadcastInDim S640000x128 ![0, 1] bcast_S640000x1_S640000x128_0_1 : (⟨S640000x1, .f32⟩ : BufTy).Contents (Elt F) → (⟨S640000x128, .f32⟩ : BufTy).Contents (Elt F)),
    binary main_v14 main_v40 main_v41 (mulf : (⟨S640000x128, .f32⟩ : BufTy).Contents (Elt F) → (⟨S640000x128, .f32⟩ : BufTy).Contents (Elt F) → (⟨S640000x128, .f32⟩ : BufTy).Contents (Elt F)),
    nullary main_cst_5 (constant S_ .f32 0x00000000#32),
    unary main_cst_5 main_v42 (broadcastInDim S100000x128 ![] bcast_S_S100000x128 : (⟨S_, .f32⟩ : BufTy).Contents (Elt F) → (⟨S100000x128, .f32⟩ : BufTy).Contents (Elt F)),
    unary main_v3 main_v43 (broadcastInDim S640000x1 ![0] bcast_S640000_S640000x1_0 : (⟨S640000, .i32⟩ : BufTy).Contents (Elt F) → (⟨S640000x1, .i32⟩ : BufTy).Contents (Elt F)),
    ternary main_v42 main_v43 main_v41 main_v44 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    nullary main_cst_6 (constant S_ .f32 0x00000000#32),
    unary main_cst_6 main_v45 (broadcastInDim S100000 ![] bcast_S_S100000 : (⟨S_, .f32⟩ : BufTy).Contents (Elt F) → (⟨S100000, .f32⟩ : BufTy).Contents (Elt F)),
    unary main_v3 main_v46 (broadcastInDim S640000x1 ![0] bcast_S640000_S640000x1_0 : (⟨S640000, .i32⟩ : BufTy).Contents (Elt F) → (⟨S640000x1, .i32⟩ : BufTy).Contents (Elt F)),
    ternary main_v45 main_v46 main_v38 main_v47 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    nullary main_cst_7 (constant S_ .f32 0x3F800000#32),
    unary main_cst_7 main_v48 (broadcastInDim S100000 ![] bcast_S_S100000 : (⟨S_, .f32⟩ : BufTy).Contents (Elt F) → (⟨S100000, .f32⟩ : BufTy).Contents (Elt F)),
    binary main_v47 main_v48 main_v49 (maximumf : (⟨S100000, .f32⟩ : BufTy).Contents (Elt F) → (⟨S100000, .f32⟩ : BufTy).Contents (Elt F) → (⟨S100000, .f32⟩ : BufTy).Contents (Elt F)) ]

set_option maxHeartbeats 4000000 in
/-- @main's operations 61 … 120 of 436 (window `main_part1`). -/
abbrev ops_part1 : List (HloOp τ sig (Elt F)) :=
  [ unary main_v49 main_v50 (broadcastInDim S100000x1 ![0] bcast_S100000_S100000x1_0 : (⟨S100000, .f32⟩ : BufTy).Contents (Elt F) → (⟨S100000x1, .f32⟩ : BufTy).Contents (Elt F)),
    unary main_v50 main_v51 (broadcastInDim S100000x128 ![0, 1] bcast_S100000x1_S100000x128_0_1 : (⟨S100000x1, .f32⟩ : BufTy).Contents (Elt F) → (⟨S100000x128, .f32⟩ : BufTy).Contents (Elt F)),
    binary main_v44 main_v51 main_v52 (Host.divf : (⟨S100000x128, .f32⟩ : BufTy).Contents (Elt F) → (⟨S100000x128, .f32⟩ : BufTy).Contents (Elt F) → (⟨S100000x128, .f32⟩ : BufTy).Contents (Elt F)),
    unary main_arg3 main_v53 ((extractStridedSlice S1x128x128 ![1, 0, 0] · slices_S8x128x128_S1x128x128_1_0_0) : (⟨S8x128x128, .f32⟩ : BufTy).Contents (Elt F) → (⟨S1x128x128, .f32⟩ : BufTy).Contents (Elt F)),
    reshape main_v53 main_v54 rfl shapeCasts_S1x128x128_S128x128,
    binary main_v52 main_v54 main_v55 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v35 main_v55 main_v56 (addf : (⟨S100000x128, .f32⟩ : BufTy).Contents (Elt F) → (⟨S100000x128, .f32⟩ : BufTy).Contents (Elt F) → (⟨S100000x128, .f32⟩ : BufTy).Contents (Elt F)),
    nullary main_c_8 (constantI S_ 32 2#32),
    unary main_c_8 main_v57 (broadcastInDim S640000 ![] bcast_S_S640000 : (⟨S_, .i32⟩ : BufTy).Contents (Elt F) → (⟨S640000, .i32⟩ : BufTy).Contents (Elt F)),
    binary main_arg2 main_v57 main_v58 (cmpi .eq : (⟨S640000, .i32⟩ : BufTy).Contents (Elt F) → (⟨S640000, .i32⟩ : BufTy).Contents (Elt F) → (⟨S640000, .i1⟩ : BufTy).Contents (Elt F)),
    unary main_v58 main_v59 (uitofp .f32 : (⟨S640000, .i1⟩ : BufTy).Contents (Elt F) → (⟨S640000, .f32⟩ : BufTy).Contents (Elt F)),
    unary main_v59 main_v60 (broadcastInDim S640000x1 ![0] bcast_S640000_S640000x1_0 : (⟨S640000, .f32⟩ : BufTy).Contents (Elt F) → (⟨S640000x1, .f32⟩ : BufTy).Contents (Elt F)),
    unary main_v60 main_v61 (broadcastInDim S640000x128 ![0, 1] bcast_S640000x1_S640000x128_0_1 : (⟨S640000x1, .f32⟩ : BufTy).Contents (Elt F) → (⟨S640000x128, .f32⟩ : BufTy).Contents (Elt F)),
    binary main_v14 main_v61 main_v62 (mulf : (⟨S640000x128, .f32⟩ : BufTy).Contents (Elt F) → (⟨S640000x128, .f32⟩ : BufTy).Contents (Elt F) → (⟨S640000x128, .f32⟩ : BufTy).Contents (Elt F)),
    nullary main_cst_9 (constant S_ .f32 0x00000000#32),
    unary main_cst_9 main_v63 (broadcastInDim S100000x128 ![] bcast_S_S100000x128 : (⟨S_, .f32⟩ : BufTy).Contents (Elt F) → (⟨S100000x128, .f32⟩ : BufTy).Contents (Elt F)),
    unary main_v3 main_v64 (broadcastInDim S640000x1 ![0] bcast_S640000_S640000x1_0 : (⟨S640000, .i32⟩ : BufTy).Contents (Elt F) → (⟨S640000x1, .i32⟩ : BufTy).Contents (Elt F)),
    ternary main_v63 main_v64 main_v62 main_v65 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    nullary main_cst_10 (constant S_ .f32 0x00000000#32),
    unary main_cst_10 main_v66 (broadcastInDim S100000 ![] bcast_S_S100000 : (⟨S_, .f32⟩ : BufTy).Contents (Elt F) → (⟨S100000, .f32⟩ : BufTy).Contents (Elt F)),
    unary main_v3 main_v67 (broadcastInDim S640000x1 ![0] bcast_S640000_S640000x1_0 : (⟨S640000, .i32⟩ : BufTy).Contents (Elt F) → (⟨S640000x1, .i32⟩ : BufTy).Contents (Elt F)),
    ternary main_v66 main_v67 main_v59 main_v68 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    nullary main_cst_11 (constant S_ .f32 0x3F800000#32),
    unary main_cst_11 main_v69 (broadcastInDim S100000 ![] bcast_S_S100000 : (⟨S_, .f32⟩ : BufTy).Contents (Elt F) → (⟨S100000, .f32⟩ : BufTy).Contents (Elt F)),
    binary main_v68 main_v69 main_v70 (maximumf : (⟨S100000, .f32⟩ : BufTy).Contents (Elt F) → (⟨S100000, .f32⟩ : BufTy).Contents (Elt F) → (⟨S100000, .f32⟩ : BufTy).Contents (Elt F)),
    unary main_v70 main_v71 (broadcastInDim S100000x1 ![0] bcast_S100000_S100000x1_0 : (⟨S100000, .f32⟩ : BufTy).Contents (Elt F) → (⟨S100000x1, .f32⟩ : BufTy).Contents (Elt F)),
    unary main_v71 main_v72 (broadcastInDim S100000x128 ![0, 1] bcast_S100000x1_S100000x128_0_1 : (⟨S100000x1, .f32⟩ : BufTy).Contents (Elt F) → (⟨S100000x128, .f32⟩ : BufTy).Contents (Elt F)),
    binary main_v65 main_v72 main_v73 (Host.divf : (⟨S100000x128, .f32⟩ : BufTy).Contents (Elt F) → (⟨S100000x128, .f32⟩ : BufTy).Contents (Elt F) → (⟨S100000x128, .f32⟩ : BufTy).Contents (Elt F)),
    unary main_arg3 main_v74 ((extractStridedSlice S1x128x128 ![2, 0, 0] · slices_S8x128x128_S1x128x128_2_0_0) : (⟨S8x128x128, .f32⟩ : BufTy).Contents (Elt F) → (⟨S1x128x128, .f32⟩ : BufTy).Contents (Elt F)),
    reshape main_v74 main_v75 rfl shapeCasts_S1x128x128_S128x128,
    binary main_v73 main_v75 main_v76 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v56 main_v76 main_v77 (addf : (⟨S100000x128, .f32⟩ : BufTy).Contents (Elt F) → (⟨S100000x128, .f32⟩ : BufTy).Contents (Elt F) → (⟨S100000x128, .f32⟩ : BufTy).Contents (Elt F)),
    nullary main_c_12 (constantI S_ 32 3#32),
    unary main_c_12 main_v78 (broadcastInDim S640000 ![] bcast_S_S640000 : (⟨S_, .i32⟩ : BufTy).Contents (Elt F) → (⟨S640000, .i32⟩ : BufTy).Contents (Elt F)),
    binary main_arg2 main_v78 main_v79 (cmpi .eq : (⟨S640000, .i32⟩ : BufTy).Contents (Elt F) → (⟨S640000, .i32⟩ : BufTy).Contents (Elt F) → (⟨S640000, .i1⟩ : BufTy).Contents (Elt F)),
    unary main_v79 main_v80 (uitofp .f32 : (⟨S640000, .i1⟩ : BufTy).Contents (Elt F) → (⟨S640000, .f32⟩ : BufTy).Contents (Elt F)),
    unary main_v80 main_v81 (broadcastInDim S640000x1 ![0] bcast_S640000_S640000x1_0 : (⟨S640000, .f32⟩ : BufTy).Contents (Elt F) → (⟨S640000x1, .f32⟩ : BufTy).Contents (Elt F)),
    unary main_v81 main_v82 (broadcastInDim S640000x128 ![0, 1] bcast_S640000x1_S640000x128_0_1 : (⟨S640000x1, .f32⟩ : BufTy).Contents (Elt F) → (⟨S640000x128, .f32⟩ : BufTy).Contents (Elt F)),
    binary main_v14 main_v82 main_v83 (mulf : (⟨S640000x128, .f32⟩ : BufTy).Contents (Elt F) → (⟨S640000x128, .f32⟩ : BufTy).Contents (Elt F) → (⟨S640000x128, .f32⟩ : BufTy).Contents (Elt F)),
    nullary main_cst_13 (constant S_ .f32 0x00000000#32),
    unary main_cst_13 main_v84 (broadcastInDim S100000x128 ![] bcast_S_S100000x128 : (⟨S_, .f32⟩ : BufTy).Contents (Elt F) → (⟨S100000x128, .f32⟩ : BufTy).Contents (Elt F)),
    unary main_v3 main_v85 (broadcastInDim S640000x1 ![0] bcast_S640000_S640000x1_0 : (⟨S640000, .i32⟩ : BufTy).Contents (Elt F) → (⟨S640000x1, .i32⟩ : BufTy).Contents (Elt F)),
    ternary main_v84 main_v85 main_v83 main_v86 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    nullary main_cst_14 (constant S_ .f32 0x00000000#32),
    unary main_cst_14 main_v87 (broadcastInDim S100000 ![] bcast_S_S100000 : (⟨S_, .f32⟩ : BufTy).Contents (Elt F) → (⟨S100000, .f32⟩ : BufTy).Contents (Elt F)),
    unary main_v3 main_v88 (broadcastInDim S640000x1 ![0] bcast_S640000_S640000x1_0 : (⟨S640000, .i32⟩ : BufTy).Contents (Elt F) → (⟨S640000x1, .i32⟩ : BufTy).Contents (Elt F)),
    ternary main_v87 main_v88 main_v80 main_v89 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    nullary main_cst_15 (constant S_ .f32 0x3F800000#32),
    unary main_cst_15 main_v90 (broadcastInDim S100000 ![] bcast_S_S100000 : (⟨S_, .f32⟩ : BufTy).Contents (Elt F) → (⟨S100000, .f32⟩ : BufTy).Contents (Elt F)),
    binary main_v89 main_v90 main_v91 (maximumf : (⟨S100000, .f32⟩ : BufTy).Contents (Elt F) → (⟨S100000, .f32⟩ : BufTy).Contents (Elt F) → (⟨S100000, .f32⟩ : BufTy).Contents (Elt F)),
    unary main_v91 main_v92 (broadcastInDim S100000x1 ![0] bcast_S100000_S100000x1_0 : (⟨S100000, .f32⟩ : BufTy).Contents (Elt F) → (⟨S100000x1, .f32⟩ : BufTy).Contents (Elt F)),
    unary main_v92 main_v93 (broadcastInDim S100000x128 ![0, 1] bcast_S100000x1_S100000x128_0_1 : (⟨S100000x1, .f32⟩ : BufTy).Contents (Elt F) → (⟨S100000x128, .f32⟩ : BufTy).Contents (Elt F)),
    binary main_v86 main_v93 main_v94 (Host.divf : (⟨S100000x128, .f32⟩ : BufTy).Contents (Elt F) → (⟨S100000x128, .f32⟩ : BufTy).Contents (Elt F) → (⟨S100000x128, .f32⟩ : BufTy).Contents (Elt F)),
    unary main_arg3 main_v95 ((extractStridedSlice S1x128x128 ![3, 0, 0] · slices_S8x128x128_S1x128x128_3_0_0) : (⟨S8x128x128, .f32⟩ : BufTy).Contents (Elt F) → (⟨S1x128x128, .f32⟩ : BufTy).Contents (Elt F)),
    reshape main_v95 main_v96 rfl shapeCasts_S1x128x128_S128x128,
    binary main_v94 main_v96 main_v97 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v77 main_v97 main_v98 (addf : (⟨S100000x128, .f32⟩ : BufTy).Contents (Elt F) → (⟨S100000x128, .f32⟩ : BufTy).Contents (Elt F) → (⟨S100000x128, .f32⟩ : BufTy).Contents (Elt F)),
    nullary main_c_16 (constantI S_ 32 4#32),
    unary main_c_16 main_v99 (broadcastInDim S640000 ![] bcast_S_S640000 : (⟨S_, .i32⟩ : BufTy).Contents (Elt F) → (⟨S640000, .i32⟩ : BufTy).Contents (Elt F)),
    binary main_arg2 main_v99 main_v100 (cmpi .eq : (⟨S640000, .i32⟩ : BufTy).Contents (Elt F) → (⟨S640000, .i32⟩ : BufTy).Contents (Elt F) → (⟨S640000, .i1⟩ : BufTy).Contents (Elt F)) ]

set_option maxHeartbeats 4000000 in
/-- @main's operations 121 … 180 of 436 (window `main_part2`). -/
abbrev ops_part2 : List (HloOp τ sig (Elt F)) :=
  [ unary main_v100 main_v101 (uitofp .f32 : (⟨S640000, .i1⟩ : BufTy).Contents (Elt F) → (⟨S640000, .f32⟩ : BufTy).Contents (Elt F)),
    unary main_v101 main_v102 (broadcastInDim S640000x1 ![0] bcast_S640000_S640000x1_0 : (⟨S640000, .f32⟩ : BufTy).Contents (Elt F) → (⟨S640000x1, .f32⟩ : BufTy).Contents (Elt F)),
    unary main_v102 main_v103 (broadcastInDim S640000x128 ![0, 1] bcast_S640000x1_S640000x128_0_1 : (⟨S640000x1, .f32⟩ : BufTy).Contents (Elt F) → (⟨S640000x128, .f32⟩ : BufTy).Contents (Elt F)),
    binary main_v14 main_v103 main_v104 (mulf : (⟨S640000x128, .f32⟩ : BufTy).Contents (Elt F) → (⟨S640000x128, .f32⟩ : BufTy).Contents (Elt F) → (⟨S640000x128, .f32⟩ : BufTy).Contents (Elt F)),
    nullary main_cst_17 (constant S_ .f32 0x00000000#32),
    unary main_cst_17 main_v105 (broadcastInDim S100000x128 ![] bcast_S_S100000x128 : (⟨S_, .f32⟩ : BufTy).Contents (Elt F) → (⟨S100000x128, .f32⟩ : BufTy).Contents (Elt F)),
    unary main_v3 main_v106 (broadcastInDim S640000x1 ![0] bcast_S640000_S640000x1_0 : (⟨S640000, .i32⟩ : BufTy).Contents (Elt F) → (⟨S640000x1, .i32⟩ : BufTy).Contents (Elt F)),
    ternary main_v105 main_v106 main_v104 main_v107 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    nullary main_cst_18 (constant S_ .f32 0x00000000#32),
    unary main_cst_18 main_v108 (broadcastInDim S100000 ![] bcast_S_S100000 : (⟨S_, .f32⟩ : BufTy).Contents (Elt F) → (⟨S100000, .f32⟩ : BufTy).Contents (Elt F)),
    unary main_v3 main_v109 (broadcastInDim S640000x1 ![0] bcast_S640000_S640000x1_0 : (⟨S640000, .i32⟩ : BufTy).Contents (Elt F) → (⟨S640000x1, .i32⟩ : BufTy).Contents (Elt F)),
    ternary main_v108 main_v109 main_v101 main_v110 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    nullary main_cst_19 (constant S_ .f32 0x3F800000#32),
    unary main_cst_19 main_v111 (broadcastInDim S100000 ![] bcast_S_S100000 : (⟨S_, .f32⟩ : BufTy).Contents (Elt F) → (⟨S100000, .f32⟩ : BufTy).Contents (Elt F)),
    binary main_v110 main_v111 main_v112 (maximumf : (⟨S100000, .f32⟩ : BufTy).Contents (Elt F) → (⟨S100000, .f32⟩ : BufTy).Contents (Elt F) → (⟨S100000, .f32⟩ : BufTy).Contents (Elt F)),
    unary main_v112 main_v113 (broadcastInDim S100000x1 ![0] bcast_S100000_S100000x1_0 : (⟨S100000, .f32⟩ : BufTy).Contents (Elt F) → (⟨S100000x1, .f32⟩ : BufTy).Contents (Elt F)),
    unary main_v113 main_v114 (broadcastInDim S100000x128 ![0, 1] bcast_S100000x1_S100000x128_0_1 : (⟨S100000x1, .f32⟩ : BufTy).Contents (Elt F) → (⟨S100000x128, .f32⟩ : BufTy).Contents (Elt F)),
    binary main_v107 main_v114 main_v115 (Host.divf : (⟨S100000x128, .f32⟩ : BufTy).Contents (Elt F) → (⟨S100000x128, .f32⟩ : BufTy).Contents (Elt F) → (⟨S100000x128, .f32⟩ : BufTy).Contents (Elt F)),
    unary main_arg3 main_v116 ((extractStridedSlice S1x128x128 ![4, 0, 0] · slices_S8x128x128_S1x128x128_4_0_0) : (⟨S8x128x128, .f32⟩ : BufTy).Contents (Elt F) → (⟨S1x128x128, .f32⟩ : BufTy).Contents (Elt F)),
    reshape main_v116 main_v117 rfl shapeCasts_S1x128x128_S128x128,
    binary main_v115 main_v117 main_v118 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v98 main_v118 main_v119 (addf : (⟨S100000x128, .f32⟩ : BufTy).Contents (Elt F) → (⟨S100000x128, .f32⟩ : BufTy).Contents (Elt F) → (⟨S100000x128, .f32⟩ : BufTy).Contents (Elt F)),
    nullary main_c_20 (constantI S_ 32 5#32),
    unary main_c_20 main_v120 (broadcastInDim S640000 ![] bcast_S_S640000 : (⟨S_, .i32⟩ : BufTy).Contents (Elt F) → (⟨S640000, .i32⟩ : BufTy).Contents (Elt F)),
    binary main_arg2 main_v120 main_v121 (cmpi .eq : (⟨S640000, .i32⟩ : BufTy).Contents (Elt F) → (⟨S640000, .i32⟩ : BufTy).Contents (Elt F) → (⟨S640000, .i1⟩ : BufTy).Contents (Elt F)),
    unary main_v121 main_v122 (uitofp .f32 : (⟨S640000, .i1⟩ : BufTy).Contents (Elt F) → (⟨S640000, .f32⟩ : BufTy).Contents (Elt F)),
    unary main_v122 main_v123 (broadcastInDim S640000x1 ![0] bcast_S640000_S640000x1_0 : (⟨S640000, .f32⟩ : BufTy).Contents (Elt F) → (⟨S640000x1, .f32⟩ : BufTy).Contents (Elt F)),
    unary main_v123 main_v124 (broadcastInDim S640000x128 ![0, 1] bcast_S640000x1_S640000x128_0_1 : (⟨S640000x1, .f32⟩ : BufTy).Contents (Elt F) → (⟨S640000x128, .f32⟩ : BufTy).Contents (Elt F)),
    binary main_v14 main_v124 main_v125 (mulf : (⟨S640000x128, .f32⟩ : BufTy).Contents (Elt F) → (⟨S640000x128, .f32⟩ : BufTy).Contents (Elt F) → (⟨S640000x128, .f32⟩ : BufTy).Contents (Elt F)),
    nullary main_cst_21 (constant S_ .f32 0x00000000#32),
    unary main_cst_21 main_v126 (broadcastInDim S100000x128 ![] bcast_S_S100000x128 : (⟨S_, .f32⟩ : BufTy).Contents (Elt F) → (⟨S100000x128, .f32⟩ : BufTy).Contents (Elt F)),
    unary main_v3 main_v127 (broadcastInDim S640000x1 ![0] bcast_S640000_S640000x1_0 : (⟨S640000, .i32⟩ : BufTy).Contents (Elt F) → (⟨S640000x1, .i32⟩ : BufTy).Contents (Elt F)),
    ternary main_v126 main_v127 main_v125 main_v128 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    nullary main_cst_22 (constant S_ .f32 0x00000000#32),
    unary main_cst_22 main_v129 (broadcastInDim S100000 ![] bcast_S_S100000 : (⟨S_, .f32⟩ : BufTy).Contents (Elt F) → (⟨S100000, .f32⟩ : BufTy).Contents (Elt F)),
    unary main_v3 main_v130 (broadcastInDim S640000x1 ![0] bcast_S640000_S640000x1_0 : (⟨S640000, .i32⟩ : BufTy).Contents (Elt F) → (⟨S640000x1, .i32⟩ : BufTy).Contents (Elt F)),
    ternary main_v129 main_v130 main_v122 main_v131 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    nullary main_cst_23 (constant S_ .f32 0x3F800000#32),
    unary main_cst_23 main_v132 (broadcastInDim S100000 ![] bcast_S_S100000 : (⟨S_, .f32⟩ : BufTy).Contents (Elt F) → (⟨S100000, .f32⟩ : BufTy).Contents (Elt F)),
    binary main_v131 main_v132 main_v133 (maximumf : (⟨S100000, .f32⟩ : BufTy).Contents (Elt F) → (⟨S100000, .f32⟩ : BufTy).Contents (Elt F) → (⟨S100000, .f32⟩ : BufTy).Contents (Elt F)),
    unary main_v133 main_v134 (broadcastInDim S100000x1 ![0] bcast_S100000_S100000x1_0 : (⟨S100000, .f32⟩ : BufTy).Contents (Elt F) → (⟨S100000x1, .f32⟩ : BufTy).Contents (Elt F)),
    unary main_v134 main_v135 (broadcastInDim S100000x128 ![0, 1] bcast_S100000x1_S100000x128_0_1 : (⟨S100000x1, .f32⟩ : BufTy).Contents (Elt F) → (⟨S100000x128, .f32⟩ : BufTy).Contents (Elt F)),
    binary main_v128 main_v135 main_v136 (Host.divf : (⟨S100000x128, .f32⟩ : BufTy).Contents (Elt F) → (⟨S100000x128, .f32⟩ : BufTy).Contents (Elt F) → (⟨S100000x128, .f32⟩ : BufTy).Contents (Elt F)),
    unary main_arg3 main_v137 ((extractStridedSlice S1x128x128 ![5, 0, 0] · slices_S8x128x128_S1x128x128_5_0_0) : (⟨S8x128x128, .f32⟩ : BufTy).Contents (Elt F) → (⟨S1x128x128, .f32⟩ : BufTy).Contents (Elt F)),
    reshape main_v137 main_v138 rfl shapeCasts_S1x128x128_S128x128,
    binary main_v136 main_v138 main_v139 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v119 main_v139 main_v140 (addf : (⟨S100000x128, .f32⟩ : BufTy).Contents (Elt F) → (⟨S100000x128, .f32⟩ : BufTy).Contents (Elt F) → (⟨S100000x128, .f32⟩ : BufTy).Contents (Elt F)),
    nullary main_c_24 (constantI S_ 32 6#32),
    unary main_c_24 main_v141 (broadcastInDim S640000 ![] bcast_S_S640000 : (⟨S_, .i32⟩ : BufTy).Contents (Elt F) → (⟨S640000, .i32⟩ : BufTy).Contents (Elt F)),
    binary main_arg2 main_v141 main_v142 (cmpi .eq : (⟨S640000, .i32⟩ : BufTy).Contents (Elt F) → (⟨S640000, .i32⟩ : BufTy).Contents (Elt F) → (⟨S640000, .i1⟩ : BufTy).Contents (Elt F)),
    unary main_v142 main_v143 (uitofp .f32 : (⟨S640000, .i1⟩ : BufTy).Contents (Elt F) → (⟨S640000, .f32⟩ : BufTy).Contents (Elt F)),
    unary main_v143 main_v144 (broadcastInDim S640000x1 ![0] bcast_S640000_S640000x1_0 : (⟨S640000, .f32⟩ : BufTy).Contents (Elt F) → (⟨S640000x1, .f32⟩ : BufTy).Contents (Elt F)),
    unary main_v144 main_v145 (broadcastInDim S640000x128 ![0, 1] bcast_S640000x1_S640000x128_0_1 : (⟨S640000x1, .f32⟩ : BufTy).Contents (Elt F) → (⟨S640000x128, .f32⟩ : BufTy).Contents (Elt F)),
    binary main_v14 main_v145 main_v146 (mulf : (⟨S640000x128, .f32⟩ : BufTy).Contents (Elt F) → (⟨S640000x128, .f32⟩ : BufTy).Contents (Elt F) → (⟨S640000x128, .f32⟩ : BufTy).Contents (Elt F)),
    nullary main_cst_25 (constant S_ .f32 0x00000000#32),
    unary main_cst_25 main_v147 (broadcastInDim S100000x128 ![] bcast_S_S100000x128 : (⟨S_, .f32⟩ : BufTy).Contents (Elt F) → (⟨S100000x128, .f32⟩ : BufTy).Contents (Elt F)),
    unary main_v3 main_v148 (broadcastInDim S640000x1 ![0] bcast_S640000_S640000x1_0 : (⟨S640000, .i32⟩ : BufTy).Contents (Elt F) → (⟨S640000x1, .i32⟩ : BufTy).Contents (Elt F)),
    ternary main_v147 main_v148 main_v146 main_v149 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    nullary main_cst_26 (constant S_ .f32 0x00000000#32),
    unary main_cst_26 main_v150 (broadcastInDim S100000 ![] bcast_S_S100000 : (⟨S_, .f32⟩ : BufTy).Contents (Elt F) → (⟨S100000, .f32⟩ : BufTy).Contents (Elt F)) ]

set_option maxHeartbeats 4000000 in
/-- @main's operations 181 … 242 of 436 (window `main_part3`). -/
abbrev ops_part3 : List (HloOp τ sig (Elt F)) :=
  [ unary main_v3 main_v151 (broadcastInDim S640000x1 ![0] bcast_S640000_S640000x1_0 : (⟨S640000, .i32⟩ : BufTy).Contents (Elt F) → (⟨S640000x1, .i32⟩ : BufTy).Contents (Elt F)),
    ternary main_v150 main_v151 main_v143 main_v152 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    nullary main_cst_27 (constant S_ .f32 0x3F800000#32),
    unary main_cst_27 main_v153 (broadcastInDim S100000 ![] bcast_S_S100000 : (⟨S_, .f32⟩ : BufTy).Contents (Elt F) → (⟨S100000, .f32⟩ : BufTy).Contents (Elt F)),
    binary main_v152 main_v153 main_v154 (maximumf : (⟨S100000, .f32⟩ : BufTy).Contents (Elt F) → (⟨S100000, .f32⟩ : BufTy).Contents (Elt F) → (⟨S100000, .f32⟩ : BufTy).Contents (Elt F)),
    unary main_v154 main_v155 (broadcastInDim S100000x1 ![0] bcast_S100000_S100000x1_0 : (⟨S100000, .f32⟩ : BufTy).Contents (Elt F) → (⟨S100000x1, .f32⟩ : BufTy).Contents (Elt F)),
    unary main_v155 main_v156 (broadcastInDim S100000x128 ![0, 1] bcast_S100000x1_S100000x128_0_1 : (⟨S100000x1, .f32⟩ : BufTy).Contents (Elt F) → (⟨S100000x128, .f32⟩ : BufTy).Contents (Elt F)),
    binary main_v149 main_v156 main_v157 (Host.divf : (⟨S100000x128, .f32⟩ : BufTy).Contents (Elt F) → (⟨S100000x128, .f32⟩ : BufTy).Contents (Elt F) → (⟨S100000x128, .f32⟩ : BufTy).Contents (Elt F)),
    unary main_arg3 main_v158 ((extractStridedSlice S1x128x128 ![6, 0, 0] · slices_S8x128x128_S1x128x128_6_0_0) : (⟨S8x128x128, .f32⟩ : BufTy).Contents (Elt F) → (⟨S1x128x128, .f32⟩ : BufTy).Contents (Elt F)),
    reshape main_v158 main_v159 rfl shapeCasts_S1x128x128_S128x128,
    binary main_v157 main_v159 main_v160 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v140 main_v160 main_v161 (addf : (⟨S100000x128, .f32⟩ : BufTy).Contents (Elt F) → (⟨S100000x128, .f32⟩ : BufTy).Contents (Elt F) → (⟨S100000x128, .f32⟩ : BufTy).Contents (Elt F)),
    nullary main_c_28 (constantI S_ 32 7#32),
    unary main_c_28 main_v162 (broadcastInDim S640000 ![] bcast_S_S640000 : (⟨S_, .i32⟩ : BufTy).Contents (Elt F) → (⟨S640000, .i32⟩ : BufTy).Contents (Elt F)),
    binary main_arg2 main_v162 main_v163 (cmpi .eq : (⟨S640000, .i32⟩ : BufTy).Contents (Elt F) → (⟨S640000, .i32⟩ : BufTy).Contents (Elt F) → (⟨S640000, .i1⟩ : BufTy).Contents (Elt F)),
    unary main_v163 main_v164 (uitofp .f32 : (⟨S640000, .i1⟩ : BufTy).Contents (Elt F) → (⟨S640000, .f32⟩ : BufTy).Contents (Elt F)),
    unary main_v164 main_v165 (broadcastInDim S640000x1 ![0] bcast_S640000_S640000x1_0 : (⟨S640000, .f32⟩ : BufTy).Contents (Elt F) → (⟨S640000x1, .f32⟩ : BufTy).Contents (Elt F)),
    unary main_v165 main_v166 (broadcastInDim S640000x128 ![0, 1] bcast_S640000x1_S640000x128_0_1 : (⟨S640000x1, .f32⟩ : BufTy).Contents (Elt F) → (⟨S640000x128, .f32⟩ : BufTy).Contents (Elt F)),
    binary main_v14 main_v166 main_v167 (mulf : (⟨S640000x128, .f32⟩ : BufTy).Contents (Elt F) → (⟨S640000x128, .f32⟩ : BufTy).Contents (Elt F) → (⟨S640000x128, .f32⟩ : BufTy).Contents (Elt F)),
    nullary main_cst_29 (constant S_ .f32 0x00000000#32),
    unary main_cst_29 main_v168 (broadcastInDim S100000x128 ![] bcast_S_S100000x128 : (⟨S_, .f32⟩ : BufTy).Contents (Elt F) → (⟨S100000x128, .f32⟩ : BufTy).Contents (Elt F)),
    unary main_v3 main_v169 (broadcastInDim S640000x1 ![0] bcast_S640000_S640000x1_0 : (⟨S640000, .i32⟩ : BufTy).Contents (Elt F) → (⟨S640000x1, .i32⟩ : BufTy).Contents (Elt F)),
    ternary main_v168 main_v169 main_v167 main_v170 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    nullary main_cst_30 (constant S_ .f32 0x00000000#32),
    unary main_cst_30 main_v171 (broadcastInDim S100000 ![] bcast_S_S100000 : (⟨S_, .f32⟩ : BufTy).Contents (Elt F) → (⟨S100000, .f32⟩ : BufTy).Contents (Elt F)),
    unary main_v3 main_v172 (broadcastInDim S640000x1 ![0] bcast_S640000_S640000x1_0 : (⟨S640000, .i32⟩ : BufTy).Contents (Elt F) → (⟨S640000x1, .i32⟩ : BufTy).Contents (Elt F)),
    ternary main_v171 main_v172 main_v164 main_v173 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    nullary main_cst_31 (constant S_ .f32 0x3F800000#32),
    unary main_cst_31 main_v174 (broadcastInDim S100000 ![] bcast_S_S100000 : (⟨S_, .f32⟩ : BufTy).Contents (Elt F) → (⟨S100000, .f32⟩ : BufTy).Contents (Elt F)),
    binary main_v173 main_v174 main_v175 (maximumf : (⟨S100000, .f32⟩ : BufTy).Contents (Elt F) → (⟨S100000, .f32⟩ : BufTy).Contents (Elt F) → (⟨S100000, .f32⟩ : BufTy).Contents (Elt F)),
    unary main_v175 main_v176 (broadcastInDim S100000x1 ![0] bcast_S100000_S100000x1_0 : (⟨S100000, .f32⟩ : BufTy).Contents (Elt F) → (⟨S100000x1, .f32⟩ : BufTy).Contents (Elt F)),
    unary main_v176 main_v177 (broadcastInDim S100000x128 ![0, 1] bcast_S100000x1_S100000x128_0_1 : (⟨S100000x1, .f32⟩ : BufTy).Contents (Elt F) → (⟨S100000x128, .f32⟩ : BufTy).Contents (Elt F)),
    binary main_v170 main_v177 main_v178 (Host.divf : (⟨S100000x128, .f32⟩ : BufTy).Contents (Elt F) → (⟨S100000x128, .f32⟩ : BufTy).Contents (Elt F) → (⟨S100000x128, .f32⟩ : BufTy).Contents (Elt F)),
    unary main_arg3 main_v179 ((extractStridedSlice S1x128x128 ![7, 0, 0] · slices_S8x128x128_S1x128x128_7_0_0) : (⟨S8x128x128, .f32⟩ : BufTy).Contents (Elt F) → (⟨S1x128x128, .f32⟩ : BufTy).Contents (Elt F)),
    reshape main_v179 main_v180 rfl shapeCasts_S1x128x128_S128x128,
    binary main_v178 main_v180 main_v181 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v161 main_v181 main_v182 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v182) (TRef.of (T := ⟨S100000x128, .f32⟩) main_call0_v0) (TRef.of (T := ⟨S100000x128, .f32⟩) main_v183) maximumf,
    binary main_v183 main_arg7 main_v184 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v185 (broadcastInDim S1x128 ![1] bcast_S128_S1x128_1 : (⟨S128, .f32⟩ : BufTy).Contents (Elt F) → (⟨S1x128, .f32⟩ : BufTy).Contents (Elt F)),
    unary main_v185 main_v186 (broadcastInDim S100000x128 ![0, 1] bcast_S1x128_S100000x128_0_1 : (⟨S1x128, .f32⟩ : BufTy).Contents (Elt F) → (⟨S100000x128, .f32⟩ : BufTy).Contents (Elt F)),
    binary main_v184 main_v186 main_v187 (addf : (⟨S100000x128, .f32⟩ : BufTy).Contents (Elt F) → (⟨S100000x128, .f32⟩ : BufTy).Contents (Elt F) → (⟨S100000x128, .f32⟩ : BufTy).Contents (Elt F)),
    nullary main_c_32 (constantI S_ 32 0#32),
    unary main_c_32 main_v188 (broadcastInDim S640000 ![] bcast_S_S640000 : (⟨S_, .i32⟩ : BufTy).Contents (Elt F) → (⟨S640000, .i32⟩ : BufTy).Contents (Elt F)),
    binary main_v1 main_v188 main_v189 (cmpi .slt : (⟨S640000, .i32⟩ : BufTy).Contents (Elt F) → (⟨S640000, .i32⟩ : BufTy).Contents (Elt F) → (⟨S640000, .i1⟩ : BufTy).Contents (Elt F)),
    nullary main_c_33 (constantI S_ 32 100000#32),
    unary main_c_33 main_v190 (broadcastInDim S640000 ![] bcast_S_S640000 : (⟨S_, .i32⟩ : BufTy).Contents (Elt F) → (⟨S640000, .i32⟩ : BufTy).Contents (Elt F)),
    binary main_v1 main_v190 main_v191 (addi : (⟨S640000, .i32⟩ : BufTy).Contents (Elt F) → (⟨S640000, .i32⟩ : BufTy).Contents (Elt F) → (⟨S640000, .i32⟩ : BufTy).Contents (Elt F)),
    ternary main_v189 main_v191 main_v1 main_v192 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v192 main_v193 (broadcastInDim S640000x1 ![0] bcast_S640000_S640000x1_0 : (⟨S640000, .i32⟩ : BufTy).Contents (Elt F) → (⟨S640000x1, .i32⟩ : BufTy).Contents (Elt F)),
    binary main_v183 main_v193 main_v194 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    nullary main_c_34 (constantI S_ 32 0#32),
    unary main_c_34 main_v195 (broadcastInDim S640000 ![] bcast_S_S640000 : (⟨S_, .i32⟩ : BufTy).Contents (Elt F) → (⟨S640000, .i32⟩ : BufTy).Contents (Elt F)),
    binary main_arg2 main_v195 main_v196 (cmpi .eq : (⟨S640000, .i32⟩ : BufTy).Contents (Elt F) → (⟨S640000, .i32⟩ : BufTy).Contents (Elt F) → (⟨S640000, .i1⟩ : BufTy).Contents (Elt F)),
    unary main_v196 main_v197 (uitofp .f32 : (⟨S640000, .i1⟩ : BufTy).Contents (Elt F) → (⟨S640000, .f32⟩ : BufTy).Contents (Elt F)),
    unary main_v197 main_v198 (broadcastInDim S640000x1 ![0] bcast_S640000_S640000x1_0 : (⟨S640000, .f32⟩ : BufTy).Contents (Elt F) → (⟨S640000x1, .f32⟩ : BufTy).Contents (Elt F)),
    unary main_v198 main_v199 (broadcastInDim S640000x128 ![0, 1] bcast_S640000x1_S640000x128_0_1 : (⟨S640000x1, .f32⟩ : BufTy).Contents (Elt F) → (⟨S640000x128, .f32⟩ : BufTy).Contents (Elt F)),
    binary main_v194 main_v199 main_v200 (mulf : (⟨S640000x128, .f32⟩ : BufTy).Contents (Elt F) → (⟨S640000x128, .f32⟩ : BufTy).Contents (Elt F) → (⟨S640000x128, .f32⟩ : BufTy).Contents (Elt F)),
    nullary main_cst_35 (constant S_ .f32 0x00000000#32),
    unary main_cst_35 main_v201 (broadcastInDim S100000x128 ![] bcast_S_S100000x128 : (⟨S_, .f32⟩ : BufTy).Contents (Elt F) → (⟨S100000x128, .f32⟩ : BufTy).Contents (Elt F)) ]

set_option maxHeartbeats 4000000 in
/-- @main's operations 243 … 302 of 436 (window `main_part4`). -/
abbrev ops_part4 : List (HloOp τ sig (Elt F)) :=
  [ unary main_v3 main_v202 (broadcastInDim S640000x1 ![0] bcast_S640000_S640000x1_0 : (⟨S640000, .i32⟩ : BufTy).Contents (Elt F) → (⟨S640000x1, .i32⟩ : BufTy).Contents (Elt F)),
    ternary main_v201 main_v202 main_v200 main_v203 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    nullary main_cst_36 (constant S_ .f32 0x00000000#32),
    unary main_cst_36 main_v204 (broadcastInDim S100000 ![] bcast_S_S100000 : (⟨S_, .f32⟩ : BufTy).Contents (Elt F) → (⟨S100000, .f32⟩ : BufTy).Contents (Elt F)),
    unary main_v3 main_v205 (broadcastInDim S640000x1 ![0] bcast_S640000_S640000x1_0 : (⟨S640000, .i32⟩ : BufTy).Contents (Elt F) → (⟨S640000x1, .i32⟩ : BufTy).Contents (Elt F)),
    ternary main_v204 main_v205 main_v197 main_v206 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    nullary main_cst_37 (constant S_ .f32 0x3F800000#32),
    unary main_cst_37 main_v207 (broadcastInDim S100000 ![] bcast_S_S100000 : (⟨S_, .f32⟩ : BufTy).Contents (Elt F) → (⟨S100000, .f32⟩ : BufTy).Contents (Elt F)),
    binary main_v206 main_v207 main_v208 (maximumf : (⟨S100000, .f32⟩ : BufTy).Contents (Elt F) → (⟨S100000, .f32⟩ : BufTy).Contents (Elt F) → (⟨S100000, .f32⟩ : BufTy).Contents (Elt F)),
    unary main_v208 main_v209 (broadcastInDim S100000x1 ![0] bcast_S100000_S100000x1_0 : (⟨S100000, .f32⟩ : BufTy).Contents (Elt F) → (⟨S100000x1, .f32⟩ : BufTy).Contents (Elt F)),
    unary main_v209 main_v210 (broadcastInDim S100000x128 ![0, 1] bcast_S100000x1_S100000x128_0_1 : (⟨S100000x1, .f32⟩ : BufTy).Contents (Elt F) → (⟨S100000x128, .f32⟩ : BufTy).Contents (Elt F)),
    binary main_v203 main_v210 main_v211 (Host.divf : (⟨S100000x128, .f32⟩ : BufTy).Contents (Elt F) → (⟨S100000x128, .f32⟩ : BufTy).Contents (Elt F) → (⟨S100000x128, .f32⟩ : BufTy).Contents (Elt F)),
    unary main_arg6 main_v212 ((extractStridedSlice S1x128x128 ![0, 0, 0] · slices_S8x128x128_S1x128x128_0_0_0) : (⟨S8x128x128, .f32⟩ : BufTy).Contents (Elt F) → (⟨S1x128x128, .f32⟩ : BufTy).Contents (Elt F)),
    reshape main_v212 main_v213 rfl shapeCasts_S1x128x128_S128x128,
    binary main_v211 main_v213 main_v214 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v187 main_v214 main_v215 (addf : (⟨S100000x128, .f32⟩ : BufTy).Contents (Elt F) → (⟨S100000x128, .f32⟩ : BufTy).Contents (Elt F) → (⟨S100000x128, .f32⟩ : BufTy).Contents (Elt F)),
    nullary main_c_38 (constantI S_ 32 1#32),
    unary main_c_38 main_v216 (broadcastInDim S640000 ![] bcast_S_S640000 : (⟨S_, .i32⟩ : BufTy).Contents (Elt F) → (⟨S640000, .i32⟩ : BufTy).Contents (Elt F)),
    binary main_arg2 main_v216 main_v217 (cmpi .eq : (⟨S640000, .i32⟩ : BufTy).Contents (Elt F) → (⟨S640000, .i32⟩ : BufTy).Contents (Elt F) → (⟨S640000, .i1⟩ : BufTy).Contents (Elt F)),
    unary main_v217 main_v218 (uitofp .f32 : (⟨S640000, .i1⟩ : BufTy).Contents (Elt F) → (⟨S640000, .f32⟩ : BufTy).Contents (Elt F)),
    unary main_v218 main_v219 (broadcastInDim S640000x1 ![0] bcast_S640000_S640000x1_0 : (⟨S640000, .f32⟩ : BufTy).Contents (Elt F) → (⟨S640000x1, .f32⟩ : BufTy).Contents (Elt F)),
    unary main_v219 main_v220 (broadcastInDim S640000x128 ![0, 1] bcast_S640000x1_S640000x128_0_1 : (⟨S640000x1, .f32⟩ : BufTy).Contents (Elt F) → (⟨S640000x128, .f32⟩ : BufTy).Contents (Elt F)),
    binary main_v194 main_v220 main_v221 (mulf : (⟨S640000x128, .f32⟩ : BufTy).Contents (Elt F) → (⟨S640000x128, .f32⟩ : BufTy).Contents (Elt F) → (⟨S640000x128, .f32⟩ : BufTy).Contents (Elt F)),
    nullary main_cst_39 (constant S_ .f32 0x00000000#32),
    unary main_cst_39 main_v222 (broadcastInDim S100000x128 ![] bcast_S_S100000x128 : (⟨S_, .f32⟩ : BufTy).Contents (Elt F) → (⟨S100000x128, .f32⟩ : BufTy).Contents (Elt F)),
    unary main_v3 main_v223 (broadcastInDim S640000x1 ![0] bcast_S640000_S640000x1_0 : (⟨S640000, .i32⟩ : BufTy).Contents (Elt F) → (⟨S640000x1, .i32⟩ : BufTy).Contents (Elt F)),
    ternary main_v222 main_v223 main_v221 main_v224 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    nullary main_cst_40 (constant S_ .f32 0x00000000#32),
    unary main_cst_40 main_v225 (broadcastInDim S100000 ![] bcast_S_S100000 : (⟨S_, .f32⟩ : BufTy).Contents (Elt F) → (⟨S100000, .f32⟩ : BufTy).Contents (Elt F)),
    unary main_v3 main_v226 (broadcastInDim S640000x1 ![0] bcast_S640000_S640000x1_0 : (⟨S640000, .i32⟩ : BufTy).Contents (Elt F) → (⟨S640000x1, .i32⟩ : BufTy).Contents (Elt F)),
    ternary main_v225 main_v226 main_v218 main_v227 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    nullary main_cst_41 (constant S_ .f32 0x3F800000#32),
    unary main_cst_41 main_v228 (broadcastInDim S100000 ![] bcast_S_S100000 : (⟨S_, .f32⟩ : BufTy).Contents (Elt F) → (⟨S100000, .f32⟩ : BufTy).Contents (Elt F)),
    binary main_v227 main_v228 main_v229 (maximumf : (⟨S100000, .f32⟩ : BufTy).Contents (Elt F) → (⟨S100000, .f32⟩ : BufTy).Contents (Elt F) → (⟨S100000, .f32⟩ : BufTy).Contents (Elt F)),
    unary main_v229 main_v230 (broadcastInDim S100000x1 ![0] bcast_S100000_S100000x1_0 : (⟨S100000, .f32⟩ : BufTy).Contents (Elt F) → (⟨S100000x1, .f32⟩ : BufTy).Contents (Elt F)),
    unary main_v230 main_v231 (broadcastInDim S100000x128 ![0, 1] bcast_S100000x1_S100000x128_0_1 : (⟨S100000x1, .f32⟩ : BufTy).Contents (Elt F) → (⟨S100000x128, .f32⟩ : BufTy).Contents (Elt F)),
    binary main_v224 main_v231 main_v232 (Host.divf : (⟨S100000x128, .f32⟩ : BufTy).Contents (Elt F) → (⟨S100000x128, .f32⟩ : BufTy).Contents (Elt F) → (⟨S100000x128, .f32⟩ : BufTy).Contents (Elt F)),
    unary main_arg6 main_v233 ((extractStridedSlice S1x128x128 ![1, 0, 0] · slices_S8x128x128_S1x128x128_1_0_0) : (⟨S8x128x128, .f32⟩ : BufTy).Contents (Elt F) → (⟨S1x128x128, .f32⟩ : BufTy).Contents (Elt F)),
    reshape main_v233 main_v234 rfl shapeCasts_S1x128x128_S128x128,
    binary main_v232 main_v234 main_v235 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v215 main_v235 main_v236 (addf : (⟨S100000x128, .f32⟩ : BufTy).Contents (Elt F) → (⟨S100000x128, .f32⟩ : BufTy).Contents (Elt F) → (⟨S100000x128, .f32⟩ : BufTy).Contents (Elt F)),
    nullary main_c_42 (constantI S_ 32 2#32),
    unary main_c_42 main_v237 (broadcastInDim S640000 ![] bcast_S_S640000 : (⟨S_, .i32⟩ : BufTy).Contents (Elt F) → (⟨S640000, .i32⟩ : BufTy).Contents (Elt F)),
    binary main_arg2 main_v237 main_v238 (cmpi .eq : (⟨S640000, .i32⟩ : BufTy).Contents (Elt F) → (⟨S640000, .i32⟩ : BufTy).Contents (Elt F) → (⟨S640000, .i1⟩ : BufTy).Contents (Elt F)),
    unary main_v238 main_v239 (uitofp .f32 : (⟨S640000, .i1⟩ : BufTy).Contents (Elt F) → (⟨S640000, .f32⟩ : BufTy).Contents (Elt F)),
    unary main_v239 main_v240 (broadcastInDim S640000x1 ![0] bcast_S640000_S640000x1_0 : (⟨S640000, .f32⟩ : BufTy).Contents (Elt F) → (⟨S640000x1, .f32⟩ : BufTy).Contents (Elt F)),
    unary main_v240 main_v241 (broadcastInDim S640000x128 ![0, 1] bcast_S640000x1_S640000x128_0_1 : (⟨S640000x1, .f32⟩ : BufTy).Contents (Elt F) → (⟨S640000x128, .f32⟩ : BufTy).Contents (Elt F)),
    binary main_v194 main_v241 main_v242 (mulf : (⟨S640000x128, .f32⟩ : BufTy).Contents (Elt F) → (⟨S640000x128, .f32⟩ : BufTy).Contents (Elt F) → (⟨S640000x128, .f32⟩ : BufTy).Contents (Elt F)),
    nullary main_cst_43 (constant S_ .f32 0x00000000#32),
    unary main_cst_43 main_v243 (broadcastInDim S100000x128 ![] bcast_S_S100000x128 : (⟨S_, .f32⟩ : BufTy).Contents (Elt F) → (⟨S100000x128, .f32⟩ : BufTy).Contents (Elt F)),
    unary main_v3 main_v244 (broadcastInDim S640000x1 ![0] bcast_S640000_S640000x1_0 : (⟨S640000, .i32⟩ : BufTy).Contents (Elt F) → (⟨S640000x1, .i32⟩ : BufTy).Contents (Elt F)),
    ternary main_v243 main_v244 main_v242 main_v245 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    nullary main_cst_44 (constant S_ .f32 0x00000000#32),
    unary main_cst_44 main_v246 (broadcastInDim S100000 ![] bcast_S_S100000 : (⟨S_, .f32⟩ : BufTy).Contents (Elt F) → (⟨S100000, .f32⟩ : BufTy).Contents (Elt F)),
    unary main_v3 main_v247 (broadcastInDim S640000x1 ![0] bcast_S640000_S640000x1_0 : (⟨S640000, .i32⟩ : BufTy).Contents (Elt F) → (⟨S640000x1, .i32⟩ : BufTy).Contents (Elt F)),
    ternary main_v246 main_v247 main_v239 main_v248 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    nullary main_cst_45 (constant S_ .f32 0x3F800000#32),
    unary main_cst_45 main_v249 (broadcastInDim S100000 ![] bcast_S_S100000 : (⟨S_, .f32⟩ : BufTy).Contents (Elt F) → (⟨S100000, .f32⟩ : BufTy).Contents (Elt F)),
    binary main_v248 main_v249 main_v250 (maximumf : (⟨S100000, .f32⟩ : BufTy).Contents (Elt F) → (⟨S100000, .f32⟩ : BufTy).Contents (Elt F) → (⟨S100000, .f32⟩ : BufTy).Contents (Elt F)),
    unary main_v250 main_v251 (broadcastInDim S100000x1 ![0] bcast_S100000_S100000x1_0 : (⟨S100000, .f32⟩ : BufTy).Contents (Elt F) → (⟨S100000x1, .f32⟩ : BufTy).Contents (Elt F)) ]

set_option maxHeartbeats 4000000 in
/-- @main's operations 303 … 362 of 436 (window `main_part5`). -/
abbrev ops_part5 : List (HloOp τ sig (Elt F)) :=
  [ unary main_v251 main_v252 (broadcastInDim S100000x128 ![0, 1] bcast_S100000x1_S100000x128_0_1 : (⟨S100000x1, .f32⟩ : BufTy).Contents (Elt F) → (⟨S100000x128, .f32⟩ : BufTy).Contents (Elt F)),
    binary main_v245 main_v252 main_v253 (Host.divf : (⟨S100000x128, .f32⟩ : BufTy).Contents (Elt F) → (⟨S100000x128, .f32⟩ : BufTy).Contents (Elt F) → (⟨S100000x128, .f32⟩ : BufTy).Contents (Elt F)),
    unary main_arg6 main_v254 ((extractStridedSlice S1x128x128 ![2, 0, 0] · slices_S8x128x128_S1x128x128_2_0_0) : (⟨S8x128x128, .f32⟩ : BufTy).Contents (Elt F) → (⟨S1x128x128, .f32⟩ : BufTy).Contents (Elt F)),
    reshape main_v254 main_v255 rfl shapeCasts_S1x128x128_S128x128,
    binary main_v253 main_v255 main_v256 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v236 main_v256 main_v257 (addf : (⟨S100000x128, .f32⟩ : BufTy).Contents (Elt F) → (⟨S100000x128, .f32⟩ : BufTy).Contents (Elt F) → (⟨S100000x128, .f32⟩ : BufTy).Contents (Elt F)),
    nullary main_c_46 (constantI S_ 32 3#32),
    unary main_c_46 main_v258 (broadcastInDim S640000 ![] bcast_S_S640000 : (⟨S_, .i32⟩ : BufTy).Contents (Elt F) → (⟨S640000, .i32⟩ : BufTy).Contents (Elt F)),
    binary main_arg2 main_v258 main_v259 (cmpi .eq : (⟨S640000, .i32⟩ : BufTy).Contents (Elt F) → (⟨S640000, .i32⟩ : BufTy).Contents (Elt F) → (⟨S640000, .i1⟩ : BufTy).Contents (Elt F)),
    unary main_v259 main_v260 (uitofp .f32 : (⟨S640000, .i1⟩ : BufTy).Contents (Elt F) → (⟨S640000, .f32⟩ : BufTy).Contents (Elt F)),
    unary main_v260 main_v261 (broadcastInDim S640000x1 ![0] bcast_S640000_S640000x1_0 : (⟨S640000, .f32⟩ : BufTy).Contents (Elt F) → (⟨S640000x1, .f32⟩ : BufTy).Contents (Elt F)),
    unary main_v261 main_v262 (broadcastInDim S640000x128 ![0, 1] bcast_S640000x1_S640000x128_0_1 : (⟨S640000x1, .f32⟩ : BufTy).Contents (Elt F) → (⟨S640000x128, .f32⟩ : BufTy).Contents (Elt F)),
    binary main_v194 main_v262 main_v263 (mulf : (⟨S640000x128, .f32⟩ : BufTy).Contents (Elt F) → (⟨S640000x128, .f32⟩ : BufTy).Contents (Elt F) → (⟨S640000x128, .f32⟩ : BufTy).Contents (Elt F)),
    nullary main_cst_47 (constant S_ .f32 0x00000000#32),
    unary main_cst_47 main_v264 (broadcastInDim S100000x128 ![] bcast_S_S100000x128 : (⟨S_, .f32⟩ : BufTy).Contents (Elt F) → (⟨S100000x128, .f32⟩ : BufTy).Contents (Elt F)),
    unary main_v3 main_v265 (broadcastInDim S640000x1 ![0] bcast_S640000_S640000x1_0 : (⟨S640000, .i32⟩ : BufTy).Contents (Elt F) → (⟨S640000x1, .i32⟩ : BufTy).Contents (Elt F)),
    ternary main_v264 main_v265 main_v263 main_v266 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    nullary main_cst_48 (constant S_ .f32 0x00000000#32),
    unary main_cst_48 main_v267 (broadcastInDim S100000 ![] bcast_S_S100000 : (⟨S_, .f32⟩ : BufTy).Contents (Elt F) → (⟨S100000, .f32⟩ : BufTy).Contents (Elt F)),
    unary main_v3 main_v268 (broadcastInDim S640000x1 ![0] bcast_S640000_S640000x1_0 : (⟨S640000, .i32⟩ : BufTy).Contents (Elt F) → (⟨S640000x1, .i32⟩ : BufTy).Contents (Elt F)),
    ternary main_v267 main_v268 main_v260 main_v269 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    nullary main_cst_49 (constant S_ .f32 0x3F800000#32),
    unary main_cst_49 main_v270 (broadcastInDim S100000 ![] bcast_S_S100000 : (⟨S_, .f32⟩ : BufTy).Contents (Elt F) → (⟨S100000, .f32⟩ : BufTy).Contents (Elt F)),
    binary main_v269 main_v270 main_v271 (maximumf : (⟨S100000, .f32⟩ : BufTy).Contents (Elt F) → (⟨S100000, .f32⟩ : BufTy).Contents (Elt F) → (⟨S100000, .f32⟩ : BufTy).Contents (Elt F)),
    unary main_v271 main_v272 (broadcastInDim S100000x1 ![0] bcast_S100000_S100000x1_0 : (⟨S100000, .f32⟩ : BufTy).Contents (Elt F) → (⟨S100000x1, .f32⟩ : BufTy).Contents (Elt F)),
    unary main_v272 main_v273 (broadcastInDim S100000x128 ![0, 1] bcast_S100000x1_S100000x128_0_1 : (⟨S100000x1, .f32⟩ : BufTy).Contents (Elt F) → (⟨S100000x128, .f32⟩ : BufTy).Contents (Elt F)),
    binary main_v266 main_v273 main_v274 (Host.divf : (⟨S100000x128, .f32⟩ : BufTy).Contents (Elt F) → (⟨S100000x128, .f32⟩ : BufTy).Contents (Elt F) → (⟨S100000x128, .f32⟩ : BufTy).Contents (Elt F)),
    unary main_arg6 main_v275 ((extractStridedSlice S1x128x128 ![3, 0, 0] · slices_S8x128x128_S1x128x128_3_0_0) : (⟨S8x128x128, .f32⟩ : BufTy).Contents (Elt F) → (⟨S1x128x128, .f32⟩ : BufTy).Contents (Elt F)),
    reshape main_v275 main_v276 rfl shapeCasts_S1x128x128_S128x128,
    binary main_v274 main_v276 main_v277 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v257 main_v277 main_v278 (addf : (⟨S100000x128, .f32⟩ : BufTy).Contents (Elt F) → (⟨S100000x128, .f32⟩ : BufTy).Contents (Elt F) → (⟨S100000x128, .f32⟩ : BufTy).Contents (Elt F)),
    nullary main_c_50 (constantI S_ 32 4#32),
    unary main_c_50 main_v279 (broadcastInDim S640000 ![] bcast_S_S640000 : (⟨S_, .i32⟩ : BufTy).Contents (Elt F) → (⟨S640000, .i32⟩ : BufTy).Contents (Elt F)),
    binary main_arg2 main_v279 main_v280 (cmpi .eq : (⟨S640000, .i32⟩ : BufTy).Contents (Elt F) → (⟨S640000, .i32⟩ : BufTy).Contents (Elt F) → (⟨S640000, .i1⟩ : BufTy).Contents (Elt F)),
    unary main_v280 main_v281 (uitofp .f32 : (⟨S640000, .i1⟩ : BufTy).Contents (Elt F) → (⟨S640000, .f32⟩ : BufTy).Contents (Elt F)),
    unary main_v281 main_v282 (broadcastInDim S640000x1 ![0] bcast_S640000_S640000x1_0 : (⟨S640000, .f32⟩ : BufTy).Contents (Elt F) → (⟨S640000x1, .f32⟩ : BufTy).Contents (Elt F)),
    unary main_v282 main_v283 (broadcastInDim S640000x128 ![0, 1] bcast_S640000x1_S640000x128_0_1 : (⟨S640000x1, .f32⟩ : BufTy).Contents (Elt F) → (⟨S640000x128, .f32⟩ : BufTy).Contents (Elt F)),
    binary main_v194 main_v283 main_v284 (mulf : (⟨S640000x128, .f32⟩ : BufTy).Contents (Elt F) → (⟨S640000x128, .f32⟩ : BufTy).Contents (Elt F) → (⟨S640000x128, .f32⟩ : BufTy).Contents (Elt F)),
    nullary main_cst_51 (constant S_ .f32 0x00000000#32),
    unary main_cst_51 main_v285 (broadcastInDim S100000x128 ![] bcast_S_S100000x128 : (⟨S_, .f32⟩ : BufTy).Contents (Elt F) → (⟨S100000x128, .f32⟩ : BufTy).Contents (Elt F)),
    unary main_v3 main_v286 (broadcastInDim S640000x1 ![0] bcast_S640000_S640000x1_0 : (⟨S640000, .i32⟩ : BufTy).Contents (Elt F) → (⟨S640000x1, .i32⟩ : BufTy).Contents (Elt F)),
    ternary main_v285 main_v286 main_v284 main_v287 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    nullary main_cst_52 (constant S_ .f32 0x00000000#32),
    unary main_cst_52 main_v288 (broadcastInDim S100000 ![] bcast_S_S100000 : (⟨S_, .f32⟩ : BufTy).Contents (Elt F) → (⟨S100000, .f32⟩ : BufTy).Contents (Elt F)),
    unary main_v3 main_v289 (broadcastInDim S640000x1 ![0] bcast_S640000_S640000x1_0 : (⟨S640000, .i32⟩ : BufTy).Contents (Elt F) → (⟨S640000x1, .i32⟩ : BufTy).Contents (Elt F)),
    ternary main_v288 main_v289 main_v281 main_v290 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    nullary main_cst_53 (constant S_ .f32 0x3F800000#32),
    unary main_cst_53 main_v291 (broadcastInDim S100000 ![] bcast_S_S100000 : (⟨S_, .f32⟩ : BufTy).Contents (Elt F) → (⟨S100000, .f32⟩ : BufTy).Contents (Elt F)),
    binary main_v290 main_v291 main_v292 (maximumf : (⟨S100000, .f32⟩ : BufTy).Contents (Elt F) → (⟨S100000, .f32⟩ : BufTy).Contents (Elt F) → (⟨S100000, .f32⟩ : BufTy).Contents (Elt F)),
    unary main_v292 main_v293 (broadcastInDim S100000x1 ![0] bcast_S100000_S100000x1_0 : (⟨S100000, .f32⟩ : BufTy).Contents (Elt F) → (⟨S100000x1, .f32⟩ : BufTy).Contents (Elt F)),
    unary main_v293 main_v294 (broadcastInDim S100000x128 ![0, 1] bcast_S100000x1_S100000x128_0_1 : (⟨S100000x1, .f32⟩ : BufTy).Contents (Elt F) → (⟨S100000x128, .f32⟩ : BufTy).Contents (Elt F)),
    binary main_v287 main_v294 main_v295 (Host.divf : (⟨S100000x128, .f32⟩ : BufTy).Contents (Elt F) → (⟨S100000x128, .f32⟩ : BufTy).Contents (Elt F) → (⟨S100000x128, .f32⟩ : BufTy).Contents (Elt F)),
    unary main_arg6 main_v296 ((extractStridedSlice S1x128x128 ![4, 0, 0] · slices_S8x128x128_S1x128x128_4_0_0) : (⟨S8x128x128, .f32⟩ : BufTy).Contents (Elt F) → (⟨S1x128x128, .f32⟩ : BufTy).Contents (Elt F)),
    reshape main_v296 main_v297 rfl shapeCasts_S1x128x128_S128x128,
    binary main_v295 main_v297 main_v298 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v278 main_v298 main_v299 (addf : (⟨S100000x128, .f32⟩ : BufTy).Contents (Elt F) → (⟨S100000x128, .f32⟩ : BufTy).Contents (Elt F) → (⟨S100000x128, .f32⟩ : BufTy).Contents (Elt F)),
    nullary main_c_54 (constantI S_ 32 5#32),
    unary main_c_54 main_v300 (broadcastInDim S640000 ![] bcast_S_S640000 : (⟨S_, .i32⟩ : BufTy).Contents (Elt F) → (⟨S640000, .i32⟩ : BufTy).Contents (Elt F)),
    binary main_arg2 main_v300 main_v301 (cmpi .eq : (⟨S640000, .i32⟩ : BufTy).Contents (Elt F) → (⟨S640000, .i32⟩ : BufTy).Contents (Elt F) → (⟨S640000, .i1⟩ : BufTy).Contents (Elt F)),
    unary main_v301 main_v302 (uitofp .f32 : (⟨S640000, .i1⟩ : BufTy).Contents (Elt F) → (⟨S640000, .f32⟩ : BufTy).Contents (Elt F)) ]

set_option maxHeartbeats 4000000 in
/-- @main's operations 363 … 422 of 436 (window `main_part6`). -/
abbrev ops_part6 : List (HloOp τ sig (Elt F)) :=
  [ unary main_v302 main_v303 (broadcastInDim S640000x1 ![0] bcast_S640000_S640000x1_0 : (⟨S640000, .f32⟩ : BufTy).Contents (Elt F) → (⟨S640000x1, .f32⟩ : BufTy).Contents (Elt F)),
    unary main_v303 main_v304 (broadcastInDim S640000x128 ![0, 1] bcast_S640000x1_S640000x128_0_1 : (⟨S640000x1, .f32⟩ : BufTy).Contents (Elt F) → (⟨S640000x128, .f32⟩ : BufTy).Contents (Elt F)),
    binary main_v194 main_v304 main_v305 (mulf : (⟨S640000x128, .f32⟩ : BufTy).Contents (Elt F) → (⟨S640000x128, .f32⟩ : BufTy).Contents (Elt F) → (⟨S640000x128, .f32⟩ : BufTy).Contents (Elt F)),
    nullary main_cst_55 (constant S_ .f32 0x00000000#32),
    unary main_cst_55 main_v306 (broadcastInDim S100000x128 ![] bcast_S_S100000x128 : (⟨S_, .f32⟩ : BufTy).Contents (Elt F) → (⟨S100000x128, .f32⟩ : BufTy).Contents (Elt F)),
    unary main_v3 main_v307 (broadcastInDim S640000x1 ![0] bcast_S640000_S640000x1_0 : (⟨S640000, .i32⟩ : BufTy).Contents (Elt F) → (⟨S640000x1, .i32⟩ : BufTy).Contents (Elt F)),
    ternary main_v306 main_v307 main_v305 main_v308 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    nullary main_cst_56 (constant S_ .f32 0x00000000#32),
    unary main_cst_56 main_v309 (broadcastInDim S100000 ![] bcast_S_S100000 : (⟨S_, .f32⟩ : BufTy).Contents (Elt F) → (⟨S100000, .f32⟩ : BufTy).Contents (Elt F)),
    unary main_v3 main_v310 (broadcastInDim S640000x1 ![0] bcast_S640000_S640000x1_0 : (⟨S640000, .i32⟩ : BufTy).Contents (Elt F) → (⟨S640000x1, .i32⟩ : BufTy).Contents (Elt F)),
    ternary main_v309 main_v310 main_v302 main_v311 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    nullary main_cst_57 (constant S_ .f32 0x3F800000#32),
    unary main_cst_57 main_v312 (broadcastInDim S100000 ![] bcast_S_S100000 : (⟨S_, .f32⟩ : BufTy).Contents (Elt F) → (⟨S100000, .f32⟩ : BufTy).Contents (Elt F)),
    binary main_v311 main_v312 main_v313 (maximumf : (⟨S100000, .f32⟩ : BufTy).Contents (Elt F) → (⟨S100000, .f32⟩ : BufTy).Contents (Elt F) → (⟨S100000, .f32⟩ : BufTy).Contents (Elt F)),
    unary main_v313 main_v314 (broadcastInDim S100000x1 ![0] bcast_S100000_S100000x1_0 : (⟨S100000, .f32⟩ : BufTy).Contents (Elt F) → (⟨S100000x1, .f32⟩ : BufTy).Contents (Elt F)),
    unary main_v314 main_v315 (broadcastInDim S100000x128 ![0, 1] bcast_S100000x1_S100000x128_0_1 : (⟨S100000x1, .f32⟩ : BufTy).Contents (Elt F) → (⟨S100000x128, .f32⟩ : BufTy).Contents (Elt F)),
    binary main_v308 main_v315 main_v316 (Host.divf : (⟨S100000x128, .f32⟩ : BufTy).Contents (Elt F) → (⟨S100000x128, .f32⟩ : BufTy).Contents (Elt F) → (⟨S100000x128, .f32⟩ : BufTy).Contents (Elt F)),
    unary main_arg6 main_v317 ((extractStridedSlice S1x128x128 ![5, 0, 0] · slices_S8x128x128_S1x128x128_5_0_0) : (⟨S8x128x128, .f32⟩ : BufTy).Contents (Elt F) → (⟨S1x128x128, .f32⟩ : BufTy).Contents (Elt F)),
    reshape main_v317 main_v318 rfl shapeCasts_S1x128x128_S128x128,
    binary main_v316 main_v318 main_v319 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v299 main_v319 main_v320 (addf : (⟨S100000x128, .f32⟩ : BufTy).Contents (Elt F) → (⟨S100000x128, .f32⟩ : BufTy).Contents (Elt F) → (⟨S100000x128, .f32⟩ : BufTy).Contents (Elt F)),
    nullary main_c_58 (constantI S_ 32 6#32),
    unary main_c_58 main_v321 (broadcastInDim S640000 ![] bcast_S_S640000 : (⟨S_, .i32⟩ : BufTy).Contents (Elt F) → (⟨S640000, .i32⟩ : BufTy).Contents (Elt F)),
    binary main_arg2 main_v321 main_v322 (cmpi .eq : (⟨S640000, .i32⟩ : BufTy).Contents (Elt F) → (⟨S640000, .i32⟩ : BufTy).Contents (Elt F) → (⟨S640000, .i1⟩ : BufTy).Contents (Elt F)),
    unary main_v322 main_v323 (uitofp .f32 : (⟨S640000, .i1⟩ : BufTy).Contents (Elt F) → (⟨S640000, .f32⟩ : BufTy).Contents (Elt F)),
    unary main_v323 main_v324 (broadcastInDim S640000x1 ![0] bcast_S640000_S640000x1_0 : (⟨S640000, .f32⟩ : BufTy).Contents (Elt F) → (⟨S640000x1, .f32⟩ : BufTy).Contents (Elt F)),
    unary main_v324 main_v325 (broadcastInDim S640000x128 ![0, 1] bcast_S640000x1_S640000x128_0_1 : (⟨S640000x1, .f32⟩ : BufTy).Contents (Elt F) → (⟨S640000x128, .f32⟩ : BufTy).Contents (Elt F)),
    binary main_v194 main_v325 main_v326 (mulf : (⟨S640000x128, .f32⟩ : BufTy).Contents (Elt F) → (⟨S640000x128, .f32⟩ : BufTy).Contents (Elt F) → (⟨S640000x128, .f32⟩ : BufTy).Contents (Elt F)),
    nullary main_cst_59 (constant S_ .f32 0x00000000#32),
    unary main_cst_59 main_v327 (broadcastInDim S100000x128 ![] bcast_S_S100000x128 : (⟨S_, .f32⟩ : BufTy).Contents (Elt F) → (⟨S100000x128, .f32⟩ : BufTy).Contents (Elt F)),
    unary main_v3 main_v328 (broadcastInDim S640000x1 ![0] bcast_S640000_S640000x1_0 : (⟨S640000, .i32⟩ : BufTy).Contents (Elt F) → (⟨S640000x1, .i32⟩ : BufTy).Contents (Elt F)),
    ternary main_v327 main_v328 main_v326 main_v329 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    nullary main_cst_60 (constant S_ .f32 0x00000000#32),
    unary main_cst_60 main_v330 (broadcastInDim S100000 ![] bcast_S_S100000 : (⟨S_, .f32⟩ : BufTy).Contents (Elt F) → (⟨S100000, .f32⟩ : BufTy).Contents (Elt F)),
    unary main_v3 main_v331 (broadcastInDim S640000x1 ![0] bcast_S640000_S640000x1_0 : (⟨S640000, .i32⟩ : BufTy).Contents (Elt F) → (⟨S640000x1, .i32⟩ : BufTy).Contents (Elt F)),
    ternary main_v330 main_v331 main_v323 main_v332 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    nullary main_cst_61 (constant S_ .f32 0x3F800000#32),
    unary main_cst_61 main_v333 (broadcastInDim S100000 ![] bcast_S_S100000 : (⟨S_, .f32⟩ : BufTy).Contents (Elt F) → (⟨S100000, .f32⟩ : BufTy).Contents (Elt F)),
    binary main_v332 main_v333 main_v334 (maximumf : (⟨S100000, .f32⟩ : BufTy).Contents (Elt F) → (⟨S100000, .f32⟩ : BufTy).Contents (Elt F) → (⟨S100000, .f32⟩ : BufTy).Contents (Elt F)),
    unary main_v334 main_v335 (broadcastInDim S100000x1 ![0] bcast_S100000_S100000x1_0 : (⟨S100000, .f32⟩ : BufTy).Contents (Elt F) → (⟨S100000x1, .f32⟩ : BufTy).Contents (Elt F)),
    unary main_v335 main_v336 (broadcastInDim S100000x128 ![0, 1] bcast_S100000x1_S100000x128_0_1 : (⟨S100000x1, .f32⟩ : BufTy).Contents (Elt F) → (⟨S100000x128, .f32⟩ : BufTy).Contents (Elt F)),
    binary main_v329 main_v336 main_v337 (Host.divf : (⟨S100000x128, .f32⟩ : BufTy).Contents (Elt F) → (⟨S100000x128, .f32⟩ : BufTy).Contents (Elt F) → (⟨S100000x128, .f32⟩ : BufTy).Contents (Elt F)),
    unary main_arg6 main_v338 ((extractStridedSlice S1x128x128 ![6, 0, 0] · slices_S8x128x128_S1x128x128_6_0_0) : (⟨S8x128x128, .f32⟩ : BufTy).Contents (Elt F) → (⟨S1x128x128, .f32⟩ : BufTy).Contents (Elt F)),
    reshape main_v338 main_v339 rfl shapeCasts_S1x128x128_S128x128,
    binary main_v337 main_v339 main_v340 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v320 main_v340 main_v341 (addf : (⟨S100000x128, .f32⟩ : BufTy).Contents (Elt F) → (⟨S100000x128, .f32⟩ : BufTy).Contents (Elt F) → (⟨S100000x128, .f32⟩ : BufTy).Contents (Elt F)),
    nullary main_c_62 (constantI S_ 32 7#32),
    unary main_c_62 main_v342 (broadcastInDim S640000 ![] bcast_S_S640000 : (⟨S_, .i32⟩ : BufTy).Contents (Elt F) → (⟨S640000, .i32⟩ : BufTy).Contents (Elt F)),
    binary main_arg2 main_v342 main_v343 (cmpi .eq : (⟨S640000, .i32⟩ : BufTy).Contents (Elt F) → (⟨S640000, .i32⟩ : BufTy).Contents (Elt F) → (⟨S640000, .i1⟩ : BufTy).Contents (Elt F)),
    unary main_v343 main_v344 (uitofp .f32 : (⟨S640000, .i1⟩ : BufTy).Contents (Elt F) → (⟨S640000, .f32⟩ : BufTy).Contents (Elt F)),
    unary main_v344 main_v345 (broadcastInDim S640000x1 ![0] bcast_S640000_S640000x1_0 : (⟨S640000, .f32⟩ : BufTy).Contents (Elt F) → (⟨S640000x1, .f32⟩ : BufTy).Contents (Elt F)),
    unary main_v345 main_v346 (broadcastInDim S640000x128 ![0, 1] bcast_S640000x1_S640000x128_0_1 : (⟨S640000x1, .f32⟩ : BufTy).Contents (Elt F) → (⟨S640000x128, .f32⟩ : BufTy).Contents (Elt F)),
    binary main_v194 main_v346 main_v347 (mulf : (⟨S640000x128, .f32⟩ : BufTy).Contents (Elt F) → (⟨S640000x128, .f32⟩ : BufTy).Contents (Elt F) → (⟨S640000x128, .f32⟩ : BufTy).Contents (Elt F)),
    nullary main_cst_63 (constant S_ .f32 0x00000000#32),
    unary main_cst_63 main_v348 (broadcastInDim S100000x128 ![] bcast_S_S100000x128 : (⟨S_, .f32⟩ : BufTy).Contents (Elt F) → (⟨S100000x128, .f32⟩ : BufTy).Contents (Elt F)),
    unary main_v3 main_v349 (broadcastInDim S640000x1 ![0] bcast_S640000_S640000x1_0 : (⟨S640000, .i32⟩ : BufTy).Contents (Elt F) → (⟨S640000x1, .i32⟩ : BufTy).Contents (Elt F)),
    ternary main_v348 main_v349 main_v347 main_v350 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    nullary main_cst_64 (constant S_ .f32 0x00000000#32),
    unary main_cst_64 main_v351 (broadcastInDim S100000 ![] bcast_S_S100000 : (⟨S_, .f32⟩ : BufTy).Contents (Elt F) → (⟨S100000, .f32⟩ : BufTy).Contents (Elt F)),
    unary main_v3 main_v352 (broadcastInDim S640000x1 ![0] bcast_S640000_S640000x1_0 : (⟨S640000, .i32⟩ : BufTy).Contents (Elt F) → (⟨S640000x1, .i32⟩ : BufTy).Contents (Elt F)) ]

set_option maxHeartbeats 4000000 in
/-- @main's operations 423 … 436 of 436 (window `main_part7`). -/
abbrev ops_part7 : List (HloOp τ sig (Elt F)) :=
  [ ternary main_v351 main_v352 main_v344 main_v353 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    nullary main_cst_65 (constant S_ .f32 0x3F800000#32),
    unary main_cst_65 main_v354 (broadcastInDim S100000 ![] bcast_S_S100000 : (⟨S_, .f32⟩ : BufTy).Contents (Elt F) → (⟨S100000, .f32⟩ : BufTy).Contents (Elt F)),
    binary main_v353 main_v354 main_v355 (maximumf : (⟨S100000, .f32⟩ : BufTy).Contents (Elt F) → (⟨S100000, .f32⟩ : BufTy).Contents (Elt F) → (⟨S100000, .f32⟩ : BufTy).Contents (Elt F)),
    unary main_v355 main_v356 (broadcastInDim S100000x1 ![0] bcast_S100000_S100000x1_0 : (⟨S100000, .f32⟩ : BufTy).Contents (Elt F) → (⟨S100000x1, .f32⟩ : BufTy).Contents (Elt F)),
    unary main_v356 main_v357 (broadcastInDim S100000x128 ![0, 1] bcast_S100000x1_S100000x128_0_1 : (⟨S100000x1, .f32⟩ : BufTy).Contents (Elt F) → (⟨S100000x128, .f32⟩ : BufTy).Contents (Elt F)),
    binary main_v350 main_v357 main_v358 (Host.divf : (⟨S100000x128, .f32⟩ : BufTy).Contents (Elt F) → (⟨S100000x128, .f32⟩ : BufTy).Contents (Elt F) → (⟨S100000x128, .f32⟩ : BufTy).Contents (Elt F)),
    unary main_arg6 main_v359 ((extractStridedSlice S1x128x128 ![7, 0, 0] · slices_S8x128x128_S1x128x128_7_0_0) : (⟨S8x128x128, .f32⟩ : BufTy).Contents (Elt F) → (⟨S1x128x128, .f32⟩ : BufTy).Contents (Elt F)),
    reshape main_v359 main_v360 rfl shapeCasts_S1x128x128_S128x128,
    binary main_v358 main_v360 main_v361 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v341 main_v361 main_v362 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v362) (TRef.of (T := ⟨S100000x128, .f32⟩) main_call1_v0) (TRef.of (T := ⟨S100000x128, .f32⟩) main_v363) maximumf ]

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
set_option maxHeartbeats 4000000 in
theorem main_part2_eq (c : Dev nD) : main_part2 (F := F) c = seq ops_part2 := rfl
set_option maxRecDepth 8192 in
set_option maxHeartbeats 4000000 in
theorem main_part3_eq (c : Dev nD) : main_part3 (F := F) c = seq ops_part3 := rfl
set_option maxRecDepth 8192 in
set_option maxHeartbeats 4000000 in
theorem main_part4_eq (c : Dev nD) : main_part4 (F := F) c = seq ops_part4 := rfl
set_option maxRecDepth 8192 in
set_option maxHeartbeats 4000000 in
theorem main_part5_eq (c : Dev nD) : main_part5 (F := F) c = seq ops_part5 := rfl
set_option maxRecDepth 8192 in
set_option maxHeartbeats 4000000 in
theorem main_part6_eq (c : Dev nD) : main_part6 (F := F) c = seq ops_part6 := rfl
set_option maxRecDepth 8192 in
set_option maxHeartbeats 4000000 in
theorem main_part7_eq (c : Dev nD) : main_part7 (F := F) c = seq ops_part7 := rfl
set_option maxRecDepth 8192 in
theorem ops_part0_sub : (ops_part0 : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., reshape_bufs_sub .., binary_bufs_sub .., binary_bufs_sub .., nullary_bufs_sub .., unary_bufs_sub .., binary_bufs_sub .., unary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub ..⟩
set_option maxRecDepth 8192 in
theorem ops_part1_sub : (ops_part1 : List (HloOp τ sig (Elt F))).Forall fun op => op.bufs ⊆ tcRefs τ sig :=
  ⟨unary_bufs_sub .., unary_bufs_sub .., binary_bufs_sub .., unary_bufs_sub .., reshape_bufs_sub .., binary_bufs_sub .., binary_bufs_sub .., nullary_bufs_sub .., unary_bufs_sub .., binary_bufs_sub .., unary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., reshape_bufs_sub .., binary_bufs_sub .., binary_bufs_sub .., nullary_bufs_sub .., unary_bufs_sub .., binary_bufs_sub .., unary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., reshape_bufs_sub .., binary_bufs_sub .., binary_bufs_sub .., nullary_bufs_sub .., unary_bufs_sub .., binary_bufs_sub ..⟩
set_option maxRecDepth 8192 in
theorem ops_part2_sub : (ops_part2 : List (HloOp τ sig (Elt F))).Forall fun op => op.bufs ⊆ tcRefs τ sig :=
  ⟨unary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., reshape_bufs_sub .., binary_bufs_sub .., binary_bufs_sub .., nullary_bufs_sub .., unary_bufs_sub .., binary_bufs_sub .., unary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., reshape_bufs_sub .., binary_bufs_sub .., binary_bufs_sub .., nullary_bufs_sub .., unary_bufs_sub .., binary_bufs_sub .., unary_bufs_sub .., unary_bufs_sub .., unary_bufs_sub .., binary_bufs_sub .., nullary_bufs_sub .., unary_bufs_sub .., unary_bufs_sub .., ternary_bufs_sub .., nullary_bufs_sub .., unary_bufs_sub ..⟩
set_option maxRecDepth 8192 in
theorem ops_part3_sub : (ops_part3 : List (HloOp τ sig (Elt F))).Forall fun op => op.bufs ⊆ tcRefs τ sig :=
  ⟨unary_bufs_sub .., ternary_bufs_sub .., nullary_bufs_sub .., unary_bufs_sub .., binary_bufs_sub .., unary_bufs_sub .., unary_bufs_sub .., binary_bufs_sub .., unary_bufs_sub .., reshape_bufs_sub .., binary_bufs_sub .., binary_bufs_sub .., nullary_bufs_sub .., unary_bufs_sub .., binary_bufs_sub .., unary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., reshape_bufs_sub .., binary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., unary_bufs_sub .., unary_bufs_sub .., binary_bufs_sub .., nullary_bufs_sub .., unary_bufs_sub ..⟩
set_option maxRecDepth 8192 in
theorem ops_part4_sub : (ops_part4 : List (HloOp τ sig (Elt F))).Forall fun op => op.bufs ⊆ tcRefs τ sig :=
  ⟨unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., reshape_bufs_sub .., binary_bufs_sub .., binary_bufs_sub .., nullary_bufs_sub .., unary_bufs_sub .., binary_bufs_sub .., unary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., reshape_bufs_sub .., binary_bufs_sub .., binary_bufs_sub .., nullary_bufs_sub .., unary_bufs_sub .., binary_bufs_sub .., unary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub ..⟩
set_option maxRecDepth 8192 in
theorem ops_part5_sub : (ops_part5 : List (HloOp τ sig (Elt F))).Forall fun op => op.bufs ⊆ tcRefs τ sig :=
  ⟨unary_bufs_sub .., binary_bufs_sub .., unary_bufs_sub .., reshape_bufs_sub .., binary_bufs_sub .., binary_bufs_sub .., nullary_bufs_sub .., unary_bufs_sub .., binary_bufs_sub .., unary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., reshape_bufs_sub .., binary_bufs_sub .., binary_bufs_sub .., nullary_bufs_sub .., unary_bufs_sub .., binary_bufs_sub .., unary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., reshape_bufs_sub .., binary_bufs_sub .., binary_bufs_sub .., nullary_bufs_sub .., unary_bufs_sub .., binary_bufs_sub .., unary_bufs_sub ..⟩
set_option maxRecDepth 8192 in
theorem ops_part6_sub : (ops_part6 : List (HloOp τ sig (Elt F))).Forall fun op => op.bufs ⊆ tcRefs τ sig :=
  ⟨unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., reshape_bufs_sub .., binary_bufs_sub .., binary_bufs_sub .., nullary_bufs_sub .., unary_bufs_sub .., binary_bufs_sub .., unary_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., reshape_bufs_sub .., binary_bufs_sub .., binary_bufs_sub .., nullary_bufs_sub .., unary_bufs_sub .., binary_bufs_sub .., unary_bufs_sub .., unary_bufs_sub .., unary_bufs_sub .., binary_bufs_sub .., nullary_bufs_sub .., unary_bufs_sub .., unary_bufs_sub .., ternary_bufs_sub .., nullary_bufs_sub .., unary_bufs_sub .., unary_bufs_sub ..⟩
set_option maxRecDepth 8192 in
theorem ops_part7_sub : (ops_part7 : List (HloOp τ sig (Elt F))).Forall fun op => op.bufs ⊆ tcRefs τ sig :=
  ⟨ternary_bufs_sub .., nullary_bufs_sub .., unary_bufs_sub .., binary_bufs_sub .., unary_bufs_sub .., unary_bufs_sub .., binary_bufs_sub .., unary_bufs_sub .., reshape_bufs_sub .., binary_bufs_sub .., binary_bufs_sub .., nullary_bufs_sub .., unary_bufs_sub .., binary_bufs_sub ..⟩

end Cert.ReferenceIdeal.ValueH

end
-- ==== Proof.RefRunT1.lean ====
/- GENERATED by scratch/gen_refrunh.js (run in the unit directory: bun scratch/gen_refrunh.js) from the operation list of the
   generated proof/Proof/Gen/ReferenceIdeal/Run.lean (kept as scratch/Gen_ReferenceIdeal_Run.lean.txt) and the stages of
   proof/Proof/RefReadP.lean. TABLES. The TensorCore's buffer contents after each window of the reference program's @main, from any contents `V0`: `valK V0` after
   the first K windows, and for every buffer written by then and still read later (or returned, or an argument) the lemma
   `valK_‹buffer›`: it holds its stage (`val_‹buffer›` of the stages module) of the arguments' contents in `V0`. -/
import proofs.«171321_j63273458205156_1_alg».proof.Proof.RefRunT0
import proofs.«171321_j63273458205156_1_alg».proof.Proof.RefReadP

set_option Elab.async false

noncomputable section

namespace Cert.ReferenceIdeal.ValueH

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The buffer contents before the first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl

/-- The buffer contents after the first 1 window. -/
def val1 (V0 : Valuation τ sig (Elt F)) : Valuation τ sig (Elt F) := after ops_part0 (val0 V0)
/-- The buffers that window `main_part0`'s operations write. -/
abbrev ops_part0_W : List (Ref sig .tc) := [main_v0, main_v1, main_v2, main_v3, main_v4, main_v5, main_v6, main_v7, main_c, main_v8, main_v9, main_c_0, main_v10, main_v11, main_v12, main_v13, main_v14, main_c_1, main_v15, main_v16, main_v17, main_v18, main_v19, main_v20, main_cst, main_v21, main_v22, main_v23, main_cst_2, main_v24, main_v25, main_v26, main_cst_3, main_v27, main_v28, main_v29, main_v30, main_v31, main_v32, main_v33, main_v34, main_v35, main_c_4, main_v36, main_v37, main_v38, main_v39, main_v40, main_v41, main_cst_5, main_v42, main_v43, main_v44, main_cst_6, main_v45, main_v46, main_v47, main_cst_7, main_v48, main_v49]
set_option maxRecDepth 8192 in
set_option maxHeartbeats 4000000 in
theorem ops_part0_writes : (ops_part0 : List (HloOp τ sig (Elt F))).Forall fun op => op.writes ⊆ (ops_part0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part0` does not write keeps its contents through it. -/
theorem val1_keep (V0 : Valuation τ sig (Elt F)) (r : Ref sig .tc) (h : r ∉ ops_part0_W) :
    val1 V0 (Proc.devRef .tc r) = val0 V0 (Proc.devRef .tc r) :=
  after_of_writes_sub ops_part0 _ ops_part0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
theorem val1_main_arg7 (V0 : Valuation τ sig (Elt F)) : val1 V0 (no_index (Proc.devRef .tc main_arg7)) = V0 (Proc.devRef .tc main_arg7) :=
  (val1_keep V0 main_arg7 (by decide)).trans (val0_main_arg7 V0)
theorem val1_main_arg8 (V0 : Valuation τ sig (Elt F)) : val1 V0 (no_index (Proc.devRef .tc main_arg8)) = V0 (Proc.devRef .tc main_arg8) :=
  (val1_keep V0 main_arg8 (by decide)).trans (val0_main_arg8 V0)
set_option maxRecDepth 8192 in
set_option maxHeartbeats 4000000 in
theorem val1_main_v1 (V0 : Valuation τ sig (Elt F)) : val1 V0 (no_index (Proc.devRef .tc main_v1)) = val_main_v1 (F := F) (V0 (Proc.devRef .tc main_arg1)) := by
  unfold val1
  simp only [ops_part0]
  after_results_simp
  simp only [val0_main_arg1] <;> rfl
set_option maxRecDepth 8192 in
set_option maxHeartbeats 4000000 in
theorem val1_main_v3 (V0 : Valuation τ sig (Elt F)) : val1 V0 (no_index (Proc.devRef .tc main_v3)) = val_main_v3 (F := F) (V0 (Proc.devRef .tc main_arg1)) := by
  unfold val1
  simp only [ops_part0]
  after_results_simp
  simp only [val0_main_arg1] <;> rfl
set_option maxRecDepth 8192 in
set_option maxHeartbeats 4000000 in
theorem val1_main_v14 (V0 : Valuation τ sig (Elt F)) : val1 V0 (no_index (Proc.devRef .tc main_v14)) = val_main_v14 (F := F) (V0 (Proc.devRef .tc main_arg0)) (V0 (Proc.devRef .tc main_arg1)) := by
  unfold val1
  simp only [ops_part0]
  after_results_simp
  simp only [val0_main_arg1, val0_main_arg0] <;> rfl
set_option maxRecDepth 8192 in
set_option maxHeartbeats 4000000 in
theorem val1_main_v35 (V0 : Valuation τ sig (Elt F)) : val1 V0 (no_index (Proc.devRef .tc main_v35)) = val_main_v35 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold val1
  simp only [ops_part0]
  after_results_simp
  simp only [val0_main_arg3, val0_main_arg2, val0_main_arg1, val0_main_arg0, val0_main_arg5, val0_main_arg4] <;> rfl
set_option maxRecDepth 8192 in
set_option maxHeartbeats 4000000 in
theorem val1_main_v44 (V0 : Valuation τ sig (Elt F)) : val1 V0 (no_index (Proc.devRef .tc main_v44)) = val_main_v44 (F := F) (V0 (Proc.devRef .tc main_arg0)) (V0 (Proc.devRef .tc main_arg1)) (V0 (Proc.devRef .tc main_arg2)) := by
  unfold val1
  simp only [ops_part0]
  after_results_simp
  simp only [val0_main_arg2, val0_main_arg1, val0_main_arg0] <;> rfl
set_option maxRecDepth 8192 in
set_option maxHeartbeats 4000000 in
theorem val1_main_v49 (V0 : Valuation τ sig (Elt F)) : val1 V0 (no_index (Proc.devRef .tc main_v49)) = val_main_v49 (F := F) (V0 (Proc.devRef .tc main_arg1)) (V0 (Proc.devRef .tc main_arg2)) := by
  unfold val1
  simp only [ops_part0]
  after_results_simp
  simp only [val0_main_arg2, val0_main_arg1] <;> rfl

/-- The buffer contents after the first 2 windows. -/
def val2 (V0 : Valuation τ sig (Elt F)) : Valuation τ sig (Elt F) := after ops_part1 (val1 V0)
/-- The buffers that window `main_part1`'s operations write. -/
abbrev ops_part1_W : List (Ref sig .tc) := [main_v50, main_v51, main_v52, main_v53, main_v54, main_v55, main_v56, main_c_8, main_v57, main_v58, main_v59, main_v60, main_v61, main_v62, main_cst_9, main_v63, main_v64, main_v65, main_cst_10, main_v66, main_v67, main_v68, main_cst_11, main_v69, main_v70, main_v71, main_v72, main_v73, main_v74, main_v75, main_v76, main_v77, main_c_12, main_v78, main_v79, main_v80, main_v81, main_v82, main_v83, main_cst_13, main_v84, main_v85, main_v86, main_cst_14, main_v87, main_v88, main_v89, main_cst_15, main_v90, main_v91, main_v92, main_v93, main_v94, main_v95, main_v96, main_v97, main_v98, main_c_16, main_v99, main_v100]
set_option maxRecDepth 8192 in
set_option maxHeartbeats 4000000 in
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val2_main_v1 (V0 : Valuation τ sig (Elt F)) : val2 V0 (no_index (Proc.devRef .tc main_v1)) = val_main_v1 (F := F) (V0 (Proc.devRef .tc main_arg1)) :=
  (val2_keep V0 main_v1 (by decide)).trans (val1_main_v1 V0)
theorem val2_main_v3 (V0 : Valuation τ sig (Elt F)) : val2 V0 (no_index (Proc.devRef .tc main_v3)) = val_main_v3 (F := F) (V0 (Proc.devRef .tc main_arg1)) :=
  (val2_keep V0 main_v3 (by decide)).trans (val1_main_v3 V0)
theorem val2_main_v14 (V0 : Valuation τ sig (Elt F)) : val2 V0 (no_index (Proc.devRef .tc main_v14)) = val_main_v14 (F := F) (V0 (Proc.devRef .tc main_arg0)) (V0 (Proc.devRef .tc main_arg1)) :=
  (val2_keep V0 main_v14 (by decide)).trans (val1_main_v14 V0)
set_option maxRecDepth 8192 in
set_option maxHeartbeats 4000000 in
theorem val2_main_v98 (V0 : Valuation τ sig (Elt F)) : val2 V0 (no_index (Proc.devRef .tc main_v98)) = val_main_v98 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold val2
  simp only [ops_part1]
  after_results_simp
  simp only [val1_main_arg3, val1_main_arg2, val1_main_v3, val1_main_v14, val1_main_v49, val1_main_v44, val1_main_v35] <;> rfl
set_option maxRecDepth 8192 in
set_option maxHeartbeats 4000000 in
theorem val2_main_v100 (V0 : Valuation τ sig (Elt F)) : val2 V0 (no_index (Proc.devRef .tc main_v100)) = val_main_v100 (F := F) (V0 (Proc.devRef .tc main_arg2)) := by
  unfold val2
  simp only [ops_part1]
  after_results_simp
  simp only [val1_main_arg2] <;> rfl

/-- The buffer contents after the first 3 windows. -/
def val3 (V0 : Valuation τ sig (Elt F)) : Valuation τ sig (Elt F) := after ops_part2 (val2 V0)
/-- The buffers that window `main_part2`'s operations write. -/
abbrev ops_part2_W : List (Ref sig .tc) := [main_v101, main_v102, main_v103, main_v104, main_cst_17, main_v105, main_v106, main_v107, main_cst_18, main_v108, main_v109, main_v110, main_cst_19, main_v111, main_v112, main_v113, main_v114, main_v115, main_v116, main_v117, main_v118, main_v119, main_c_20, main_v120, main_v121, main_v122, main_v123, main_v124, main_v125, main_cst_21, main_v126, main_v127, main_v128, main_cst_22, main_v129, main_v130, main_v131, main_cst_23, main_v132, main_v133, main_v134, main_v135, main_v136, main_v137, main_v138, main_v139, main_v140, main_c_24, main_v141, main_v142, main_v143, main_v144, main_v145, main_v146, main_cst_25, main_v147, main_v148, main_v149, main_cst_26, main_v150]
set_option maxRecDepth 8192 in
set_option maxHeartbeats 4000000 in
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part2` does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val3_main_v1 (V0 : Valuation τ sig (Elt F)) : val3 V0 (no_index (Proc.devRef .tc main_v1)) = val_main_v1 (F := F) (V0 (Proc.devRef .tc main_arg1)) :=
  (val3_keep V0 main_v1 (by decide)).trans (val2_main_v1 V0)
theorem val3_main_v3 (V0 : Valuation τ sig (Elt F)) : val3 V0 (no_index (Proc.devRef .tc main_v3)) = val_main_v3 (F := F) (V0 (Proc.devRef .tc main_arg1)) :=
  (val3_keep V0 main_v3 (by decide)).trans (val2_main_v3 V0)
theorem val3_main_v14 (V0 : Valuation τ sig (Elt F)) : val3 V0 (no_index (Proc.devRef .tc main_v14)) = val_main_v14 (F := F) (V0 (Proc.devRef .tc main_arg0)) (V0 (Proc.devRef .tc main_arg1)) :=
  (val3_keep V0 main_v14 (by decide)).trans (val2_main_v14 V0)
set_option maxRecDepth 8192 in
set_option maxHeartbeats 4000000 in
theorem val3_main_v140 (V0 : Valuation τ sig (Elt F)) : val3 V0 (no_index (Proc.devRef .tc main_v140)) = val_main_v140 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold val3
  simp only [ops_part2]
  after_results_simp
  simp only [val2_main_arg3, val2_main_arg2, val2_main_v3, val2_main_v14, val2_main_v100, val2_main_v98] <;> rfl
set_option maxRecDepth 8192 in
set_option maxHeartbeats 4000000 in
theorem val3_main_v143 (V0 : Valuation τ sig (Elt F)) : val3 V0 (no_index (Proc.devRef .tc main_v143)) = val_main_v143 (F := F) (V0 (Proc.devRef .tc main_arg2)) := by
  unfold val3
  simp only [ops_part2]
  after_results_simp
  simp only [val2_main_arg2] <;> rfl
set_option maxRecDepth 8192 in
set_option maxHeartbeats 4000000 in
theorem val3_main_v149 (V0 : Valuation τ sig (Elt F)) : val3 V0 (no_index (Proc.devRef .tc main_v149)) = val_main_v149 (F := F) (V0 (Proc.devRef .tc main_arg0)) (V0 (Proc.devRef .tc main_arg1)) (V0 (Proc.devRef .tc main_arg2)) := by
  unfold val3
  simp only [ops_part2]
  after_results_simp
  simp only [val2_main_arg2, val2_main_v14, val2_main_v3] <;> rfl
set_option maxRecDepth 8192 in
set_option maxHeartbeats 4000000 in
theorem val3_main_v150 (V0 : Valuation τ sig (Elt F)) : val3 V0 (no_index (Proc.devRef .tc main_v150)) = val_main_v150 (F := F) := by
  unfold val3
  simp only [ops_part2]
  after_results_simp
  all_goals rfl

/-- The buffer contents after the first 4 windows. -/
def val4 (V0 : Valuation τ sig (Elt F)) : Valuation τ sig (Elt F) := after ops_part3 (val3 V0)
/-- The buffers that window `main_part3`'s operations write. -/
abbrev ops_part3_W : List (Ref sig .tc) := [main_v151, main_v152, main_cst_27, main_v153, main_v154, main_v155, main_v156, main_v157, main_v158, main_v159, main_v160, main_v161, main_c_28, main_v162, main_v163, main_v164, main_v165, main_v166, main_v167, main_cst_29, main_v168, main_v169, main_v170, main_cst_30, main_v171, main_v172, main_v173, main_cst_31, main_v174, main_v175, main_v176, main_v177, main_v178, main_v179, main_v180, main_v181, main_v182, main_call0_cst, main_call0_v0, main_v183, main_v184, main_v185, main_v186, main_v187, main_c_32, main_v188, main_v189, main_c_33, main_v190, main_v191, main_v192, main_v193, main_v194, main_c_34, main_v195, main_v196, main_v197, main_v198, main_v199, main_v200, main_cst_35, main_v201]
set_option maxRecDepth 8192 in
set_option maxHeartbeats 4000000 in
theorem ops_part3_writes : (ops_part3 : List (HloOp τ sig (Elt F))).Forall fun op => op.writes ⊆ (ops_part3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part3` does not write keeps its contents through it. -/
theorem val4_keep (V0 : Valuation τ sig (Elt F)) (r : Ref sig .tc) (h : r ∉ ops_part3_W) :
    val4 V0 (Proc.devRef .tc r) = val3 V0 (Proc.devRef .tc r) :=
  after_of_writes_sub ops_part3 _ ops_part3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_arg8 (V0 : Valuation τ sig (Elt F)) : val4 V0 (no_index (Proc.devRef .tc main_arg8)) = V0 (Proc.devRef .tc main_arg8) :=
  (val4_keep V0 main_arg8 (by decide)).trans (val3_main_arg8 V0)
theorem val4_main_v3 (V0 : Valuation τ sig (Elt F)) : val4 V0 (no_index (Proc.devRef .tc main_v3)) = val_main_v3 (F := F) (V0 (Proc.devRef .tc main_arg1)) :=
  (val4_keep V0 main_v3 (by decide)).trans (val3_main_v3 V0)
set_option maxRecDepth 8192 in
set_option maxHeartbeats 4000000 in
theorem val4_main_v187 (V0 : Valuation τ sig (Elt F)) : val4 V0 (no_index (Proc.devRef .tc main_v187)) = val_main_v187 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg7)) (V0 (Proc.devRef .tc main_arg8)) := by
  unfold val4
  simp only [ops_part3]
  after_results_simp
  simp only [val3_main_arg8, val3_main_arg7, val3_main_arg3, val3_main_arg2, val3_main_v3, val3_main_v14, val3_main_v143, val3_main_v150, val3_main_v149, val3_main_v140] <;> rfl
set_option maxRecDepth 8192 in
set_option maxHeartbeats 4000000 in
theorem val4_main_v194 (V0 : Valuation τ sig (Elt F)) : val4 V0 (no_index (Proc.devRef .tc main_v194)) = val_main_v194 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold val4
  simp only [ops_part3]
  after_results_simp
  simp only [val3_main_v1, val3_main_arg3, val3_main_arg2, val3_main_v3, val3_main_v14, val3_main_v143, val3_main_v150, val3_main_v149, val3_main_v140] <;> rfl
set_option maxRecDepth 8192 in
set_option maxHeartbeats 4000000 in
theorem val4_main_v197 (V0 : Valuation τ sig (Elt F)) : val4 V0 (no_index (Proc.devRef .tc main_v197)) = val_main_v197 (F := F) (V0 (Proc.devRef .tc main_arg2)) := by
  unfold val4
  simp only [ops_part3]
  after_results_simp
  simp only [val3_main_arg2] <;> rfl
set_option maxRecDepth 8192 in
set_option maxHeartbeats 4000000 in
theorem val4_main_v200 (V0 : Valuation τ sig (Elt F)) : val4 V0 (no_index (Proc.devRef .tc main_v200)) = val_main_v200 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold val4
  simp only [ops_part3]
  after_results_simp
  simp only [val3_main_arg2, val3_main_v1, val3_main_arg3, val3_main_v3, val3_main_v14, val3_main_v143, val3_main_v150, val3_main_v149, val3_main_v140] <;> rfl
set_option maxRecDepth 8192 in
set_option maxHeartbeats 4000000 in
theorem val4_main_v201 (V0 : Valuation τ sig (Elt F)) : val4 V0 (no_index (Proc.devRef .tc main_v201)) = val_main_v201 (F := F) := by
  unfold val4
  simp only [ops_part3]
  after_results_simp
  all_goals rfl

/-- The buffer contents after the first 5 windows. -/
def val5 (V0 : Valuation τ sig (Elt F)) : Valuation τ sig (Elt F) := after ops_part4 (val4 V0)
/-- The buffers that window `main_part4`'s operations write. -/
abbrev ops_part4_W : List (Ref sig .tc) := [main_v202, main_v203, main_cst_36, main_v204, main_v205, main_v206, main_cst_37, main_v207, main_v208, main_v209, main_v210, main_v211, main_v212, main_v213, main_v214, main_v215, main_c_38, main_v216, main_v217, main_v218, main_v219, main_v220, main_v221, main_cst_39, main_v222, main_v223, main_v224, main_cst_40, main_v225, main_v226, main_v227, main_cst_41, main_v228, main_v229, main_v230, main_v231, main_v232, main_v233, main_v234, main_v235, main_v236, main_c_42, main_v237, main_v238, main_v239, main_v240, main_v241, main_v242, main_cst_43, main_v243, main_v244, main_v245, main_cst_44, main_v246, main_v247, main_v248, main_cst_45, main_v249, main_v250, main_v251]
set_option maxRecDepth 8192 in
set_option maxHeartbeats 4000000 in
theorem ops_part4_writes : (ops_part4 : List (HloOp τ sig (Elt F))).Forall fun op => op.writes ⊆ (ops_part4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part4` does not write keeps its contents through it. -/
theorem val5_keep (V0 : Valuation τ sig (Elt F)) (r : Ref sig .tc) (h : r ∉ ops_part4_W) :
    val5 V0 (Proc.devRef .tc r) = val4 V0 (Proc.devRef .tc r) :=
  after_of_writes_sub ops_part4 _ ops_part4_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_arg7 (V0 : Valuation τ sig (Elt F)) : val5 V0 (no_index (Proc.devRef .tc main_arg7)) = V0 (Proc.devRef .tc main_arg7) :=
  (val5_keep V0 main_arg7 (by decide)).trans (val4_main_arg7 V0)
theorem val5_main_arg8 (V0 : Valuation τ sig (Elt F)) : val5 V0 (no_index (Proc.devRef .tc main_arg8)) = V0 (Proc.devRef .tc main_arg8) :=
  (val5_keep V0 main_arg8 (by decide)).trans (val4_main_arg8 V0)
theorem val5_main_v3 (V0 : Valuation τ sig (Elt F)) : val5 V0 (no_index (Proc.devRef .tc main_v3)) = val_main_v3 (F := F) (V0 (Proc.devRef .tc main_arg1)) :=
  (val5_keep V0 main_v3 (by decide)).trans (val4_main_v3 V0)
theorem val5_main_v194 (V0 : Valuation τ sig (Elt F)) : val5 V0 (no_index (Proc.devRef .tc main_v194)) = val_main_v194 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) :=
  (val5_keep V0 main_v194 (by decide)).trans (val4_main_v194 V0)
set_option maxRecDepth 8192 in
set_option maxHeartbeats 4000000 in
theorem val5_main_v236 (V0 : Valuation τ sig (Elt F)) : val5 V0 (no_index (Proc.devRef .tc main_v236)) = val_main_v236 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) := by
  unfold val5
  simp only [ops_part4]
  after_results_simp
  simp only [val4_main_arg6, val4_main_arg2, val4_main_v3, val4_main_v194, val4_main_v197, val4_main_v200, val4_main_v201, val4_main_v187] <;> rfl
set_option maxRecDepth 8192 in
set_option maxHeartbeats 4000000 in
theorem val5_main_v245 (V0 : Valuation τ sig (Elt F)) : val5 V0 (no_index (Proc.devRef .tc main_v245)) = val_main_v245 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold val5
  simp only [ops_part4]
  after_results_simp
  simp only [val4_main_arg2, val4_main_v194, val4_main_v3] <;> rfl
set_option maxRecDepth 8192 in
set_option maxHeartbeats 4000000 in
theorem val5_main_v251 (V0 : Valuation τ sig (Elt F)) : val5 V0 (no_index (Proc.devRef .tc main_v251)) = val_main_v251 (F := F) (V0 (Proc.devRef .tc main_arg1)) (V0 (Proc.devRef .tc main_arg2)) := by
  unfold val5
  simp only [ops_part4]
  after_results_simp
  simp only [val4_main_arg2, val4_main_v3] <;> rfl

/-- The buffer contents after the first 6 windows. -/
def val6 (V0 : Valuation τ sig (Elt F)) : Valuation τ sig (Elt F) := after ops_part5 (val5 V0)
/-- The buffers that window `main_part5`'s operations write. -/
abbrev ops_part5_W : List (Ref sig .tc) := [main_v252, main_v253, main_v254, main_v255, main_v256, main_v257, main_c_46, main_v258, main_v259, main_v260, main_v261, main_v262, main_v263, main_cst_47, main_v264, main_v265, main_v266, main_cst_48, main_v267, main_v268, main_v269, main_cst_49, main_v270, main_v271, main_v272, main_v273, main_v274, main_v275, main_v276, main_v277, main_v278, main_c_50, main_v279, main_v280, main_v281, main_v282, main_v283, main_v284, main_cst_51, main_v285, main_v286, main_v287, main_cst_52, main_v288, main_v289, main_v290, main_cst_53, main_v291, main_v292, main_v293, main_v294, main_v295, main_v296, main_v297, main_v298, main_v299, main_c_54, main_v300, main_v301, main_v302]
set_option maxRecDepth 8192 in
set_option maxHeartbeats 4000000 in
theorem ops_part5_writes : (ops_part5 : List (HloOp τ sig (Elt F))).Forall fun op => op.writes ⊆ (ops_part5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part5` does not write keeps its contents through it. -/
theorem val6_keep (V0 : Valuation τ sig (Elt F)) (r : Ref sig .tc) (h : r ∉ ops_part5_W) :
    val6 V0 (Proc.devRef .tc r) = val5 V0 (Proc.devRef .tc r) :=
  after_of_writes_sub ops_part5 _ ops_part5_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_arg6 (V0 : Valuation τ sig (Elt F)) : val6 V0 (no_index (Proc.devRef .tc main_arg6)) = V0 (Proc.devRef .tc main_arg6) :=
  (val6_keep V0 main_arg6 (by decide)).trans (val5_main_arg6 V0)
theorem val6_main_arg7 (V0 : Valuation τ sig (Elt F)) : val6 V0 (no_index (Proc.devRef .tc main_arg7)) = V0 (Proc.devRef .tc main_arg7) :=
  (val6_keep V0 main_arg7 (by decide)).trans (val5_main_arg7 V0)
theorem val6_main_arg8 (V0 : Valuation τ sig (Elt F)) : val6 V0 (no_index (Proc.devRef .tc main_arg8)) = V0 (Proc.devRef .tc main_arg8) :=
  (val6_keep V0 main_arg8 (by decide)).trans (val5_main_arg8 V0)
theorem val6_main_v3 (V0 : Valuation τ sig (Elt F)) : val6 V0 (no_index (Proc.devRef .tc main_v3)) = val_main_v3 (F := F) (V0 (Proc.devRef .tc main_arg1)) :=
  (val6_keep V0 main_v3 (by decide)).trans (val5_main_v3 V0)
theorem val6_main_v194 (V0 : Valuation τ sig (Elt F)) : val6 V0 (no_index (Proc.devRef .tc main_v194)) = val_main_v194 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) :=
  (val6_keep V0 main_v194 (by decide)).trans (val5_main_v194 V0)
set_option maxRecDepth 8192 in
set_option maxHeartbeats 4000000 in
theorem val6_main_v299 (V0 : Valuation τ sig (Elt F)) : val6 V0 (no_index (Proc.devRef .tc main_v299)) = val_main_v299 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) := by
  unfold val6
  simp only [ops_part5]
  after_results_simp
  simp only [val5_main_arg6, val5_main_arg2, val5_main_v3, val5_main_v194, val5_main_v251, val5_main_v245, val5_main_v236] <;> rfl
set_option maxRecDepth 8192 in
set_option maxHeartbeats 4000000 in
theorem val6_main_v302 (V0 : Valuation τ sig (Elt F)) : val6 V0 (no_index (Proc.devRef .tc main_v302)) = val_main_v302 (F := F) (V0 (Proc.devRef .tc main_arg2)) := by
  unfold val6
  simp only [ops_part5]
  after_results_simp
  simp only [val5_main_arg2] <;> rfl

/-- The buffer contents after the first 7 windows. -/
def val7 (V0 : Valuation τ sig (Elt F)) : Valuation τ sig (Elt F) := after ops_part6 (val6 V0)
/-- The buffers that window `main_part6`'s operations write. -/
abbrev ops_part6_W : List (Ref sig .tc) := [main_v303, main_v304, main_v305, main_cst_55, main_v306, main_v307, main_v308, main_cst_56, main_v309, main_v310, main_v311, main_cst_57, main_v312, main_v313, main_v314, main_v315, main_v316, main_v317, main_v318, main_v319, main_v320, main_c_58, main_v321, main_v322, main_v323, main_v324, main_v325, main_v326, main_cst_59, main_v327, main_v328, main_v329, main_cst_60, main_v330, main_v331, main_v332, main_cst_61, main_v333, main_v334, main_v335, main_v336, main_v337, main_v338, main_v339, main_v340, main_v341, main_c_62, main_v342, main_v343, main_v344, main_v345, main_v346, main_v347, main_cst_63, main_v348, main_v349, main_v350, main_cst_64, main_v351, main_v352]
set_option maxRecDepth 8192 in
set_option maxHeartbeats 4000000 in
theorem ops_part6_writes : (ops_part6 : List (HloOp τ sig (Elt F))).Forall fun op => op.writes ⊆ (ops_part6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part6` does not write keeps its contents through it. -/
theorem val7_keep (V0 : Valuation τ sig (Elt F)) (r : Ref sig .tc) (h : r ∉ ops_part6_W) :
    val7 V0 (Proc.devRef .tc r) = val6 V0 (Proc.devRef .tc r) :=
  after_of_writes_sub ops_part6 _ ops_part6_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_arg4 (V0 : Valuation τ sig (Elt F)) : val7 V0 (no_index (Proc.devRef .tc main_arg4)) = V0 (Proc.devRef .tc main_arg4) :=
  (val7_keep V0 main_arg4 (by decide)).trans (val6_main_arg4 V0)
theorem val7_main_arg5 (V0 : Valuation τ sig (Elt F)) : val7 V0 (no_index (Proc.devRef .tc main_arg5)) = V0 (Proc.devRef .tc main_arg5) :=
  (val7_keep V0 main_arg5 (by decide)).trans (val6_main_arg5 V0)
theorem val7_main_arg6 (V0 : Valuation τ sig (Elt F)) : val7 V0 (no_index (Proc.devRef .tc main_arg6)) = V0 (Proc.devRef .tc main_arg6) :=
  (val7_keep V0 main_arg6 (by decide)).trans (val6_main_arg6 V0)
theorem val7_main_arg7 (V0 : Valuation τ sig (Elt F)) : val7 V0 (no_index (Proc.devRef .tc main_arg7)) = V0 (Proc.devRef .tc main_arg7) :=
  (val7_keep V0 main_arg7 (by decide)).trans (val6_main_arg7 V0)
theorem val7_main_arg8 (V0 : Valuation τ sig (Elt F)) : val7 V0 (no_index (Proc.devRef .tc main_arg8)) = V0 (Proc.devRef .tc main_arg8) :=
  (val7_keep V0 main_arg8 (by decide)).trans (val6_main_arg8 V0)
set_option maxRecDepth 8192 in
set_option maxHeartbeats 4000000 in
theorem val7_main_v341 (V0 : Valuation τ sig (Elt F)) : val7 V0 (no_index (Proc.devRef .tc main_v341)) = val_main_v341 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) := by
  unfold val7
  simp only [ops_part6]
  after_results_simp
  simp only [val6_main_arg6, val6_main_arg2, val6_main_v3, val6_main_v194, val6_main_v302, val6_main_v299] <;> rfl
set_option maxRecDepth 8192 in
set_option maxHeartbeats 4000000 in
theorem val7_main_v344 (V0 : Valuation τ sig (Elt F)) : val7 V0 (no_index (Proc.devRef .tc main_v344)) = val_main_v344 (F := F) (V0 (Proc.devRef .tc main_arg2)) := by
  unfold val7
  simp only [ops_part6]
  after_results_simp
  simp only [val6_main_arg2] <;> rfl
set_option maxRecDepth 8192 in
set_option maxHeartbeats 4000000 in
theorem val7_main_v350 (V0 : Valuation τ sig (Elt F)) : val7 V0 (no_index (Proc.devRef .tc main_v350)) = val_main_v350 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold val7
  simp only [ops_part6]
  after_results_simp
  simp only [val6_main_arg2, val6_main_v194, val6_main_v3] <;> rfl
set_option maxRecDepth 8192 in
set_option maxHeartbeats 4000000 in
theorem val7_main_v351 (V0 : Valuation τ sig (Elt F)) : val7 V0 (no_index (Proc.devRef .tc main_v351)) = val_main_v351 (F := F) := by
  unfold val7
  simp only [ops_part6]
  after_results_simp
  all_goals rfl
set_option maxRecDepth 8192 in
set_option maxHeartbeats 4000000 in
theorem val7_main_v352 (V0 : Valuation τ sig (Elt F)) : val7 V0 (no_index (Proc.devRef .tc main_v352)) = val_main_v352 (F := F) (V0 (Proc.devRef .tc main_arg1)) := by
  unfold val7
  simp only [ops_part6]
  after_results_simp
  simp only [val6_main_v3] <;> rfl

/-- The buffer contents after the first 8 windows. -/
def val8 (V0 : Valuation τ sig (Elt F)) : Valuation τ sig (Elt F) := after ops_part7 (val7 V0)
/-- The buffers that window `main_part7`'s operations write. -/
abbrev ops_part7_W : List (Ref sig .tc) := [main_v353, main_cst_65, main_v354, main_v355, main_v356, main_v357, main_v358, main_v359, main_v360, main_v361, main_v362, main_call1_cst, main_call1_v0, main_v363]
set_option maxRecDepth 8192 in
set_option maxHeartbeats 4000000 in
theorem ops_part7_writes : (ops_part7 : List (HloOp τ sig (Elt F))).Forall fun op => op.writes ⊆ (ops_part7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part7` does not write keeps its contents through it. -/
theorem val8_keep (V0 : Valuation τ sig (Elt F)) (r : Ref sig .tc) (h : r ∉ ops_part7_W) :
    val8 V0 (Proc.devRef .tc r) = val7 V0 (Proc.devRef .tc r) :=
  after_of_writes_sub ops_part7 _ ops_part7_writes h
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide)).trans (val7_main_arg2 V0)
theorem val8_main_arg3 (V0 : Valuation τ sig (Elt F)) : val8 V0 (no_index (Proc.devRef .tc main_arg3)) = V0 (Proc.devRef .tc main_arg3) :=
  (val8_keep V0 main_arg3 (by decide)).trans (val7_main_arg3 V0)
theorem val8_main_arg4 (V0 : Valuation τ sig (Elt F)) : val8 V0 (no_index (Proc.devRef .tc main_arg4)) = V0 (Proc.devRef .tc main_arg4) :=
  (val8_keep V0 main_arg4 (by decide)).trans (val7_main_arg4 V0)
theorem val8_main_arg5 (V0 : Valuation τ sig (Elt F)) : val8 V0 (no_index (Proc.devRef .tc main_arg5)) = V0 (Proc.devRef .tc main_arg5) :=
  (val8_keep V0 main_arg5 (by decide)).trans (val7_main_arg5 V0)
theorem val8_main_arg6 (V0 : Valuation τ sig (Elt F)) : val8 V0 (no_index (Proc.devRef .tc main_arg6)) = V0 (Proc.devRef .tc main_arg6) :=
  (val8_keep V0 main_arg6 (by decide)).trans (val7_main_arg6 V0)
theorem val8_main_arg7 (V0 : Valuation τ sig (Elt F)) : val8 V0 (no_index (Proc.devRef .tc main_arg7)) = V0 (Proc.devRef .tc main_arg7) :=
  (val8_keep V0 main_arg7 (by decide)).trans (val7_main_arg7 V0)
theorem val8_main_arg8 (V0 : Valuation τ sig (Elt F)) : val8 V0 (no_index (Proc.devRef .tc main_arg8)) = V0 (Proc.devRef .tc main_arg8) :=
  (val8_keep V0 main_arg8 (by decide)).trans (val7_main_arg8 V0)
set_option maxRecDepth 8192 in
set_option maxHeartbeats 4000000 in
theorem val8_main_v363 (V0 : Valuation τ sig (Elt F)) : val8 V0 (no_index (Proc.devRef .tc main_v363)) = val_main_v363 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) := by
  unfold val8
  simp only [ops_part7]
  after_results_simp
  simp only [val7_main_arg6, val7_main_v344, val7_main_v352, val7_main_v351, val7_main_v350, val7_main_v341] <;> rfl

end Cert.ReferenceIdeal.ValueH

end
-- ==== Proof.RefRunH.lean ====
import proofs.«171321_j63273458205156_1_alg».proof.Proof.RefRunT1

/-!
The reference program's run, read back window by window.

@main is printed as eight windows run in order; each is the sequence of its list of host operations (the table module's
`main_partK_eq`), so @main is the sequence of the concatenated list (`main_eq`). The library's theorem for a straight line
of host operations (`run_seq`) then says every weakly fair execution terminates with each buffer at the fold of the
operations over its launch contents; the fold over a concatenation is the folds one after the other (`after_ops`), and the
table module has evaluated each window's fold on the buffers still needed. So the result buffer ends at its stage of the
arguments' launch contents, and the arguments, which no operation writes, end as they began.
-/

noncomputable section

namespace Cert.ReferenceIdeal.ValueH

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- @main's 436 operations, in order: the eight windows' lists one after the other. -/
abbrev ops : List (HloOp τ sig (Elt F)) :=
  ops_part0 ++ (ops_part1 ++ (ops_part2 ++ (ops_part3 ++ (ops_part4 ++ (ops_part5 ++ (ops_part6 ++ ops_part7))))))

/-- @main is the sequence of its operations: it runs its windows in order, and each is the sequence of its list. -/
theorem main_eq (c : Dev nD) : main (F := F) c = seq ops := by
  simp only [ops, seq_append, ← main_part0_eq c, ← main_part1_eq c, ← main_part2_eq c, ← main_part3_eq c, ← main_part4_eq c,
    ← main_part5_eq c, ← main_part6_eq c, ← main_part7_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation's buffers are the TensorCore's: window by window. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h | h
    exacts [List.forall_iff_forall_mem.mp ops_part0_sub op h, List.forall_iff_forall_mem.mp ops_part1_sub op h,
      List.forall_iff_forall_mem.mp ops_part2_sub op h, List.forall_iff_forall_mem.mp ops_part3_sub op h,
      List.forall_iff_forall_mem.mp ops_part4_sub op h, List.forall_iff_forall_mem.mp ops_part5_sub op h,
      List.forall_iff_forall_mem.mp ops_part6_sub op h, List.forall_iff_forall_mem.mp ops_part7_sub op h]

/-- The fold of all the operations is the windows' folds one after the other. -/
theorem after_ops (V0 : Valuation τ sig (Elt F)) : after ops V0 = val8 V0 := by
  simp only [ops, after_append]
  rfl

/-- On every device, for any float values, from any memory with zero counters: every weakly fair execution of @main
    terminates with the result at its stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v363) = val_main_v363 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v363).trans (by simp only [after_ops]; exact val8_main_v363 (launchContents m c)),
      (h c main_arg0).trans (by simp only [after_ops]; exact val8_main_arg0 (launchContents m c)),
      (h c main_arg1).trans (by simp only [after_ops]; exact val8_main_arg1 (launchContents m c)),
      (h c main_arg2).trans (by simp only [after_ops]; exact val8_main_arg2 (launchContents m c)),
      (h c main_arg3).trans (by simp only [after_ops]; exact val8_main_arg3 (launchContents m c)),
      (h c main_arg4).trans (by simp only [after_ops]; exact val8_main_arg4 (launchContents m c)),
      (h c main_arg5).trans (by simp only [after_ops]; exact val8_main_arg5 (launchContents m c)),
      (h c main_arg6).trans (by simp only [after_ops]; exact val8_main_arg6 (launchContents m c)),
      (h c main_arg7).trans (by simp only [after_ops]; exact val8_main_arg7 (launchContents m c)),
      (h c main_arg8).trans (by simp only [after_ops]; exact val8_main_arg8 (launchContents m c))⟩)
    (run_seq scopedRefs_eq scopedSems_eq defs main (fun _ => ops) main_eq (fun _ => ops_sub) m ρ)

end Cert.ReferenceIdeal.ValueH

end
-- ==== Proof.RefResult.lean ====
import proofs.«171321_j63273458205156_1_alg».proof.Proof.RefVal
import proofs.«171321_j63273458205156_1_alg».proof.Proof.RefRunH

/-!
The reference program's run with its result stated by the specification: every weakly fair execution terminates with
the result buffer at two layers of the specification over the argument arrays as the run found them, the arguments
unchanged.
-/

noncomputable section

namespace Cert.RefSide

open Idealize.ShloMosaic Idealize.ShloMosaic.TcCoe Idealize.SL.Sem Idealize.ShloMosaic.StableHlo
open Cert.ReferenceIdeal Cert.ReferenceIdeal.Gen

/-- The run's result is the second layer over the first, on the argument arrays as the run found them. -/
theorem run_layers (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v363)
        = Cert.Rgcn.layer (Cert.Rgcn.layer (m ((c.tc : Thread nD τ).loc main_arg0)) (A (m ((c.tc : Thread nD τ).loc main_arg1)) (m ((c.tc : Thread nD τ).loc main_arg2)) (m ((c.tc : Thread nD τ).loc main_arg0))) (m ((c.tc : Thread nD τ).loc main_arg3)) (m ((c.tc : Thread nD τ).loc main_arg4)) (m ((c.tc : Thread nD τ).loc main_arg5)))
            (A (m ((c.tc : Thread nD τ).loc main_arg1)) (m ((c.tc : Thread nD τ).loc main_arg2)) (Cert.Rgcn.layer (m ((c.tc : Thread nD τ).loc main_arg0)) (A (m ((c.tc : Thread nD τ).loc main_arg1)) (m ((c.tc : Thread nD τ).loc main_arg2)) (m ((c.tc : Thread nD τ).loc main_arg0))) (m ((c.tc : Thread nD τ).loc main_arg3)) (m ((c.tc : Thread nD τ).loc main_arg4)) (m ((c.tc : Thread nD τ).loc main_arg5))))
            (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (val_eq _ _ _ _ _ _ _ _ _), (h c).2⟩)
    (Cert.ReferenceIdeal.ValueH.run (F := Ideal) m ρ)

end Cert.RefSide

end
-- ==== Proof.RefBridge.lean ====
import proofs.«171321_j63273458205156_1_alg».proof.Proof.RefAgg
import proofs.«171321_j63273458205156_1_alg».proof.Proof.HostAgg

/-!
The stacked aggregate read off the reference program and the one read off the kernel program's host operations are
the same function: the two programs print the same operations over dimension records that are defined separately in
the two namespaces but are the same records.
-/

noncomputable section

namespace Cert.RefSide

open Idealize.ShloMosaic Idealize.ShloMosaic.ValueIdx

/-- One relation's aggregate: the reference's composed term is the kernel program's. -/
theorem aggRel_eq_host (rc : BitVec 32) (y : Cert.Rgcn.ND.Idx → EReal) (ei : Vec Ideal Cert.ReferenceIdeal.S2x640000 .i32)
    (et : Vec Ideal Cert.ReferenceIdeal.S640000 .i32) :
    aggRel rc y ei et = Cert.HostSide.aggCore rc y (Cert.HostSide.srcOf ei) (Cert.HostSide.dstOf ei) et := rfl

/-- The stack of the eight aggregates: the reference's is the kernel program's. -/
theorem A_eq_stackK (ei : Vec Ideal Cert.ReferenceIdeal.S2x640000 .i32) (et : Vec Ideal Cert.ReferenceIdeal.S640000 .i32)
    (y : Cert.Rgcn.ND.Idx → EReal) :
    A ei et y = Cert.HostSide.stackK y (Cert.HostSide.srcOf ei) (Cert.HostSide.dstOf ei) et := by
  funext j
  obtain ⟨r, p, k, rfl⟩ : ∃ (r : Fin 8) (p : Fin 100000) (k : Fin 128), j = ix3 r p k := ⟨j 0, j 1, j 2, eq_ix3 j⟩
  rw [A_apply, Cert.HostSide.stackK_apply, aggRel_eq_host]
  rfl

end Cert.RefSide

end
-- ==== Proof.Claims.lean ====
import proofs.«171321_j63273458205156_1_alg».proof.Defs
import proofs.«171321_j63273458205156_1_alg».proof.Proof.Gen.Kernel
import proofs.«171321_j63273458205156_1_alg».proof.Proof.Gen.KernelIdeal
import proofs.«171321_j63273458205156_1_alg».proof.Proof.Gen.ReferenceIdeal
import proofs.«171321_j63273458205156_1_alg».proof.Proof.Gen.Pre_finite_inputs
import proofs.«171321_j63273458205156_1_alg».proof.Proof.KMain
import proofs.«171321_j63273458205156_1_alg».proof.Proof.KiMain
import proofs.«171321_j63273458205156_1_alg».proof.Proof.KiValue
import proofs.«171321_j63273458205156_1_alg».proof.Proof.RefResult
import proofs.«171321_j63273458205156_1_alg».proof.Proof.RefBridge

/-!
The five claims.

Frames: each kernel program's run (host operations, first call, host operations, second call) terminates without fault
with the nine arguments as launched; the reference's run of its host operations does too. The idealization rewrote
nothing, so `preserves` is trivial. Algebraic: at the extended reals the kernel program's result is two applications of
one layer — root term, bias, then the eight relation terms added left to right, clamped at zero — over the stacked mean
aggregates, and the reference's result is the same two applications over the same aggregates (both programs compute them
by the same host operations from the same arguments), so from memories agreeing on the arguments the results are equal
entry by entry. No law beyond reading each operation at an index is used; the precondition is not needed.
-/

noncomputable section

namespace Cert.Proof.Claims

open Idealize.ShloMosaic Idealize.ShloMosaic.TcCoe Idealize.SL.Sem

theorem frame_k : Cert.frame_Kernel := fun m ρ _ =>
  (θ_run Cert.Kernel.defs _ _).mono (fun _ h c => (h c).2) (Cert.Kernel.Main.run_main (F := Bits) m ρ)

theorem frame_ki : Cert.frame_KernelIdeal := fun m ρ _ =>
  (θ_run Cert.KernelIdeal.defs _ _).mono (fun _ h c => (h c).2) (Cert.KernelIdeal.Main.run_main (F := Ideal) m ρ)

theorem frame_ri : Cert.frame_ReferenceIdeal := fun m ρ _ =>
  (θ_run Cert.ReferenceIdeal.defs _ _).mono (fun _ h c => (h c).2) (Cert.ReferenceIdeal.ValueH.run (F := Ideal) m ρ)

theorem preserves : Cert.preserves_Kernel_KernelIdeal := trivial

theorem algebraic : Cert.algebraic_KernelIdeal_ReferenceIdeal := by
  intro m ρ m' ρ' _ hagree
  refine ⟨fun c => Cert.KernelIdeal.Value.out m c, ?_, ?_⟩
  · exact (θ_run Cert.KernelIdeal.defs _ _).mono
      (fun _ h c => ⟨(h c).1.trans (Cert.KernelIdeal.Value.result_eq m ρ c), (h c).2⟩)
      (Cert.KernelIdeal.Main.run_main (F := Ideal) m ρ)
  · refine (θ_run Cert.ReferenceIdeal.defs _ _).mono (fun _ h c => ⟨(h c).1.trans ?_, (h c).2⟩)
      (Cert.RefSide.run_layers m' ρ')
    obtain ⟨h0, h1, h2, h3, h4, h5, h6, h7, h8⟩ := hagree c
    rw [h0, h1, h2, h3, h4, h5, h6, h7, h8]
    simp only [Cert.RefSide.A_eq_stackK]
    rfl

end Cert.Proof.Claims

end
-- ==== Proof.lean ====
import proofs.«171321_j63273458205156_1_alg».proof.Defs
import proofs.«171321_j63273458205156_1_alg».proof.Proof.Claims
import proofs.«171321_j63273458205156_1_alg».proof.Proof.Gen.Kernel
import proofs.«171321_j63273458205156_1_alg».proof.Proof.Gen.KernelIdeal
import proofs.«171321_j63273458205156_1_alg».proof.Proof.Gen.ReferenceIdeal
import proofs.«171321_j63273458205156_1_alg».proof.Proof.Gen.Pre_finite_inputs
import Idealize.ShloMosaic.Adequacy
import Idealize.ShloMosaic.Init

/-!
A two-layer relational graph convolution: per layer, for each of eight relations the mean over incoming edges of that
relation of the source features (on the host: gather, mask, two scatter-adds, a clamped count, a quotient), then
`max((x·root + b) + Σ_r agg_r·W_r, 0)`. The kernel program does the dense part of each layer in a pallas_call over
row tiles and relations, accumulating in a scratch buffer; the reference does everything on the host. The claims are
proved in `Proof/Claims.lean`; the programs' stated facts are the generated instances.
-/

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
